-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x32x32 : Shape := ⟨4, ![1024, 1, 32, 32]⟩
abbrev S5x32x896 : Shape := ⟨3, ![5, 32, 896]⟩
abbrev S1x896 : Shape := ⟨2, ![1, 896]⟩
abbrev S25x32x64 : Shape := ⟨3, ![25, 32, 64]⟩
abbrev S1x64 : Shape := ⟨2, ![1, 64]⟩
abbrev S25600x128 : Shape := ⟨2, ![25600, 128]⟩
abbrev S1x128 : Shape := ⟨2, ![1, 128]⟩
abbrev S128x10 : Shape := ⟨2, ![128, 10]⟩
abbrev S1x10 : Shape := ⟨2, ![1, 10]⟩
abbrev S_ : Shape := ⟨0, ![]⟩

class Facts : Prop where
  bcast_S_S1024x1x32x32 : S_.BroadcastsInDim S1024x1x32x32 (![] : Fin 0 → Fin S1024x1x32x32.rank)
  reducesTo_S1024x1x32x32_S_d0_1_2_3 : S1024x1x32x32.ReducesTo [0, 1, 2, 3] S_
  h_S_ : 0 < S_.numel
  bcast_S_S5x32x896 : S_.BroadcastsInDim S5x32x896 (![] : Fin 0 → Fin S5x32x896.rank)
  reducesTo_S5x32x896_S_d0_1_2 : S5x32x896.ReducesTo [0, 1, 2] S_
  bcast_S_S1x896 : S_.BroadcastsInDim S1x896 (![] : Fin 0 → Fin S1x896.rank)
  reducesTo_S1x896_S_d0_1 : S1x896.ReducesTo [0, 1] S_
  bcast_S_S25x32x64 : S_.BroadcastsInDim S25x32x64 (![] : Fin 0 → Fin S25x32x64.rank)
  reducesTo_S25x32x64_S_d0_1_2 : S25x32x64.ReducesTo [0, 1, 2] S_
  bcast_S_S1x64 : S_.BroadcastsInDim S1x64 (![] : Fin 0 → Fin S1x64.rank)
  reducesTo_S1x64_S_d0_1 : S1x64.ReducesTo [0, 1] S_
  bcast_S_S25600x128 : S_.BroadcastsInDim S25600x128 (![] : Fin 0 → Fin S25600x128.rank)
  reducesTo_S25600x128_S_d0_1 : S25600x128.ReducesTo [0, 1] S_
  bcast_S_S1x128 : S_.BroadcastsInDim S1x128 (![] : Fin 0 → Fin S1x128.rank)
  reducesTo_S1x128_S_d0_1 : S1x128.ReducesTo [0, 1] S_
  bcast_S_S128x10 : S_.BroadcastsInDim S128x10 (![] : Fin 0 → Fin S128x10.rank)
  reducesTo_S128x10_S_d0_1 : S128x10.ReducesTo [0, 1] S_
  bcast_S_S1x10 : S_.BroadcastsInDim S1x10 (![] : Fin 0 → Fin S1x10.rank)
  reducesTo_S1x10_S_d0_1 : S1x10.ReducesTo [0, 1] S_

variable [Facts]

def fn_part2 {F : FTy → Type} [FloatOps F] (main_arg7 : FVec F S128x10 .f32) (main_arg8 : FVec F S1x10 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S1x10 .f32 := Host.absf main_arg8
  let main_cst_14 : FVec F S_ .f32 := constant S_ .f32 0x7F800000#32
  let main_v40 : FVec F S1x10 .f32 := broadcastInDim S1x10 ![] bcast_S_S1x10 main_cst_14
  let main_v41 : IVec S1x10 1 := cmpf .olt main_v39 main_v40
  let main_c_15 : IVec S_ 1 := constantI S_ 1 1#1
  let main_v42 : IVec S_ 1 := (fun x v => Host.reduce IntOp.andi x v reducesTo_S1x10_S_d0_1 h_S_) main_v41 main_c_15
  let main_v43 : IVec S_ 1 := andi main_v38 main_v42
  main_v43

def fn_part1 {F : FTy → Type} [FloatOps F] (main_arg4 : FVec F S1x64 .f32) (main_arg5 : FVec F S25600x128 .f32) (main_arg6 : FVec F S1x128 .f32) (main_arg7 : FVec F S128x10 .f32) (main_arg8 : FVec F S1x10 .f32) (main_v13 : IVec S_ 1) (main_v16 : IVec S25x32x64 1) : IVec S_ 1 :=
  let main_c_5 : IVec S_ 1 := constantI S_ 1 1#1
  let main_v17 : IVec S_ 1 := (fun x v => Host.reduce IntOp.andi x v reducesTo_S25x32x64_S_d0_1_2 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S25600x128 .f32 := Host.absf main_arg5
  let main_cst_8 : FVec F S_ .f32 := constant S_ .f32 0x7F800000#32
  let main_v25 : FVec F S25600x128 .f32 := broadcastInDim S25600x128 ![] bcast_S_S25600x128 main_cst_8
  let main_v26 : IVec S25600x128 1 := cmpf .olt main_v24 main_v25
  let main_c_9 : IVec S_ 1 := constantI S_ 1 1#1
  let main_v27 : IVec S_ 1 := (fun x v => Host.reduce IntOp.andi x v reducesTo_S25600x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_v33

def fn {F : FTy → Type} [FloatOps F] (main_arg0 : FVec F S1024x1x32x32 .f32) (main_arg1 : FVec F S5x32x896 .f32) (main_arg2 : FVec F S1x896 .f32) (main_arg3 : FVec F S25x32x64 .f32) (main_arg4 : FVec F S1x64 .f32) (main_arg5 : FVec F S25600x128 .f32) (main_arg6 : FVec F S1x128 .f32) (main_arg7 : FVec F S128x10 .f32) (main_arg8 : FVec F S1x10 .f32) : IVec S_ 1 :=
  let main_v0 : FVec F S1024x1x32x32 .f32 := Host.absf main_arg0
  let main_cst : FVec F S_ .f32 := constant S_ .f32 0x7F800000#32
  let main_v1 : FVec F S1024x1x32x32 .f32 := broadcastInDim S1024x1x32x32 ![] bcast_S_S1024x1x32x32 main_cst
  let main_v2 : IVec S1024x1x32x32 1 := cmpf .olt main_v0 main_v1
  let main_c : IVec S_ 1 := constantI S_ 1 1#1
  let main_v3 : IVec S_ 1 := (fun x v => Host.reduce IntOp.andi x v reducesTo_S1024x1x32x32_S_d0_1_2_3 h_S_) main_v2 main_c
  let main_v4 : FVec F S5x32x896 .f32 := Host.absf main_arg1
  let main_cst_0 : FVec F S_ .f32 := constant S_ .f32 0x7F800000#32
  let main_v5 : FVec F S5x32x896 .f32 := broadcastInDim S5x32x896 ![] bcast_S_S5x32x896 main_cst_0
  let main_v6 : IVec S5x32x896 1 := cmpf .olt main_v4 main_v5
  let main_c_1 : IVec S_ 1 := constantI S_ 1 1#1
  let main_v7 : IVec S_ 1 := (fun x v => Host.reduce IntOp.andi x v reducesTo_S5x32x896_S_d0_1_2 h_S_) main_v6 main_c_1
  let main_v8 : IVec S_ 1 := andi main_v3 main_v7
  let main_v9 : FVec F S1x896 .f32 := Host.absf main_arg2
  let main_cst_2 : FVec F S_ .f32 := constant S_ .f32 0x7F800000#32
  let main_v10 : FVec F S1x896 .f32 := broadcastInDim S1x896 ![] bcast_S_S1x896 main_cst_2
  let main_v11 : IVec S1x896 1 := cmpf .olt main_v9 main_v10
  let main_c_3 : IVec S_ 1 := constantI S_ 1 1#1
  let main_v12 : IVec S_ 1 := (fun x v => Host.reduce IntOp.andi x v reducesTo_S1x896_S_d0_1 h_S_) main_v11 main_c_3
  let main_v13 : IVec S_ 1 := andi main_v8 main_v12
  let main_v14 : FVec F S25x32x64 .f32 := Host.absf main_arg3
  let main_cst_4 : FVec F S_ .f32 := constant S_ .f32 0x7F800000#32
  let main_v15 : FVec F S25x32x64 .f32 := broadcastInDim S25x32x64 ![] bcast_S_S25x32x64 main_cst_4
  let main_v16 : IVec S25x32x64 1 := cmpf .olt main_v14 main_v15
  fn_part1 (F := F) main_arg4 main_arg5 main_arg6 main_arg7 main_arg8 main_v13 main_v16
-- ==== Kernel.lean ====
abbrev S1024x1x32x32 : Shape := ⟨4, ![1024, 1, 32, 32]⟩
abbrev S5x32x896 : Shape := ⟨3, ![5, 32, 896]⟩
abbrev S1x896 : Shape := ⟨2, ![1, 896]⟩
abbrev S25x32x64 : Shape := ⟨3, ![25, 32, 64]⟩
abbrev S1x64 : Shape := ⟨2, ![1, 64]⟩
abbrev S25600x128 : Shape := ⟨2, ![25600, 128]⟩
abbrev S1x128 : Shape := ⟨2, ![1, 128]⟩
abbrev S128x10 : Shape := ⟨2, ![128, 10]⟩
abbrev S1x10 : Shape := ⟨2, ![1, 10]⟩
abbrev S1024x32x32 : Shape := ⟨3, ![1024, 32, 32]⟩
abbrev S32x1024x32 : Shape := ⟨3, ![32, 1024, 32]⟩
abbrev S160x896 : Shape := ⟨2, ![160, 896]⟩
abbrev S5x5x32x64 : Shape := ⟨4, ![5, 5, 32, 64]⟩
abbrev S_ : Shape := ⟨0, ![]⟩
abbrev S5x8x32x64 : Shape := ⟨4, ![5, 8, 32, 64]⟩
abbrev S5x8x32x1x64 : Shape := ⟨5, ![5, 8, 32, 1, 64]⟩
abbrev S5x8x32x4x64 : Shape := ⟨5, ![5, 8, 32, 4, 64]⟩
abbrev S1280x256 : Shape := ⟨2, ![1280, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S100x256x128 : Shape := ⟨3, ![100, 256, 128]⟩
abbrev S1024x10 : Shape := ⟨2, ![1024, 10]⟩
abbrev S32x128x32 : Shape := ⟨3, ![32, 128, 32]⟩
abbrev S28x128x32 : Shape := ⟨3, ![28, 128, 32]⟩
abbrev S28x128x160 : Shape := ⟨3, ![28, 128, 160]⟩
abbrev S3584x160 : Shape := ⟨2, ![3584, 160]⟩
abbrev S3584x896 : Shape := ⟨2, ![3584, 896]⟩
abbrev S28x128x896 : Shape := ⟨3, ![28, 128, 896]⟩
abbrev S24x128x256 : Shape := ⟨3, ![24, 128, 256]⟩
abbrev S24x128x1280 : Shape := ⟨3, ![24, 128, 1280]⟩
abbrev S3072x1280 : Shape := ⟨2, ![3072, 1280]⟩
abbrev S3072x256 : Shape := ⟨2, ![3072, 256]⟩
abbrev S23x128x256 : Shape := ⟨3, ![23, 128, 256]⟩
abbrev S21x128x256 : Shape := ⟨3, ![21, 128, 256]⟩
abbrev S20x128x256 : Shape := ⟨3, ![20, 128, 256]⟩
abbrev S128x128 : Shape := ⟨2, ![128, 128]⟩
abbrev S20x128x512 : Shape := ⟨3, ![20, 128, 512]⟩
abbrev S20x128x448 : Shape := ⟨3, ![20, 128, 448]⟩
abbrev S20x128x320 : Shape := ⟨3, ![20, 128, 320]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 39
  | .vmem => 12
  | .smem => 0
  | _ => 0

abbrev bufTy : (tb : Table) → Fin (tcTables nBuf tb) → BufTy
  | .hbm, ⟨0, _⟩ => ⟨S1024x1x32x32, .f32⟩
  | .hbm, ⟨1, _⟩ => ⟨S5x32x896, .f32⟩
  | .hbm, ⟨2, _⟩ => ⟨S1x896, .f32⟩
  | .hbm, ⟨3, _⟩ => ⟨S25x32x64, .f32⟩
  | .hbm, ⟨4, _⟩ => ⟨S1x64, .f32⟩
  | .hbm, ⟨5, _⟩ => ⟨S25600x128, .f32⟩
  | .hbm, ⟨6, _⟩ => ⟨S1x128, .f32⟩
  | .hbm, ⟨7, _⟩ => ⟨S128x10, .f32⟩
  | .hbm, ⟨8, _⟩ => ⟨S1x10, .f32⟩
  | .hbm, ⟨9, _⟩ => ⟨S1024x32x32, .f32⟩
  | .hbm, ⟨10, _⟩ => ⟨S32x1024x32, .f32⟩
  | .hbm, ⟨11, _⟩ => ⟨S160x896, .f32⟩
  | .hbm, ⟨12, _⟩ => ⟨S160x896, .bf16⟩
  | .hbm, ⟨13, _⟩ => ⟨S5x5x32x64, .f32⟩
  | .hbm, ⟨14, _⟩ => ⟨S_, .i32⟩
  | .hbm, ⟨15, _⟩ => ⟨S_, .f32⟩
  | .hbm, ⟨16, _⟩ => ⟨S5x8x32x64, .f32⟩
  | .hbm, ⟨17, _⟩ => ⟨S_, .i32⟩
  | .hbm, ⟨18, _⟩ => ⟨S_, .f32⟩
  | .hbm, ⟨19, _⟩ => ⟨S5x8x32x64, .f32⟩
  | .hbm, ⟨20, _⟩ => ⟨S_, .i32⟩
  | .hbm, ⟨21, _⟩ => ⟨S_, .f32⟩
  | .hbm, ⟨22, _⟩ => ⟨S5x8x32x64, .f32⟩
  | .hbm, ⟨23, _⟩ => ⟨S_, .i32⟩
  | .hbm, ⟨24, _⟩ => ⟨S_, .f32⟩
  | .hbm, ⟨25, _⟩ => ⟨S5x8x32x64, .f32⟩
  | .hbm, ⟨26, _⟩ => ⟨S5x8x32x1x64, .f32⟩
  | .hbm, ⟨27, _⟩ => ⟨S5x8x32x1x64, .f32⟩
  | .hbm, ⟨28, _⟩ => ⟨S5x8x32x1x64, .f32⟩
  | .hbm, ⟨29, _⟩ => ⟨S5x8x32x1x64, .f32⟩
  | .hbm, ⟨30, _⟩ => ⟨S5x8x32x4x64, .f32⟩
  | .hbm, ⟨31, _⟩ => ⟨S1280x256, .f32⟩
  | .hbm, ⟨32, _⟩ => ⟨S1280x256, .bf16⟩
  | .hbm, ⟨33, _⟩ => ⟨S1x1x1x64, .f32⟩
  | .hbm, ⟨34, _⟩ => ⟨S1x1x4x64, .f32⟩
  | .hbm, ⟨35, _⟩ => ⟨S1x256, .f32⟩
  | .hbm, ⟨36, _⟩ => ⟨S100x256x128, .f32⟩
  | .hbm, ⟨37, _⟩ => ⟨S100x256x128, .bf16⟩
  | .hbm, ⟨38, _⟩ => ⟨S1024x10, .f32⟩
  | .local _ .vmem, ⟨0, _⟩ => ⟨S32x128x32, .f32⟩
  | .local _ .vmem, ⟨1, _⟩ => ⟨S32x128x32, .f32⟩
  | .local _ .vmem, ⟨2, _⟩ => ⟨S160x896, .bf16⟩
  | .local _ .vmem, ⟨3, _⟩ => ⟨S1x896, .f32⟩
  | .local _ .vmem, ⟨4, _⟩ => ⟨S1280x256, .bf16⟩
  | .local _ .vmem, ⟨5, _⟩ => ⟨S1x256, .f32⟩
  | .local _ .vmem, ⟨6, _⟩ => ⟨S100x256x128, .bf16⟩
  | .local _ .vmem, ⟨7, _⟩ => ⟨S1x128, .f32⟩
  | .local _ .vmem, ⟨8, _⟩ => ⟨S128x10, .f32⟩
  | .local _ .vmem, ⟨9, _⟩ => ⟨S1x10, .f32⟩
  | .local _ .vmem, ⟨10, _⟩ => ⟨S128x10, .f32⟩
  | .local _ .vmem, ⟨11, _⟩ => ⟨S128x10, .f32⟩
  | _, _ => ⟨S1024x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024x1x32x32_S1024x32x32 : S1024x1x32x32.ShapeCasts S1024x32x32
  transposes_S1024x32x32_S32x1024x32_1_0_2 : S1024x32x32.Transposes [1, 0, 2] S32x1024x32
  shapeCasts_S5x32x896_S160x896 : S5x32x896.ShapeCasts S160x896
  bitsLt_bf16_f32 : FTy.bits .bf16 < FTy.bits .f32
  shapeCasts_S25x32x64_S5x5x32x64 : S25x32x64.ShapeCasts S5x5x32x64
  pads_S5x5x32x64_S5x8x32x64_000_030_000_000 : S5x5x32x64.Pads (![0, 0, 0, 0] : Fin 4 → Nat) ![0, 3, 0, 0] ![0, 0, 0, 0] S5x8x32x64
  h_S_ : 0 < S_.numel
  pads_S5x5x32x64_S5x8x32x64_000_120_000_000 : S5x5x32x64.Pads (![0, 1, 0, 0] : Fin 4 → Nat) ![0, 2, 0, 0] ![0, 0, 0, 0] S5x8x32x64
  pads_S5x5x32x64_S5x8x32x64_000_210_000_000 : S5x5x32x64.Pads (![0, 2, 0, 0] : Fin 4 → Nat) ![0, 1, 0, 0] ![0, 0, 0, 0] S5x8x32x64
  pads_S5x5x32x64_S5x8x32x64_000_300_000_000 : S5x5x32x64.Pads (![0, 3, 0, 0] : Fin 4 → Nat) ![0, 0, 0, 0] ![0, 0, 0, 0] S5x8x32x64
  bcast_S5x8x32x64_S5x8x32x1x64_0_1_2_4 : S5x8x32x64.BroadcastsInDim S5x8x32x1x64 (![0, 1, 2, 4] : Fin 4 → Fin S5x8x32x1x64.rank)
  concatenates_S5x8x32x1x64_S5x8x32x1x64_S5x8x32x1x64_S5x8x32x1x64_S5x8x32x4x64_d3 : Shape.Concatenates [S5x8x32x1x64, S5x8x32x1x64, S5x8x32x1x64, S5x8x32x1x64] S5x8x32x4x64 3
  shapeCasts_S5x8x32x4x64_S1280x256 : S5x8x32x4x64.ShapeCasts S1280x256
  shapeCasts_S1x64_S1x1x1x64 : S1x64.ShapeCasts S1x1x1x64
  bcast_S1x1x1x64_S1x1x4x64_0_1_2_3 : S1x1x1x64.BroadcastsInDim S1x1x4x64 (![0, 1, 2, 3] : Fin 4 → Fin S1x1x4x64.rank)
  shapeCasts_S1x1x4x64_S1x256 : S1x1x4x64.ShapeCasts S1x256
  shapeCasts_S25600x128_S100x256x128 : S25600x128.ShapeCasts S100x256x128
  inb_S32x128x32_S32x128x32_0_0_0 : ∀ a, (![0, 0, 0] : Fin 3 → Nat) a + S32x128x32.size a ≤ S32x128x32.size a
  h_S32x128x32 : 0 < S32x128x32.numel
  shapeCasts_S32x128x32_S32x128x32 : S32x128x32.ShapeCasts S32x128x32
  slices_S32x128x32_o0_0_0_S28x128x32 : S32x128x32.Slices ![0, 0, 0] S28x128x32
  slices_S32x128x32_o1_0_0_S28x128x32 : S32x128x32.Slices ![1, 0, 0] S28x128x32
  slices_S32x128x32_o2_0_0_S28x128x32 : S32x128x32.Slices ![2, 0, 0] S28x128x32
  slices_S32x128x32_o3_0_0_S28x128x32 : S32x128x32.Slices ![3, 0, 0] S28x128x32
  slices_S32x128x32_o4_0_0_S28x128x32 : S32x128x32.Slices ![4, 0, 0] S28x128x32
  concatenates_S28x128x32_S28x128x32_S28x128x32_S28x128x32_S28x128x32_S28x128x160_d2 : Shape.Concatenates [S28x128x32, S28x128x32, S28x128x32, S28x128x32, S28x128x32] S28x128x160 2
  shapeCasts_S28x128x160_S3584x160 : S28x128x160.ShapeCasts S3584x160
  inb_S160x896_S160x896_0_0 : ∀ a, (![0, 0] : Fin 2 → Nat) a + S160x896.size a ≤ S160x896.size a
  h_S160x896 : 0 < S160x896.numel
  shapeCasts_S160x896_S160x896 : S160x896.ShapeCasts S160x896
  inb_S1x896_S1x896_0_0 : ∀ a, (![0, 0] : Fin 2 → Nat) a + S1x896.size a ≤ S1x896.size a
  h_S1x896 : 0 < S1x896.numel
  broadcasts_S1x896_S3584x896 : S1x896.Broadcasts S3584x896
  shapeCasts_S3584x896_S28x128x896 : S3584x896.ShapeCasts S28x128x896
  slices_S28x128x896_o0_0_0_S24x128x256 : S28x128x896.Slices ![0, 0, 0] S24x128x256
  slices_S28x128x896_o1_0_0_S24x128x256 : S28x128x896.Slices ![1, 0, 0] S24x128x256
  slices_S28x128x896_o2_0_0_S24x128x256 : S28x128x896.Slices ![2, 0, 0] S24x128x256
  slices_S28x128x896_o3_0_0_S24x128x256 : S28x128x896.Slices ![3, 0, 0] S24x128x256
  slices_S28x128x896_o4_0_0_S24x128x256 : S28x128x896.Slices ![4, 0, 0] S24x128x256
  concatenates_S24x128x256_S24x128x256_S24x128x256_S24x128x256_S24x128x256_S24x128x1280_d2 : Shape.Concatenates [S24x128x256, S24x128x256, S24x128x256, S24x128x256, S24x128x256] S24x128x1280 2
  shapeCasts_S24x128x1280_S3072x1280 : S24x128x1280.ShapeCasts S3072x1280
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1x256_S1x256_0_0 : ∀ a, (![0, 0] : Fin 2 → Nat) a + S1x256.size a ≤ S1x256.size a
  h_S1x256 : 0 < S1x256.numel
  broadcasts_S1x256_S3072x256 : S1x256.Broadcasts S3072x256
  shapeCasts_S3072x256_S24x128x256 : S3072x256.ShapeCasts S24x128x256
  slices_S24x128x256_o0_0_0_S23x128x256 : S24x128x256.Slices ![0, 0, 0] S23x128x256
  slices_S24x128x256_o1_0_0_S23x128x256 : S24x128x256.Slices ![1, 0, 0] S23x128x256
  slices_S23x128x256_o0_0_0_S21x128x256 : S23x128x256.Slices ![0, 0, 0] S21x128x256
  slices_S23x128x256_o2_0_0_S21x128x256 : S23x128x256.Slices ![2, 0, 0] S21x128x256
  slices_S21x128x256_o0_0_0_S20x128x256 : S21x128x256.Slices ![0, 0, 0] S20x128x256
  slices_S24x128x256_o4_0_0_S20x128x256 : S24x128x256.Slices ![4, 0, 0] S20x128x256
  slices_S28x128x896_o0_0_128_S24x128x256 : S28x128x896.Slices ![0, 0, 128] S24x128x256
  slices_S28x128x896_o1_0_128_S24x128x256 : S28x128x896.Slices ![1, 0, 128] S24x128x256
  slices_S28x128x896_o2_0_128_S24x128x256 : S28x128x896.Slices ![2, 0, 128] S24x128x256
  slices_S28x128x896_o3_0_128_S24x128x256 : S28x128x896.Slices ![3, 0, 128] S24x128x256
  slices_S28x128x896_o4_0_128_S24x128x256 : S28x128x896.Slices ![4, 0, 128] S24x128x256
  slices_S28x128x896_o0_0_256_S24x128x256 : S28x128x896.Slices ![0, 0, 256] S24x128x256
  slices_S28x128x896_o1_0_256_S24x128x256 : S28x128x896.Slices ![1, 0, 256] S24x128x256
  slices_S28x128x896_o2_0_256_S24x128x256 : S28x128x896.Slices ![2, 0, 256] S24x128x256
  slices_S28x128x896_o3_0_256_S24x128x256 : S28x128x896.Slices ![3, 0, 256] S24x128x256
  slices_S28x128x896_o4_0_256_S24x128x256 : S28x128x896.Slices ![4, 0, 256] S24x128x256
  slices_S28x128x896_o0_0_384_S24x128x256 : S28x128x896.Slices ![0, 0, 384] S24x128x256
  slices_S28x128x896_o1_0_384_S24x128x256 : S28x128x896.Slices ![1, 0, 384] S24x128x256
  slices_S28x128x896_o2_0_384_S24x128x256 : S28x128x896.Slices ![2, 0, 384] S24x128x256
  slices_S28x128x896_o3_0_384_S24x128x256 : S28x128x896.Slices ![3, 0, 384] S24x128x256
  slices_S28x128x896_o4_0_384_S24x128x256 : S28x128x896.Slices ![4, 0, 384] S24x128x256
  slices_S28x128x896_o0_0_512_S24x128x256 : S28x128x896.Slices ![0, 0, 512] S24x128x256
  slices_S28x128x896_o1_0_512_S24x128x256 : S28x128x896.Slices ![1, 0, 512] S24x128x256
  slices_S28x128x896_o2_0_512_S24x128x256 : S28x128x896.Slices ![2, 0, 512] S24x128x256
  slices_S28x128x896_o3_0_512_S24x128x256 : S28x128x896.Slices ![3, 0, 512] S24x128x256
  slices_S28x128x896_o4_0_512_S24x128x256 : S28x128x896.Slices ![4, 0, 512] S24x128x256
  slices_S28x128x896_o0_0_640_S24x128x256 : S28x128x896.Slices ![0, 0, 640] S24x128x256
  slices_S28x128x896_o1_0_640_S24x128x256 : S28x128x896.Slices ![1, 0, 640] S24x128x256
  slices_S28x128x896_o2_0_640_S24x128x256 : S28x128x896.Slices ![2, 0, 640] S24x128x256
  slices_S28x128x896_o3_0_640_S24x128x256 : S28x128x896.Slices ![3, 0, 640] S24x128x256
  slices_S28x128x896_o4_0_640_S24x128x256 : S28x128x896.Slices ![4, 0, 640] S24x128x256
  concatenates_S20x128x256_S20x128x256_S20x128x512_d2 : Shape.Concatenates [S20x128x256, S20x128x256] S20x128x512 2
  slices_S20x128x512_o0_0_0_S20x128x448 : S20x128x512.Slices ![0, 0, 0] S20x128x448
  slices_S20x128x512_o0_0_64_S20x128x448 : S20x128x512.Slices ![0, 0, 64] S20x128x448
  slices_S20x128x448_o0_0_0_S20x128x320 : S20x128x448.Slices ![0, 0, 0] S20x128x320
  slices_S20x128x448_o0_0_128_S20x128x320 : S20x128x448.Slices ![0, 0, 128] S20x128x320
  slices_S20x128x320_o0_0_0_S20x128x256 : S20x128x320.Slices ![0, 0, 0] S20x128x256
  slices_S20x128x512_o0_0_256_S20x128x256 : S20x128x512.Slices ![0, 0, 256] S20x128x256
  slices_S20x128x256_o0_0_0_S1x128x256 : S20x128x256.Slices ![0, 0, 0] S1x128x256
  shapeCasts_S1x128x256_S128x256 : S1x128x256.ShapeCasts S128x256
  inb_S100x256x128_S1x256x128_0_0_0 : ∀ a, (![0, 0, 0] : Fin 3 → Nat) a + S1x256x128.size a ≤ S100x256x128.size a
  h_S1x256x128 : 0 < S1x256x128.numel
  shapeCasts_S1x256x128_S256x128 : S1x256x128.ShapeCasts S256x128
  slices_S20x128x256_o1_0_0_S1x128x256 : S20x128x256.Slices ![1, 0, 0] S1x128x256
  inb_S100x256x128_S1x256x128_5_0_0 : ∀ a, (![5, 0, 0] : Fin 3 → Nat) a + S1x256x128.size a ≤ S100x256x128.size a
  slices_S20x128x256_o2_0_0_S1x128x256 : S20x128x256.Slices ![2, 0, 0] S1x128x256
  inb_S100x256x128_S1x256x128_10_0_0 : ∀ a, (![10, 0, 0] : Fin 3 → Nat) a + S1x256x128.size a ≤ S100x256x128.size a
  slices_S20x128x256_o3_0_0_S1x128x256 : S20x128x256.Slices ![3, 0, 0] S1x128x256
  inb_S100x256x128_S1x256x128_15_0_0 : ∀ a, (![15, 0, 0] : Fin 3 → Nat) a + S1x256x128.size a ≤ S100x256x128.size a
  slices_S20x128x256_o4_0_0_S1x128x256 : S20x128x256.Slices ![4, 0, 0] S1x128x256
  inb_S100x256x128_S1x256x128_20_0_0 : ∀ a, (![20, 0, 0] : Fin 3 → Nat) a + S1x256x128.size a ≤ S100x256x128.size a
  slices_S20x128x256_o5_0_0_S1x128x256 : S20x128x256.Slices ![5, 0, 0] S1x128x256
  inb_S100x256x128_S1x256x128_25_0_0 : ∀ a, (![25, 0, 0] : Fin 3 → Nat) a + S1x256x128.size a ≤ S100x256x128.size a
  slices_S20x128x256_o6_0_0_S1x128x256 : S20x128x256.Slices ![6, 0, 0] S1x128x256
  inb_S100x256x128_S1x256x128_30_0_0 : ∀ a, (![30, 0, 0] : Fin 3 → Nat) a + S1x256x128.size a ≤ S100x256x128.size a
  slices_S20x128x256_o7_0_0_S1x128x256 : S20x128x256.Slices ![7, 0, 0] S1x128x256
  inb_S100x256x128_S1x256x128_35_0_0 : ∀ a, (![35, 0, 0] : Fin 3 → Nat) a + S1x256x128.size a ≤ S100x256x128.size a
  slices_S20x128x256_o8_0_0_S1x128x256 : S20x128x256.Slices ![8, 0, 0] S1x128x256
  inb_S100x256x128_S1x256x128_40_0_0 : ∀ a, (![40, 0, 0] : Fin 3 → Nat) a + S1x256x128.size a ≤ S100x256x128.size a
  slices_S20x128x256_o9_0_0_S1x128x256 : S20x128x256.Slices ![9, 0, 0] S1x128x256
  inb_S100x256x128_S1x256x128_45_0_0 : ∀ a, (![45, 0, 0] : Fin 3 → Nat) a + S1x256x128.size a ≤ S100x256x128.size a
  slices_S20x128x256_o10_0_0_S1x128x256 : S20x128x256.Slices ![10, 0, 0] S1x128x256
  inb_S100x256x128_S1x256x128_50_0_0 : ∀ a, (![50, 0, 0] : Fin 3 → Nat) a + S1x256x128.size a ≤ S100x256x128.size a
  slices_S20x128x256_o11_0_0_S1x128x256 : S20x128x256.Slices ![11, 0, 0] S1x128x256
  inb_S100x256x128_S1x256x128_55_0_0 : ∀ a, (![55, 0, 0] : Fin 3 → Nat) a + S1x256x128.size a ≤ S100x256x128.size a
  slices_S20x128x256_o12_0_0_S1x128x256 : S20x128x256.Slices ![12, 0, 0] S1x128x256
  inb_S100x256x128_S1x256x128_60_0_0 : ∀ a, (![60, 0, 0] : Fin 3 → Nat) a + S1x256x128.size a ≤ S100x256x128.size a
  slices_S20x128x256_o13_0_0_S1x128x256 : S20x128x256.Slices ![13, 0, 0] S1x128x256
  inb_S100x256x128_S1x256x128_65_0_0 : ∀ a, (![65, 0, 0] : Fin 3 → Nat) a + S1x256x128.size a ≤ S100x256x128.size a
  slices_S20x128x256_o14_0_0_S1x128x256 : S20x128x256.Slices ![14, 0, 0] S1x128x256
  inb_S100x256x128_S1x256x128_70_0_0 : ∀ a, (![70, 0, 0] : Fin 3 → Nat) a + S1x256x128.size a ≤ S100x256x128.size a
  slices_S20x128x256_o15_0_0_S1x128x256 : S20x128x256.Slices ![15, 0, 0] S1x128x256
  inb_S100x256x128_S1x256x128_75_0_0 : ∀ a, (![75, 0, 0] : Fin 3 → Nat) a + S1x256x128.size a ≤ S100x256x128.size a
  slices_S20x128x256_o16_0_0_S1x128x256 : S20x128x256.Slices ![16, 0, 0] S1x128x256
  inb_S100x256x128_S1x256x128_80_0_0 : ∀ a, (![80, 0, 0] : Fin 3 → Nat) a + S1x256x128.size a ≤ S100x256x128.size a
  slices_S20x128x256_o17_0_0_S1x128x256 : S20x128x256.Slices ![17, 0, 0] S1x128x256
  inb_S100x256x128_S1x256x128_85_0_0 : ∀ a, (![85, 0, 0] : Fin 3 → Nat) a + S1x256x128.size a ≤ S100x256x128.size a
  slices_S20x128x256_o18_0_0_S1x128x256 : S20x128x256.Slices ![18, 0, 0] S1x128x256
  inb_S100x256x128_S1x256x128_90_0_0 : ∀ a, (![90, 0, 0] : Fin 3 → Nat) a + S1x256x128.size a ≤ S100x256x128.size a
  slices_S20x128x256_o19_0_0_S1x128x256 : S20x128x256.Slices ![19, 0, 0] S1x128x256
  inb_S100x256x128_S1x256x128_95_0_0 : ∀ a, (![95, 0, 0] : Fin 3 → Nat) a + S1x256x128.size a ≤ S100x256x128.size a
  inb_S100x256x128_S1x256x128_1_0_0 : ∀ a, (![1, 0, 0] : Fin 3 → Nat) a + S1x256x128.size a ≤ S100x256x128.size a
  inb_S100x256x128_S1x256x128_6_0_0 : ∀ a, (![6, 0, 0] : Fin 3 → Nat) a + S1x256x128.size a ≤ S100x256x128.size a
  inb_S100x256x128_S1x256x128_11_0_0 : ∀ a, (![11, 0, 0] : Fin 3 → Nat) a + S1x256x128.size a ≤ S100x256x128.size a
  inb_S100x256x128_S1x256x128_16_0_0 : ∀ a, (![16, 0, 0] : Fin 3 → Nat) a + S1x256x128.size a ≤ S100x256x128.size a
  inb_S100x256x128_S1x256x128_21_0_0 : ∀ a, (![21, 0, 0] : Fin 3 → Nat) a + S1x256x128.size a ≤ S100x256x128.size a
  inb_S100x256x128_S1x256x128_26_0_0 : ∀ a, (![26, 0, 0] : Fin 3 → Nat) a + S1x256x128.size a ≤ S100x256x128.size a
  inb_S100x256x128_S1x256x128_31_0_0 : ∀ a, (![31, 0, 0] : Fin 3 → Nat) a + S1x256x128.size a ≤ S100x256x128.size a
  inb_S100x256x128_S1x256x128_36_0_0 : ∀ a, (![36, 0, 0] : Fin 3 → Nat) a + S1x256x128.size a ≤ S100x256x128.size a
  inb_S100x256x128_S1x256x128_41_0_0 : ∀ a, (![41, 0, 0] : Fin 3 → Nat) a + S1x256x128.size a ≤ S100x256x128.size a
  inb_S100x256x128_S1x256x128_46_0_0 : ∀ a, (![46, 0, 0] : Fin 3 → Nat) a + S1x256x128.size a ≤ S100x256x128.size a
  inb_S100x256x128_S1x256x128_51_0_0 : ∀ a, (![51, 0, 0] : Fin 3 → Nat) a + S1x256x128.size a ≤ S100x256x128.size a
  inb_S100x256x128_S1x256x128_56_0_0 : ∀ a, (![56, 0, 0] : Fin 3 → Nat) a + S1x256x128.size a ≤ S100x256x128.size a
  inb_S100x256x128_S1x256x128_61_0_0 : ∀ a, (![61, 0, 0] : Fin 3 → Nat) a + S1x256x128.size a ≤ S100x256x128.size a
  inb_S100x256x128_S1x256x128_66_0_0 : ∀ a, (![66, 0, 0] : Fin 3 → Nat) a + S1x256x128.size a ≤ S100x256x128.size a
  inb_S100x256x128_S1x256x128_71_0_0 : ∀ a, (![71, 0, 0] : Fin 3 → Nat) a + S1x256x128.size a ≤ S100x256x128.size a
  inb_S100x256x128_S1x256x128_76_0_0 : ∀ a, (![76, 0, 0] : Fin 3 → Nat) a + S1x256x128.size a ≤ S100x256x128.size a
  inb_S100x256x128_S1x256x128_81_0_0 : ∀ a, (![81, 0, 0] : Fin 3 → Nat) a + S1x256x128.size a ≤ S100x256x128.size a
  inb_S100x256x128_S1x256x128_86_0_0 : ∀ a, (![86, 0, 0] : Fin 3 → Nat) a + S1x256x128.size a ≤ S100x256x128.size a
  inb_S100x256x128_S1x256x128_91_0_0 : ∀ a, (![91, 0, 0] : Fin 3 → Nat) a + S1x256x128.size a ≤ S100x256x128.size a
  inb_S100x256x128_S1x256x128_96_0_0 : ∀ a, (![96, 0, 0] : Fin 3 → Nat) a + S1x256x128.size a ≤ S100x256x128.size a
  inb_S100x256x128_S1x256x128_2_0_0 : ∀ a, (![2, 0, 0] : Fin 3 → Nat) a + S1x256x128.size a ≤ S100x256x128.size a
  inb_S100x256x128_S1x256x128_7_0_0 : ∀ a, (![7, 0, 0] : Fin 3 → Nat) a + S1x256x128.size a ≤ S100x256x128.size a
  inb_S100x256x128_S1x256x128_12_0_0 : ∀ a, (![12, 0, 0] : Fin 3 → Nat) a + S1x256x128.size a ≤ S100x256x128.size a
  inb_S100x256x128_S1x256x128_17_0_0 : ∀ a, (![17, 0, 0] : Fin 3 → Nat) a + S1x256x128.size a ≤ S100x256x128.size a
  inb_S100x256x128_S1x256x128_22_0_0 : ∀ a, (![22, 0, 0] : Fin 3 → Nat) a + S1x256x128.size a ≤ S100x256x128.size a
  inb_S100x256x128_S1x256x128_27_0_0 : ∀ a, (![27, 0, 0] : Fin 3 → Nat) a + S1x256x128.size a ≤ S100x256x128.size a
  inb_S100x256x128_S1x256x128_32_0_0 : ∀ a, (![32, 0, 0] : Fin 3 → Nat) a + S1x256x128.size a ≤ S100x256x128.size a
  inb_S100x256x128_S1x256x128_37_0_0 : ∀ a, (![37, 0, 0] : Fin 3 → Nat) a + S1x256x128.size a ≤ S100x256x128.size a
  inb_S100x256x128_S1x256x128_42_0_0 : ∀ a, (![42, 0, 0] : Fin 3 → Nat) a + S1x256x128.size a ≤ S100x256x128.size a
  inb_S100x256x128_S1x256x128_47_0_0 : ∀ a, (![47, 0, 0] : Fin 3 → Nat) a + S1x256x128.size a ≤ S100x256x128.size a
  inb_S100x256x128_S1x256x128_52_0_0 : ∀ a, (![52, 0, 0] : Fin 3 → Nat) a + S1x256x128.size a ≤ S100x256x128.size a
  inb_S100x256x128_S1x256x128_57_0_0 : ∀ a, (![57, 0, 0] : Fin 3 → Nat) a + S1x256x128.size a ≤ S100x256x128.size a
  inb_S100x256x128_S1x256x128_62_0_0 : ∀ a, (![62, 0, 0] : Fin 3 → Nat) a + S1x256x128.size a ≤ S100x256x128.size a
  inb_S100x256x128_S1x256x128_67_0_0 : ∀ a, (![67, 0, 0] : Fin 3 → Nat) a + S1x256x128.size a ≤ S100x256x128.size a
  inb_S100x256x128_S1x256x128_72_0_0 : ∀ a, (![72, 0, 0] : Fin 3 → Nat) a + S1x256x128.size a ≤ S100x256x128.size a
  inb_S100x256x128_S1x256x128_77_0_0 : ∀ a, (![77, 0, 0] : Fin 3 → Nat) a + S1x256x128.size a ≤ S100x256x128.size a
  inb_S100x256x128_S1x256x128_82_0_0 : ∀ a, (![82, 0, 0] : Fin 3 → Nat) a + S1x256x128.size a ≤ S100x256x128.size a
  inb_S100x256x128_S1x256x128_87_0_0 : ∀ a, (![87, 0, 0] : Fin 3 → Nat) a + S1x256x128.size a ≤ S100x256x128.size a
  inb_S100x256x128_S1x256x128_92_0_0 : ∀ a, (![92, 0, 0] : Fin 3 → Nat) a + S1x256x128.size a ≤ S100x256x128.size a
  inb_S100x256x128_S1x256x128_97_0_0 : ∀ a, (![97, 0, 0] : Fin 3 → Nat) a + S1x256x128.size a ≤ S100x256x128.size a
  inb_S100x256x128_S1x256x128_3_0_0 : ∀ a, (![3, 0, 0] : Fin 3 → Nat) a + S1x256x128.size a ≤ S100x256x128.size a
  inb_S100x256x128_S1x256x128_8_0_0 : ∀ a, (![8, 0, 0] : Fin 3 → Nat) a + S1x256x128.size a ≤ S100x256x128.size a
  inb_S100x256x128_S1x256x128_13_0_0 : ∀ a, (![13, 0, 0] : Fin 3 → Nat) a + S1x256x128.size a ≤ S100x256x128.size a
  inb_S100x256x128_S1x256x128_18_0_0 : ∀ a, (![18, 0, 0] : Fin 3 → Nat) a + S1x256x128.size a ≤ S100x256x128.size a
  inb_S100x256x128_S1x256x128_23_0_0 : ∀ a, (![23, 0, 0] : Fin 3 → Nat) a + S1x256x128.size a ≤ S100x256x128.size a
  inb_S100x256x128_S1x256x128_28_0_0 : ∀ a, (![28, 0, 0] : Fin 3 → Nat) a + S1x256x128.size a ≤ S100x256x128.size a
  inb_S100x256x128_S1x256x128_33_0_0 : ∀ a, (![33, 0, 0] : Fin 3 → Nat) a + S1x256x128.size a ≤ S100x256x128.size a
  inb_S100x256x128_S1x256x128_38_0_0 : ∀ a, (![38, 0, 0] : Fin 3 → Nat) a + S1x256x128.size a ≤ S100x256x128.size a
  inb_S100x256x128_S1x256x128_43_0_0 : ∀ a, (![43, 0, 0] : Fin 3 → Nat) a + S1x256x128.size a ≤ S100x256x128.size a
  inb_S100x256x128_S1x256x128_48_0_0 : ∀ a, (![48, 0, 0] : Fin 3 → Nat) a + S1x256x128.size a ≤ S100x256x128.size a
  inb_S100x256x128_S1x256x128_53_0_0 : ∀ a, (![53, 0, 0] : Fin 3 → Nat) a + S1x256x128.size a ≤ S100x256x128.size a
  inb_S100x256x128_S1x256x128_58_0_0 : ∀ a, (![58, 0, 0] : Fin 3 → Nat) a + S1x256x128.size a ≤ S100x256x128.size a
  inb_S100x256x128_S1x256x128_63_0_0 : ∀ a, (![63, 0, 0] : Fin 3 → Nat) a + S1x256x128.size a ≤ S100x256x128.size a
  inb_S100x256x128_S1x256x128_68_0_0 : ∀ a, (![68, 0, 0] : Fin 3 → Nat) a + S1x256x128.size a ≤ S100x256x128.size a
  inb_S100x256x128_S1x256x128_73_0_0 : ∀ a, (![73, 0, 0] : Fin 3 → Nat) a + S1x256x128.size a ≤ S100x256x128.size a
  inb_S100x256x128_S1x256x128_78_0_0 : ∀ a, (![78, 0, 0] : Fin 3 → Nat) a + S1x256x128.size a ≤ S100x256x128.size a
  inb_S100x256x128_S1x256x128_83_0_0 : ∀ a, (![83, 0, 0] : Fin 3 → Nat) a + S1x256x128.size a ≤ S100x256x128.size a
  inb_S100x256x128_S1x256x128_88_0_0 : ∀ a, (![88, 0, 0] : Fin 3 → Nat) a + S1x256x128.size a ≤ S100x256x128.size a
  inb_S100x256x128_S1x256x128_93_0_0 : ∀ a, (![93, 0, 0] : Fin 3 → Nat) a + S1x256x128.size a ≤ S100x256x128.size a
  inb_S100x256x128_S1x256x128_98_0_0 : ∀ a, (![98, 0, 0] : Fin 3 → Nat) a + S1x256x128.size a ≤ S100x256x128.size a
  inb_S100x256x128_S1x256x128_4_0_0 : ∀ a, (![4, 0, 0] : Fin 3 → Nat) a + S1x256x128.size a ≤ S100x256x128.size a
  inb_S100x256x128_S1x256x128_9_0_0 : ∀ a, (![9, 0, 0] : Fin 3 → Nat) a + S1x256x128.size a ≤ S100x256x128.size a
  inb_S100x256x128_S1x256x128_14_0_0 : ∀ a, (![14, 0, 0] : Fin 3 → Nat) a + S1x256x128.size a ≤ S100x256x128.size a
  inb_S100x256x128_S1x256x128_19_0_0 : ∀ a, (![19, 0, 0] : Fin 3 → Nat) a + S1x256x128.size a ≤ S100x256x128.size a
  inb_S100x256x128_S1x256x128_24_0_0 : ∀ a, (![24, 0, 0] : Fin 3 → Nat) a + S1x256x128.size a ≤ S100x256x128.size a
  inb_S100x256x128_S1x256x128_29_0_0 : ∀ a, (![29, 0, 0] : Fin 3 → Nat) a + S1x256x128.size a ≤ S100x256x128.size a
  inb_S100x256x128_S1x256x128_34_0_0 : ∀ a, (![34, 0, 0] : Fin 3 → Nat) a + S1x256x128.size a ≤ S100x256x128.size a
  inb_S100x256x128_S1x256x128_39_0_0 : ∀ a, (![39, 0, 0] : Fin 3 → Nat) a + S1x256x128.size a ≤ S100x256x128.size a
  inb_S100x256x128_S1x256x128_44_0_0 : ∀ a, (![44, 0, 0] : Fin 3 → Nat) a + S1x256x128.size a ≤ S100x256x128.size a
  inb_S100x256x128_S1x256x128_49_0_0 : ∀ a, (![49, 0, 0] : Fin 3 → Nat) a + S1x256x128.size a ≤ S100x256x128.size a
  inb_S100x256x128_S1x256x128_54_0_0 : ∀ a, (![54, 0, 0] : Fin 3 → Nat) a + S1x256x128.size a ≤ S100x256x128.size a
  inb_S100x256x128_S1x256x128_59_0_0 : ∀ a, (![59, 0, 0] : Fin 3 → Nat) a + S1x256x128.size a ≤ S100x256x128.size a
  inb_S100x256x128_S1x256x128_64_0_0 : ∀ a, (![64, 0, 0] : Fin 3 → Nat) a + S1x256x128.size a ≤ S100x256x128.size a
  inb_S100x256x128_S1x256x128_69_0_0 : ∀ a, (![69, 0, 0] : Fin 3 → Nat) a + S1x256x128.size a ≤ S100x256x128.size a
  inb_S100x256x128_S1x256x128_74_0_0 : ∀ a, (![74, 0, 0] : Fin 3 → Nat) a + S1x256x128.size a ≤ S100x256x128.size a
  inb_S100x256x128_S1x256x128_79_0_0 : ∀ a, (![79, 0, 0] : Fin 3 → Nat) a + S1x256x128.size a ≤ S100x256x128.size a
  inb_S100x256x128_S1x256x128_84_0_0 : ∀ a, (![84, 0, 0] : Fin 3 → Nat) a + S1x256x128.size a ≤ S100x256x128.size a
  inb_S100x256x128_S1x256x128_89_0_0 : ∀ a, (![89, 0, 0] : Fin 3 → Nat) a + S1x256x128.size a ≤ S100x256x128.size a
  inb_S100x256x128_S1x256x128_94_0_0 : ∀ a, (![94, 0, 0] : Fin 3 → Nat) a + S1x256x128.size a ≤ S100x256x128.size a
  inb_S100x256x128_S1x256x128_99_0_0 : ∀ a, (![99, 0, 0] : Fin 3 → Nat) a + S1x256x128.size a ≤ S100x256x128.size a
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  dot_S3584x160_S160x896_S3584x896_1_0_0_1_n_n_wf : DotDims.WF S3584x160 S160x896 S3584x896 [1] [0] [0] [1] [] []
  dot_S3072x1280_S1280x256_S3072x256_1_0_0_1_n_n_wf : DotDims.WF S3072x1280 S1280x256 S3072x256 [1] [0] [0] [1] [] []
  dot_S128x256_S256x128_S128x128_1_0_0_1_n_n_wf : DotDims.WF S128x256 S256x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x32.size a ≤ S32x1024x32.size a
  hwx0_0 : ∀ i : grid0.Coords, EltTy.bits .f32 = 32 ∨ (Rect.block (s := S32x1024x32) S32x128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x896.size a ≤ S160x896.size a
  hwx0_1 : ∀ i : grid0.Coords, EltTy.bits .bf16 = 32 ∨ (Rect.block (s := S160x896) S160x896.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x896.size a ≤ S1x896.size a
  hwx0_2 : ∀ i : grid0.Coords, EltTy.bits .f32 = 32 ∨ (Rect.block (s := S1x896) S1x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S1280x256.size a
  hwx0_3 : ∀ i : grid0.Coords, EltTy.bits .bf16 = 32 ∨ (Rect.block (s := S1280x256) S1280x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x256x128.size a ≤ S100x256x128.size a
  hwx0_5 : ∀ i : grid0.Coords, EltTy.bits .bf16 = 32 ∨ (Rect.block (s := S100x256x128) S100x256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S128x10.size a
  hwx0_7 : ∀ i : grid0.Coords, EltTy.bits .f32 = 32 ∨ (Rect.block (s := S128x10) S128x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x10.size a ≤ S1024x10.size a
  hwx0_9 : ∀ i : grid0.Coords, EltTy.bits .f32 = 32 ∨ (Rect.block (s := S1024x10) S128x10.size (cc0_transform_9 i) (hinb0_9 i)).WholeWords (EltTy.packing .f32)

variable [Facts₀]

def dot_S3584x160_S160x896_S3584x896_1_0_0_1_n_n : DotDims S3584x160 S160x896 S3584x896 where
  lhsContracting := [1]
  rhsContracting := [0]
  lhsNonContracting := [0]
  rhsNonContracting := [1]
  lhsBatch := []
  rhsBatch := []
  wf := dot_S3584x160_S160x896_S3584x896_1_0_0_1_n_n_wf
def dot_S3072x1280_S1280x256_S3072x256_1_0_0_1_n_n : DotDims S3072x1280 S1280x256 S3072x256 where
  lhsContracting := [1]
  rhsContracting := [0]
  lhsNonContracting := [0]
  rhsNonContracting := [1]
  lhsBatch := []
  rhsBatch := []
  wf := dot_S3072x1280_S1280x256_S3072x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v1) S32x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S160x896.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1280x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S100x256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x1x32x32 : Shape := ⟨4, ![1024, 1, 32, 32]⟩
abbrev S5x32x896 : Shape := ⟨3, ![5, 32, 896]⟩
abbrev S1x896 : Shape := ⟨2, ![1, 896]⟩
abbrev S25x32x64 : Shape := ⟨3, ![25, 32, 64]⟩
abbrev S1x64 : Shape := ⟨2, ![1, 64]⟩
abbrev S25600x128 : Shape := ⟨2, ![25600, 128]⟩
abbrev S1x128 : Shape := ⟨2, ![1, 128]⟩
abbrev S128x10 : Shape := ⟨2, ![128, 10]⟩
abbrev S1x10 : Shape := ⟨2, ![1, 10]⟩
abbrev S1024x32x32 : Shape := ⟨3, ![1024, 32, 32]⟩
abbrev S1024x28x896 : Shape := ⟨3, ![1024, 28, 896]⟩
abbrev S1x32x32 : Shape := ⟨3, ![1, 32, 32]⟩
abbrev S1x28x896 : Shape := ⟨3, ![1, 28, 896]⟩
abbrev S32x32 : Shape := ⟨2, ![32, 32]⟩
abbrev S28x896 : Shape := ⟨2, ![28, 896]⟩
abbrev S28x32 : Shape := ⟨2, ![28, 32]⟩
abbrev S1x32x896 : Shape := ⟨3, ![1, 32, 896]⟩
abbrev S32x896 : Shape := ⟨2, ![32, 896]⟩
abbrev S1024x28x28x32 : Shape := ⟨4, ![1024, 28, 28, 32]⟩
abbrev S1024x20x20x64 : Shape := ⟨4, ![1024, 20, 20, 64]⟩
abbrev S1x28x28x32 : Shape := ⟨4, ![1, 28, 28, 32]⟩
abbrev S1x20x20x64 : Shape := ⟨4, ![1, 20, 20, 64]⟩
abbrev S28x28x32 : Shape := ⟨3, ![28, 28, 32]⟩
abbrev S576x64 : Shape := ⟨2, ![576, 64]⟩
abbrev S28x24x32 : Shape := ⟨3, ![28, 24, 32]⟩
abbrev S672x32 : Shape := ⟨2, ![672, 32]⟩
abbrev S576x32 : Shape := ⟨2, ![576, 32]⟩
abbrev S1x32x64 : Shape := ⟨3, ![1, 32, 64]⟩
abbrev S32x64 : Shape := ⟨2, ![32, 64]⟩
abbrev S24x24x64 : Shape := ⟨3, ![24, 24, 64]⟩
abbrev S24x20x64 : Shape := ⟨3, ![24, 20, 64]⟩
abbrev S20x20x64 : Shape := ⟨3, ![20, 20, 64]⟩
abbrev S1024x25600 : Shape := ⟨2, ![1024, 25600]⟩
abbrev S1024x10 : Shape := ⟨2, ![1024, 10]⟩
abbrev S1024x6400 : Shape := ⟨2, ![1024, 6400]⟩
abbrev S6400x128 : Shape := ⟨2, ![6400, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 21
  | .smem => 0
  | _ => 0

abbrev bufTy : (tb : Table) → Fin (tcTables nBuf tb) → BufTy
  | .hbm, ⟨0, _⟩ => ⟨S1024x1x32x32, .f32⟩
  | .hbm, ⟨1, _⟩ => ⟨S5x32x896, .f32⟩
  | .hbm, ⟨2, _⟩ => ⟨S1x896, .f32⟩
  | .hbm, ⟨3, _⟩ => ⟨S25x32x64, .f32⟩
  | .hbm, ⟨4, _⟩ => ⟨S1x64, .f32⟩
  | .hbm, ⟨5, _⟩ => ⟨S25600x128, .f32⟩
  | .hbm, ⟨6, _⟩ => ⟨S1x128, .f32⟩
  | .hbm, ⟨7, _⟩ => ⟨S128x10, .f32⟩
  | .hbm, ⟨8, _⟩ => ⟨S1x10, .f32⟩
  | .hbm, ⟨9, _⟩ => ⟨S1024x32x32, .f32⟩
  | .hbm, ⟨10, _⟩ => ⟨S1024x28x896, .f32⟩
  | .hbm, ⟨11, _⟩ => ⟨S1024x28x28x32, .f32⟩
  | .hbm, ⟨12, _⟩ => ⟨S1024x20x20x64, .f32⟩
  | .hbm, ⟨13, _⟩ => ⟨S1024x25600, .f32⟩
  | .hbm, ⟨14, _⟩ => ⟨S1024x10, .f32⟩
  | .local _ .vmem, ⟨0, _⟩ => ⟨S1x32x32, .f32⟩
  | .local _ .vmem, ⟨1, _⟩ => ⟨S1x32x32, .f32⟩
  | .local _ .vmem, ⟨2, _⟩ => ⟨S5x32x896, .f32⟩
  | .local _ .vmem, ⟨3, _⟩ => ⟨S1x896, .f32⟩
  | .local _ .vmem, ⟨4, _⟩ => ⟨S1x28x896, .f32⟩
  | .local _ .vmem, ⟨5, _⟩ => ⟨S1x28x896, .f32⟩
  | .local _ .vmem, ⟨6, _⟩ => ⟨S1x28x28x32, .f32⟩
  | .local _ .vmem, ⟨7, _⟩ => ⟨S1x28x28x32, .f32⟩
  | .local _ .vmem, ⟨8, _⟩ => ⟨S25x32x64, .f32⟩
  | .local _ .vmem, ⟨9, _⟩ => ⟨S1x64, .f32⟩
  | .local _ .vmem, ⟨10, _⟩ => ⟨S1x20x20x64, .f32⟩
  | .local _ .vmem, ⟨11, _⟩ => ⟨S1x20x20x64, .f32⟩
  | .local _ .vmem, ⟨12, _⟩ => ⟨S1024x6400, .f32⟩
  | .local _ .vmem, ⟨13, _⟩ => ⟨S1024x6400, .f32⟩
  | .local _ .vmem, ⟨14, _⟩ => ⟨S6400x128, .f32⟩
  | .local _ .vmem, ⟨15, _⟩ => ⟨S6400x128, .f32⟩
  | .local _ .vmem, ⟨16, _⟩ => ⟨S1x128, .f32⟩
  | .local _ .vmem, ⟨17, _⟩ => ⟨S128x10, .f32⟩
  | .local _ .vmem, ⟨18, _⟩ => ⟨S1x10, .f32⟩
  | .local _ .vmem, ⟨19, _⟩ => ⟨S1024x10, .f32⟩
  | .local _ .vmem, ⟨20, _⟩ => ⟨S1024x128, .f32⟩
  | _, _ => ⟨S1024x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x28x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1024], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x28x28x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S25x32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x20x20x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def k2_cond2 (i : grid2.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x6400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  shapeCasts_S1024x1x32x32_S1024x32x32 : S1024x1x32x32.ShapeCasts S1024x32x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  slices_S32x32_o0_0_S28x32 : S32x32.Slices ![0, 0] S28x32
  inb_S5x32x896_S1x32x896_0_0_0 : ∀ a, (![0, 0, 0] : Fin 3 → Nat) a + S1x32x896.size a ≤ S5x32x896.size a
  h_S1x32x896 : 0 < S1x32x896.numel
  shapeCasts_S1x32x896_S32x896 : S1x32x896.ShapeCasts S32x896
  slices_S32x32_o1_0_S28x32 : S32x32.Slices ![1, 0] S28x32
  inb_S5x32x896_S1x32x896_1_0_0 : ∀ a, (![1, 0, 0] : Fin 3 → Nat) a + S1x32x896.size a ≤ S5x32x896.size a
  slices_S32x32_o2_0_S28x32 : S32x32.Slices ![2, 0] S28x32
  inb_S5x32x896_S1x32x896_2_0_0 : ∀ a, (![2, 0, 0] : Fin 3 → Nat) a + S1x32x896.size a ≤ S5x32x896.size a
  slices_S32x32_o3_0_S28x32 : S32x32.Slices ![3, 0] S28x32
  inb_S5x32x896_S1x32x896_3_0_0 : ∀ a, (![3, 0, 0] : Fin 3 → Nat) a + S1x32x896.size a ≤ S5x32x896.size a
  slices_S32x32_o4_0_S28x32 : S32x32.Slices ![4, 0] S28x32
  inb_S5x32x896_S1x32x896_4_0_0 : ∀ a, (![4, 0, 0] : Fin 3 → Nat) a + S1x32x896.size a ≤ S5x32x896.size a
  inb_S1x896_S1x896_0_0 : ∀ a, (![0, 0] : Fin 2 → Nat) a + S1x896.size a ≤ S1x896.size a
  h_S1x896 : 0 < S1x896.numel
  broadcasts_S1x896_S28x896 : S1x896.Broadcasts S28x896
  inb_S1x28x896_S1x28x896_0_0_0 : ∀ a, (![0, 0, 0] : Fin 3 → Nat) a + S1x28x896.size a ≤ S1x28x896.size a
  h_S1x28x896 : 0 < S1x28x896.numel
  shapeCasts_S1x28x896_S28x896 : S1x28x896.ShapeCasts S28x896
  shapeCasts_S28x896_S1x28x896 : S28x896.ShapeCasts S1x28x896
  shapeCasts_S1024x28x896_S1024x28x28x32 : S1024x28x896.ShapeCasts S1024x28x28x32
  inb_S1x28x28x32_S1x28x28x32_0_0_0_0 : ∀ a, (![0, 0, 0, 0] : Fin 4 → Nat) a + S1x28x28x32.size a ≤ S1x28x28x32.size a
  h_S1x28x28x32 : 0 < S1x28x28x32.numel
  shapeCasts_S1x28x28x32_S28x28x32 : S1x28x28x32.ShapeCasts S28x28x32
  slices_S28x28x32_o0_0_0_S28x24x32 : S28x28x32.Slices ![0, 0, 0] S28x24x32
  shapeCasts_S28x24x32_S672x32 : S28x24x32.ShapeCasts S672x32
  slices_S672x32_o0_0_S576x32 : S672x32.Slices ![0, 0] S576x32
  inb_S25x32x64_S1x32x64_0_0_0 : ∀ a, (![0, 0, 0] : Fin 3 → Nat) a + S1x32x64.size a ≤ S25x32x64.size a
  h_S1x32x64 : 0 < S1x32x64.numel
  shapeCasts_S1x32x64_S32x64 : S1x32x64.ShapeCasts S32x64
  slices_S672x32_o24_0_S576x32 : S672x32.Slices ![24, 0] S576x32
  inb_S25x32x64_S1x32x64_5_0_0 : ∀ a, (![5, 0, 0] : Fin 3 → Nat) a + S1x32x64.size a ≤ S25x32x64.size a
  slices_S672x32_o48_0_S576x32 : S672x32.Slices ![48, 0] S576x32
  inb_S25x32x64_S1x32x64_10_0_0 : ∀ a, (![10, 0, 0] : Fin 3 → Nat) a + S1x32x64.size a ≤ S25x32x64.size a
  slices_S672x32_o72_0_S576x32 : S672x32.Slices ![72, 0] S576x32
  inb_S25x32x64_S1x32x64_15_0_0 : ∀ a, (![15, 0, 0] : Fin 3 → Nat) a + S1x32x64.size a ≤ S25x32x64.size a
  slices_S672x32_o96_0_S576x32 : S672x32.Slices ![96, 0] S576x32
  inb_S25x32x64_S1x32x64_20_0_0 : ∀ a, (![20, 0, 0] : Fin 3 → Nat) a + S1x32x64.size a ≤ S25x32x64.size a
  slices_S28x28x32_o0_1_0_S28x24x32 : S28x28x32.Slices ![0, 1, 0] S28x24x32
  inb_S25x32x64_S1x32x64_1_0_0 : ∀ a, (![1, 0, 0] : Fin 3 → Nat) a + S1x32x64.size a ≤ S25x32x64.size a
  inb_S25x32x64_S1x32x64_6_0_0 : ∀ a, (![6, 0, 0] : Fin 3 → Nat) a + S1x32x64.size a ≤ S25x32x64.size a
  inb_S25x32x64_S1x32x64_11_0_0 : ∀ a, (![11, 0, 0] : Fin 3 → Nat) a + S1x32x64.size a ≤ S25x32x64.size a
  inb_S25x32x64_S1x32x64_16_0_0 : ∀ a, (![16, 0, 0] : Fin 3 → Nat) a + S1x32x64.size a ≤ S25x32x64.size a
  inb_S25x32x64_S1x32x64_21_0_0 : ∀ a, (![21, 0, 0] : Fin 3 → Nat) a + S1x32x64.size a ≤ S25x32x64.size a
  slices_S28x28x32_o0_2_0_S28x24x32 : S28x28x32.Slices ![0, 2, 0] S28x24x32
  inb_S25x32x64_S1x32x64_2_0_0 : ∀ a, (![2, 0, 0] : Fin 3 → Nat) a + S1x32x64.size a ≤ S25x32x64.size a
  inb_S25x32x64_S1x32x64_7_0_0 : ∀ a, (![7, 0, 0] : Fin 3 → Nat) a + S1x32x64.size a ≤ S25x32x64.size a
  inb_S25x32x64_S1x32x64_12_0_0 : ∀ a, (![12, 0, 0] : Fin 3 → Nat) a + S1x32x64.size a ≤ S25x32x64.size a
  inb_S25x32x64_S1x32x64_17_0_0 : ∀ a, (![17, 0, 0] : Fin 3 → Nat) a + S1x32x64.size a ≤ S25x32x64.size a
  inb_S25x32x64_S1x32x64_22_0_0 : ∀ a, (![22, 0, 0] : Fin 3 → Nat) a + S1x32x64.size a ≤ S25x32x64.size a
  slices_S28x28x32_o0_3_0_S28x24x32 : S28x28x32.Slices ![0, 3, 0] S28x24x32
  inb_S25x32x64_S1x32x64_3_0_0 : ∀ a, (![3, 0, 0] : Fin 3 → Nat) a + S1x32x64.size a ≤ S25x32x64.size a
  inb_S25x32x64_S1x32x64_8_0_0 : ∀ a, (![8, 0, 0] : Fin 3 → Nat) a + S1x32x64.size a ≤ S25x32x64.size a
  inb_S25x32x64_S1x32x64_13_0_0 : ∀ a, (![13, 0, 0] : Fin 3 → Nat) a + S1x32x64.size a ≤ S25x32x64.size a
  inb_S25x32x64_S1x32x64_18_0_0 : ∀ a, (![18, 0, 0] : Fin 3 → Nat) a + S1x32x64.size a ≤ S25x32x64.size a
  inb_S25x32x64_S1x32x64_23_0_0 : ∀ a, (![23, 0, 0] : Fin 3 → Nat) a + S1x32x64.size a ≤ S25x32x64.size a
  slices_S28x28x32_o0_4_0_S28x24x32 : S28x28x32.Slices ![0, 4, 0] S28x24x32
  inb_S25x32x64_S1x32x64_4_0_0 : ∀ a, (![4, 0, 0] : Fin 3 → Nat) a + S1x32x64.size a ≤ S25x32x64.size a
  inb_S25x32x64_S1x32x64_9_0_0 : ∀ a, (![9, 0, 0] : Fin 3 → Nat) a + S1x32x64.size a ≤ S25x32x64.size a
  inb_S25x32x64_S1x32x64_14_0_0 : ∀ a, (![14, 0, 0] : Fin 3 → Nat) a + S1x32x64.size a ≤ S25x32x64.size a
  inb_S25x32x64_S1x32x64_19_0_0 : ∀ a, (![19, 0, 0] : Fin 3 → Nat) a + S1x32x64.size a ≤ S25x32x64.size a
  inb_S25x32x64_S1x32x64_24_0_0 : ∀ a, (![24, 0, 0] : Fin 3 → Nat) a + S1x32x64.size a ≤ S25x32x64.size a
  inb_S1x64_S1x64_0_0 : ∀ a, (![0, 0] : Fin 2 → Nat) a + S1x64.size a ≤ S1x64.size a
  h_S1x64 : 0 < S1x64.numel
  broadcasts_S1x64_S576x64 : S1x64.Broadcasts S576x64
  shapeCasts_S576x64_S24x24x64 : S576x64.ShapeCasts S24x24x64
  slices_S24x24x64_o0_0_0_S24x20x64 : S24x24x64.Slices ![0, 0, 0] S24x20x64
  slices_S24x24x64_o0_1_0_S24x20x64 : S24x24x64.Slices ![0, 1, 0] S24x20x64
  slices_S24x24x64_o0_2_0_S24x20x64 : S24x24x64.Slices ![0, 2, 0] S24x20x64
  slices_S24x24x64_o0_3_0_S24x20x64 : S24x24x64.Slices ![0, 3, 0] S24x20x64
  slices_S24x24x64_o0_4_0_S24x20x64 : S24x24x64.Slices ![0, 4, 0] S24x20x64
  slices_S24x20x64_o0_0_0_S20x20x64 : S24x20x64.Slices ![0, 0, 0] S20x20x64
  slices_S24x20x64_o1_0_0_S20x20x64 : S24x20x64.Slices ![1, 0, 0] S20x20x64
  slices_S24x20x64_o2_0_0_S20x20x64 : S24x20x64.Slices ![2, 0, 0] S20x20x64
  slices_S24x20x64_o3_0_0_S20x20x64 : S24x20x64.Slices ![3, 0, 0] S20x20x64
  slices_S24x20x64_o4_0_0_S20x20x64 : S24x20x64.Slices ![4, 0, 0] S20x20x64
  inb_S1x20x20x64_S1x20x20x64_0_0_0_0 : ∀ a, (![0, 0, 0, 0] : Fin 4 → Nat) a + S1x20x20x64.size a ≤ S1x20x20x64.size a
  h_S1x20x20x64 : 0 < S1x20x20x64.numel
  shapeCasts_S1x20x20x64_S20x20x64 : S1x20x20x64.ShapeCasts S20x20x64
  shapeCasts_S20x20x64_S1x20x20x64 : S20x20x64.ShapeCasts S1x20x20x64
  shapeCasts_S1024x20x20x64_S1024x25600 : S1024x20x20x64.ShapeCasts S1024x25600
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x6400_S1024x6400_0_0 : ∀ a, (![0, 0] : Fin 2 → Nat) a + S1024x6400.size a ≤ S1024x6400.size a
  h_S1024x6400 : 0 < S1024x6400.numel
  shapeCasts_S1024x6400_S1024x6400 : S1024x6400.ShapeCasts S1024x6400
  inb_S6400x128_S6400x128_0_0 : ∀ a, (![0, 0] : Fin 2 → Nat) a + S6400x128.size a ≤ S6400x128.size a
  h_S6400x128 : 0 < S6400x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S28x32_S32x896_S28x896_1_0_0_1_n_n_wf : DotDims.WF S28x32 S32x896 S28x896 [1] [0] [0] [1] [] []
  dot_S576x32_S32x64_S576x64_1_0_0_1_n_n_wf : DotDims.WF S576x32 S32x64 S576x64 [1] [0] [0] [1] [] []
  dot_S1024x6400_S6400x128_S1024x128_1_0_0_1_n_n_wf : DotDims.WF S1024x6400 S6400x128 S1024x128 [1] [0] [0] [1] [] []
  dot_S1024x128_S128x10_S1024x10_1_0_0_1_n_n_wf : DotDims.WF S1024x128 S128x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S1024x32x32.size a
  hwx0_0 : ∀ i : grid0.Coords, EltTy.bits .f32 = 32 ∨ (Rect.block (s := S1024x32x32) S1x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x896.size a ≤ S5x32x896.size a
  hwx0_1 : ∀ i : grid0.Coords, EltTy.bits .f32 = 32 ∨ (Rect.block (s := S5x32x896) S5x32x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x896.size a ≤ S1x896.size a
  hwx0_2 : ∀ i : grid0.Coords, EltTy.bits .f32 = 32 ∨ (Rect.block (s := S1x896) S1x896.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x28x896.size a ≤ S1024x28x896.size a
  hwx0_3 : ∀ i : grid0.Coords, EltTy.bits .f32 = 32 ∨ (Rect.block (s := S1024x28x896) S1x28x896.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x28x28x32.size a ≤ S1024x28x28x32.size a
  hwx1_0 : ∀ i : grid1.Coords, EltTy.bits .f32 = 32 ∨ (Rect.block (s := S1024x28x28x32) S1x28x28x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S25x32x64.size a ≤ S25x32x64.size a
  hwx1_1 : ∀ i : grid1.Coords, EltTy.bits .f32 = 32 ∨ (Rect.block (s := S25x32x64) S25x32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x20x20x64.size a ≤ S1024x20x20x64.size a
  hwx1_3 : ∀ i : grid1.Coords, EltTy.bits .f32 = 32 ∨ (Rect.block (s := S1024x20x20x64) S1x20x20x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x6400.size a ≤ S1024x25600.size a
  hwx2_0 : ∀ i : grid2.Coords, EltTy.bits .f32 = 32 ∨ (Rect.block (s := S1024x25600) S1024x6400.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S25600x128.size a
  hwx2_1 : ∀ i : grid2.Coords, EltTy.bits .f32 = 32 ∨ (Rect.block (s := S25600x128) S6400x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x10.size a ≤ S1024x10.size a
  hwx2_5 : ∀ i : grid2.Coords, EltTy.bits .f32 = 32 ∨ (Rect.block (s := S1024x10) S1024x10.size (cc2_transform_5 i) (hinb2_5 i)).WholeWords (EltTy.packing .f32)

variable [Facts₀]

def dot_S28x32_S32x896_S28x896_1_0_0_1_n_n : DotDims S28x32 S32x896 S28x896 where
  lhsContracting := [1]
  rhsContracting := [0]
  lhsNonContracting := [0]
  rhsNonContracting := [1]
  lhsBatch := []
  rhsBatch := []
  wf := dot_S28x32_S32x896_S28x896_1_0_0_1_n_n_wf
def dot_S576x32_S32x64_S576x64_1_0_0_1_n_n : DotDims S576x32 S32x64 S576x64 where
  lhsContracting := [1]
  rhsContracting := [0]
  lhsNonContracting := [0]
  rhsNonContracting := [1]
  lhsBatch := []
  rhsBatch := []
  wf := dot_S576x32_S32x64_S576x64_1_0_0_1_n_n_wf
def dot_S1024x6400_S6400x128_S1024x128_1_0_0_1_n_n : DotDims S1024x6400 S6400x128 S1024x128 where
  lhsContracting := [1]
  rhsContracting := [0]
  lhsNonContracting := [0]
  rhsNonContracting := [1]
  lhsBatch := []
  rhsBatch := []
  wf := dot_S1024x6400_S6400x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

abbrev win0_0 : Pipeline.Window sig grid0 :=
  Pipeline.Window.ofSpec (Memref.whole main_v0) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x32x896.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x28x896.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x28x28x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S25x32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x20x20x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1024x6400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1024x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== Proof.KernelBody.lean ====
/- The kernel body of the one-region kernel program, at any float instance: the rectangles it loads and
   stores through, what it leaves in the output buffer as a function of the nine input blocks, and its
   triple. -/
import proofs.«172427_g2000706451865267_pallasbulk_150_11_alg».proof.Proof.Gen.Kernel.Launch
import proofs.«172427_g2000706451865267_pallasbulk_150_11_alg».proof.Proof.Gen.Kernel.Skeleton
import proofs.«172427_g2000706451865267_pallasbulk_150_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's accesses -/

/-- The whole-buffer rectangles of the input windows 0-4 and 6-8, -/
abbrev r0_0 : Rect S32x128x32 := Rect.unit (s := S32x128x32) ![0, 0, 0] S32x128x32.size inb_S32x128x32_S32x128x32_0_0_0
abbrev r0_1 : Rect S160x896 := Rect.unit (s := S160x896) ![0, 0] S160x896.size inb_S160x896_S160x896_0_0
abbrev r0_2 : Rect S1x896 := Rect.unit (s := S1x896) ![0, 0] S1x896.size inb_S1x896_S1x896_0_0
abbrev r0_3 : Rect S1280x256 := Rect.unit (s := S1280x256) ![0, 0] S1280x256.size inb_S1280x256_S1280x256_0_0
abbrev r0_4 : Rect S1x256 := Rect.unit (s := S1x256) ![0, 0] S1x256.size inb_S1x256_S1x256_0_0
abbrev r0_6 : Rect S1x128 := Rect.unit (s := S1x128) ![0, 0] S1x128.size inb_S1x128_S1x128_0_0
abbrev r0_7 : Rect S128x10 := Rect.unit (s := S128x10) ![0, 0] S128x10.size inb_S128x10_S128x10_0_0
abbrev r0_8 : Rect S1x10 := Rect.unit (s := S1x10) ![0, 0] S1x10.size inb_S1x10_S1x10_0_0
/-- the hundred slabs of window 5's buffer, one per leading index, -/
abbrev r0_5_0 : Rect S100x256x128 := Rect.unit (s := S100x256x128) ![0, 0, 0] S1x256x128.size inb_S100x256x128_S1x256x128_0_0_0
abbrev r0_5_1 : Rect S100x256x128 := Rect.unit (s := S100x256x128) ![1, 0, 0] S1x256x128.size inb_S100x256x128_S1x256x128_1_0_0
abbrev r0_5_2 : Rect S100x256x128 := Rect.unit (s := S100x256x128) ![2, 0, 0] S1x256x128.size inb_S100x256x128_S1x256x128_2_0_0
abbrev r0_5_3 : Rect S100x256x128 := Rect.unit (s := S100x256x128) ![3, 0, 0] S1x256x128.size inb_S100x256x128_S1x256x128_3_0_0
abbrev r0_5_4 : Rect S100x256x128 := Rect.unit (s := S100x256x128) ![4, 0, 0] S1x256x128.size inb_S100x256x128_S1x256x128_4_0_0
abbrev r0_5_5 : Rect S100x256x128 := Rect.unit (s := S100x256x128) ![5, 0, 0] S1x256x128.size inb_S100x256x128_S1x256x128_5_0_0
abbrev r0_5_6 : Rect S100x256x128 := Rect.unit (s := S100x256x128) ![6, 0, 0] S1x256x128.size inb_S100x256x128_S1x256x128_6_0_0
abbrev r0_5_7 : Rect S100x256x128 := Rect.unit (s := S100x256x128) ![7, 0, 0] S1x256x128.size inb_S100x256x128_S1x256x128_7_0_0
abbrev r0_5_8 : Rect S100x256x128 := Rect.unit (s := S100x256x128) ![8, 0, 0] S1x256x128.size inb_S100x256x128_S1x256x128_8_0_0
abbrev r0_5_9 : Rect S100x256x128 := Rect.unit (s := S100x256x128) ![9, 0, 0] S1x256x128.size inb_S100x256x128_S1x256x128_9_0_0
abbrev r0_5_10 : Rect S100x256x128 := Rect.unit (s := S100x256x128) ![10, 0, 0] S1x256x128.size inb_S100x256x128_S1x256x128_10_0_0
abbrev r0_5_11 : Rect S100x256x128 := Rect.unit (s := S100x256x128) ![11, 0, 0] S1x256x128.size inb_S100x256x128_S1x256x128_11_0_0
abbrev r0_5_12 : Rect S100x256x128 := Rect.unit (s := S100x256x128) ![12, 0, 0] S1x256x128.size inb_S100x256x128_S1x256x128_12_0_0
abbrev r0_5_13 : Rect S100x256x128 := Rect.unit (s := S100x256x128) ![13, 0, 0] S1x256x128.size inb_S100x256x128_S1x256x128_13_0_0
abbrev r0_5_14 : Rect S100x256x128 := Rect.unit (s := S100x256x128) ![14, 0, 0] S1x256x128.size inb_S100x256x128_S1x256x128_14_0_0
abbrev r0_5_15 : Rect S100x256x128 := Rect.unit (s := S100x256x128) ![15, 0, 0] S1x256x128.size inb_S100x256x128_S1x256x128_15_0_0
abbrev r0_5_16 : Rect S100x256x128 := Rect.unit (s := S100x256x128) ![16, 0, 0] S1x256x128.size inb_S100x256x128_S1x256x128_16_0_0
abbrev r0_5_17 : Rect S100x256x128 := Rect.unit (s := S100x256x128) ![17, 0, 0] S1x256x128.size inb_S100x256x128_S1x256x128_17_0_0
abbrev r0_5_18 : Rect S100x256x128 := Rect.unit (s := S100x256x128) ![18, 0, 0] S1x256x128.size inb_S100x256x128_S1x256x128_18_0_0
abbrev r0_5_19 : Rect S100x256x128 := Rect.unit (s := S100x256x128) ![19, 0, 0] S1x256x128.size inb_S100x256x128_S1x256x128_19_0_0
abbrev r0_5_20 : Rect S100x256x128 := Rect.unit (s := S100x256x128) ![20, 0, 0] S1x256x128.size inb_S100x256x128_S1x256x128_20_0_0
abbrev r0_5_21 : Rect S100x256x128 := Rect.unit (s := S100x256x128) ![21, 0, 0] S1x256x128.size inb_S100x256x128_S1x256x128_21_0_0
abbrev r0_5_22 : Rect S100x256x128 := Rect.unit (s := S100x256x128) ![22, 0, 0] S1x256x128.size inb_S100x256x128_S1x256x128_22_0_0
abbrev r0_5_23 : Rect S100x256x128 := Rect.unit (s := S100x256x128) ![23, 0, 0] S1x256x128.size inb_S100x256x128_S1x256x128_23_0_0
abbrev r0_5_24 : Rect S100x256x128 := Rect.unit (s := S100x256x128) ![24, 0, 0] S1x256x128.size inb_S100x256x128_S1x256x128_24_0_0
abbrev r0_5_25 : Rect S100x256x128 := Rect.unit (s := S100x256x128) ![25, 0, 0] S1x256x128.size inb_S100x256x128_S1x256x128_25_0_0
abbrev r0_5_26 : Rect S100x256x128 := Rect.unit (s := S100x256x128) ![26, 0, 0] S1x256x128.size inb_S100x256x128_S1x256x128_26_0_0
abbrev r0_5_27 : Rect S100x256x128 := Rect.unit (s := S100x256x128) ![27, 0, 0] S1x256x128.size inb_S100x256x128_S1x256x128_27_0_0
abbrev r0_5_28 : Rect S100x256x128 := Rect.unit (s := S100x256x128) ![28, 0, 0] S1x256x128.size inb_S100x256x128_S1x256x128_28_0_0
abbrev r0_5_29 : Rect S100x256x128 := Rect.unit (s := S100x256x128) ![29, 0, 0] S1x256x128.size inb_S100x256x128_S1x256x128_29_0_0
abbrev r0_5_30 : Rect S100x256x128 := Rect.unit (s := S100x256x128) ![30, 0, 0] S1x256x128.size inb_S100x256x128_S1x256x128_30_0_0
abbrev r0_5_31 : Rect S100x256x128 := Rect.unit (s := S100x256x128) ![31, 0, 0] S1x256x128.size inb_S100x256x128_S1x256x128_31_0_0
abbrev r0_5_32 : Rect S100x256x128 := Rect.unit (s := S100x256x128) ![32, 0, 0] S1x256x128.size inb_S100x256x128_S1x256x128_32_0_0
abbrev r0_5_33 : Rect S100x256x128 := Rect.unit (s := S100x256x128) ![33, 0, 0] S1x256x128.size inb_S100x256x128_S1x256x128_33_0_0
abbrev r0_5_34 : Rect S100x256x128 := Rect.unit (s := S100x256x128) ![34, 0, 0] S1x256x128.size inb_S100x256x128_S1x256x128_34_0_0
abbrev r0_5_35 : Rect S100x256x128 := Rect.unit (s := S100x256x128) ![35, 0, 0] S1x256x128.size inb_S100x256x128_S1x256x128_35_0_0
abbrev r0_5_36 : Rect S100x256x128 := Rect.unit (s := S100x256x128) ![36, 0, 0] S1x256x128.size inb_S100x256x128_S1x256x128_36_0_0
abbrev r0_5_37 : Rect S100x256x128 := Rect.unit (s := S100x256x128) ![37, 0, 0] S1x256x128.size inb_S100x256x128_S1x256x128_37_0_0
abbrev r0_5_38 : Rect S100x256x128 := Rect.unit (s := S100x256x128) ![38, 0, 0] S1x256x128.size inb_S100x256x128_S1x256x128_38_0_0
abbrev r0_5_39 : Rect S100x256x128 := Rect.unit (s := S100x256x128) ![39, 0, 0] S1x256x128.size inb_S100x256x128_S1x256x128_39_0_0
abbrev r0_5_40 : Rect S100x256x128 := Rect.unit (s := S100x256x128) ![40, 0, 0] S1x256x128.size inb_S100x256x128_S1x256x128_40_0_0
abbrev r0_5_41 : Rect S100x256x128 := Rect.unit (s := S100x256x128) ![41, 0, 0] S1x256x128.size inb_S100x256x128_S1x256x128_41_0_0
abbrev r0_5_42 : Rect S100x256x128 := Rect.unit (s := S100x256x128) ![42, 0, 0] S1x256x128.size inb_S100x256x128_S1x256x128_42_0_0
abbrev r0_5_43 : Rect S100x256x128 := Rect.unit (s := S100x256x128) ![43, 0, 0] S1x256x128.size inb_S100x256x128_S1x256x128_43_0_0
abbrev r0_5_44 : Rect S100x256x128 := Rect.unit (s := S100x256x128) ![44, 0, 0] S1x256x128.size inb_S100x256x128_S1x256x128_44_0_0
abbrev r0_5_45 : Rect S100x256x128 := Rect.unit (s := S100x256x128) ![45, 0, 0] S1x256x128.size inb_S100x256x128_S1x256x128_45_0_0
abbrev r0_5_46 : Rect S100x256x128 := Rect.unit (s := S100x256x128) ![46, 0, 0] S1x256x128.size inb_S100x256x128_S1x256x128_46_0_0
abbrev r0_5_47 : Rect S100x256x128 := Rect.unit (s := S100x256x128) ![47, 0, 0] S1x256x128.size inb_S100x256x128_S1x256x128_47_0_0
abbrev r0_5_48 : Rect S100x256x128 := Rect.unit (s := S100x256x128) ![48, 0, 0] S1x256x128.size inb_S100x256x128_S1x256x128_48_0_0
abbrev r0_5_49 : Rect S100x256x128 := Rect.unit (s := S100x256x128) ![49, 0, 0] S1x256x128.size inb_S100x256x128_S1x256x128_49_0_0
abbrev r0_5_50 : Rect S100x256x128 := Rect.unit (s := S100x256x128) ![50, 0, 0] S1x256x128.size inb_S100x256x128_S1x256x128_50_0_0
abbrev r0_5_51 : Rect S100x256x128 := Rect.unit (s := S100x256x128) ![51, 0, 0] S1x256x128.size inb_S100x256x128_S1x256x128_51_0_0
abbrev r0_5_52 : Rect S100x256x128 := Rect.unit (s := S100x256x128) ![52, 0, 0] S1x256x128.size inb_S100x256x128_S1x256x128_52_0_0
abbrev r0_5_53 : Rect S100x256x128 := Rect.unit (s := S100x256x128) ![53, 0, 0] S1x256x128.size inb_S100x256x128_S1x256x128_53_0_0
abbrev r0_5_54 : Rect S100x256x128 := Rect.unit (s := S100x256x128) ![54, 0, 0] S1x256x128.size inb_S100x256x128_S1x256x128_54_0_0
abbrev r0_5_55 : Rect S100x256x128 := Rect.unit (s := S100x256x128) ![55, 0, 0] S1x256x128.size inb_S100x256x128_S1x256x128_55_0_0
abbrev r0_5_56 : Rect S100x256x128 := Rect.unit (s := S100x256x128) ![56, 0, 0] S1x256x128.size inb_S100x256x128_S1x256x128_56_0_0
abbrev r0_5_57 : Rect S100x256x128 := Rect.unit (s := S100x256x128) ![57, 0, 0] S1x256x128.size inb_S100x256x128_S1x256x128_57_0_0
abbrev r0_5_58 : Rect S100x256x128 := Rect.unit (s := S100x256x128) ![58, 0, 0] S1x256x128.size inb_S100x256x128_S1x256x128_58_0_0
abbrev r0_5_59 : Rect S100x256x128 := Rect.unit (s := S100x256x128) ![59, 0, 0] S1x256x128.size inb_S100x256x128_S1x256x128_59_0_0
abbrev r0_5_60 : Rect S100x256x128 := Rect.unit (s := S100x256x128) ![60, 0, 0] S1x256x128.size inb_S100x256x128_S1x256x128_60_0_0
abbrev r0_5_61 : Rect S100x256x128 := Rect.unit (s := S100x256x128) ![61, 0, 0] S1x256x128.size inb_S100x256x128_S1x256x128_61_0_0
abbrev r0_5_62 : Rect S100x256x128 := Rect.unit (s := S100x256x128) ![62, 0, 0] S1x256x128.size inb_S100x256x128_S1x256x128_62_0_0
abbrev r0_5_63 : Rect S100x256x128 := Rect.unit (s := S100x256x128) ![63, 0, 0] S1x256x128.size inb_S100x256x128_S1x256x128_63_0_0
abbrev r0_5_64 : Rect S100x256x128 := Rect.unit (s := S100x256x128) ![64, 0, 0] S1x256x128.size inb_S100x256x128_S1x256x128_64_0_0
abbrev r0_5_65 : Rect S100x256x128 := Rect.unit (s := S100x256x128) ![65, 0, 0] S1x256x128.size inb_S100x256x128_S1x256x128_65_0_0
abbrev r0_5_66 : Rect S100x256x128 := Rect.unit (s := S100x256x128) ![66, 0, 0] S1x256x128.size inb_S100x256x128_S1x256x128_66_0_0
abbrev r0_5_67 : Rect S100x256x128 := Rect.unit (s := S100x256x128) ![67, 0, 0] S1x256x128.size inb_S100x256x128_S1x256x128_67_0_0
abbrev r0_5_68 : Rect S100x256x128 := Rect.unit (s := S100x256x128) ![68, 0, 0] S1x256x128.size inb_S100x256x128_S1x256x128_68_0_0
abbrev r0_5_69 : Rect S100x256x128 := Rect.unit (s := S100x256x128) ![69, 0, 0] S1x256x128.size inb_S100x256x128_S1x256x128_69_0_0
abbrev r0_5_70 : Rect S100x256x128 := Rect.unit (s := S100x256x128) ![70, 0, 0] S1x256x128.size inb_S100x256x128_S1x256x128_70_0_0
abbrev r0_5_71 : Rect S100x256x128 := Rect.unit (s := S100x256x128) ![71, 0, 0] S1x256x128.size inb_S100x256x128_S1x256x128_71_0_0
abbrev r0_5_72 : Rect S100x256x128 := Rect.unit (s := S100x256x128) ![72, 0, 0] S1x256x128.size inb_S100x256x128_S1x256x128_72_0_0
abbrev r0_5_73 : Rect S100x256x128 := Rect.unit (s := S100x256x128) ![73, 0, 0] S1x256x128.size inb_S100x256x128_S1x256x128_73_0_0
abbrev r0_5_74 : Rect S100x256x128 := Rect.unit (s := S100x256x128) ![74, 0, 0] S1x256x128.size inb_S100x256x128_S1x256x128_74_0_0
abbrev r0_5_75 : Rect S100x256x128 := Rect.unit (s := S100x256x128) ![75, 0, 0] S1x256x128.size inb_S100x256x128_S1x256x128_75_0_0
abbrev r0_5_76 : Rect S100x256x128 := Rect.unit (s := S100x256x128) ![76, 0, 0] S1x256x128.size inb_S100x256x128_S1x256x128_76_0_0
abbrev r0_5_77 : Rect S100x256x128 := Rect.unit (s := S100x256x128) ![77, 0, 0] S1x256x128.size inb_S100x256x128_S1x256x128_77_0_0
abbrev r0_5_78 : Rect S100x256x128 := Rect.unit (s := S100x256x128) ![78, 0, 0] S1x256x128.size inb_S100x256x128_S1x256x128_78_0_0
abbrev r0_5_79 : Rect S100x256x128 := Rect.unit (s := S100x256x128) ![79, 0, 0] S1x256x128.size inb_S100x256x128_S1x256x128_79_0_0
abbrev r0_5_80 : Rect S100x256x128 := Rect.unit (s := S100x256x128) ![80, 0, 0] S1x256x128.size inb_S100x256x128_S1x256x128_80_0_0
abbrev r0_5_81 : Rect S100x256x128 := Rect.unit (s := S100x256x128) ![81, 0, 0] S1x256x128.size inb_S100x256x128_S1x256x128_81_0_0
abbrev r0_5_82 : Rect S100x256x128 := Rect.unit (s := S100x256x128) ![82, 0, 0] S1x256x128.size inb_S100x256x128_S1x256x128_82_0_0
abbrev r0_5_83 : Rect S100x256x128 := Rect.unit (s := S100x256x128) ![83, 0, 0] S1x256x128.size inb_S100x256x128_S1x256x128_83_0_0
abbrev r0_5_84 : Rect S100x256x128 := Rect.unit (s := S100x256x128) ![84, 0, 0] S1x256x128.size inb_S100x256x128_S1x256x128_84_0_0
abbrev r0_5_85 : Rect S100x256x128 := Rect.unit (s := S100x256x128) ![85, 0, 0] S1x256x128.size inb_S100x256x128_S1x256x128_85_0_0
abbrev r0_5_86 : Rect S100x256x128 := Rect.unit (s := S100x256x128) ![86, 0, 0] S1x256x128.size inb_S100x256x128_S1x256x128_86_0_0
abbrev r0_5_87 : Rect S100x256x128 := Rect.unit (s := S100x256x128) ![87, 0, 0] S1x256x128.size inb_S100x256x128_S1x256x128_87_0_0
abbrev r0_5_88 : Rect S100x256x128 := Rect.unit (s := S100x256x128) ![88, 0, 0] S1x256x128.size inb_S100x256x128_S1x256x128_88_0_0
abbrev r0_5_89 : Rect S100x256x128 := Rect.unit (s := S100x256x128) ![89, 0, 0] S1x256x128.size inb_S100x256x128_S1x256x128_89_0_0
abbrev r0_5_90 : Rect S100x256x128 := Rect.unit (s := S100x256x128) ![90, 0, 0] S1x256x128.size inb_S100x256x128_S1x256x128_90_0_0
abbrev r0_5_91 : Rect S100x256x128 := Rect.unit (s := S100x256x128) ![91, 0, 0] S1x256x128.size inb_S100x256x128_S1x256x128_91_0_0
abbrev r0_5_92 : Rect S100x256x128 := Rect.unit (s := S100x256x128) ![92, 0, 0] S1x256x128.size inb_S100x256x128_S1x256x128_92_0_0
abbrev r0_5_93 : Rect S100x256x128 := Rect.unit (s := S100x256x128) ![93, 0, 0] S1x256x128.size inb_S100x256x128_S1x256x128_93_0_0
abbrev r0_5_94 : Rect S100x256x128 := Rect.unit (s := S100x256x128) ![94, 0, 0] S1x256x128.size inb_S100x256x128_S1x256x128_94_0_0
abbrev r0_5_95 : Rect S100x256x128 := Rect.unit (s := S100x256x128) ![95, 0, 0] S1x256x128.size inb_S100x256x128_S1x256x128_95_0_0
abbrev r0_5_96 : Rect S100x256x128 := Rect.unit (s := S100x256x128) ![96, 0, 0] S1x256x128.size inb_S100x256x128_S1x256x128_96_0_0
abbrev r0_5_97 : Rect S100x256x128 := Rect.unit (s := S100x256x128) ![97, 0, 0] S1x256x128.size inb_S100x256x128_S1x256x128_97_0_0
abbrev r0_5_98 : Rect S100x256x128 := Rect.unit (s := S100x256x128) ![98, 0, 0] S1x256x128.size inb_S100x256x128_S1x256x128_98_0_0
abbrev r0_5_99 : Rect S100x256x128 := Rect.unit (s := S100x256x128) ![99, 0, 0] S1x256x128.size inb_S100x256x128_S1x256x128_99_0_0
/-- and the whole-buffer rectangle of the output window. -/
abbrev r0_9 : Rect S128x10 := Rect.unit (s := S128x10) ![0, 0] S128x10.size inb_S128x10_S128x10_0_0

/-! ## What the body leaves in the output window's buffer -/

/-- The output window's staging buffer after the body, from the nine input windows' blocks: its one store's
    payload over the values loaded, composed along the body's sequence of parts. -/
def out0_9 (x0 : Vec F S32x128x32 .f32) (x1 : Vec F S160x896 .bf16) (x2 : Vec F S1x896 .f32) (x3 : Vec F S1280x256 .bf16) (x4 : Vec F S1x256 .f32) (x5 : Vec F S100x256x128 .bf16) (x6 : Vec F S1x128 .f32) (x7 : Vec F S128x10 .f32) (x8 : Vec F S1x10 .f32) : Vec F S128x10 .f32 :=
  have v0 : Vec F S32x128x32 .f32 := View.ld x0 r0_0
  have v10 : Vec F S160x896 .bf16 := View.ld x1 r0_1
  have v13 : Vec F S1x896 .f32 := View.ld x2 r0_2
  have v27 : Vec F S1280x256 .bf16 := View.ld x3 r0_3
  have v30 : Vec F S1x256 .f32 := View.ld x4 r0_4
  have v19 : FVec F S28x128x896 .bf16 := k0_pay2 v0 v10 v13
  have v36 : FVec F S24x128x256 .bf16 := k0_pay3 v0 v10 v13 v27 v30
  have v43 : FVec F S20x128x256 .bf16 := k0_pay4 v0 v10 v13 v27 v30
  have v53 : Vec F S1280x256 .bf16 := View.ld x3 r0_3
  have v56 : Vec F S1x256 .f32 := View.ld x4 r0_4
  have v79 : Vec F S1280x256 .bf16 := View.ld x3 r0_3
  have v82 : Vec F S1x256 .f32 := View.ld x4 r0_4
  have v45 : FVec F S20x128x256 .bf16 := k0_pay5 v36 v43
  have v71 : FVec F S20x128x256 .bf16 := k0_pay6 v19 v53 v56
  have v88 : FVec F S24x128x256 .bf16 := k0_pay7 v19 v79 v82
  have v91 : FVec F S23x128x256 .bf16 := k0_pay8 v19 v79 v82
  have v105 : Vec F S1280x256 .bf16 := View.ld x3 r0_3
  have v108 : Vec F S1x256 .f32 := View.ld x4 r0_4
  have v131 : Vec F S1280x256 .bf16 := View.ld x3 r0_3
  have v134 : Vec F S1x256 .f32 := View.ld x4 r0_4
  have v97 : FVec F S20x128x256 .bf16 := k0_pay9 v88 v91
  have v123 : FVec F S20x128x256 .bf16 := k0_pay10 v19 v105 v108
  have v139 : FVec F S3072x256 .bf16 := k0_pay11 v19 v131 v134
  have v157 : Vec F S1280x256 .bf16 := View.ld x3 r0_3
  have v160 : Vec F S1x256 .f32 := View.ld x4 r0_4
  have v189 : Vec F S1x256x128 .bf16 := View.ld x5 r0_5_0
  have v149 : FVec F S20x128x256 .bf16 := k0_pay12 v139
  have v175 : FVec F S20x128x256 .bf16 := k0_pay13 v19 v157 v160
  have v176 : FVec F S128x128 .f32 := k0_pay14 (F := F)
  have v186 : FVec F S20x128x256 .bf16 := k0_pay15 v45 v71
  have v188 : FVec F S128x256 .bf16 := k0_pay16 v45 v71
  have v195 : Vec F S1x256x128 .bf16 := View.ld x5 r0_5_5
  have v201 : Vec F S1x256x128 .bf16 := View.ld x5 r0_5_10
  have v207 : Vec F S1x256x128 .bf16 := View.ld x5 r0_5_15
  have v213 : Vec F S1x256x128 .bf16 := View.ld x5 r0_5_20
  have v219 : Vec F S1x256x128 .bf16 := View.ld x5 r0_5_25
  have v225 : Vec F S1x256x128 .bf16 := View.ld x5 r0_5_30
  have v222 : FVec F S128x128 .f32 := k0_pay17 v176 v186 v188 v189 v195 v201 v207 v213 v219
  have v224 : FVec F S128x256 .bf16 := k0_pay18 v186
  have v231 : Vec F S1x256x128 .bf16 := View.ld x5 r0_5_35
  have v237 : Vec F S1x256x128 .bf16 := View.ld x5 r0_5_40
  have v243 : Vec F S1x256x128 .bf16 := View.ld x5 r0_5_45
  have v249 : Vec F S1x256x128 .bf16 := View.ld x5 r0_5_50
  have v255 : Vec F S1x256x128 .bf16 := View.ld x5 r0_5_55
  have v261 : Vec F S1x256x128 .bf16 := View.ld x5 r0_5_60
  have v258 : FVec F S128x128 .f32 := k0_pay19 v186 v222 v224 v225 v231 v237 v243 v249 v255
  have v260 : FVec F S128x256 .bf16 := k0_pay20 v186
  have v267 : Vec F S1x256x128 .bf16 := View.ld x5 r0_5_65
  have v273 : Vec F S1x256x128 .bf16 := View.ld x5 r0_5_70
  have v279 : Vec F S1x256x128 .bf16 := View.ld x5 r0_5_75
  have v285 : Vec F S1x256x128 .bf16 := View.ld x5 r0_5_80
  have v291 : Vec F S1x256x128 .bf16 := View.ld x5 r0_5_85
  have v297 : Vec F S1x256x128 .bf16 := View.ld x5 r0_5_90
  have v294 : FVec F S128x128 .f32 := k0_pay21 v186 v258 v260 v261 v267 v273 v279 v285 v291
  have v296 : FVec F S128x256 .bf16 := k0_pay22 v186
  have v303 : Vec F S1x256x128 .bf16 := View.ld x5 r0_5_95
  have v319 : Vec F S1x256x128 .bf16 := View.ld x5 r0_5_1
  have v325 : Vec F S1x256x128 .bf16 := View.ld x5 r0_5_6
  have v331 : Vec F S1x256x128 .bf16 := View.ld x5 r0_5_11
  have v337 : Vec F S1x256x128 .bf16 := View.ld x5 r0_5_16
  have v316 : FVec F S20x128x256 .bf16 := k0_pay23 v71 v97
  have v334 : FVec F S128x128 .f32 := k0_pay24 v71 v97 v186 v294 v296 v297 v303 v319 v325 v331
  have v336 : FVec F S128x256 .bf16 := k0_pay25 v71 v97
  have v343 : Vec F S1x256x128 .bf16 := View.ld x5 r0_5_21
  have v349 : Vec F S1x256x128 .bf16 := View.ld x5 r0_5_26
  have v355 : Vec F S1x256x128 .bf16 := View.ld x5 r0_5_31
  have v361 : Vec F S1x256x128 .bf16 := View.ld x5 r0_5_36
  have v367 : Vec F S1x256x128 .bf16 := View.ld x5 r0_5_41
  have v373 : Vec F S1x256x128 .bf16 := View.ld x5 r0_5_46
  have v370 : FVec F S128x128 .f32 := k0_pay26 v316 v334 v336 v337 v343 v349 v355 v361 v367
  have v372 : FVec F S128x256 .bf16 := k0_pay27 v316
  have v379 : Vec F S1x256x128 .bf16 := View.ld x5 r0_5_51
  have v385 : Vec F S1x256x128 .bf16 := View.ld x5 r0_5_56
  have v391 : Vec F S1x256x128 .bf16 := View.ld x5 r0_5_61
  have v397 : Vec F S1x256x128 .bf16 := View.ld x5 r0_5_66
  have v403 : Vec F S1x256x128 .bf16 := View.ld x5 r0_5_71
  have v409 : Vec F S1x256x128 .bf16 := View.ld x5 r0_5_76
  have v406 : FVec F S128x128 .f32 := k0_pay28 v316 v370 v372 v373 v379 v385 v391 v397 v403
  have v408 : FVec F S128x256 .bf16 := k0_pay29 v316
  have v415 : Vec F S1x256x128 .bf16 := View.ld x5 r0_5_81
  have v421 : Vec F S1x256x128 .bf16 := View.ld x5 r0_5_86
  have v427 : Vec F S1x256x128 .bf16 := View.ld x5 r0_5_91
  have v433 : Vec F S1x256x128 .bf16 := View.ld x5 r0_5_96
  have v449 : Vec F S1x256x128 .bf16 := View.ld x5 r0_5_2
  have v436 : FVec F S128x128 .f32 := k0_pay30 v316 v406 v408 v409 v415 v421 v427 v433
  have v446 : FVec F S20x128x256 .bf16 := k0_pay31 v97 v123
  have v448 : FVec F S128x256 .bf16 := k0_pay32 v97 v123
  have v455 : Vec F S1x256x128 .bf16 := View.ld x5 r0_5_7
  have v461 : Vec F S1x256x128 .bf16 := View.ld x5 r0_5_12
  have v467 : Vec F S1x256x128 .bf16 := View.ld x5 r0_5_17
  have v473 : Vec F S1x256x128 .bf16 := View.ld x5 r0_5_22
  have v479 : Vec F S1x256x128 .bf16 := View.ld x5 r0_5_27
  have v485 : Vec F S1x256x128 .bf16 := View.ld x5 r0_5_32
  have v482 : FVec F S128x128 .f32 := k0_pay33 v436 v446 v448 v449 v455 v461 v467 v473 v479
  have v484 : FVec F S128x256 .bf16 := k0_pay34 v446
  have v491 : Vec F S1x256x128 .bf16 := View.ld x5 r0_5_37
  have v497 : Vec F S1x256x128 .bf16 := View.ld x5 r0_5_42
  have v503 : Vec F S1x256x128 .bf16 := View.ld x5 r0_5_47
  have v509 : Vec F S1x256x128 .bf16 := View.ld x5 r0_5_52
  have v515 : Vec F S1x256x128 .bf16 := View.ld x5 r0_5_57
  have v521 : Vec F S1x256x128 .bf16 := View.ld x5 r0_5_62
  have v518 : FVec F S128x128 .f32 := k0_pay35 v446 v482 v484 v485 v491 v497 v503 v509 v515
  have v520 : FVec F S128x256 .bf16 := k0_pay36 v446
  have v527 : Vec F S1x256x128 .bf16 := View.ld x5 r0_5_67
  have v533 : Vec F S1x256x128 .bf16 := View.ld x5 r0_5_72
  have v539 : Vec F S1x256x128 .bf16 := View.ld x5 r0_5_77
  have v545 : Vec F S1x256x128 .bf16 := View.ld x5 r0_5_82
  have v551 : Vec F S1x256x128 .bf16 := View.ld x5 r0_5_87
  have v557 : Vec F S1x256x128 .bf16 := View.ld x5 r0_5_92
  have v554 : FVec F S128x128 .f32 := k0_pay37 v446 v518 v520 v521 v527 v533 v539 v545 v551
  have v556 : FVec F S128x256 .bf16 := k0_pay38 v446
  have v563 : Vec F S1x256x128 .bf16 := View.ld x5 r0_5_97
  have v579 : Vec F S1x256x128 .bf16 := View.ld x5 r0_5_3
  have v585 : Vec F S1x256x128 .bf16 := View.ld x5 r0_5_8
  have v591 : Vec F S1x256x128 .bf16 := View.ld x5 r0_5_13
  have v597 : Vec F S1x256x128 .bf16 := View.ld x5 r0_5_18
  have v576 : FVec F S20x128x256 .bf16 := k0_pay39 v123 v149
  have v594 : FVec F S128x128 .f32 := k0_pay40 v123 v149 v446 v554 v556 v557 v563 v579 v585 v591
  have v596 : FVec F S128x256 .bf16 := k0_pay41 v123 v149
  have v603 : Vec F S1x256x128 .bf16 := View.ld x5 r0_5_23
  have v609 : Vec F S1x256x128 .bf16 := View.ld x5 r0_5_28
  have v615 : Vec F S1x256x128 .bf16 := View.ld x5 r0_5_33
  have v621 : Vec F S1x256x128 .bf16 := View.ld x5 r0_5_38
  have v627 : Vec F S1x256x128 .bf16 := View.ld x5 r0_5_43
  have v633 : Vec F S1x256x128 .bf16 := View.ld x5 r0_5_48
  have v630 : FVec F S128x128 .f32 := k0_pay42 v576 v594 v596 v597 v603 v609 v615 v621 v627
  have v632 : FVec F S128x256 .bf16 := k0_pay43 v576
  have v639 : Vec F S1x256x128 .bf16 := View.ld x5 r0_5_53
  have v645 : Vec F S1x256x128 .bf16 := View.ld x5 r0_5_58
  have v651 : Vec F S1x256x128 .bf16 := View.ld x5 r0_5_63
  have v657 : Vec F S1x256x128 .bf16 := View.ld x5 r0_5_68
  have v663 : Vec F S1x256x128 .bf16 := View.ld x5 r0_5_73
  have v669 : Vec F S1x256x128 .bf16 := View.ld x5 r0_5_78
  have v666 : FVec F S128x128 .f32 := k0_pay44 v576 v630 v632 v633 v639 v645 v651 v657 v663
  have v668 : FVec F S128x256 .bf16 := k0_pay45 v576
  have v675 : Vec F S1x256x128 .bf16 := View.ld x5 r0_5_83
  have v681 : Vec F S1x256x128 .bf16 := View.ld x5 r0_5_88
  have v687 : Vec F S1x256x128 .bf16 := View.ld x5 r0_5_93
  have v693 : Vec F S1x256x128 .bf16 := View.ld x5 r0_5_98
  have v709 : Vec F S1x256x128 .bf16 := View.ld x5 r0_5_4
  have v696 : FVec F S128x128 .f32 := k0_pay46 v576 v666 v668 v669 v675 v681 v687 v693
  have v706 : FVec F S20x128x256 .bf16 := k0_pay47 v149 v175
  have v708 : FVec F S128x256 .bf16 := k0_pay48 v149 v175
  have v715 : Vec F S1x256x128 .bf16 := View.ld x5 r0_5_9
  have v721 : Vec F S1x256x128 .bf16 := View.ld x5 r0_5_14
  have v727 : Vec F S1x256x128 .bf16 := View.ld x5 r0_5_19
  have v733 : Vec F S1x256x128 .bf16 := View.ld x5 r0_5_24
  have v739 : Vec F S1x256x128 .bf16 := View.ld x5 r0_5_29
  have v745 : Vec F S1x256x128 .bf16 := View.ld x5 r0_5_34
  have v742 : FVec F S128x128 .f32 := k0_pay49 v696 v706 v708 v709 v715 v721 v727 v733 v739
  have v744 : FVec F S128x256 .bf16 := k0_pay50 v706
  have v751 : Vec F S1x256x128 .bf16 := View.ld x5 r0_5_39
  have v757 : Vec F S1x256x128 .bf16 := View.ld x5 r0_5_44
  have v763 : Vec F S1x256x128 .bf16 := View.ld x5 r0_5_49
  have v769 : Vec F S1x256x128 .bf16 := View.ld x5 r0_5_54
  have v775 : Vec F S1x256x128 .bf16 := View.ld x5 r0_5_59
  have v781 : Vec F S1x256x128 .bf16 := View.ld x5 r0_5_64
  have v778 : FVec F S128x128 .f32 := k0_pay51 v706 v742 v744 v745 v751 v757 v763 v769 v775
  have v780 : FVec F S128x256 .bf16 := k0_pay52 v706
  have v787 : Vec F S1x256x128 .bf16 := View.ld x5 r0_5_69
  have v793 : Vec F S1x256x128 .bf16 := View.ld x5 r0_5_74
  have v799 : Vec F S1x256x128 .bf16 := View.ld x5 r0_5_79
  have v805 : Vec F S1x256x128 .bf16 := View.ld x5 r0_5_84
  have v811 : Vec F S1x256x128 .bf16 := View.ld x5 r0_5_89
  have v817 : Vec F S1x256x128 .bf16 := View.ld x5 r0_5_94
  have v814 : FVec F S128x128 .f32 := k0_pay53 v706 v778 v780 v781 v787 v793 v799 v805 v811
  have v816 : FVec F S128x256 .bf16 := k0_pay54 v706
  have v823 : Vec F S1x256x128 .bf16 := View.ld x5 r0_5_99
  have v827 : Vec F S1x128 .f32 := View.ld x6 r0_6
  have v832 : Vec F S128x10 .f32 := View.ld x7 r0_7
  have v834 : Vec F S1x10 .f32 := View.ld x8 r0_8
  have v841 : FVec F S128x10 .f32 := k0_pay55 v706 v814 v816 v817 v823 v827 v832 v834
  View.canon [⟨r0_9, k0_pay1 v841⟩]

/-- The one store fills the buffer, so it covers it. -/
theorem cover0_9 (p0 : Vec F S128x10 .f32) (y : S128x10.Idx) :
    ∃ pc ∈ ([⟨r0_9, p0⟩] : List (View.Piece (Elt F) S128x10 .f32)), y ∈ pc.1.set :=
  View.cover_of_tiled [⟨r0_9, p0⟩] S128x10.size (by rfl) y

/-! ## The body's triple -/

set_option maxHeartbeats 4000000 in
/-- The kernel body on whole staging memrefs, the inputs' at read contents `x0 … x8` and the output's at anything,
    runs to the continuation holding the inputs' as they were and the output's at `out0_9` of the inputs'. -/
theorem sound_kernel (c : Dev nD) (E : Set ℕ) (i : grid0.Coords) (arg1 : Memref sig .tc .vmem S32x128x32 .f32) (harg1 : arg1.IsWhole) (arg2 : Memref sig .tc .vmem S160x896 .bf16) (harg2 : arg2.IsWhole) (arg3 : Memref sig .tc .vmem S1x896 .f32) (harg3 : arg3.IsWhole) (arg4 : Memref sig .tc .vmem S1280x256 .bf16) (harg4 : arg4.IsWhole) (arg5 : Memref sig .tc .vmem S1x256 .f32) (harg5 : arg5.IsWhole) (arg6 : Memref sig .tc .vmem S100x256x128 .bf16) (harg6 : arg6.IsWhole) (arg7 : Memref sig .tc .vmem S1x128 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S128x10 .f32) (harg10 : arg10.IsWhole)
    (x0 : Vec F S32x128x32 .f32) (x1 : Vec F S160x896 .bf16) (x2 : Vec F S1x896 .f32) (x3 : Vec F S1280x256 .bf16) (x4 : Vec F S1x256 .f32) (x5 : Vec F S100x256x128 .bf16) (x6 : Vec F S1x128 .f32) (x7 : Vec F S128x10 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__net_kernel i arg1 harg1 arg2 harg2 arg3 harg3 arg4 harg4 arg5 harg5 arg6 harg6 arg7 harg7 arg8 harg8 arg9 harg9 arg10 harg10) K := by
  simp only [cc0__net_kernel_eq_skeleton]; unfold cc0__net_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

end Cert.Kernel.Hand

end
-- ==== Proof.KernelFrame.lean ====
/- The frame of the one-region kernel program, at any float instance: @main's host operations up to the
   region, the arrays as the region finds them, the windows' blocks, what the body leaves in the output
   window's buffer as a function of the nine input blocks, the body's triple, the proof data, the run and
   the frame statement. -/
import proofs.«172427_g2000706451865267_pallasbulk_150_11_alg».proof.Proof.Gen.Kernel.Launch
import proofs.«172427_g2000706451865267_pallasbulk_150_11_alg».proof.Proof.Gen.Kernel.Skeleton
import proofs.«172427_g2000706451865267_pallasbulk_150_11_alg».proof.Proof.Gen.Kernel.Points
import proofs.«172427_g2000706451865267_pallasbulk_150_11_alg».proof.Proof.KernelBody
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch memory after the nine stretches of host
    operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region: the nine stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it
    is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it
    is not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it
    is not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it
    is not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it
    is not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it
    is not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it
    is not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it
    is not fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it
    is not fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame statement's post from the frame run's -/

/-- For any proof data whose arrays are the region-entry contents, a run to the library's frame post read at
    the nine argument arrays is the frame statement's post: an argument a window stages is read off that
    window's array, an argument no window stages off the unscoped rest; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The pipeline's proof data -/

/-- The proof data of the one pipeline on core `c`: the arrays as the region finds them; after the body at
    point `t` each input's buffer at its block and the output's at `out0_9` of the nine input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (the definition projected, the fold over the host
    operations never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement at any float instance: the run terminates without a fault and the nine argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KernelIdealBody.lean ====
/- The kernel body of the one-region kernel program, at any float instance: the rectangles it loads and
   stores through, what it leaves in the output buffer as a function of the nine input blocks, and its
   triple. -/
import proofs.«172427_g2000706451865267_pallasbulk_150_11_alg».proof.Proof.Gen.KernelIdeal.Launch
import proofs.«172427_g2000706451865267_pallasbulk_150_11_alg».proof.Proof.Gen.KernelIdeal.Skeleton
import proofs.«172427_g2000706451865267_pallasbulk_150_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's accesses -/

/-- The whole-buffer rectangles of the input windows 0-4 and 6-8, -/
abbrev r0_0 : Rect S32x128x32 := Rect.unit (s := S32x128x32) ![0, 0, 0] S32x128x32.size inb_S32x128x32_S32x128x32_0_0_0
abbrev r0_1 : Rect S160x896 := Rect.unit (s := S160x896) ![0, 0] S160x896.size inb_S160x896_S160x896_0_0
abbrev r0_2 : Rect S1x896 := Rect.unit (s := S1x896) ![0, 0] S1x896.size inb_S1x896_S1x896_0_0
abbrev r0_3 : Rect S1280x256 := Rect.unit (s := S1280x256) ![0, 0] S1280x256.size inb_S1280x256_S1280x256_0_0
abbrev r0_4 : Rect S1x256 := Rect.unit (s := S1x256) ![0, 0] S1x256.size inb_S1x256_S1x256_0_0
abbrev r0_6 : Rect S1x128 := Rect.unit (s := S1x128) ![0, 0] S1x128.size inb_S1x128_S1x128_0_0
abbrev r0_7 : Rect S128x10 := Rect.unit (s := S128x10) ![0, 0] S128x10.size inb_S128x10_S128x10_0_0
abbrev r0_8 : Rect S1x10 := Rect.unit (s := S1x10) ![0, 0] S1x10.size inb_S1x10_S1x10_0_0
/-- the hundred slabs of window 5's buffer, one per leading index, -/
abbrev r0_5_0 : Rect S100x256x128 := Rect.unit (s := S100x256x128) ![0, 0, 0] S1x256x128.size inb_S100x256x128_S1x256x128_0_0_0
abbrev r0_5_1 : Rect S100x256x128 := Rect.unit (s := S100x256x128) ![1, 0, 0] S1x256x128.size inb_S100x256x128_S1x256x128_1_0_0
abbrev r0_5_2 : Rect S100x256x128 := Rect.unit (s := S100x256x128) ![2, 0, 0] S1x256x128.size inb_S100x256x128_S1x256x128_2_0_0
abbrev r0_5_3 : Rect S100x256x128 := Rect.unit (s := S100x256x128) ![3, 0, 0] S1x256x128.size inb_S100x256x128_S1x256x128_3_0_0
abbrev r0_5_4 : Rect S100x256x128 := Rect.unit (s := S100x256x128) ![4, 0, 0] S1x256x128.size inb_S100x256x128_S1x256x128_4_0_0
abbrev r0_5_5 : Rect S100x256x128 := Rect.unit (s := S100x256x128) ![5, 0, 0] S1x256x128.size inb_S100x256x128_S1x256x128_5_0_0
abbrev r0_5_6 : Rect S100x256x128 := Rect.unit (s := S100x256x128) ![6, 0, 0] S1x256x128.size inb_S100x256x128_S1x256x128_6_0_0
abbrev r0_5_7 : Rect S100x256x128 := Rect.unit (s := S100x256x128) ![7, 0, 0] S1x256x128.size inb_S100x256x128_S1x256x128_7_0_0
abbrev r0_5_8 : Rect S100x256x128 := Rect.unit (s := S100x256x128) ![8, 0, 0] S1x256x128.size inb_S100x256x128_S1x256x128_8_0_0
abbrev r0_5_9 : Rect S100x256x128 := Rect.unit (s := S100x256x128) ![9, 0, 0] S1x256x128.size inb_S100x256x128_S1x256x128_9_0_0
abbrev r0_5_10 : Rect S100x256x128 := Rect.unit (s := S100x256x128) ![10, 0, 0] S1x256x128.size inb_S100x256x128_S1x256x128_10_0_0
abbrev r0_5_11 : Rect S100x256x128 := Rect.unit (s := S100x256x128) ![11, 0, 0] S1x256x128.size inb_S100x256x128_S1x256x128_11_0_0
abbrev r0_5_12 : Rect S100x256x128 := Rect.unit (s := S100x256x128) ![12, 0, 0] S1x256x128.size inb_S100x256x128_S1x256x128_12_0_0
abbrev r0_5_13 : Rect S100x256x128 := Rect.unit (s := S100x256x128) ![13, 0, 0] S1x256x128.size inb_S100x256x128_S1x256x128_13_0_0
abbrev r0_5_14 : Rect S100x256x128 := Rect.unit (s := S100x256x128) ![14, 0, 0] S1x256x128.size inb_S100x256x128_S1x256x128_14_0_0
abbrev r0_5_15 : Rect S100x256x128 := Rect.unit (s := S100x256x128) ![15, 0, 0] S1x256x128.size inb_S100x256x128_S1x256x128_15_0_0
abbrev r0_5_16 : Rect S100x256x128 := Rect.unit (s := S100x256x128) ![16, 0, 0] S1x256x128.size inb_S100x256x128_S1x256x128_16_0_0
abbrev r0_5_17 : Rect S100x256x128 := Rect.unit (s := S100x256x128) ![17, 0, 0] S1x256x128.size inb_S100x256x128_S1x256x128_17_0_0
abbrev r0_5_18 : Rect S100x256x128 := Rect.unit (s := S100x256x128) ![18, 0, 0] S1x256x128.size inb_S100x256x128_S1x256x128_18_0_0
abbrev r0_5_19 : Rect S100x256x128 := Rect.unit (s := S100x256x128) ![19, 0, 0] S1x256x128.size inb_S100x256x128_S1x256x128_19_0_0
abbrev r0_5_20 : Rect S100x256x128 := Rect.unit (s := S100x256x128) ![20, 0, 0] S1x256x128.size inb_S100x256x128_S1x256x128_20_0_0
abbrev r0_5_21 : Rect S100x256x128 := Rect.unit (s := S100x256x128) ![21, 0, 0] S1x256x128.size inb_S100x256x128_S1x256x128_21_0_0
abbrev r0_5_22 : Rect S100x256x128 := Rect.unit (s := S100x256x128) ![22, 0, 0] S1x256x128.size inb_S100x256x128_S1x256x128_22_0_0
abbrev r0_5_23 : Rect S100x256x128 := Rect.unit (s := S100x256x128) ![23, 0, 0] S1x256x128.size inb_S100x256x128_S1x256x128_23_0_0
abbrev r0_5_24 : Rect S100x256x128 := Rect.unit (s := S100x256x128) ![24, 0, 0] S1x256x128.size inb_S100x256x128_S1x256x128_24_0_0
abbrev r0_5_25 : Rect S100x256x128 := Rect.unit (s := S100x256x128) ![25, 0, 0] S1x256x128.size inb_S100x256x128_S1x256x128_25_0_0
abbrev r0_5_26 : Rect S100x256x128 := Rect.unit (s := S100x256x128) ![26, 0, 0] S1x256x128.size inb_S100x256x128_S1x256x128_26_0_0
abbrev r0_5_27 : Rect S100x256x128 := Rect.unit (s := S100x256x128) ![27, 0, 0] S1x256x128.size inb_S100x256x128_S1x256x128_27_0_0
abbrev r0_5_28 : Rect S100x256x128 := Rect.unit (s := S100x256x128) ![28, 0, 0] S1x256x128.size inb_S100x256x128_S1x256x128_28_0_0
abbrev r0_5_29 : Rect S100x256x128 := Rect.unit (s := S100x256x128) ![29, 0, 0] S1x256x128.size inb_S100x256x128_S1x256x128_29_0_0
abbrev r0_5_30 : Rect S100x256x128 := Rect.unit (s := S100x256x128) ![30, 0, 0] S1x256x128.size inb_S100x256x128_S1x256x128_30_0_0
abbrev r0_5_31 : Rect S100x256x128 := Rect.unit (s := S100x256x128) ![31, 0, 0] S1x256x128.size inb_S100x256x128_S1x256x128_31_0_0
abbrev r0_5_32 : Rect S100x256x128 := Rect.unit (s := S100x256x128) ![32, 0, 0] S1x256x128.size inb_S100x256x128_S1x256x128_32_0_0
abbrev r0_5_33 : Rect S100x256x128 := Rect.unit (s := S100x256x128) ![33, 0, 0] S1x256x128.size inb_S100x256x128_S1x256x128_33_0_0
abbrev r0_5_34 : Rect S100x256x128 := Rect.unit (s := S100x256x128) ![34, 0, 0] S1x256x128.size inb_S100x256x128_S1x256x128_34_0_0
abbrev r0_5_35 : Rect S100x256x128 := Rect.unit (s := S100x256x128) ![35, 0, 0] S1x256x128.size inb_S100x256x128_S1x256x128_35_0_0
abbrev r0_5_36 : Rect S100x256x128 := Rect.unit (s := S100x256x128) ![36, 0, 0] S1x256x128.size inb_S100x256x128_S1x256x128_36_0_0
abbrev r0_5_37 : Rect S100x256x128 := Rect.unit (s := S100x256x128) ![37, 0, 0] S1x256x128.size inb_S100x256x128_S1x256x128_37_0_0
abbrev r0_5_38 : Rect S100x256x128 := Rect.unit (s := S100x256x128) ![38, 0, 0] S1x256x128.size inb_S100x256x128_S1x256x128_38_0_0
abbrev r0_5_39 : Rect S100x256x128 := Rect.unit (s := S100x256x128) ![39, 0, 0] S1x256x128.size inb_S100x256x128_S1x256x128_39_0_0
abbrev r0_5_40 : Rect S100x256x128 := Rect.unit (s := S100x256x128) ![40, 0, 0] S1x256x128.size inb_S100x256x128_S1x256x128_40_0_0
abbrev r0_5_41 : Rect S100x256x128 := Rect.unit (s := S100x256x128) ![41, 0, 0] S1x256x128.size inb_S100x256x128_S1x256x128_41_0_0
abbrev r0_5_42 : Rect S100x256x128 := Rect.unit (s := S100x256x128) ![42, 0, 0] S1x256x128.size inb_S100x256x128_S1x256x128_42_0_0
abbrev r0_5_43 : Rect S100x256x128 := Rect.unit (s := S100x256x128) ![43, 0, 0] S1x256x128.size inb_S100x256x128_S1x256x128_43_0_0
abbrev r0_5_44 : Rect S100x256x128 := Rect.unit (s := S100x256x128) ![44, 0, 0] S1x256x128.size inb_S100x256x128_S1x256x128_44_0_0
abbrev r0_5_45 : Rect S100x256x128 := Rect.unit (s := S100x256x128) ![45, 0, 0] S1x256x128.size inb_S100x256x128_S1x256x128_45_0_0
abbrev r0_5_46 : Rect S100x256x128 := Rect.unit (s := S100x256x128) ![46, 0, 0] S1x256x128.size inb_S100x256x128_S1x256x128_46_0_0
abbrev r0_5_47 : Rect S100x256x128 := Rect.unit (s := S100x256x128) ![47, 0, 0] S1x256x128.size inb_S100x256x128_S1x256x128_47_0_0
abbrev r0_5_48 : Rect S100x256x128 := Rect.unit (s := S100x256x128) ![48, 0, 0] S1x256x128.size inb_S100x256x128_S1x256x128_48_0_0
abbrev r0_5_49 : Rect S100x256x128 := Rect.unit (s := S100x256x128) ![49, 0, 0] S1x256x128.size inb_S100x256x128_S1x256x128_49_0_0
abbrev r0_5_50 : Rect S100x256x128 := Rect.unit (s := S100x256x128) ![50, 0, 0] S1x256x128.size inb_S100x256x128_S1x256x128_50_0_0
abbrev r0_5_51 : Rect S100x256x128 := Rect.unit (s := S100x256x128) ![51, 0, 0] S1x256x128.size inb_S100x256x128_S1x256x128_51_0_0
abbrev r0_5_52 : Rect S100x256x128 := Rect.unit (s := S100x256x128) ![52, 0, 0] S1x256x128.size inb_S100x256x128_S1x256x128_52_0_0
abbrev r0_5_53 : Rect S100x256x128 := Rect.unit (s := S100x256x128) ![53, 0, 0] S1x256x128.size inb_S100x256x128_S1x256x128_53_0_0
abbrev r0_5_54 : Rect S100x256x128 := Rect.unit (s := S100x256x128) ![54, 0, 0] S1x256x128.size inb_S100x256x128_S1x256x128_54_0_0
abbrev r0_5_55 : Rect S100x256x128 := Rect.unit (s := S100x256x128) ![55, 0, 0] S1x256x128.size inb_S100x256x128_S1x256x128_55_0_0
abbrev r0_5_56 : Rect S100x256x128 := Rect.unit (s := S100x256x128) ![56, 0, 0] S1x256x128.size inb_S100x256x128_S1x256x128_56_0_0
abbrev r0_5_57 : Rect S100x256x128 := Rect.unit (s := S100x256x128) ![57, 0, 0] S1x256x128.size inb_S100x256x128_S1x256x128_57_0_0
abbrev r0_5_58 : Rect S100x256x128 := Rect.unit (s := S100x256x128) ![58, 0, 0] S1x256x128.size inb_S100x256x128_S1x256x128_58_0_0
abbrev r0_5_59 : Rect S100x256x128 := Rect.unit (s := S100x256x128) ![59, 0, 0] S1x256x128.size inb_S100x256x128_S1x256x128_59_0_0
abbrev r0_5_60 : Rect S100x256x128 := Rect.unit (s := S100x256x128) ![60, 0, 0] S1x256x128.size inb_S100x256x128_S1x256x128_60_0_0
abbrev r0_5_61 : Rect S100x256x128 := Rect.unit (s := S100x256x128) ![61, 0, 0] S1x256x128.size inb_S100x256x128_S1x256x128_61_0_0
abbrev r0_5_62 : Rect S100x256x128 := Rect.unit (s := S100x256x128) ![62, 0, 0] S1x256x128.size inb_S100x256x128_S1x256x128_62_0_0
abbrev r0_5_63 : Rect S100x256x128 := Rect.unit (s := S100x256x128) ![63, 0, 0] S1x256x128.size inb_S100x256x128_S1x256x128_63_0_0
abbrev r0_5_64 : Rect S100x256x128 := Rect.unit (s := S100x256x128) ![64, 0, 0] S1x256x128.size inb_S100x256x128_S1x256x128_64_0_0
abbrev r0_5_65 : Rect S100x256x128 := Rect.unit (s := S100x256x128) ![65, 0, 0] S1x256x128.size inb_S100x256x128_S1x256x128_65_0_0
abbrev r0_5_66 : Rect S100x256x128 := Rect.unit (s := S100x256x128) ![66, 0, 0] S1x256x128.size inb_S100x256x128_S1x256x128_66_0_0
abbrev r0_5_67 : Rect S100x256x128 := Rect.unit (s := S100x256x128) ![67, 0, 0] S1x256x128.size inb_S100x256x128_S1x256x128_67_0_0
abbrev r0_5_68 : Rect S100x256x128 := Rect.unit (s := S100x256x128) ![68, 0, 0] S1x256x128.size inb_S100x256x128_S1x256x128_68_0_0
abbrev r0_5_69 : Rect S100x256x128 := Rect.unit (s := S100x256x128) ![69, 0, 0] S1x256x128.size inb_S100x256x128_S1x256x128_69_0_0
abbrev r0_5_70 : Rect S100x256x128 := Rect.unit (s := S100x256x128) ![70, 0, 0] S1x256x128.size inb_S100x256x128_S1x256x128_70_0_0
abbrev r0_5_71 : Rect S100x256x128 := Rect.unit (s := S100x256x128) ![71, 0, 0] S1x256x128.size inb_S100x256x128_S1x256x128_71_0_0
abbrev r0_5_72 : Rect S100x256x128 := Rect.unit (s := S100x256x128) ![72, 0, 0] S1x256x128.size inb_S100x256x128_S1x256x128_72_0_0
abbrev r0_5_73 : Rect S100x256x128 := Rect.unit (s := S100x256x128) ![73, 0, 0] S1x256x128.size inb_S100x256x128_S1x256x128_73_0_0
abbrev r0_5_74 : Rect S100x256x128 := Rect.unit (s := S100x256x128) ![74, 0, 0] S1x256x128.size inb_S100x256x128_S1x256x128_74_0_0
abbrev r0_5_75 : Rect S100x256x128 := Rect.unit (s := S100x256x128) ![75, 0, 0] S1x256x128.size inb_S100x256x128_S1x256x128_75_0_0
abbrev r0_5_76 : Rect S100x256x128 := Rect.unit (s := S100x256x128) ![76, 0, 0] S1x256x128.size inb_S100x256x128_S1x256x128_76_0_0
abbrev r0_5_77 : Rect S100x256x128 := Rect.unit (s := S100x256x128) ![77, 0, 0] S1x256x128.size inb_S100x256x128_S1x256x128_77_0_0
abbrev r0_5_78 : Rect S100x256x128 := Rect.unit (s := S100x256x128) ![78, 0, 0] S1x256x128.size inb_S100x256x128_S1x256x128_78_0_0
abbrev r0_5_79 : Rect S100x256x128 := Rect.unit (s := S100x256x128) ![79, 0, 0] S1x256x128.size inb_S100x256x128_S1x256x128_79_0_0
abbrev r0_5_80 : Rect S100x256x128 := Rect.unit (s := S100x256x128) ![80, 0, 0] S1x256x128.size inb_S100x256x128_S1x256x128_80_0_0
abbrev r0_5_81 : Rect S100x256x128 := Rect.unit (s := S100x256x128) ![81, 0, 0] S1x256x128.size inb_S100x256x128_S1x256x128_81_0_0
abbrev r0_5_82 : Rect S100x256x128 := Rect.unit (s := S100x256x128) ![82, 0, 0] S1x256x128.size inb_S100x256x128_S1x256x128_82_0_0
abbrev r0_5_83 : Rect S100x256x128 := Rect.unit (s := S100x256x128) ![83, 0, 0] S1x256x128.size inb_S100x256x128_S1x256x128_83_0_0
abbrev r0_5_84 : Rect S100x256x128 := Rect.unit (s := S100x256x128) ![84, 0, 0] S1x256x128.size inb_S100x256x128_S1x256x128_84_0_0
abbrev r0_5_85 : Rect S100x256x128 := Rect.unit (s := S100x256x128) ![85, 0, 0] S1x256x128.size inb_S100x256x128_S1x256x128_85_0_0
abbrev r0_5_86 : Rect S100x256x128 := Rect.unit (s := S100x256x128) ![86, 0, 0] S1x256x128.size inb_S100x256x128_S1x256x128_86_0_0
abbrev r0_5_87 : Rect S100x256x128 := Rect.unit (s := S100x256x128) ![87, 0, 0] S1x256x128.size inb_S100x256x128_S1x256x128_87_0_0
abbrev r0_5_88 : Rect S100x256x128 := Rect.unit (s := S100x256x128) ![88, 0, 0] S1x256x128.size inb_S100x256x128_S1x256x128_88_0_0
abbrev r0_5_89 : Rect S100x256x128 := Rect.unit (s := S100x256x128) ![89, 0, 0] S1x256x128.size inb_S100x256x128_S1x256x128_89_0_0
abbrev r0_5_90 : Rect S100x256x128 := Rect.unit (s := S100x256x128) ![90, 0, 0] S1x256x128.size inb_S100x256x128_S1x256x128_90_0_0
abbrev r0_5_91 : Rect S100x256x128 := Rect.unit (s := S100x256x128) ![91, 0, 0] S1x256x128.size inb_S100x256x128_S1x256x128_91_0_0
abbrev r0_5_92 : Rect S100x256x128 := Rect.unit (s := S100x256x128) ![92, 0, 0] S1x256x128.size inb_S100x256x128_S1x256x128_92_0_0
abbrev r0_5_93 : Rect S100x256x128 := Rect.unit (s := S100x256x128) ![93, 0, 0] S1x256x128.size inb_S100x256x128_S1x256x128_93_0_0
abbrev r0_5_94 : Rect S100x256x128 := Rect.unit (s := S100x256x128) ![94, 0, 0] S1x256x128.size inb_S100x256x128_S1x256x128_94_0_0
abbrev r0_5_95 : Rect S100x256x128 := Rect.unit (s := S100x256x128) ![95, 0, 0] S1x256x128.size inb_S100x256x128_S1x256x128_95_0_0
abbrev r0_5_96 : Rect S100x256x128 := Rect.unit (s := S100x256x128) ![96, 0, 0] S1x256x128.size inb_S100x256x128_S1x256x128_96_0_0
abbrev r0_5_97 : Rect S100x256x128 := Rect.unit (s := S100x256x128) ![97, 0, 0] S1x256x128.size inb_S100x256x128_S1x256x128_97_0_0
abbrev r0_5_98 : Rect S100x256x128 := Rect.unit (s := S100x256x128) ![98, 0, 0] S1x256x128.size inb_S100x256x128_S1x256x128_98_0_0
abbrev r0_5_99 : Rect S100x256x128 := Rect.unit (s := S100x256x128) ![99, 0, 0] S1x256x128.size inb_S100x256x128_S1x256x128_99_0_0
/-- and the whole-buffer rectangle of the output window. -/
abbrev r0_9 : Rect S128x10 := Rect.unit (s := S128x10) ![0, 0] S128x10.size inb_S128x10_S128x10_0_0

/-! ## What the body leaves in the output window's buffer -/

/-- The output window's staging buffer after the body, from the nine input windows' blocks: its one store's
    payload over the values loaded, composed along the body's sequence of parts. -/
def out0_9 (x0 : Vec F S32x128x32 .f32) (x1 : Vec F S160x896 .bf16) (x2 : Vec F S1x896 .f32) (x3 : Vec F S1280x256 .bf16) (x4 : Vec F S1x256 .f32) (x5 : Vec F S100x256x128 .bf16) (x6 : Vec F S1x128 .f32) (x7 : Vec F S128x10 .f32) (x8 : Vec F S1x10 .f32) : Vec F S128x10 .f32 :=
  have v0 : Vec F S32x128x32 .f32 := View.ld x0 r0_0
  have v10 : Vec F S160x896 .bf16 := View.ld x1 r0_1
  have v13 : Vec F S1x896 .f32 := View.ld x2 r0_2
  have v27 : Vec F S1280x256 .bf16 := View.ld x3 r0_3
  have v30 : Vec F S1x256 .f32 := View.ld x4 r0_4
  have v19 : FVec F S28x128x896 .bf16 := k0_pay2 v0 v10 v13
  have v36 : FVec F S24x128x256 .bf16 := k0_pay3 v0 v10 v13 v27 v30
  have v43 : FVec F S20x128x256 .bf16 := k0_pay4 v0 v10 v13 v27 v30
  have v53 : Vec F S1280x256 .bf16 := View.ld x3 r0_3
  have v56 : Vec F S1x256 .f32 := View.ld x4 r0_4
  have v79 : Vec F S1280x256 .bf16 := View.ld x3 r0_3
  have v82 : Vec F S1x256 .f32 := View.ld x4 r0_4
  have v45 : FVec F S20x128x256 .bf16 := k0_pay5 v36 v43
  have v71 : FVec F S20x128x256 .bf16 := k0_pay6 v19 v53 v56
  have v88 : FVec F S24x128x256 .bf16 := k0_pay7 v19 v79 v82
  have v91 : FVec F S23x128x256 .bf16 := k0_pay8 v19 v79 v82
  have v105 : Vec F S1280x256 .bf16 := View.ld x3 r0_3
  have v108 : Vec F S1x256 .f32 := View.ld x4 r0_4
  have v131 : Vec F S1280x256 .bf16 := View.ld x3 r0_3
  have v134 : Vec F S1x256 .f32 := View.ld x4 r0_4
  have v97 : FVec F S20x128x256 .bf16 := k0_pay9 v88 v91
  have v123 : FVec F S20x128x256 .bf16 := k0_pay10 v19 v105 v108
  have v139 : FVec F S3072x256 .bf16 := k0_pay11 v19 v131 v134
  have v157 : Vec F S1280x256 .bf16 := View.ld x3 r0_3
  have v160 : Vec F S1x256 .f32 := View.ld x4 r0_4
  have v189 : Vec F S1x256x128 .bf16 := View.ld x5 r0_5_0
  have v149 : FVec F S20x128x256 .bf16 := k0_pay12 v139
  have v175 : FVec F S20x128x256 .bf16 := k0_pay13 v19 v157 v160
  have v176 : FVec F S128x128 .f32 := k0_pay14 (F := F)
  have v186 : FVec F S20x128x256 .bf16 := k0_pay15 v45 v71
  have v188 : FVec F S128x256 .bf16 := k0_pay16 v45 v71
  have v195 : Vec F S1x256x128 .bf16 := View.ld x5 r0_5_5
  have v201 : Vec F S1x256x128 .bf16 := View.ld x5 r0_5_10
  have v207 : Vec F S1x256x128 .bf16 := View.ld x5 r0_5_15
  have v213 : Vec F S1x256x128 .bf16 := View.ld x5 r0_5_20
  have v219 : Vec F S1x256x128 .bf16 := View.ld x5 r0_5_25
  have v225 : Vec F S1x256x128 .bf16 := View.ld x5 r0_5_30
  have v222 : FVec F S128x128 .f32 := k0_pay17 v176 v186 v188 v189 v195 v201 v207 v213 v219
  have v224 : FVec F S128x256 .bf16 := k0_pay18 v186
  have v231 : Vec F S1x256x128 .bf16 := View.ld x5 r0_5_35
  have v237 : Vec F S1x256x128 .bf16 := View.ld x5 r0_5_40
  have v243 : Vec F S1x256x128 .bf16 := View.ld x5 r0_5_45
  have v249 : Vec F S1x256x128 .bf16 := View.ld x5 r0_5_50
  have v255 : Vec F S1x256x128 .bf16 := View.ld x5 r0_5_55
  have v261 : Vec F S1x256x128 .bf16 := View.ld x5 r0_5_60
  have v258 : FVec F S128x128 .f32 := k0_pay19 v186 v222 v224 v225 v231 v237 v243 v249 v255
  have v260 : FVec F S128x256 .bf16 := k0_pay20 v186
  have v267 : Vec F S1x256x128 .bf16 := View.ld x5 r0_5_65
  have v273 : Vec F S1x256x128 .bf16 := View.ld x5 r0_5_70
  have v279 : Vec F S1x256x128 .bf16 := View.ld x5 r0_5_75
  have v285 : Vec F S1x256x128 .bf16 := View.ld x5 r0_5_80
  have v291 : Vec F S1x256x128 .bf16 := View.ld x5 r0_5_85
  have v297 : Vec F S1x256x128 .bf16 := View.ld x5 r0_5_90
  have v294 : FVec F S128x128 .f32 := k0_pay21 v186 v258 v260 v261 v267 v273 v279 v285 v291
  have v296 : FVec F S128x256 .bf16 := k0_pay22 v186
  have v303 : Vec F S1x256x128 .bf16 := View.ld x5 r0_5_95
  have v319 : Vec F S1x256x128 .bf16 := View.ld x5 r0_5_1
  have v325 : Vec F S1x256x128 .bf16 := View.ld x5 r0_5_6
  have v331 : Vec F S1x256x128 .bf16 := View.ld x5 r0_5_11
  have v337 : Vec F S1x256x128 .bf16 := View.ld x5 r0_5_16
  have v316 : FVec F S20x128x256 .bf16 := k0_pay23 v71 v97
  have v334 : FVec F S128x128 .f32 := k0_pay24 v71 v97 v186 v294 v296 v297 v303 v319 v325 v331
  have v336 : FVec F S128x256 .bf16 := k0_pay25 v71 v97
  have v343 : Vec F S1x256x128 .bf16 := View.ld x5 r0_5_21
  have v349 : Vec F S1x256x128 .bf16 := View.ld x5 r0_5_26
  have v355 : Vec F S1x256x128 .bf16 := View.ld x5 r0_5_31
  have v361 : Vec F S1x256x128 .bf16 := View.ld x5 r0_5_36
  have v367 : Vec F S1x256x128 .bf16 := View.ld x5 r0_5_41
  have v373 : Vec F S1x256x128 .bf16 := View.ld x5 r0_5_46
  have v370 : FVec F S128x128 .f32 := k0_pay26 v316 v334 v336 v337 v343 v349 v355 v361 v367
  have v372 : FVec F S128x256 .bf16 := k0_pay27 v316
  have v379 : Vec F S1x256x128 .bf16 := View.ld x5 r0_5_51
  have v385 : Vec F S1x256x128 .bf16 := View.ld x5 r0_5_56
  have v391 : Vec F S1x256x128 .bf16 := View.ld x5 r0_5_61
  have v397 : Vec F S1x256x128 .bf16 := View.ld x5 r0_5_66
  have v403 : Vec F S1x256x128 .bf16 := View.ld x5 r0_5_71
  have v409 : Vec F S1x256x128 .bf16 := View.ld x5 r0_5_76
  have v406 : FVec F S128x128 .f32 := k0_pay28 v316 v370 v372 v373 v379 v385 v391 v397 v403
  have v408 : FVec F S128x256 .bf16 := k0_pay29 v316
  have v415 : Vec F S1x256x128 .bf16 := View.ld x5 r0_5_81
  have v421 : Vec F S1x256x128 .bf16 := View.ld x5 r0_5_86
  have v427 : Vec F S1x256x128 .bf16 := View.ld x5 r0_5_91
  have v433 : Vec F S1x256x128 .bf16 := View.ld x5 r0_5_96
  have v449 : Vec F S1x256x128 .bf16 := View.ld x5 r0_5_2
  have v436 : FVec F S128x128 .f32 := k0_pay30 v316 v406 v408 v409 v415 v421 v427 v433
  have v446 : FVec F S20x128x256 .bf16 := k0_pay31 v97 v123
  have v448 : FVec F S128x256 .bf16 := k0_pay32 v97 v123
  have v455 : Vec F S1x256x128 .bf16 := View.ld x5 r0_5_7
  have v461 : Vec F S1x256x128 .bf16 := View.ld x5 r0_5_12
  have v467 : Vec F S1x256x128 .bf16 := View.ld x5 r0_5_17
  have v473 : Vec F S1x256x128 .bf16 := View.ld x5 r0_5_22
  have v479 : Vec F S1x256x128 .bf16 := View.ld x5 r0_5_27
  have v485 : Vec F S1x256x128 .bf16 := View.ld x5 r0_5_32
  have v482 : FVec F S128x128 .f32 := k0_pay33 v436 v446 v448 v449 v455 v461 v467 v473 v479
  have v484 : FVec F S128x256 .bf16 := k0_pay34 v446
  have v491 : Vec F S1x256x128 .bf16 := View.ld x5 r0_5_37
  have v497 : Vec F S1x256x128 .bf16 := View.ld x5 r0_5_42
  have v503 : Vec F S1x256x128 .bf16 := View.ld x5 r0_5_47
  have v509 : Vec F S1x256x128 .bf16 := View.ld x5 r0_5_52
  have v515 : Vec F S1x256x128 .bf16 := View.ld x5 r0_5_57
  have v521 : Vec F S1x256x128 .bf16 := View.ld x5 r0_5_62
  have v518 : FVec F S128x128 .f32 := k0_pay35 v446 v482 v484 v485 v491 v497 v503 v509 v515
  have v520 : FVec F S128x256 .bf16 := k0_pay36 v446
  have v527 : Vec F S1x256x128 .bf16 := View.ld x5 r0_5_67
  have v533 : Vec F S1x256x128 .bf16 := View.ld x5 r0_5_72
  have v539 : Vec F S1x256x128 .bf16 := View.ld x5 r0_5_77
  have v545 : Vec F S1x256x128 .bf16 := View.ld x5 r0_5_82
  have v551 : Vec F S1x256x128 .bf16 := View.ld x5 r0_5_87
  have v557 : Vec F S1x256x128 .bf16 := View.ld x5 r0_5_92
  have v554 : FVec F S128x128 .f32 := k0_pay37 v446 v518 v520 v521 v527 v533 v539 v545 v551
  have v556 : FVec F S128x256 .bf16 := k0_pay38 v446
  have v563 : Vec F S1x256x128 .bf16 := View.ld x5 r0_5_97
  have v579 : Vec F S1x256x128 .bf16 := View.ld x5 r0_5_3
  have v585 : Vec F S1x256x128 .bf16 := View.ld x5 r0_5_8
  have v591 : Vec F S1x256x128 .bf16 := View.ld x5 r0_5_13
  have v597 : Vec F S1x256x128 .bf16 := View.ld x5 r0_5_18
  have v576 : FVec F S20x128x256 .bf16 := k0_pay39 v123 v149
  have v594 : FVec F S128x128 .f32 := k0_pay40 v123 v149 v446 v554 v556 v557 v563 v579 v585 v591
  have v596 : FVec F S128x256 .bf16 := k0_pay41 v123 v149
  have v603 : Vec F S1x256x128 .bf16 := View.ld x5 r0_5_23
  have v609 : Vec F S1x256x128 .bf16 := View.ld x5 r0_5_28
  have v615 : Vec F S1x256x128 .bf16 := View.ld x5 r0_5_33
  have v621 : Vec F S1x256x128 .bf16 := View.ld x5 r0_5_38
  have v627 : Vec F S1x256x128 .bf16 := View.ld x5 r0_5_43
  have v633 : Vec F S1x256x128 .bf16 := View.ld x5 r0_5_48
  have v630 : FVec F S128x128 .f32 := k0_pay42 v576 v594 v596 v597 v603 v609 v615 v621 v627
  have v632 : FVec F S128x256 .bf16 := k0_pay43 v576
  have v639 : Vec F S1x256x128 .bf16 := View.ld x5 r0_5_53
  have v645 : Vec F S1x256x128 .bf16 := View.ld x5 r0_5_58
  have v651 : Vec F S1x256x128 .bf16 := View.ld x5 r0_5_63
  have v657 : Vec F S1x256x128 .bf16 := View.ld x5 r0_5_68
  have v663 : Vec F S1x256x128 .bf16 := View.ld x5 r0_5_73
  have v669 : Vec F S1x256x128 .bf16 := View.ld x5 r0_5_78
  have v666 : FVec F S128x128 .f32 := k0_pay44 v576 v630 v632 v633 v639 v645 v651 v657 v663
  have v668 : FVec F S128x256 .bf16 := k0_pay45 v576
  have v675 : Vec F S1x256x128 .bf16 := View.ld x5 r0_5_83
  have v681 : Vec F S1x256x128 .bf16 := View.ld x5 r0_5_88
  have v687 : Vec F S1x256x128 .bf16 := View.ld x5 r0_5_93
  have v693 : Vec F S1x256x128 .bf16 := View.ld x5 r0_5_98
  have v709 : Vec F S1x256x128 .bf16 := View.ld x5 r0_5_4
  have v696 : FVec F S128x128 .f32 := k0_pay46 v576 v666 v668 v669 v675 v681 v687 v693
  have v706 : FVec F S20x128x256 .bf16 := k0_pay47 v149 v175
  have v708 : FVec F S128x256 .bf16 := k0_pay48 v149 v175
  have v715 : Vec F S1x256x128 .bf16 := View.ld x5 r0_5_9
  have v721 : Vec F S1x256x128 .bf16 := View.ld x5 r0_5_14
  have v727 : Vec F S1x256x128 .bf16 := View.ld x5 r0_5_19
  have v733 : Vec F S1x256x128 .bf16 := View.ld x5 r0_5_24
  have v739 : Vec F S1x256x128 .bf16 := View.ld x5 r0_5_29
  have v745 : Vec F S1x256x128 .bf16 := View.ld x5 r0_5_34
  have v742 : FVec F S128x128 .f32 := k0_pay49 v696 v706 v708 v709 v715 v721 v727 v733 v739
  have v744 : FVec F S128x256 .bf16 := k0_pay50 v706
  have v751 : Vec F S1x256x128 .bf16 := View.ld x5 r0_5_39
  have v757 : Vec F S1x256x128 .bf16 := View.ld x5 r0_5_44
  have v763 : Vec F S1x256x128 .bf16 := View.ld x5 r0_5_49
  have v769 : Vec F S1x256x128 .bf16 := View.ld x5 r0_5_54
  have v775 : Vec F S1x256x128 .bf16 := View.ld x5 r0_5_59
  have v781 : Vec F S1x256x128 .bf16 := View.ld x5 r0_5_64
  have v778 : FVec F S128x128 .f32 := k0_pay51 v706 v742 v744 v745 v751 v757 v763 v769 v775
  have v780 : FVec F S128x256 .bf16 := k0_pay52 v706
  have v787 : Vec F S1x256x128 .bf16 := View.ld x5 r0_5_69
  have v793 : Vec F S1x256x128 .bf16 := View.ld x5 r0_5_74
  have v799 : Vec F S1x256x128 .bf16 := View.ld x5 r0_5_79
  have v805 : Vec F S1x256x128 .bf16 := View.ld x5 r0_5_84
  have v811 : Vec F S1x256x128 .bf16 := View.ld x5 r0_5_89
  have v817 : Vec F S1x256x128 .bf16 := View.ld x5 r0_5_94
  have v814 : FVec F S128x128 .f32 := k0_pay53 v706 v778 v780 v781 v787 v793 v799 v805 v811
  have v816 : FVec F S128x256 .bf16 := k0_pay54 v706
  have v823 : Vec F S1x256x128 .bf16 := View.ld x5 r0_5_99
  have v827 : Vec F S1x128 .f32 := View.ld x6 r0_6
  have v832 : Vec F S128x10 .f32 := View.ld x7 r0_7
  have v834 : Vec F S1x10 .f32 := View.ld x8 r0_8
  have v841 : FVec F S128x10 .f32 := k0_pay55 v706 v814 v816 v817 v823 v827 v832 v834
  View.canon [⟨r0_9, k0_pay1 v841⟩]

/-- The one store fills the buffer, so it covers it. -/
theorem cover0_9 (p0 : Vec F S128x10 .f32) (y : S128x10.Idx) :
    ∃ pc ∈ ([⟨r0_9, p0⟩] : List (View.Piece (Elt F) S128x10 .f32)), y ∈ pc.1.set :=
  View.cover_of_tiled [⟨r0_9, p0⟩] S128x10.size (by rfl) y

/-! ## The body's triple -/

set_option maxHeartbeats 4000000 in
/-- The kernel body on whole staging memrefs, the inputs' at read contents `x0 … x8` and the output's at anything,
    runs to the continuation holding the inputs' as they were and the output's at `out0_9` of the inputs'. -/
theorem sound_kernel (c : Dev nD) (E : Set ℕ) (i : grid0.Coords) (arg1 : Memref sig .tc .vmem S32x128x32 .f32) (harg1 : arg1.IsWhole) (arg2 : Memref sig .tc .vmem S160x896 .bf16) (harg2 : arg2.IsWhole) (arg3 : Memref sig .tc .vmem S1x896 .f32) (harg3 : arg3.IsWhole) (arg4 : Memref sig .tc .vmem S1280x256 .bf16) (harg4 : arg4.IsWhole) (arg5 : Memref sig .tc .vmem S1x256 .f32) (harg5 : arg5.IsWhole) (arg6 : Memref sig .tc .vmem S100x256x128 .bf16) (harg6 : arg6.IsWhole) (arg7 : Memref sig .tc .vmem S1x128 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S128x10 .f32) (harg10 : arg10.IsWhole)
    (x0 : Vec F S32x128x32 .f32) (x1 : Vec F S160x896 .bf16) (x2 : Vec F S1x896 .f32) (x3 : Vec F S1280x256 .bf16) (x4 : Vec F S1x256 .f32) (x5 : Vec F S100x256x128 .bf16) (x6 : Vec F S1x128 .f32) (x7 : Vec F S128x10 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__net_kernel i arg1 harg1 arg2 harg2 arg3 harg3 arg4 harg4 arg5 harg5 arg6 harg6 arg7 harg7 arg8 harg8 arg9 harg9 arg10 harg10) K := by
  simp only [cc0__net_kernel_eq_skeleton]; unfold cc0__net_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

end Cert.KernelIdeal.Hand

end
-- ==== Proof.KernelIdealFrame.lean ====
/- The frame of the one-region kernel program, at any float instance: @main's host operations up to the
   region, the arrays as the region finds them, the windows' blocks, what the body leaves in the output
   window's buffer as a function of the nine input blocks, the body's triple, the proof data, the run and
   the frame statement. -/
import proofs.«172427_g2000706451865267_pallasbulk_150_11_alg».proof.Proof.Gen.KernelIdeal.Launch
import proofs.«172427_g2000706451865267_pallasbulk_150_11_alg».proof.Proof.Gen.KernelIdeal.Skeleton
import proofs.«172427_g2000706451865267_pallasbulk_150_11_alg».proof.Proof.Gen.KernelIdeal.Points
import proofs.«172427_g2000706451865267_pallasbulk_150_11_alg».proof.Proof.KernelIdealBody
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch memory after the nine stretches of host
    operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region: the nine stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it
    is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it
    is not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it
    is not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it
    is not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it
    is not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it
    is not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it
    is not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it
    is not fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it
    is not fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame statement's post from the frame run's -/

/-- For any proof data whose arrays are the region-entry contents, a run to the library's frame post read at
    the nine argument arrays is the frame statement's post: an argument a window stages is read off that
    window's array, an argument no window stages off the unscoped rest; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The pipeline's proof data -/

/-- The proof data of the one pipeline on core `c`: the arrays as the region finds them; after the body at
    point `t` each input's buffer at its block and the output's at `out0_9` of the nine input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (the definition projected, the fold over the host
    operations never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame statement at any float instance: the run terminates without a fault and the nine argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.ReferenceConv1.lean ====
import proofs.«172427_g2000706451865267_pallasbulk_150_11_alg».proof.Proof.Gen.ReferenceIdeal.Launch
import proofs.«172427_g2000706451865267_pallasbulk_150_11_alg».proof.Proof.Gen.ReferenceIdeal.Skeleton
import proofs.«172427_g2000706451865267_pallasbulk_150_11_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first convolution (pipeline 0), at the entry contents `V` -/

section Region0

variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_3 : View sig .tc .vmem S1x28x896 .f32 := (Memref.whole cc0_stg3_0 : Memref sig .tc .vmem S1x28x896 .f32).view
/-- Each window's current staging memref at point `t`, and its wholeness. -/
abbrev ms0_0 (t : Fin cfg0.N) : Memref sig .tc .vmem S1x32x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x32x896 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x28x896 .f32 := win0_3.stage (cfg0.slots t 3)
abbrev hs0_3 (t : Fin cfg0.N) : (ms0_3 t).IsWhole := hstage0_3 ((cfg0.slots t 3).cast nbuf0_3)

set_option maxHeartbeats 4000000 in
/-- The kernel body on whole staging memrefs: the three inputs' at contents `x0 x1 x2`, the output's at anything. It runs to
    the continuation holding the inputs' as they were and the output's buffer with the pieces `L3` written, the pieces
    being the witness the symbolic run finds. -/
noncomputable def kernelRun0 (c : Dev nD) (i : grid0.Coords) (arg1 : Memref sig .tc .vmem S1x32x32 .f32) (harg1 : arg1.IsWhole) (arg2 : Memref sig .tc .vmem S5x32x896 .f32) (harg2 : arg2.IsWhole) (arg3 : Memref sig .tc .vmem S1x896 .f32) (harg3 : arg3.IsWhole) (arg4 : Memref sig .tc .vmem S1x28x896 .f32) (harg4 : arg4.IsWhole)
    (x0 : Vec F S1x32x32 .f32) (x1 : Vec F S5x32x896 .f32) (x2 : Vec F S1x896 .f32) :
    { L3 : List (View.Piece (Elt F) S1x28x896 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_conv1_kernel i arg1 harg1 arg2 harg2 arg3 harg3 arg4 harg4) K } := by
  refine ⟨?_, fun E K => ?run⟩
  case run =>
    simp only [cc0_conv1_kernel_eq_skeleton]; unfold cc0_conv1_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output block, so they cover it. -/
theorem cover0_3 (c : Dev nD) (i : grid0.Coords) (arg1 : Memref sig .tc .vmem S1x32x32 .f32) (harg1 : arg1.IsWhole) (arg2 : Memref sig .tc .vmem S5x32x896 .f32) (harg2 : arg2.IsWhole) (arg3 : Memref sig .tc .vmem S1x896 .f32) (harg3 : arg3.IsWhole) (arg4 : Memref sig .tc .vmem S1x28x896 .f32) (harg4 : arg4.IsWhole)
    (x0 : Vec F S1x32x32 .f32) (x1 : Vec F S5x32x896 .f32) (x2 : Vec F S1x896 .f32) (y : S1x28x896.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S1x28x896.size (by sl_kernel_rfl) y

/-- What the body leaves in the output's staging buffer: the run's pieces read back over junk. -/
def out0_3 (c : Dev nD) (i : grid0.Coords) (arg1 : Memref sig .tc .vmem S1x32x32 .f32) (harg1 : arg1.IsWhole) (arg2 : Memref sig .tc .vmem S5x32x896 .f32) (harg2 : arg2.IsWhole) (arg3 : Memref sig .tc .vmem S1x896 .f32) (harg3 : arg3.IsWhole) (arg4 : Memref sig .tc .vmem S1x28x896 .f32) (harg4 : arg4.IsWhole)
    (x0 : Vec F S1x32x32 .f32) (x1 : Vec F S5x32x896 .f32) (x2 : Vec F S1x896 .f32) : Vec F S1x28x896 .f32 :=
  VO0_3.read (Elt F) (VO0_3.writes (Elt F) VO0_3.junk (kernelRun0 c i arg1 harg1 arg2 harg2 arg3 harg3 arg4 harg4 x0 x1 x2).1)

/-- What the output's staging buffer holds after the body at point `t`: the run at the point's memrefs and input blocks. -/
def outsAt0 (c : Dev nD) (t : Fin cfg0.N) : Vec F S1x28x896 .f32 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The proof data of pipeline 0 on core `c`: the arrays at the entry contents `V`; after the body at point `t` each
    input's buffer at its block and the output's at `outsAt0`; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4000000 in
/-- The body at any point: the inputs' memrefs hold their blocks, so the run applies; the invariant and the core's
    `owes` pass through unread; the output's buffer ends at the run's pieces read back, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outsAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ )

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.ReferenceIdeal.Hand

end
-- ==== Proof.ReferenceConv2.lean ====
import proofs.«172427_g2000706451865267_pallasbulk_150_11_alg».proof.Proof.Gen.ReferenceIdeal.Launch
import proofs.«172427_g2000706451865267_pallasbulk_150_11_alg».proof.Proof.Gen.ReferenceIdeal.Skeleton
import proofs.«172427_g2000706451865267_pallasbulk_150_11_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the second convolution with pooling (pipeline 1), at the entry contents `V` -/

section Region1

variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1_3 : View sig .tc .vmem S1x20x20x64 .f32 := (Memref.whole cc1_stg3_0 : Memref sig .tc .vmem S1x20x20x64 .f32).view
/-- Each window's current staging memref at point `t`, and its wholeness. -/
abbrev ms1_0 (t : Fin cfg1.N) : Memref sig .tc .vmem S1x28x28x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S25x32x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x20x20x64 .f32 := win1_3.stage (cfg1.slots t 3)
abbrev hs1_3 (t : Fin cfg1.N) : (ms1_3 t).IsWhole := hstage1_3 ((cfg1.slots t 3).cast nbuf1_3)

set_option maxHeartbeats 4000000 in
/-- The kernel body on whole staging memrefs: the three inputs' at contents `x0 x1 x2`, the output's at anything. It runs to
    the continuation holding the inputs' as they were and the output's buffer with the pieces `L3` written, the pieces
    being the witness the symbolic run finds. -/
noncomputable def kernelRun1 (c : Dev nD) (i : grid1.Coords) (arg1 : Memref sig .tc .vmem S1x28x28x32 .f32) (harg1 : arg1.IsWhole) (arg2 : Memref sig .tc .vmem S25x32x64 .f32) (harg2 : arg2.IsWhole) (arg3 : Memref sig .tc .vmem S1x64 .f32) (harg3 : arg3.IsWhole) (arg4 : Memref sig .tc .vmem S1x20x20x64 .f32) (harg4 : arg4.IsWhole)
    (x0 : Vec F S1x28x28x32 .f32) (x1 : Vec F S25x32x64 .f32) (x2 : Vec F S1x64 .f32) :
    { L3 : List (View.Piece (Elt F) S1x20x20x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_conv2_pool_kernel i arg1 harg1 arg2 harg2 arg3 harg3 arg4 harg4) K } := by
  refine ⟨?_, fun E K => ?run⟩
  case run =>
    simp only [cc1_conv2_pool_kernel_eq_skeleton]; unfold cc1_conv2_pool_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output block, so they cover it. -/
theorem cover1_3 (c : Dev nD) (i : grid1.Coords) (arg1 : Memref sig .tc .vmem S1x28x28x32 .f32) (harg1 : arg1.IsWhole) (arg2 : Memref sig .tc .vmem S25x32x64 .f32) (harg2 : arg2.IsWhole) (arg3 : Memref sig .tc .vmem S1x64 .f32) (harg3 : arg3.IsWhole) (arg4 : Memref sig .tc .vmem S1x20x20x64 .f32) (harg4 : arg4.IsWhole)
    (x0 : Vec F S1x28x28x32 .f32) (x1 : Vec F S25x32x64 .f32) (x2 : Vec F S1x64 .f32) (y : S1x20x20x64.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x20x20x64.size (by sl_kernel_rfl) y

/-- What the body leaves in the output's staging buffer: the run's pieces read back over junk. -/
def out1_3 (c : Dev nD) (i : grid1.Coords) (arg1 : Memref sig .tc .vmem S1x28x28x32 .f32) (harg1 : arg1.IsWhole) (arg2 : Memref sig .tc .vmem S25x32x64 .f32) (harg2 : arg2.IsWhole) (arg3 : Memref sig .tc .vmem S1x64 .f32) (harg3 : arg3.IsWhole) (arg4 : Memref sig .tc .vmem S1x20x20x64 .f32) (harg4 : arg4.IsWhole)
    (x0 : Vec F S1x28x28x32 .f32) (x1 : Vec F S25x32x64 .f32) (x2 : Vec F S1x64 .f32) : Vec F S1x20x20x64 .f32 :=
  VO1_3.read (Elt F) (VO1_3.writes (Elt F) VO1_3.junk (kernelRun1 c i arg1 harg1 arg2 harg2 arg3 harg3 arg4 harg4 x0 x1 x2).1)

/-- What the output's staging buffer holds after the body at point `t`: the run at the point's memrefs and input blocks. -/
def outsAt1 (c : Dev nD) (t : Fin cfg1.N) : Vec F S1x20x20x64 .f32 :=
  out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The proof data of pipeline 1 on core `c`: the arrays at the entry contents `V`; after the body at point `t` each
    input's buffer at its block and the output's at `outsAt1`; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4000000 in
/-- The body at any point: the inputs' memrefs hold their blocks, so the run applies; the invariant and the core's
    `owes` pass through unread; the output's buffer ends at the run's pieces read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1 out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ )

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand

end
-- ==== Proof.ReferenceHead.lean ====
import proofs.«172427_g2000706451865267_pallasbulk_150_11_alg».proof.Proof.Gen.ReferenceIdeal.Launch
import proofs.«172427_g2000706451865267_pallasbulk_150_11_alg».proof.Proof.Gen.ReferenceIdeal.Skeleton
import proofs.«172427_g2000706451865267_pallasbulk_150_11_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the dense head (pipeline 2), at the entry contents `V`

The kernel keeps a running sum in a scratch buffer across the four grid points: cleared at the first point, the
product of the point's two blocks added at every point, and at the last point read back, passed through the
two dense layers and the normalised exponential, and stored into the output block. -/

section Region2

variable (V : (c : Dev nD) → (b : Ref sig .tc) → Buf (Elt F) ((c : Thread nD τ).loc b))

/-- Window `w`'s block at point `t`, read off its array at the region's entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the grid -/

/-- The first condition: the point is the grid's first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second condition: the point is the grid's last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel

/-! ## The staging memrefs and the scratch -/

abbrev VO2_5 : View sig .tc .vmem S1024x10 .f32 := (Memref.whole cc2_stg5_0 : Memref sig .tc .vmem S1024x10 .f32).view
abbrev ms2_0 (t : Fin cfg2.N) : Memref sig .tc .vmem S1024x6400 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6400x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x10 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x10 .f32 := win2_5.stage (cfg2.slots t 5)
abbrev hs2_5 (t : Fin cfg2.N) : (ms2_5 t).IsWhole := hstage2_5 ((cfg2.slots t 5).cast nbuf2_5)
/-- The scratch operand: a whole scoped buffer of the kernel's own. -/
abbrev scM2_0 : Memref sig .tc .vmem S1024x128 .f32 := Memref.whole cc2_scratch0
abbrev VS2_0 : View sig .tc .vmem S1024x128 .f32 := scM2_0.view

/-- The class invariant with the scratch as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The body's triple, case by case -/

set_option maxHeartbeats 4000000 in
/-- At the first point (first condition taken, second not): the scratch, at anything, ends with the pieces `LS0` written;
    the five inputs and the idle output are handed back untouched. -/
noncomputable def kernelRun2_A (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : cond2_0 i) (hc1 : ¬cond2_1 i)
    (x0 : Vec F S1024x6400 .f32) (x1 : Vec F S6400x128 .f32) (x2 : Vec F S1x128 .f32) (x3 : Vec F S128x10 .f32) (x4 : Vec F S1x10 .f32) :
    Σ' (L5 : List (View.Piece (Elt F) S1024x10 .f32)), { LS0 : List (View.Piece (Elt F) S1024x128 .f32) //
      ∀ (xi5 : Vec F S1024x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_mlp_head_kernel i arg1 harg1 arg2 harg2 arg3 harg3 arg4 harg4 arg5 harg5 arg6 harg6 arg7 harg7) K } := by
  refine ⟨[], ?_, fun xi5 E K => ?run⟩
  case run =>
    simp only [cc2_mlp_head_kernel_eq_skeleton]; unfold cc2_mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- At a middle point (neither condition taken): the scratch, at the contents `xs0` the point before left, ends with the
    pieces `LS0` written; the five inputs and the idle output are handed back untouched. -/
noncomputable def kernelRun2_B (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : ¬cond2_1 i)
    (x0 : Vec F S1024x6400 .f32) (x1 : Vec F S6400x128 .f32) (x2 : Vec F S1x128 .f32) (x3 : Vec F S128x10 .f32) (x4 : Vec F S1x10 .f32) (xs0 : Vec F S1024x128 .f32) :
    Σ' (L5 : List (View.Piece (Elt F) S1024x10 .f32)), { LS0 : List (View.Piece (Elt F) S1024x128 .f32) //
      ∀ (xi5 : Vec F S1024x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_mlp_head_kernel i arg1 harg1 arg2 harg2 arg3 harg3 arg4 harg4 arg5 harg5 arg6 harg6 arg7 harg7) K } := by
  refine ⟨[], ?_, fun xi5 E K => ?run⟩
  case run =>
    simp only [cc2_mlp_head_kernel_eq_skeleton]; unfold cc2_mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- At the last point (first condition not taken, second taken): the scratch, at the contents `xs0` the point before left,
    ends with the pieces `LS0` written and the output, at anything, with the pieces `L5`. -/
noncomputable def kernelRun2_C (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i)
    (x0 : Vec F S1024x6400 .f32) (x1 : Vec F S6400x128 .f32) (x2 : Vec F S1x128 .f32) (x3 : Vec F S128x10 .f32) (x4 : Vec F S1x10 .f32) (xs0 : Vec F S1024x128 .f32) :
    Σ' (L5 : List (View.Piece (Elt F) S1024x10 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2_mlp_head_kernel i arg1 harg1 arg2 harg2 arg3 harg3 arg4 harg4 arg5 harg5 arg6 harg6 arg7 harg7) K } := by
  refine ⟨?_, ?_, fun E K => ?run⟩
  case run =>
    simp only [cc2_mlp_head_kernel_eq_skeleton]; unfold cc2_mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves -/

def out2_A_5 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : cond2_0 i) (hc1 : ¬cond2_1 i)
    (x0 : Vec F S1024x6400 .f32) (x1 : Vec F S6400x128 .f32) (x2 : Vec F S1x128 .f32) (x3 : Vec F S128x10 .f32) (x4 : Vec F S1x10 .f32) : Vec F S1024x10 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)
theorem scover2_A_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : cond2_0 i) (hc1 : ¬cond2_1 i)
    (x0 : Vec F S1024x6400 .f32) (x1 : Vec F S6400x128 .f32) (x2 : Vec F S1x128 .f32) (x3 : Vec F S128x10 .f32) (x4 : Vec F S1x10 .f32) (y : S1024x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1024x128.size (by sl_kernel_rfl) y
def sout2_A_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : cond2_0 i) (hc1 : ¬cond2_1 i)
    (x0 : Vec F S1024x6400 .f32) (x1 : Vec F S6400x128 .f32) (x2 : Vec F S1x128 .f32) (x3 : Vec F S128x10 .f32) (x4 : Vec F S1x10 .f32) : Vec F S1024x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

def out2_B_5 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : ¬cond2_1 i)
    (x0 : Vec F S1024x6400 .f32) (x1 : Vec F S6400x128 .f32) (x2 : Vec F S1x128 .f32) (x3 : Vec F S128x10 .f32) (x4 : Vec F S1x10 .f32) (xs0 : Vec F S1024x128 .f32) : Vec F S1024x10 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)
theorem scover2_B_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : ¬cond2_1 i)
    (x0 : Vec F S1024x6400 .f32) (x1 : Vec F S6400x128 .f32) (x2 : Vec F S1x128 .f32) (x3 : Vec F S128x10 .f32) (x4 : Vec F S1x10 .f32) (xs0 : Vec F S1024x128 .f32) (y : S1024x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1024x128.size (by sl_kernel_rfl) y
def sout2_B_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : ¬cond2_1 i)
    (x0 : Vec F S1024x6400 .f32) (x1 : Vec F S6400x128 .f32) (x2 : Vec F S1x128 .f32) (x3 : Vec F S128x10 .f32) (x4 : Vec F S1x10 .f32) (xs0 : Vec F S1024x128 .f32) : Vec F S1024x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

theorem cover2_C_5 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i)
    (x0 : Vec F S1024x6400 .f32) (x1 : Vec F S6400x128 .f32) (x2 : Vec F S1x128 .f32) (x3 : Vec F S128x10 .f32) (x4 : Vec F S1x10 .f32) (xs0 : Vec F S1024x128 .f32) (y : S1024x10.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1024x10.size (by sl_kernel_rfl) y
def out2_C_5 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i)
    (x0 : Vec F S1024x6400 .f32) (x1 : Vec F S6400x128 .f32) (x2 : Vec F S1x128 .f32) (x3 : Vec F S128x10 .f32) (x4 : Vec F S1x10 .f32) (xs0 : Vec F S1024x128 .f32) : Vec F S1024x10 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)
theorem scover2_C_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i)
    (x0 : Vec F S1024x6400 .f32) (x1 : Vec F S6400x128 .f32) (x2 : Vec F S1x128 .f32) (x3 : Vec F S128x10 .f32) (x4 : Vec F S1x10 .f32) (xs0 : Vec F S1024x128 .f32) (y : S1024x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1024x128.size (by sl_kernel_rfl) y
def sout2_C_0 (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i)
    (x0 : Vec F S1024x6400 .f32) (x1 : Vec F S6400x128 .f32) (x2 : Vec F S1x128 .f32) (x3 : Vec F S128x10 .f32) (x4 : Vec F S1x10 .f32) (xs0 : Vec F S1024x128 .f32) : Vec F S1024x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

/-! ## What the output and the scratch hold after each point -/

/-- The accumulation: after the body at position `n`, the pair (the output's staging buffer, the scratch), the case
    selected by the closed forms at `n`, the scratch read at what position `n - 1` left. -/
def outsAt2 (c : Dev nD) : (n : ℕ) → n < cfg2.N → Vec F S1024x10 .f32 × Vec F S1024x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      False.elim (by have hN : n + 1 < 4 := lt_of_lt_of_eq hn (show cfg2.N = 4 from N_2); omega)
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 4 := lt_of_lt_of_eq hn (show cfg2.N = 4 from N_2); (try dsimp only at h0); omega)

theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other scoped buffers at
    anything, the scratch at what the point before left, and the generator register at some state. -/
def PhiS (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r)) := rfl

theorem PhiS_pos (c : Dev nD) (n : ℕ) (h : n ≤ cfg2.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the closed forms say which case the point is in; the
    invariant hands the body the scratch at what the point before left (at anything at the first point) and takes it back at
    this point's contents; the output's buffer is handed back untouched where idle and ends at the run's pieces at the last
    point; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  have hN : t.val < 4 := lt_of_lt_of_eq t.isLt (show cfg2.N = 4 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS_castSucc V c t, PhiS_zero V c _ _ hz, PhiA2_eq]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover2_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          ·
            isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            unfold owns; iexists _; isplitr
            swap; · iexact HS0
            ipureintro; exact View.read_writes_of_cover _ _ _ _ _ (scover2_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 4 := N_2; omega), PhiA2_eq]
  iintro ⟨⟨HR0, HR1, HR2, HR3, HR4, HR5, HR6, HR7, HR8, HR9, HR10, HR11, HS0⟩, Hg⟩
  isplitl [HR0 HR1 HR2 HR3 HR4 HR5 HR6 HR7 HR8 HR9 HR10 HR11 HS0]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists _; iexact HS0
  iexact Hg

end Region2

end Cert.ReferenceIdeal.Hand

end
-- ==== Proof.ReferenceFrame.lean ====
import proofs.«172427_g2000706451865267_pallasbulk_150_11_alg».proof.Proof.ReferenceConv1
import proofs.«172427_g2000706451865267_pallasbulk_150_11_alg».proof.Proof.ReferenceConv2
import proofs.«172427_g2000706451865267_pallasbulk_150_11_alg».proof.Proof.ReferenceHead
import proofs.«172427_g2000706451865267_pallasbulk_150_11_alg».proof.Proof.Gen.ReferenceIdeal.Regions

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The contents between the items of the program, and what the three regions leave -/

/-- The contents region 0 is entered from, read at the core's references. -/
abbrev E1 : (c : Dev nD) → (b : Ref sig .tc) → Buf (Elt F) ((c : Thread nD τ).loc b) := fun c b => Gen.V1 m c b
/-- What region 0 leaves: its arrays at what the write-backs leave, every other buffer as entered. -/
def o2 (c : Dev nD) : Valuation τ sig (Elt F) :=
  Pipeline.withArrays spec0 c (Gen.V1 m c) fun w => (dat0 (E1 m) c).arrAt w cfg0.N
abbrev U2 (c : Dev nD) : Valuation τ sig (Elt F) := Function.update (Gen.V1 m c) main_v1 (o2 m c main_v1)
abbrev U3 (c : Dev nD) : Valuation τ sig (Elt F) := StableHlo.after hostOps1 (U2 m c)
/-- The contents region 1 is entered from. -/
abbrev E3 : (c : Dev nD) → (b : Ref sig .tc) → Buf (Elt F) ((c : Thread nD τ).loc b) := fun c b => U3 m c b
/-- What region 1 leaves. -/
def o4 (c : Dev nD) : Valuation τ sig (Elt F) :=
  Pipeline.withArrays spec1 c (U3 m c) fun w => (dat1 (E3 m) c).arrAt w cfg1.N
abbrev U4 (c : Dev nD) : Valuation τ sig (Elt F) := Function.update (U3 m c) main_v3 (o4 m c main_v3)
abbrev U5 (c : Dev nD) : Valuation τ sig (Elt F) := StableHlo.after hostOps2 (U4 m c)
/-- The contents region 2 is entered from. -/
abbrev E5 : (c : Dev nD) → (b : Ref sig .tc) → Buf (Elt F) ((c : Thread nD τ).loc b) := fun c b => U5 m c b
/-- What region 2 leaves. -/
def o6 (c : Dev nD) : Valuation τ sig (Elt F) :=
  Pipeline.withArrays spec2 c (U5 m c) fun w => (dat2 (E5 m) c).arrAt w cfg2.N
abbrev U6 (c : Dev nD) : Valuation τ sig (Elt F) := Function.update (U5 m c) main_v5 (o6 m c main_v5)

/-- What the regions leave in the buffers they may change, item by item. -/
def outs : Gen.Outs (F := F) := fun J r c =>
  match J with
  | 2 => o2 m c r
  | 4 => o4 m c r
  | _ => o6 m c r

theorem V2_eq (c : Dev nD) : Gen.V2 m (outs m) c = U2 m c := rfl
theorem V3_eq (c : Dev nD) : Gen.V3 m (outs m) c = U3 m c := rfl
theorem V4_eq (c : Dev nD) : Gen.V4 m (outs m) c = U4 m c := rfl
theorem V5_eq (c : Dev nD) : Gen.V5 m (outs m) c = U5 m c := rfl
theorem V6_eq (c : Dev nD) : Gen.V6 m (outs m) c = U6 m c := rfl

/-! ## The proof data family -/

/-- Every pipeline's proof data, each at its region's entry contents. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## Each region's arrays at its exit, and the buffers it leaves alone -/

/-- At region 0's exit each of its arrays holds what the pipeline leaves: an input as entered, the output its write-backs. -/
theorem hF0 (c : Dev nD) : ∀ w : Fin 4, (dat0 (E1 m) c).arrAt w cfg0.N = U2 m c (Pipeline.arrRef spec0 w)
  | 0 => ((dat0 (E1 m) c).arrAt_in 0 rfl _).trans ((A_eq0 (E1 m) c 0).trans
      (Function.update_of_ne (StableHlo.devRef_ne_of_ne (by decide) : (Proc.devRef .tc main_v0 : DevRef τ sig) ≠ Proc.devRef .tc main_v1) _ _).symm)
  | 1 => ((dat0 (E1 m) c).arrAt_in 1 rfl _).trans ((A_eq0 (E1 m) c 1).trans
      (Function.update_of_ne (StableHlo.devRef_ne_of_ne (by decide) : (Proc.devRef .tc main_arg1 : DevRef τ sig) ≠ Proc.devRef .tc main_v1) _ _).symm)
  | 2 => ((dat0 (E1 m) c).arrAt_in 2 rfl _).trans ((A_eq0 (E1 m) c 2).trans
      (Function.update_of_ne (StableHlo.devRef_ne_of_ne (by decide) : (Proc.devRef .tc main_arg2 : DevRef τ sig) ≠ Proc.devRef .tc main_v1) _ _).symm)
  | 3 => by
      have h1 : o2 m c (Proc.devRef .tc (Pipeline.arrRef spec0 3)) = (dat0 (E1 m) c).arrAt 3 cfg0.N := by
        unfold o2; exact Pipeline.withArrays_arr spec0 launch0.win.arr_inj c _ _ 3
      have h2 : U2 m c (Proc.devRef .tc main_v1) = o2 m c (Proc.devRef .tc main_v1) :=
        Function.update_self (Proc.devRef .tc main_v1 : DevRef τ sig) (o2 m c (Proc.devRef .tc main_v1)) (Gen.V1 m c)
      exact h1.symm.trans h2.symm
  | ⟨_ + 4, h⟩ => absurd h (Nat.not_lt.2 (Nat.le_add_left _ _))
/-- and every other buffer what it held at entry. -/
theorem hrest0 (c : Dev nD) : ∀ b : Ref sig .tc, b ∉ Finset.univ.image (Pipeline.arrRef spec0) → U2 m c b = E1 m c b :=
  fun b hb => Function.update_of_ne (StableHlo.devRef_ne_of_ne fun (e : b = main_v1) => hb (by rw [e]; exact Finset.mem_image.mpr ⟨3, Finset.mem_univ _, rfl⟩)) _ _

/-- At region 1's exit each of its arrays holds what the pipeline leaves: an input as entered, the output its write-backs. -/
theorem hF1 (c : Dev nD) : ∀ w : Fin 4, (dat1 (E3 m) c).arrAt w cfg1.N = U4 m c (Pipeline.arrRef spec1 w)
  | 0 => ((dat1 (E3 m) c).arrAt_in 0 rfl _).trans ((A_eq1 (E3 m) c 0).trans
      (Function.update_of_ne (StableHlo.devRef_ne_of_ne (by decide) : (Proc.devRef .tc main_v2 : DevRef τ sig) ≠ Proc.devRef .tc main_v3) _ _).symm)
  | 1 => ((dat1 (E3 m) c).arrAt_in 1 rfl _).trans ((A_eq1 (E3 m) c 1).trans
      (Function.update_of_ne (StableHlo.devRef_ne_of_ne (by decide) : (Proc.devRef .tc main_arg3 : DevRef τ sig) ≠ Proc.devRef .tc main_v3) _ _).symm)
  | 2 => ((dat1 (E3 m) c).arrAt_in 2 rfl _).trans ((A_eq1 (E3 m) c 2).trans
      (Function.update_of_ne (StableHlo.devRef_ne_of_ne (by decide) : (Proc.devRef .tc main_arg4 : DevRef τ sig) ≠ Proc.devRef .tc main_v3) _ _).symm)
  | 3 => by
      have h1 : o4 m c (Proc.devRef .tc (Pipeline.arrRef spec1 3)) = (dat1 (E3 m) c).arrAt 3 cfg1.N := by
        unfold o4; exact Pipeline.withArrays_arr spec1 launch1.win.arr_inj c _ _ 3
      have h2 : U4 m c (Proc.devRef .tc main_v3) = o4 m c (Proc.devRef .tc main_v3) :=
        Function.update_self (Proc.devRef .tc main_v3 : DevRef τ sig) (o4 m c (Proc.devRef .tc main_v3)) (U3 m c)
      exact h1.symm.trans h2.symm
  | ⟨_ + 4, h⟩ => absurd h (Nat.not_lt.2 (Nat.le_add_left _ _))
/-- and every other buffer what it held at entry. -/
theorem hrest1 (c : Dev nD) : ∀ b : Ref sig .tc, b ∉ Finset.univ.image (Pipeline.arrRef spec1) → U4 m c b = E3 m c b :=
  fun b hb => Function.update_of_ne (StableHlo.devRef_ne_of_ne fun (e : b = main_v3) => hb (by rw [e]; exact Finset.mem_image.mpr ⟨3, Finset.mem_univ _, rfl⟩)) _ _

/-- At region 2's exit each of its arrays holds what the pipeline leaves: an input as entered, the output its write-backs. -/
theorem hF2 (c : Dev nD) : ∀ w : Fin 6, (dat2 (E5 m) c).arrAt w cfg2.N = U6 m c (Pipeline.arrRef spec2 w)
  | 0 => ((dat2 (E5 m) c).arrAt_in 0 rfl _).trans ((A_eq2 (E5 m) c 0).trans
      (Function.update_of_ne (StableHlo.devRef_ne_of_ne (by decide) : (Proc.devRef .tc main_v4 : DevRef τ sig) ≠ Proc.devRef .tc main_v5) _ _).symm)
  | 1 => ((dat2 (E5 m) c).arrAt_in 1 rfl _).trans ((A_eq2 (E5 m) c 1).trans
      (Function.update_of_ne (StableHlo.devRef_ne_of_ne (by decide) : (Proc.devRef .tc main_arg5 : DevRef τ sig) ≠ Proc.devRef .tc main_v5) _ _).symm)
  | 2 => ((dat2 (E5 m) c).arrAt_in 2 rfl _).trans ((A_eq2 (E5 m) c 2).trans
      (Function.update_of_ne (StableHlo.devRef_ne_of_ne (by decide) : (Proc.devRef .tc main_arg6 : DevRef τ sig) ≠ Proc.devRef .tc main_v5) _ _).symm)
  | 3 => ((dat2 (E5 m) c).arrAt_in 3 rfl _).trans ((A_eq2 (E5 m) c 3).trans
      (Function.update_of_ne (StableHlo.devRef_ne_of_ne (by decide) : (Proc.devRef .tc main_arg7 : DevRef τ sig) ≠ Proc.devRef .tc main_v5) _ _).symm)
  | 4 => ((dat2 (E5 m) c).arrAt_in 4 rfl _).trans ((A_eq2 (E5 m) c 4).trans
      (Function.update_of_ne (StableHlo.devRef_ne_of_ne (by decide) : (Proc.devRef .tc main_arg8 : DevRef τ sig) ≠ Proc.devRef .tc main_v5) _ _).symm)
  | 5 => by
      have h1 : o6 m c (Proc.devRef .tc (Pipeline.arrRef spec2 5)) = (dat2 (E5 m) c).arrAt 5 cfg2.N := by
        unfold o6; exact Pipeline.withArrays_arr spec2 launch2.win.arr_inj c _ _ 5
      have h2 : U6 m c (Proc.devRef .tc main_v5) = o6 m c (Proc.devRef .tc main_v5) :=
        Function.update_self (Proc.devRef .tc main_v5 : DevRef τ sig) (o6 m c (Proc.devRef .tc main_v5)) (U5 m c)
      exact h1.symm.trans h2.symm
  | ⟨_ + 6, h⟩ => absurd h (Nat.not_lt.2 (Nat.le_add_left _ _))
/-- and every other buffer what it held at entry. -/
theorem hrest2 (c : Dev nD) : ∀ b : Ref sig .tc, b ∉ Finset.univ.image (Pipeline.arrRef spec2) → U6 m c b = E5 m c b :=
  fun b hb => Function.update_of_ne (StableHlo.devRef_ne_of_ne fun (e : b = main_v5) => hb (by rw [e]; exact Finset.mem_image.mpr ⟨5, Finset.mem_univ _, rfl⟩)) _ _

/-! ## The regions as segments -/

set_option backward.isDefEq.respectTransparency.types false in
/-- Region 0 over the thread state: entered from every unscoped buffer at the contents before it, left at the contents
    after it; its arrays split out of the unscoped buffers and put back at the exit contents; the generator register into
    the invariant and out; nothing owed; no semaphore of the kernel's own. -/
def R0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at the exit contents; the generator register into
    the invariant and out; nothing owed; no semaphore of the kernel's own. -/
def R1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => U4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at the exit contents; the generator register into
    the invariant and out; nothing owed; no semaphore of the kernel's own. -/
def R2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    refine BIBase.Entails.trans (hout2 (E5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (fun b => U6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program from memory `m` with zero counters terminates without a fault, and every
    final memory holds each of the nine argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (emb₁ : Emb (URounds (GSem nD τ sig) Unit) 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := R0 m) (hpre0 := fun c => .rfl) (hpost0 := fun c => by rw [V2_eq]; exact .rfl)
    (R1 := R1 m) (hpre1 := fun c => by rw [V3_eq]; exact .rfl) (hpost1 := fun c => by rw [V4_eq]; exact .rfl)
    (R2 := R2 m) (hpre2 := fun c => by rw [V5_eq]; exact .rfl) (hpost2 := fun c => by rw [V6_eq]; exact .rfl)

end Cert.ReferenceIdeal.Hand

end
-- ==== Proof.ReferenceRun.lean ====
import proofs.«172427_g2000706451865267_pallasbulk_150_11_alg».proof.Proof.ReferenceFrame

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! # The run of the whole program, read at every unscoped buffer

The same composition of the three regions and the three host stretches as for the frame, its last thread state read against
the final memory at EVERY unscoped buffer: each holds the last valuation's contents. -/

set_option backward.isDefEq.respectTransparency.types false in
/-- Every weakly fair execution of the program from memory `m` with zero counters terminates without a fault, and every
    final memory holds, at every unscoped buffer of every core, the contents the last item leaves (`U6`). -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = U6 m c b) := by
  have hlast : ∀ c : Dev nD, (R2 m).post c ⊢ (iprop(StableHlo.held (c : Thread nD τ) (Pipeline.ucRefs τ sig) (U6 m c) ∗ ∃ W, owes (c : Thread nD τ) (0 : CellTallies nD τ sig Unit) W) : sProp 𝕄) := fun c => by
    show (iprop(StableHlo.held (c : Thread nD τ) (Pipeline.ucRefs τ sig) (U6 m c) ∗ Rr c) : sProp 𝕄) ⊢ _
    iintro ⟨Hh, -, HO⟩
    isplitl [Hh]; · iexact Hh
    iexact HO
  refine Pipeline.θ_run_regions_kit_dev (pcfgs (F := F)) Gen.adm (pdats m) () cellOf_inj
    (emb₁ : Emb (URounds (GSem nD τ sig) Unit) 𝕄) defs₀ 𝒱₀ L lv m ρ main
    (Gen.segs m (outs m) 𝒱₀ L lv (fun _ c => Rr c) () (pdats m) (R0 m) (R1 m) (R2 m))
    (fun c Q => by
      rewrite [Gen.main_chain c, Seg.run_eq_chain,
        show (Gen.segs m (outs m) 𝒱₀ L lv (fun _ c => Rr c) () (pdats m) (R0 m) (R1 m) (R2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (U6 m c))
    (hch := fun c => ⟨.rfl, .rfl, .rfl, .rfl, .rfl, .rfl, hlast c⟩)
    (hinit := ?_)
    (QY := fun c s => ∀ b ∈ Pipeline.ucRefs τ sig, s.mem (((c : Thread nD τ)).1, b) = U6 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact h
    · iexact HSI

/-- The run read at the program's result and its arguments: the result array at the last valuation's contents, every argument
    array as launched. -/
theorem value_run (ρ : Dev nD → PrngReg) :
    θ_run defs (onTc (τ := τ) (main (F := F))) ⟨m, fun _ => 0, ρ⟩ (fun r => ∀ c : Dev nD,
      r.2.mem ((c.tc : Thread nD τ).loc main_v5) = U6 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c (Proc.devRef .tc main_v5) (Finset.mem_filter.mpr ⟨StableHlo.devRef_mem_tcRefs main_v5, by decide⟩),
     (h c (Proc.devRef .tc main_arg0) (Finset.mem_filter.mpr ⟨StableHlo.devRef_mem_tcRefs main_arg0, by decide⟩)).trans (Gen.V6_main_arg0 m (outs m) c),
     (h c (Proc.devRef .tc main_arg1) (Finset.mem_filter.mpr ⟨StableHlo.devRef_mem_tcRefs main_arg1, by decide⟩)).trans (Gen.V6_main_arg1 m (outs m) c),
     (h c (Proc.devRef .tc main_arg2) (Finset.mem_filter.mpr ⟨StableHlo.devRef_mem_tcRefs main_arg2, by decide⟩)).trans (Gen.V6_main_arg2 m (outs m) c),
     (h c (Proc.devRef .tc main_arg3) (Finset.mem_filter.mpr ⟨StableHlo.devRef_mem_tcRefs main_arg3, by decide⟩)).trans (Gen.V6_main_arg3 m (outs m) c),
     (h c (Proc.devRef .tc main_arg4) (Finset.mem_filter.mpr ⟨StableHlo.devRef_mem_tcRefs main_arg4, by decide⟩)).trans (Gen.V6_main_arg4 m (outs m) c),
     (h c (Proc.devRef .tc main_arg5) (Finset.mem_filter.mpr ⟨StableHlo.devRef_mem_tcRefs main_arg5, by decide⟩)).trans (Gen.V6_main_arg5 m (outs m) c),
     (h c (Proc.devRef .tc main_arg6) (Finset.mem_filter.mpr ⟨StableHlo.devRef_mem_tcRefs main_arg6, by decide⟩)).trans (Gen.V6_main_arg6 m (outs m) c),
     (h c (Proc.devRef .tc main_arg7) (Finset.mem_filter.mpr ⟨StableHlo.devRef_mem_tcRefs main_arg7, by decide⟩)).trans (Gen.V6_main_arg7 m (outs m) c),
     (h c (Proc.devRef .tc main_arg8) (Finset.mem_filter.mpr ⟨StableHlo.devRef_mem_tcRefs main_arg8, by decide⟩)).trans (Gen.V6_main_arg8 m (outs m) c)⟩)
    (run_main m ρ)

/-- The run read at the program's result and its arguments: the result array holds what the last region's write-back leaves
    in its output array, and every argument array ends as launched. -/
theorem run_result (ρ : Dev nD → PrngReg) :
    θ_run defs (onTc (τ := τ) (main (F := F))) ⟨m, fun _ => 0, ρ⟩ (fun r => ∀ c : Dev nD,
      r.2.mem ((c.tc : Thread nD τ).loc main_v5) = (dat2 (E5 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c (Proc.devRef .tc main_v5) (Finset.mem_filter.mpr ⟨StableHlo.devRef_mem_tcRefs main_v5, by decide⟩)).trans (hF2 m c 5).symm,
     (h c (Proc.devRef .tc main_arg0) (Finset.mem_filter.mpr ⟨StableHlo.devRef_mem_tcRefs main_arg0, by decide⟩)).trans (Gen.V6_main_arg0 m (outs m) c),
     (h c (Proc.devRef .tc main_arg1) (Finset.mem_filter.mpr ⟨StableHlo.devRef_mem_tcRefs main_arg1, by decide⟩)).trans (Gen.V6_main_arg1 m (outs m) c),
     (h c (Proc.devRef .tc main_arg2) (Finset.mem_filter.mpr ⟨StableHlo.devRef_mem_tcRefs main_arg2, by decide⟩)).trans (Gen.V6_main_arg2 m (outs m) c),
     (h c (Proc.devRef .tc main_arg3) (Finset.mem_filter.mpr ⟨StableHlo.devRef_mem_tcRefs main_arg3, by decide⟩)).trans (Gen.V6_main_arg3 m (outs m) c),
     (h c (Proc.devRef .tc main_arg4) (Finset.mem_filter.mpr ⟨StableHlo.devRef_mem_tcRefs main_arg4, by decide⟩)).trans (Gen.V6_main_arg4 m (outs m) c),
     (h c (Proc.devRef .tc main_arg5) (Finset.mem_filter.mpr ⟨StableHlo.devRef_mem_tcRefs main_arg5, by decide⟩)).trans (Gen.V6_main_arg5 m (outs m) c),
     (h c (Proc.devRef .tc main_arg6) (Finset.mem_filter.mpr ⟨StableHlo.devRef_mem_tcRefs main_arg6, by decide⟩)).trans (Gen.V6_main_arg6 m (outs m) c),
     (h c (Proc.devRef .tc main_arg7) (Finset.mem_filter.mpr ⟨StableHlo.devRef_mem_tcRefs main_arg7, by decide⟩)).trans (Gen.V6_main_arg7 m (outs m) c),
     (h c (Proc.devRef .tc main_arg8) (Finset.mem_filter.mpr ⟨StableHlo.devRef_mem_tcRefs main_arg8, by decide⟩)).trans (Gen.V6_main_arg8 m (outs m) c)⟩)
    (run_main m ρ)

end Cert.ReferenceIdeal.Hand

end
-- ==== Proof.NetSpec.lean ====
/-
  The network both programs compute, as one function of the nine argument arrays over the extended reals.

  Five stages, each stated for ONE sample as a function of the stage before it:
  * `conv1Of`  — a 5×5 convolution of the 32×32 image with one input channel, written as the banded product the
    arguments are laid out for: output row `h` (of 28) and lane `l = wo·32 + co` (of 896) is
    `max (∑ kh < 5, ∑ w < 32, x[h+kh, w] · Wb[kh, w, l] + b1[l]) 0`;
  * `conv2Of`  — a 5×5 convolution from 32 to 64 channels over the 28×28 map read out of the lanes
    (`lane = w·32 + ci`), rectified: `max (∑ kh, kw < 5, ∑ ci < 32, y1[h+kh, (w+kw)·32 + ci] · w2[kh·5+kw, ci, co] + b2[co]) 0`;
  * `poolOf`   — the 5×5 window maximum at stride one, 24×24 → 20×20;
  * `fc1Of`    — the dense layer over the 25 600 pooled features in the order `h·1280 + w·64 + co`, rectified;
  * `logitsOf` and `softmaxRow` — the last dense layer and the row softmax shifted by the row maximum.
  `net` composes them for sample `n`.
-/
import Idealize.ShloMosaic.PureOps.Ideal

noncomputable section

namespace Cert.NetSpec

open Idealize.ShloMosaic

/-- Row `h + k` of a 32-row image, for an output row `h < 28` and a tap `k < 5`. -/
def row32 (h : Fin 28) (k : Fin 5) : Fin 32 := ⟨h.val + k.val, by omega⟩
/-- Row `h + k` of the 28-row map, for an output row `h < 24` and a tap `k < 5`. -/
def row28 (h : Fin 24) (k : Fin 5) : Fin 28 := ⟨h.val + k.val, by omega⟩
/-- Row `h + k` of the 24-row map, for an output row `h < 20` and a window offset `k < 5`. -/
def row24 (h : Fin 20) (k : Fin 5) : Fin 24 := ⟨h.val + k.val, by omega⟩
/-- The lane `w·32 + ci` of the first map that holds column `w < 28`, channel `ci < 32`. -/
def lane (w : Fin 28) (ci : Fin 32) : Fin 896 := ⟨w.val * 32 + ci.val, by omega⟩
/-- The tap number `kh·5 + kw` of the second convolution's weights. -/
def tap (kh kw : Fin 5) : Fin 25 := ⟨kh.val * 5 + kw.val, by omega⟩
/-- The feature number `h·1280 + w·64 + co` of a pooled entry. -/
def feat (h w : Fin 20) (co : Fin 64) : Fin 25600 := ⟨h.val * 1280 + w.val * 64 + co.val, by omega⟩

/-- The first convolution of one image, rectified, in its lane layout. -/
def conv1Of (x : Fin 32 → Fin 32 → EReal) (Wb : Fin 5 → Fin 32 → Fin 896 → EReal) (b1 : Fin 896 → EReal)
    (h : Fin 28) (l : Fin 896) : EReal :=
  max ((∑ kh : Fin 5, ∑ w : Fin 32, x (row32 h kh) w * Wb kh w l) + b1 l) 0

/-- The second convolution of one sample's first map, rectified. -/
def conv2Of (y1 : Fin 28 → Fin 896 → EReal) (w2 : Fin 25 → Fin 32 → Fin 64 → EReal) (b2 : Fin 64 → EReal)
    (h w : Fin 24) (co : Fin 64) : EReal :=
  max ((∑ kh : Fin 5, ∑ kw : Fin 5, ∑ ci : Fin 32,
      y1 (row28 h kh) (lane (row28 w kw) ci) * w2 (tap kh kw) ci co) + b2 co) 0

/-- The 5×5 window maximum at stride one of one sample's second map. -/
def poolOf (y2 : Fin 24 → Fin 24 → Fin 64 → EReal) (h w : Fin 20) (co : Fin 64) : EReal :=
  Finset.univ.sup fun d : Fin 5 × Fin 5 => y2 (row24 h d.1) (row24 w d.2) co

/-- The first dense layer of one sample's pooled map, rectified. -/
def fc1Of (p : Fin 20 → Fin 20 → Fin 64 → EReal) (wl1 : Fin 25600 → Fin 128 → EReal) (bl1 : Fin 128 → EReal)
    (f : Fin 128) : EReal :=
  max ((∑ h : Fin 20, ∑ w : Fin 20, ∑ co : Fin 64, p h w co * wl1 (feat h w co) f) + bl1 f) 0

/-- The last dense layer of one sample's hidden vector. -/
def logitsOf (a : Fin 128 → EReal) (wl2 : Fin 128 → Fin 10 → EReal) (bl2 : Fin 10 → EReal) (k : Fin 10) : EReal :=
  (∑ f : Fin 128, a f * wl2 f k) + bl2 k

/-- The softmax of a row of ten extended reals, shifted by the row's maximum. -/
def softmaxRow (z : Fin 10 → EReal) (k : Fin 10) : EReal :=
  Ideal.div (Ideal.exp (z k - Finset.univ.sup z)) (∑ k' : Fin 10, Ideal.exp (z k' - Finset.univ.sup z))

variable (x : Fin 1024 → Fin 32 → Fin 32 → EReal) (Wb : Fin 5 → Fin 32 → Fin 896 → EReal) (b1 : Fin 896 → EReal)
  (w2 : Fin 25 → Fin 32 → Fin 64 → EReal) (b2 : Fin 64 → EReal)
  (wl1 : Fin 25600 → Fin 128 → EReal) (bl1 : Fin 128 → EReal) (wl2 : Fin 128 → Fin 10 → EReal) (bl2 : Fin 10 → EReal)

/-- Sample `n`'s first map. -/
def conv1 (n : Fin 1024) : Fin 28 → Fin 896 → EReal := conv1Of (x n) Wb b1
/-- Sample `n`'s second map. -/
def conv2 (n : Fin 1024) : Fin 24 → Fin 24 → Fin 64 → EReal := conv2Of (conv1 x Wb b1 n) w2 b2
/-- Sample `n`'s pooled map. -/
def pool (n : Fin 1024) : Fin 20 → Fin 20 → Fin 64 → EReal := poolOf (conv2 x Wb b1 w2 b2 n)
/-- Sample `n`'s hidden vector. -/
def fc1 (n : Fin 1024) : Fin 128 → EReal := fc1Of (pool x Wb b1 w2 b2 n) wl1 bl1
/-- Sample `n`'s logits. -/
def logits (n : Fin 1024) : Fin 10 → EReal := logitsOf (fc1 x Wb b1 w2 b2 wl1 bl1 n) wl2 bl2
/-- The network: the softmax of each sample's logits. -/
def net (n : Fin 1024) (k : Fin 10) : EReal := softmaxRow (logits x Wb b1 w2 b2 wl1 bl1 wl2 bl2 n) k

end Cert.NetSpec

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibSpreadRead.lean ====
/-
  A column spread across the columns and a row spread down the rows, read at one entry.

  * A column `[m, 1]` repeated across `n` columns holds at `(p, c)` the column's entry `p`: the value depends on
    the row only. Said here for the vector unit's broadcast.
  * A row `[1, n]` repeated down `m` rows holds at `(p, c)` the row's entry `c`: the value depends on the column
    only. Said for the vector unit's broadcast and for the host's `broadcast_in_dim`.
  * The pair of offsets `(0, 0)` is the zero function on two axes.
-/
import Idealize.ShloMosaic.Lib.ValueIdx
import Idealize.ShloMosaic.Lib.Pipeline.Value

noncomputable section

namespace Idealize.ShloMosaic.SpreadRead

open Idealize.ShloMosaic Idealize.ShloMosaic.ValueIdx

variable {α : Type} {m n : Nat}

/-- The offsets `(0, 0)` are zero on both axes. -/
theorem pair_zero : (![0, 0] : Fin 2 → Nat) = fun _ => 0 := funext fun a => by fin_cases a <;> rfl

/-- The vector unit's broadcast of a column across the columns, at `(p, c)`: the column's entry `p`. -/
theorem columnAcross_apply (x : (⟨2, ![m, 1]⟩ : Shape).Idx → α)
    (h : (⟨2, ![m, 1]⟩ : Shape).Broadcasts ⟨2, ![m, n]⟩) (p : Fin m) (c : Fin n) :
    broadcastTo ⟨2, ![m, n]⟩ x h (ix2 p c) = x (ix2 p (0 : Fin 1)) :=
  broadcastTo_apply x h (ix2 p c) (ix2 p (0 : Fin 1)) (fun a => by
    match a with
    | ⟨0, _⟩ =>
      show p.val = if m = 1 then 0 else p.val
      split
      · have := p.isLt; omega
      · rfl
    | ⟨1, _⟩ => show 0 = if (1 : Nat) = 1 then 0 else c.val; rw [if_pos rfl])

/-- The vector unit's broadcast of a row down the rows, at `(p, c)`: the row's entry `c`. -/
theorem rowDown_apply (x : (⟨2, ![1, n]⟩ : Shape).Idx → α)
    (h : (⟨2, ![1, n]⟩ : Shape).Broadcasts ⟨2, ![m, n]⟩) (p : Fin m) (c : Fin n) :
    broadcastTo ⟨2, ![m, n]⟩ x h (ix2 p c) = x (ix2 (0 : Fin 1) c) :=
  broadcastTo_apply x h (ix2 p c) (ix2 (0 : Fin 1) c) (fun a => by
    match a with
    | ⟨0, _⟩ => show 0 = if (1 : Nat) = 1 then 0 else p.val; rw [if_pos rfl]
    | ⟨1, _⟩ =>
      show c.val = if n = 1 then 0 else c.val
      split
      · have := c.isLt; omega
      · rfl)

/-- The host's `broadcast_in_dim` of a row down the rows, at `(p, c)`: the row's entry `c`. -/
theorem rowRows_apply (x : (⟨2, ![1, n]⟩ : Shape).Idx → α)
    (h : (⟨2, ![1, n]⟩ : Shape).BroadcastsInDim ⟨2, ![m, n]⟩ (![0, 1] : Fin 2 → Fin 2)) (p : Fin m) (c : Fin n) :
    broadcastInDim ⟨2, ![m, n]⟩ ![0, 1] h x (ix2 p c) = x (ix2 (0 : Fin 1) c) :=
  broadcastInDim_apply _ h x (ix2 p c) (ix2 (0 : Fin 1) c) (fun a => by
    match a with
    | ⟨0, _⟩ => show 0 = if (1 : Nat) = 1 then 0 else p.val; rw [if_pos rfl]
    | ⟨1, _⟩ =>
      show c.val = if n = 1 then 0 else c.val
      split
      · have := c.isLt; omega
      · rfl)

end Idealize.ShloMosaic.SpreadRead

end
-- ==== Proof.RConv1.lean ====
/-
  The reference's first convolution kernel, read at an entry.

  The kernel takes one 32 × 32 image. For each of the five row taps `kh` it multiplies rows `kh … kh + 27` of the image
  (a 28 × 32 slice) by the banded weight slab `Wb[kh]` (32 × 896) and adds the five products up, starting from zero; it
  then adds the bias row and rectifies. So entry `(h, l)` of what it stores is
  `max (∑ kh < 5, ∑ w < 32, x[h + kh, w] · Wb[kh, w, l] + b[l]) 0`.
-/
import proofs.«172427_g2000706451865267_pallasbulk_150_11_alg».proof.Proof.Gen.ReferenceIdeal.Skeleton
import proofs.«172427_g2000706451865267_pallasbulk_150_11_alg».proof.Proof.NetSpec
import proofs.«172427_g2000706451865267_pallasbulk_150_11_alg».proof.Proof.LibPlainMatmul
import proofs.«172427_g2000706451865267_pallasbulk_150_11_alg».proof.Proof.LibSpreadRead
import Idealize.ShloMosaic.Lib.ValueIdx
import Idealize.ShloMosaic.Lib.Pipeline.Value
import Idealize.ShloMosaic.PureOps.Ideal.Laws

noncomputable section

namespace Cert.ReferenceIdeal.Conv1

open Idealize.ShloMosaic Idealize.ShloMosaic.ValueIdx Cert.ReferenceIdeal Cert.ReferenceIdeal.Gen Cert.NetSpec

/-- The image without its leading unit axis: entry `(r, w)` is entry `(0, r, w)` of the block. -/
theorem image_apply {α : Type} (u : S1x32x32.Idx → α) (r w : Fin 32) :
    shapeCast S32x32 u shapeCasts_S1x32x32_S32x32 (ix2 r w) = u (ix3 (0 : Fin 1) r w) :=
  shapeCast_apply u _ _ (ix3 (0 : Fin 1) r w) (by
    rw [Shape.rowMajor_val_three, Shape.rowMajor_val_two]
    show (0 * 32 + r.val) * 32 + w.val = r.val * 32 + w.val
    omega)

/-- A weight slab without its leading unit axis: entry `(w, l)` is entry `(0, w, l)` of the block. -/
theorem slab_apply {α : Type} (u : S1x32x896.Idx → α) (w : Fin 32) (l : Fin 896) :
    shapeCast S32x896 u shapeCasts_S1x32x896_S32x896 (ix2 w l) = u (ix3 (0 : Fin 1) w l) :=
  shapeCast_apply u _ _ (ix3 (0 : Fin 1) w l) (by
    rw [Shape.rowMajor_val_three, Shape.rowMajor_val_two]
    show (0 * 32 + w.val) * 896 + l.val = w.val * 896 + l.val
    omega)

/-- The stored block: entry `(0, h, l)` is entry `(h, l)` of the 28 × 896 result. -/
theorem block_apply {α : Type} (u : S28x896.Idx → α) (h : Fin 28) (l : Fin 896) :
    shapeCast S1x28x896 u shapeCasts_S28x896_S1x28x896 (ix3 (0 : Fin 1) h l) = u (ix2 h l) :=
  shapeCast_apply u _ _ (ix2 h l) (by
    rw [Shape.rowMajor_val_three, Shape.rowMajor_val_two]
    show h.val * 896 + l.val = (0 * 28 + h.val) * 896 + l.val
    omega)

/-- Rows `kh … kh + 27` of the image: entry `(h, w)` of the slice is entry `(h + kh, w)`. -/
theorem rows_apply {α : Type} (u : S32x32.Idx → α) (o : Fin 2 → Nat) (hs : S32x32.Slices o S28x32) (kh : Fin 5)
    (h0 : o 0 = kh.val) (h1 : o 1 = 0) (h : Fin 28) (w : Fin 32) :
    extractStridedSlice S28x32 o u hs (ix2 h w) = u (ix2 (row32 h kh) w) :=
  extractStridedSlice_apply o u hs (ix2 h w) (ix2 (row32 h kh) w) fun a => by
    match a with
    | ⟨0, _⟩ => show h.val + kh.val = o 0 + h.val; omega
    | ⟨1, _⟩ => show w.val = o 1 + w.val; omega

/-- One tap's product: the image rows from offset `o` down, times one weight slab, into the zero accumulator. -/
def tapProd (v0 : Vec Ideal S1x32x32 .f32) (vk : Vec Ideal S1x32x896 .f32) (o : Fin 2 → Nat) (hs : S32x32.Slices o S28x32) :
    FVec Ideal S28x896 .f32 :=
  matmul dot_S28x32_S32x896_S28x896_1_0_0_1_n_n none
    (extractStridedSlice S28x32 o (shapeCast S32x32 v0 shapeCasts_S1x32x32_S32x32 : FVec Ideal S32x32 .f32) hs)
    (shapeCast S32x896 vk shapeCasts_S1x32x896_S32x896 : FVec Ideal S32x896 .f32) (constant S28x896 .f32 0x00000000#32)

/-- Tap `kh`'s product at `(h, l)`: `∑ w, x[h + kh, w] · Wb[kh, w, l]`. -/
theorem tapProd_apply (v0 : Vec Ideal S1x32x32 .f32) (vk : Vec Ideal S1x32x896 .f32) (o : Fin 2 → Nat)
    (hs : S32x32.Slices o S28x32) (kh : Fin 5) (h0 : o 0 = kh.val) (h1 : o 1 = 0) (h : Fin 28) (l : Fin 896) :
    tapProd v0 vk o hs (ix2 h l) = ∑ w : Fin 32, v0 (ix3 (0 : Fin 1) (row32 h kh) w) * vk (ix3 (0 : Fin 1) w l) := by
  unfold tapProd
  refine (PlainMatmul.matmul_zero_apply (m := 28) (k := 32) (n := 896) none _ _ h l).trans ?_
  refine Finset.sum_congr rfl fun w _ => ?_
  rw [rows_apply _ o hs kh h0 h1, image_apply, slab_apply]

/-- The stored value as one composed term: the five products added up from zero, plus the bias row, rectified. -/
theorem pay_eq (v0 : Vec Ideal S1x32x32 .f32) (v4 v9 v14 v19 v24 : Vec Ideal S1x32x896 .f32) (v28 : Vec Ideal S1x896 .f32) :
    k0_pay1 (F := Ideal) (k0_pay2 v0 v4 v9 v14 v19 v24 v28) k0_pay3
      = shapeCast S1x28x896
          (maximumf
            (addf
              (addf (addf (addf (addf (addf (broadcast S28x896 (Scalar.ofBits .f32 0x00000000#32))
                (tapProd v0 v4 ![0, 0] slices_S32x32_o0_0_S28x32))
                (tapProd v0 v9 ![1, 0] slices_S32x32_o1_0_S28x32))
                (tapProd v0 v14 ![2, 0] slices_S32x32_o2_0_S28x32))
                (tapProd v0 v19 ![3, 0] slices_S32x32_o3_0_S28x32))
                (tapProd v0 v24 ![4, 0] slices_S32x32_o4_0_S28x32))
              (broadcastTo S28x896 v28 broadcasts_S1x896_S28x896))
            (broadcast S28x896 (Scalar.ofBits .f32 0x00000000#32)))
          shapeCasts_S28x896_S1x28x896 := rfl

/-- **The first kernel's stored block at `(0, h, l)`** is the first convolution of the loaded image with the loaded
    weight slabs and bias row, rectified. -/
theorem out_apply (v0 : Vec Ideal S1x32x32 .f32) (v4 v9 v14 v19 v24 : Vec Ideal S1x32x896 .f32) (v28 : Vec Ideal S1x896 .f32)
    (x : Fin 32 → Fin 32 → EReal) (Wb : Fin 5 → Fin 32 → Fin 896 → EReal) (b1 : Fin 896 → EReal)
    (hx : ∀ r w, v0 (ix3 (0 : Fin 1) r w) = x r w)
    (hW0 : ∀ w l, v4 (ix3 (0 : Fin 1) w l) = Wb 0 w l) (hW1 : ∀ w l, v9 (ix3 (0 : Fin 1) w l) = Wb 1 w l)
    (hW2 : ∀ w l, v14 (ix3 (0 : Fin 1) w l) = Wb 2 w l) (hW3 : ∀ w l, v19 (ix3 (0 : Fin 1) w l) = Wb 3 w l)
    (hW4 : ∀ w l, v24 (ix3 (0 : Fin 1) w l) = Wb 4 w l)
    (hb : ∀ l, v28 (ix2 (0 : Fin 1) l) = b1 l) (h : Fin 28) (l : Fin 896) :
    Gen.k0_pay1 (F := Ideal) (Gen.k0_pay2 v0 v4 v9 v14 v19 v24 v28) Gen.k0_pay3 (ix3 (0 : Fin 1) h l)
      = Cert.NetSpec.conv1Of x Wb b1 h l := by
  rw [pay_eq, block_apply]
  show max ((((((Ideal.ofBits .f32 0x00000000#32
      + tapProd v0 v4 ![0, 0] slices_S32x32_o0_0_S28x32 (ix2 h l))
      + tapProd v0 v9 ![1, 0] slices_S32x32_o1_0_S28x32 (ix2 h l))
      + tapProd v0 v14 ![2, 0] slices_S32x32_o2_0_S28x32 (ix2 h l))
      + tapProd v0 v19 ![3, 0] slices_S32x32_o3_0_S28x32 (ix2 h l))
      + tapProd v0 v24 ![4, 0] slices_S32x32_o4_0_S28x32 (ix2 h l))
      + broadcastTo S28x896 v28 broadcasts_S1x896_S28x896 (ix2 h l)) (Ideal.ofBits .f32 0x00000000#32) = _
  rw [Ideal.ofBits_zero_f32, SpreadRead.rowDown_apply, zero_add,
    tapProd_apply v0 v4 _ _ (0 : Fin 5) rfl rfl, tapProd_apply v0 v9 _ _ (1 : Fin 5) rfl rfl,
    tapProd_apply v0 v14 _ _ (2 : Fin 5) rfl rfl, tapProd_apply v0 v19 _ _ (3 : Fin 5) rfl rfl,
    tapProd_apply v0 v24 _ _ (4 : Fin 5) rfl rfl]
  unfold conv1Of
  rw [Fin.sum_univ_five]
  simp only [hx, hW0, hW1, hW2, hW3, hW4, hb]

end Cert.ReferenceIdeal.Conv1

end
-- ==== Proof.NetArgs.lean ====
/-
  The network as a function of the nine argument ARRAYS (as the programs hold them: extended reals indexed by
  shape indices), the common target of both programs' value legs.
-/
import proofs.«172427_g2000706451865267_pallasbulk_150_11_alg».proof.Proof.NetSpec
import Idealize.ShloMosaic.Lib.ValueIdx

noncomputable section

namespace Cert.NetSpec

open Idealize.ShloMosaic Idealize.ShloMosaic.ValueIdx

/-- The images `[1024, 1, 32, 32]` by sample, row, column. -/
def argX (A0 : (⟨4, ![1024, 1, 32, 32]⟩ : Shape).Idx → EReal) (n : Fin 1024) (h w : Fin 32) : EReal := A0 (ix4 n (0 : Fin 1) h w)
/-- The banded first-layer weights `[5, 32, 896]`. -/
def argWb (A1 : (⟨3, ![5, 32, 896]⟩ : Shape).Idx → EReal) (kh : Fin 5) (w : Fin 32) (l : Fin 896) : EReal := A1 (ix3 kh w l)
/-- The first bias row `[1, 896]`. -/
def argB1 (A2 : (⟨2, ![1, 896]⟩ : Shape).Idx → EReal) (l : Fin 896) : EReal := A2 (ix2 (0 : Fin 1) l)
/-- The second-layer taps `[25, 32, 64]`. -/
def argW2 (A3 : (⟨3, ![25, 32, 64]⟩ : Shape).Idx → EReal) (t : Fin 25) (ci : Fin 32) (co : Fin 64) : EReal := A3 (ix3 t ci co)
/-- The second bias row `[1, 64]`. -/
def argB2 (A4 : (⟨2, ![1, 64]⟩ : Shape).Idx → EReal) (co : Fin 64) : EReal := A4 (ix2 (0 : Fin 1) co)
/-- The first dense layer's weights `[25600, 128]`. -/
def argWl1 (A5 : (⟨2, ![25600, 128]⟩ : Shape).Idx → EReal) (j : Fin 25600) (f : Fin 128) : EReal := A5 (ix2 j f)
/-- Its bias row `[1, 128]`. -/
def argBl1 (A6 : (⟨2, ![1, 128]⟩ : Shape).Idx → EReal) (f : Fin 128) : EReal := A6 (ix2 (0 : Fin 1) f)
/-- The last dense layer's weights `[128, 10]`. -/
def argWl2 (A7 : (⟨2, ![128, 10]⟩ : Shape).Idx → EReal) (f : Fin 128) (k : Fin 10) : EReal := A7 (ix2 f k)
/-- Its bias row `[1, 10]`. -/
def argBl2 (A8 : (⟨2, ![1, 10]⟩ : Shape).Idx → EReal) (k : Fin 10) : EReal := A8 (ix2 (0 : Fin 1) k)

/-- The result array `[1024, 10]` as a function of the nine argument arrays. -/
def netOf (A0 : (⟨4, ![1024, 1, 32, 32]⟩ : Shape).Idx → EReal) (A1 : (⟨3, ![5, 32, 896]⟩ : Shape).Idx → EReal)
    (A2 : (⟨2, ![1, 896]⟩ : Shape).Idx → EReal) (A3 : (⟨3, ![25, 32, 64]⟩ : Shape).Idx → EReal)
    (A4 : (⟨2, ![1, 64]⟩ : Shape).Idx → EReal) (A5 : (⟨2, ![25600, 128]⟩ : Shape).Idx → EReal)
    (A6 : (⟨2, ![1, 128]⟩ : Shape).Idx → EReal) (A7 : (⟨2, ![128, 10]⟩ : Shape).Idx → EReal)
    (A8 : (⟨2, ![1, 10]⟩ : Shape).Idx → EReal) : (⟨2, ![1024, 10]⟩ : Shape).Idx → EReal :=
  fun i => net (argX A0) (argWb A1) (argB1 A2) (argW2 A3) (argB2 A4) (argWl1 A5) (argBl1 A6) (argWl2 A7) (argBl2 A8) (i 0) (i 1)

end Cert.NetSpec

end
-- ==== Proof.ReferenceVal1.lean ====
import proofs.«172427_g2000706451865267_pallasbulk_150_11_alg».proof.Proof.ReferenceRun
import Idealize.ShloMosaic.Lib.Pipeline.Value
import proofs.«172427_g2000706451865267_pallasbulk_150_11_alg».proof.Proof.RConv1
import proofs.«172427_g2000706451865267_pallasbulk_150_11_alg».proof.Proof.NetArgs
import Idealize.ShloMosaic.Lib.StableHlo.Run
import Idealize.ShloMosaic.Lib.ValueIdx

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # What region 0 leaves in its output array, entry by entry -/

theorem hz3 : (![0, 0, 0] : Fin 3 → Nat) = fun _ => 0 := funext fun a => by fin_cases a <;> rfl
theorem hz2 : (![0, 0] : Fin 2 → Nat) = fun _ => 0 := funext fun a => by fin_cases a <;> rfl

/-- The one store of the body: the rectified sum of the five banded products and the bias row, of the loaded image, the five
    slabs of the banded weights and the bias row. -/
theorem out0_3_eq (c : Dev nD) (i : grid0.Coords) (arg1 : Memref sig .tc .vmem S1x32x32 .f32) (harg1 : arg1.IsWhole) (arg2 : Memref sig .tc .vmem S5x32x896 .f32) (harg2 : arg2.IsWhole) (arg3 : Memref sig .tc .vmem S1x896 .f32) (harg3 : arg3.IsWhole) (arg4 : Memref sig .tc .vmem S1x28x896 .f32) (harg4 : arg4.IsWhole)
    (x0 : Vec F S1x32x32 .f32) (x1 : Vec F S5x32x896 .f32) (x2 : Vec F S1x896 .f32) :
    out0_3 c i arg1 harg1 arg2 harg2 arg3 harg3 arg4 harg4 x0 x1 x2
      = k0_pay1 (k0_pay2 x0 (View.ld x1 (Rect.unit (s := S5x32x896) ![0, 0, 0] S1x32x896.size inb_S5x32x896_S1x32x896_0_0_0)) (View.ld x1 (Rect.unit (s := S5x32x896) ![1, 0, 0] S1x32x896.size inb_S5x32x896_S1x32x896_1_0_0)) (View.ld x1 (Rect.unit (s := S5x32x896) ![2, 0, 0] S1x32x896.size inb_S5x32x896_S1x32x896_2_0_0)) (View.ld x1 (Rect.unit (s := S5x32x896) ![3, 0, 0] S1x32x896.size inb_S5x32x896_S1x32x896_3_0_0)) (View.ld x1 (Rect.unit (s := S5x32x896) ![4, 0, 0] S1x32x896.size inb_S5x32x896_S1x32x896_4_0_0)) x2) k0_pay3 := by
  unfold out0_3
  rw [View.read_writes_eq_canon _ _ _ (cover0_3 c i arg1 harg1 arg2 harg2 arg3 harg3 arg4 harg4 x0 x1 x2)]
  unfold kernelRun0
  dsimp only
  try sl_unfold_words
  rw [View.canon_unit_zero hz3]
  simp only [View.readAt_eq_ld, harg1.read_unread, harg2.read_unread, harg3.read_unread,
    View.ld_unit_zero (S := S1x32x32) hz3, View.ld_unit_zero (S := S1x896) hz2]

/-- The printed index maps over the grid: the image and the output move with the point on the leading axis; the weights and
    the bias stay. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

section Blocks

variable (V : (c : Dev nD) → (b : Ref sig .tc) → Buf (Elt F) ((c : Thread nD τ).loc b))

/-- The image block at point `t` is sample `t` of the image array. -/
theorem iblk0_0_apply (c : Dev nD) (t : Fin cfg0.N) (y : S1x32x32.Idx) (k : S1024x32x32.Idx)
    (hk0 : (k 0).val = t.val) (hk1 : (k 1).val = (y 1).val) (hk2 : (k 2).val = (y 2).val) :
    (iblk0 V c 0 t : Vec F S1x32x32 .f32) y = (V c main_v0 : S1024x32x32.Idx → Elt F .f32) k := by
  obtain ⟨e0, e1, e2, -⟩ := idx_facts0 t
  unfold iblk0
  rw [View.read_apply]
  show V c main_v0 _ = V c main_v0 _
  congr 1
  funext a
  apply Fin.ext
  have hy0 : (y 0).val < 1 := (y 0).isLt
  match a with
  | ⟨0, _⟩ => show win0_0.index t 0 * 1 + 1 * (y 0).val = (k 0).val; rw [e0, hk0]; omega
  | ⟨1, _⟩ => show win0_0.index t 1 * 32 + 1 * (y 1).val = (k 1).val; rw [e1, hk1]; omega
  | ⟨2, _⟩ => show win0_0.index t 2 * 32 + 1 * (y 2).val = (k 2).val; rw [e2, hk2]; omega

/-- The weights' block at any point is the whole weights array. -/
theorem iblk0_1_eq (c : Dev nD) (t : Fin cfg0.N) :
    (iblk0 V c 1 t : Vec F S5x32x896 .f32) = (V c main_arg1 : S5x32x896.Idx → Elt F .f32) := by
  obtain ⟨-, -, -, e0, e1, e2, -⟩ := idx_facts0 t
  funext y
  unfold iblk0
  rw [View.read_apply]
  show V c main_arg1 _ = V c main_arg1 _
  congr 1
  funext a
  apply Fin.ext
  match a with
  | ⟨0, _⟩ => show win0_1.index t 0 * 5 + 1 * (y 0).val = (y 0).val; rw [e0]; omega
  | ⟨1, _⟩ => show win0_1.index t 1 * 32 + 1 * (y 1).val = (y 1).val; rw [e1]; omega
  | ⟨2, _⟩ => show win0_1.index t 2 * 896 + 1 * (y 2).val = (y 2).val; rw [e2]; omega

/-- The bias block at any point is the whole bias row. -/
theorem iblk0_2_eq (c : Dev nD) (t : Fin cfg0.N) :
    (iblk0 V c 2 t : Vec F S1x896 .f32) = (V c main_arg2 : S1x896.Idx → Elt F .f32) := by
  obtain ⟨-, -, -, -, -, -, e0, e1, -⟩ := idx_facts0 t
  funext y
  unfold iblk0
  rw [View.read_apply]
  show V c main_arg2 _ = V c main_arg2 _
  congr 1
  funext a
  apply Fin.ext
  match a with
  | ⟨0, _⟩ => show win0_2.index t 0 * 1 + 1 * (y 0).val = (y 0).val; rw [e0]; omega
  | ⟨1, _⟩ => show win0_2.index t 1 * 896 + 1 * (y 1).val = (y 1).val; rw [e1]; omega

end Blocks

/-! ## The output array by blocks -/

section Array

variable (V : (c : Dev nD) → (b : Ref sig .tc) → Buf (Elt F) ((c : Thread nD τ).loc b))

/-- The grid point of sample `n`. -/
def pt0 (n : Fin 1024) : Fin cfg0.N := ⟨n.val, by have h : cfg0.N = 1024 := N_0; have := n.isLt; omega⟩

/-- The output array as one function: entry `(n, h, l)` is entry `(0, h, l)` of what the body stores at sample `n`'s point. -/
def G0 (c : Dev nD) : S1024x28x896.Idx → Elt F .f32 :=
  fun i => outsAt0 V c (pt0 (i 0)) (ix3 (0 : Fin 1) (i 1) (i 2))

/-- Reading block `t` of "sample `i 0`'s block at the other two coordinates" gives block `t`, for any family of blocks. -/
theorem blk0_read_of (O : Fin cfg0.N → Vec F S1x28x896 .f32) (t : Fin cfg0.N) :
    (cfg0.win 3).cut (grid0.coords t) (O t)
      = ((cfg0.win 3).blk t).view.read (Elt F) (fun i : S1024x28x896.Idx => O (pt0 (i 0)) (ix3 (0 : Fin 1) (i 1) (i 2))) := by
  obtain ⟨-, -, -, -, -, -, -, -, e0, e1, e2⟩ := idx_facts0 t
  funext j
  rw [View.read_apply]
  have hj0 : (j 0).val < 1 := (j 0).isLt
  have ht : pt0 ((((cfg0.win 3).blk t).view.emb j) 0) = t := Fin.ext (by
    show win0_3.index t 0 * 1 + 1 * (j 0).val = t.val
    rw [e0]; omega)
  have hj : ix3 (0 : Fin 1) ((((cfg0.win 3).blk t).view.emb j) 1) ((((cfg0.win 3).blk t).view.emb j) 2) = j := by
    funext a
    apply Fin.ext
    match a with
    | ⟨0, _⟩ => show 0 = (j 0).val; omega
    | ⟨1, _⟩ => show win0_3.index t 1 * 28 + 1 * (j 1).val = (j 1).val; rw [e1]; omega
    | ⟨2, _⟩ => show win0_3.index t 2 * 896 + 1 * (j 2).val = (j 2).val; rw [e2]; omega
  show O t j = O (pt0 ((((cfg0.win 3).blk t).view.emb j) 0)) (ix3 (0 : Fin 1) ((((cfg0.win 3).blk t).view.emb j) 1) ((((cfg0.win 3).blk t).view.emb j) 2))
  rw [ht]
  exact (congrArg (O t) hj).symm

/-- What point `t` writes back is block `t` of that function. -/
theorem flushed0_eq (c : Dev nD) (t : Fin cfg0.N) :
    (dat0 V c).flushed 3 t = ((cfg0.win 3).blk t).view.read (Elt F) (G0 V c) := by
  show (cfg0.win 3).cut (grid0.coords t) ((dat0 V c).after 3 t) = _
  rw [after0_3]
  exact blk0_read_of (outsAt0 V c) t

/-- An index of the array is in point `t`'s block iff each coordinate is in the block's range on its axis. -/
theorem mem_blk0 (t : Fin cfg0.N) (i : S1024x28x896.Idx) :
    i ∈ ((cfg0.win 3).blk t).view.set ↔ ∀ a : Fin 3, win0_3.index t a * S1x28x896.size a ≤ (i a).val ∧ (i a).val < win0_3.index t a * S1x28x896.size a + S1x28x896.size a := by
  show i ∈ ((View.whole main_v1).slice (win0_3.rect t)).set ↔ _
  rw [View.set_slice_whole, Rect.mem_set_unit]
  exact Iff.rfl

/-- Every entry is in the block of its sample's point. -/
theorem cover0 (i : S1024x28x896.Idx) : ∃ t : Fin cfg0.N, (cfg0.win 3).flush t = true ∧ i ∈ ((cfg0.win 3).blk t).view.set := by
  refine ⟨pt0 (i 0), flush0_3 _, ?_⟩
  rw [mem_blk0]
  obtain ⟨-, -, -, -, -, -, -, -, e0, e1, e2⟩ := idx_facts0 (pt0 (i 0))
  have h1 : (i 1).val < 28 := (i 1).isLt
  have h2 : (i 2).val < 896 := (i 2).isLt
  intro a
  match a with
  | ⟨0, _⟩ => show win0_3.index (pt0 (i 0)) 0 * 1 ≤ (i 0).val ∧ (i 0).val < win0_3.index (pt0 (i 0)) 0 * 1 + 1; rw [e0]; show (i 0).val * 1 ≤ (i 0).val ∧ (i 0).val < (i 0).val * 1 + 1; omega
  | ⟨1, _⟩ => show win0_3.index (pt0 (i 0)) 1 * 28 ≤ (i 1).val ∧ (i 1).val < win0_3.index (pt0 (i 0)) 1 * 28 + 28; rw [e1]; omega
  | ⟨2, _⟩ => show win0_3.index (pt0 (i 0)) 2 * 896 ≤ (i 2).val ∧ (i 2).val < win0_3.index (pt0 (i 0)) 2 * 896 + 896; rw [e2]; omega

/-- The output array after the region. -/
theorem arr0_eq (c : Dev nD) : (dat0 V c).arrAt 3 cfg0.N = G0 V c :=
  (dat0 V c).arrAt_eq_of_cover 3 (G0 V c) (fun t _ => flushed0_eq V c t) cover0

/-- Entry `(n, h, l)` of the output array after the region: the body's store over sample `n`'s image, the five slabs of
    the weights and the bias row, at `(0, h, l)`. -/
theorem arr0_apply (c : Dev nD) (n : Fin 1024) (h : Fin 28) (l : Fin 896) :
    ((dat0 V c).arrAt 3 cfg0.N : S1024x28x896.Idx → Elt F .f32) (ix3 n h l)
      = k0_pay1 (k0_pay2 (iblk0 V c 0 (pt0 n) : Vec F S1x32x32 .f32)
          (View.ld (V c main_arg1 : S5x32x896.Idx → Elt F .f32) (Rect.unit (s := S5x32x896) ![0, 0, 0] S1x32x896.size inb_S5x32x896_S1x32x896_0_0_0))
          (View.ld (V c main_arg1 : S5x32x896.Idx → Elt F .f32) (Rect.unit (s := S5x32x896) ![1, 0, 0] S1x32x896.size inb_S5x32x896_S1x32x896_1_0_0))
          (View.ld (V c main_arg1 : S5x32x896.Idx → Elt F .f32) (Rect.unit (s := S5x32x896) ![2, 0, 0] S1x32x896.size inb_S5x32x896_S1x32x896_2_0_0))
          (View.ld (V c main_arg1 : S5x32x896.Idx → Elt F .f32) (Rect.unit (s := S5x32x896) ![3, 0, 0] S1x32x896.size inb_S5x32x896_S1x32x896_3_0_0))
          (View.ld (V c main_arg1 : S5x32x896.Idx → Elt F .f32) (Rect.unit (s := S5x32x896) ![4, 0, 0] S1x32x896.size inb_S5x32x896_S1x32x896_4_0_0))
          (V c main_arg2 : S1x896.Idx → Elt F .f32)) k0_pay3 (ix3 (0 : Fin 1) h l) := by
  rw [arr0_eq]
  show outsAt0 V c (pt0 n) (ix3 (0 : Fin 1) h l) = _
  unfold outsAt0
  rw [out0_3_eq, iblk0_1_eq, iblk0_2_eq]
  rfl

end Array

/-! ## At the ideal instance: the first map, entry by entry -/

section AtIdeal

open Cert.NetSpec

variable (m : (ℓ : Loc nD τ sig) → Buf (Elt Ideal) ℓ)

/-- The image array region 0 is entered with is the first argument without its unit axis. -/
theorem E1_v0 (c : Dev nD) :
    (E1 m c main_v0 : S1024x32x32.Idx → EReal)
      = shapeCast S1024x32x32 (m ((c : Thread nD τ).loc main_arg0) : S1024x1x32x32.Idx → EReal) shapeCasts_S1024x1x32x32_S1024x32x32 := by
  show StableHlo.after hostOps0 (fun b => m (c, b)) (Proc.devRef .tc main_v0) = _
  after_results; rfl

theorem E1_v0_apply (c : Dev nD) (n : Fin 1024) (r w : Fin 32) :
    (E1 m c main_v0 : S1024x32x32.Idx → EReal) (ix3 n r w)
      = (m ((c : Thread nD τ).loc main_arg0) : S1024x1x32x32.Idx → EReal) (ix4 n (0 : Fin 1) r w) := by
  rw [E1_v0]
  exact shapeCast_apply _ _ _ (ix4 n (0 : Fin 1) r w) (by
    rw [Shape.rowMajor_val_four, Shape.rowMajor_val_three]
    show ((n.val * 1 + 0) * 32 + r.val) * 32 + w.val = (n.val * 32 + r.val) * 32 + w.val
    omega)

/-- No host operation before region 0 writes the weights or the bias row. -/
theorem E1_arg1 (c : Dev nD) : E1 m c main_arg1 = m ((c : Thread nD τ).loc main_arg1) := (Gen.V1_of m c main_arg1 (by decide)).trans rfl
theorem E1_arg2 (c : Dev nD) : E1 m c main_arg2 = m ((c : Thread nD τ).loc main_arg2) := (Gen.V1_of m c main_arg2 (by decide)).trans rfl

/-- Slab `k` of the banded weights read at `(0, w, l)` is the weights at `(k, w, l)`. -/
theorem slab0_apply (X : S5x32x896.Idx → Elt Ideal .f32) (k : Fin 5) (inb) (w : Fin 32) (l : Fin 896) :
    View.ld (Val := Elt Ideal) (e' := .f32) X (Rect.unit (s := S5x32x896) ![k.val, 0, 0] S1x32x896.size inb) (ix3 (0 : Fin 1) w l) = X (ix3 k w l) := by
  show X _ = X _
  congr 1
  funext a
  apply Fin.ext
  match a with
  | ⟨0, _⟩ => show k.val + 1 * 0 = k.val; omega
  | ⟨1, _⟩ => show 0 + 1 * w.val = w.val; omega
  | ⟨2, _⟩ => show 0 + 1 * l.val = l.val; omega

/-- **Region 0's output array is the first map**: entry `(n, h, l)` is the first convolution of sample `n`'s image. -/
theorem conv1_apply (c : Dev nD) (n : Fin 1024) (h : Fin 28) (l : Fin 896) :
    (U2 m c main_v1 : S1024x28x896.Idx → EReal) (ix3 n h l)
      = conv1Of (argX (m ((c : Thread nD τ).loc main_arg0)) n) (argWb (m ((c : Thread nD τ).loc main_arg1))) (argB1 (m ((c : Thread nD τ).loc main_arg2))) h l := by
  refine (congrFun (hF0 m c 3).symm (ix3 n h l)).trans ?_
  rw [arr0_apply]
  refine Cert.ReferenceIdeal.Conv1.out_apply _ _ _ _ _ _ _ _ _ _ (fun r w => ?_) (fun w l => ?_) (fun w l => ?_) (fun w l => ?_) (fun w l => ?_) (fun w l => ?_) (fun l => ?_) h l
  · exact (iblk0_0_apply (E1 m) c (pt0 n) (ix3 (0 : Fin 1) r w) (ix3 n r w) rfl rfl rfl).trans (E1_v0_apply m c n r w)
  · rw [E1_arg1]; exact slab0_apply _ (0 : Fin 5) _ w l
  · rw [E1_arg1]; exact slab0_apply _ (1 : Fin 5) _ w l
  · rw [E1_arg1]; exact slab0_apply _ (2 : Fin 5) _ w l
  · rw [E1_arg1]; exact slab0_apply _ (3 : Fin 5) _ w l
  · rw [E1_arg1]; exact slab0_apply _ (4 : Fin 5) _ w l
  · rw [E1_arg2]; rfl

end AtIdeal

end Cert.ReferenceIdeal.Hand

end
-- ==== Proof.RConv2.lean ====
/-
  The reference's second kernel (second convolution, rectified, then the 5 × 5 window maximum), read at an entry.

  The kernel takes one sample's first map as a 28 × 28 × 32 array `x[row, column, channel]`. For each column tap `kw` it
  takes the columns `kw … kw + 23` and flattens (row, column) to 672 rows (row `r·24 + c`); for each row tap `kh` the
  576 rows from `kh·24` on are the patch whose row `h·24 + w` is `x[h + kh, w + kw, ·]`. The 25 patches are multiplied by
  the 25 weight slabs (tap `kh·5 + kw`, 32 × 64) and added up from zero, `kw` outermost; the bias row is added and the
  result rectified: row `h·24 + w`, column `co` of that 576 × 64 array is the second convolution at `(h, w, co)`. It
  is reshaped to 24 × 24 × 64, the maximum of five column-shifted slices is taken, then of five row-shifted slices of
  that: entry `(h, w, co)` of the 20 × 20 × 64 result is the maximum over the 5 × 5 window at `(h, w)`.
-/
import proofs.«172427_g2000706451865267_pallasbulk_150_11_alg».proof.Proof.Gen.ReferenceIdeal.Skeleton
import proofs.«172427_g2000706451865267_pallasbulk_150_11_alg».proof.Proof.NetSpec
import proofs.«172427_g2000706451865267_pallasbulk_150_11_alg».proof.Proof.LibPlainMatmul
import proofs.«172427_g2000706451865267_pallasbulk_150_11_alg».proof.Proof.LibSpreadRead
import Idealize.ShloMosaic.Lib.ValueIdx
import Idealize.ShloMosaic.Lib.Pipeline.Value
import Idealize.ShloMosaic.PureOps.Ideal.Laws

noncomputable section

namespace Cert.ReferenceIdeal.Conv2

open Idealize.ShloMosaic Idealize.ShloMosaic.ValueIdx Cert.ReferenceIdeal Cert.ReferenceIdeal.Gen Cert.NetSpec

/-- Row `h·24 + w` of the flattened 24 × 24 positions. -/
def pos (h w : Fin 24) : Fin 576 := ⟨h.val * 24 + w.val, by omega⟩
/-- Row `r·24 + c` of the flattened 28 × 24 positions. -/
def pos28 (r : Fin 28) (c : Fin 24) : Fin 672 := ⟨r.val * 24 + c.val, by omega⟩

/-! ## The layout operations, one at a time -/

/-- The map without its leading unit axis. -/
theorem map_apply {α : Type} (u : S1x28x28x32.Idx → α) (r c : Fin 28) (ci : Fin 32) :
    shapeCast S28x28x32 u shapeCasts_S1x28x28x32_S28x28x32 (ix3 r c ci) = u (ix4 (0 : Fin 1) r c ci) :=
  shapeCast_apply u _ _ (ix4 (0 : Fin 1) r c ci) (by
    rw [Shape.rowMajor_val_four, Shape.rowMajor_val_three]
    show ((0 * 28 + r.val) * 28 + c.val) * 32 + ci.val = (r.val * 28 + c.val) * 32 + ci.val
    omega)

/-- Columns `kw … kw + 23` of the map. -/
theorem cols_apply {α : Type} (u : S28x28x32.Idx → α) (o : Fin 3 → Nat) (hs : S28x28x32.Slices o S28x24x32) (kw : Fin 5)
    (h0 : o 0 = 0) (h1 : o 1 = kw.val) (h2 : o 2 = 0) (r : Fin 28) (c : Fin 24) (ci : Fin 32) :
    extractStridedSlice S28x24x32 o u hs (ix3 r c ci) = u (ix3 r (row28 c kw) ci) :=
  extractStridedSlice_apply o u hs (ix3 r c ci) (ix3 r (row28 c kw) ci) fun a => by
    match a with
    | ⟨0, _⟩ => show r.val = o 0 + r.val; omega
    | ⟨1, _⟩ => show c.val + kw.val = o 1 + c.val; omega
    | ⟨2, _⟩ => show ci.val = o 2 + ci.val; omega

/-- Flattening (row, column): row `r·24 + c` of the 672 × 32 matrix is position `(r, c)`. -/
theorem flat_apply {α : Type} (u : S28x24x32.Idx → α) (r : Fin 28) (c : Fin 24) (ci : Fin 32) :
    shapeCast S672x32 u shapeCasts_S28x24x32_S672x32 (ix2 (pos28 r c) ci) = u (ix3 r c ci) :=
  shapeCast_apply u _ _ (ix3 r c ci) (by rw [Shape.rowMajor_val_three, Shape.rowMajor_val_two]; rfl)

/-- The 576 rows from `kh·24` on: row `h·24 + w` of the patch is row `(h + kh)·24 + w` of the matrix. -/
theorem rows_apply {α : Type} (u : S672x32.Idx → α) (o : Fin 2 → Nat) (hs : S672x32.Slices o S576x32) (kh : Fin 5)
    (h0 : o 0 = kh.val * 24) (h1 : o 1 = 0) (h w : Fin 24) (ci : Fin 32) :
    extractStridedSlice S576x32 o u hs (ix2 (pos h w) ci) = u (ix2 (pos28 (row28 h kh) w) ci) :=
  extractStridedSlice_apply o u hs (ix2 (pos h w) ci) (ix2 (pos28 (row28 h kh) w) ci) fun a => by
    match a with
    | ⟨0, _⟩ => show (h.val + kh.val) * 24 + w.val = o 0 + (h.val * 24 + w.val); omega
    | ⟨1, _⟩ => show ci.val = o 1 + ci.val; omega

/-- A weight slab without its leading unit axis. -/
theorem slab_apply {α : Type} (u : S1x32x64.Idx → α) (ci : Fin 32) (co : Fin 64) :
    shapeCast S32x64 u shapeCasts_S1x32x64_S32x64 (ix2 ci co) = u (ix3 (0 : Fin 1) ci co) :=
  shapeCast_apply u _ _ (ix3 (0 : Fin 1) ci co) (by
    rw [Shape.rowMajor_val_three, Shape.rowMajor_val_two]
    show (0 * 32 + ci.val) * 64 + co.val = ci.val * 64 + co.val
    omega)

/-- Unflattening the rectified result: position `(h, w)` of the 24 × 24 × 64 array is row `h·24 + w`. -/
theorem unflat_apply {α : Type} (u : S576x64.Idx → α) (h w : Fin 24) (co : Fin 64) :
    shapeCast S24x24x64 u shapeCasts_S576x64_S24x24x64 (ix3 h w co) = u (ix2 (pos h w) co) :=
  shapeCast_apply u _ _ (ix2 (pos h w) co) (by rw [Shape.rowMajor_val_three, Shape.rowMajor_val_two]; rfl)

/-- Columns `dw … dw + 19` of the 24 × 24 × 64 array. -/
theorem wcols_apply {α : Type} (u : S24x24x64.Idx → α) (o : Fin 3 → Nat) (hs : S24x24x64.Slices o S24x20x64) (dw : Fin 5)
    (h0 : o 0 = 0) (h1 : o 1 = dw.val) (h2 : o 2 = 0) (r : Fin 24) (w : Fin 20) (co : Fin 64) :
    extractStridedSlice S24x20x64 o u hs (ix3 r w co) = u (ix3 r (row24 w dw) co) :=
  extractStridedSlice_apply o u hs (ix3 r w co) (ix3 r (row24 w dw) co) fun a => by
    match a with
    | ⟨0, _⟩ => show r.val = o 0 + r.val; omega
    | ⟨1, _⟩ => show w.val + dw.val = o 1 + w.val; omega
    | ⟨2, _⟩ => show co.val = o 2 + co.val; omega

/-- Rows `dh … dh + 19` of the 24 × 20 × 64 array. -/
theorem wrows_apply {α : Type} (u : S24x20x64.Idx → α) (o : Fin 3 → Nat) (hs : S24x20x64.Slices o S20x20x64) (dh : Fin 5)
    (h0 : o 0 = dh.val) (h1 : o 1 = 0) (h2 : o 2 = 0) (h w : Fin 20) (co : Fin 64) :
    extractStridedSlice S20x20x64 o u hs (ix3 h w co) = u (ix3 (row24 h dh) w co) :=
  extractStridedSlice_apply o u hs (ix3 h w co) (ix3 (row24 h dh) w co) fun a => by
    match a with
    | ⟨0, _⟩ => show h.val + dh.val = o 0 + h.val; omega
    | ⟨1, _⟩ => show w.val = o 1 + w.val; omega
    | ⟨2, _⟩ => show co.val = o 2 + co.val; omega

/-- The stored block: entry `(0, h, w, co)` is entry `(h, w, co)` of the 20 × 20 × 64 result. -/
theorem block_apply {α : Type} (u : S20x20x64.Idx → α) (h w : Fin 20) (co : Fin 64) :
    shapeCast S1x20x20x64 u shapeCasts_S20x20x64_S1x20x20x64 (ix4 (0 : Fin 1) h w co) = u (ix3 h w co) :=
  shapeCast_apply u _ _ (ix3 h w co) (by
    rw [Shape.rowMajor_val_four, Shape.rowMajor_val_three]
    show (h.val * 20 + w.val) * 64 + co.val = ((0 * 20 + h.val) * 20 + w.val) * 64 + co.val
    omega)

/-! ## One tap -/

/-- One tap's product: the patch cut out of the map by a column offset `o3` and a row offset `o2`, times one weight
    slab, into the zero accumulator. -/
def tapProd (V : FVec Ideal S28x28x32 .f32) (wk : Vec Ideal S1x32x64 .f32) (o3 : Fin 3 → Nat)
    (hs3 : S28x28x32.Slices o3 S28x24x32) (o2 : Fin 2 → Nat) (hs2 : S672x32.Slices o2 S576x32) : FVec Ideal S576x64 .f32 :=
  matmul dot_S576x32_S32x64_S576x64_1_0_0_1_n_n none
    (extractStridedSlice S576x32 o2
      (shapeCast S672x32 (extractStridedSlice S28x24x32 o3 V hs3) shapeCasts_S28x24x32_S672x32 : FVec Ideal S672x32 .f32) hs2)
    (shapeCast S32x64 wk shapeCasts_S1x32x64_S32x64 : FVec Ideal S32x64 .f32) (constant S576x64 .f32 0x00000000#32)

/-- Tap `(kh, kw)`'s product at row `h·24 + w`, column `co`: `∑ ci, x[h + kh, w + kw, ci] · slab[ci, co]`. -/
theorem tapProd_apply (V : FVec Ideal S28x28x32 .f32) (wk : Vec Ideal S1x32x64 .f32) (o3 : Fin 3 → Nat)
    (hs3 : S28x28x32.Slices o3 S28x24x32) (o2 : Fin 2 → Nat) (hs2 : S672x32.Slices o2 S576x32) (kh kw : Fin 5)
    (h30 : o3 0 = 0) (h31 : o3 1 = kw.val) (h32 : o3 2 = 0) (h20 : o2 0 = kh.val * 24) (h21 : o2 1 = 0)
    (h w : Fin 24) (co : Fin 64) :
    tapProd V wk o3 hs3 o2 hs2 (ix2 (pos h w) co)
      = ∑ ci : Fin 32, V (ix3 (row28 h kh) (row28 w kw) ci) * wk (ix3 (0 : Fin 1) ci co) := by
  unfold tapProd
  refine (PlainMatmul.matmul_zero_apply (m := 576) (k := 32) (n := 64) none _ _ (pos h w) co).trans ?_
  refine Finset.sum_congr rfl fun ci _ => ?_
  rw [rows_apply _ o2 hs2 kh h20 h21, flat_apply, cols_apply _ o3 hs3 kw h30 h31 h32, slab_apply]

/-- One tap's product over the specification's arrays: the map read out of the lanes, the slab numbered `kh·5 + kw`. -/
theorem term_apply (V : FVec Ideal S28x28x32 .f32) (W : Fin 25 → Vec Ideal S1x32x64 .f32)
    (y1 : Fin 28 → Fin 896 → EReal) (w2 : Fin 25 → Fin 32 → Fin 64 → EReal)
    (hV : ∀ (r c : Fin 28) (ci : Fin 32), V (ix3 r c ci) = y1 r (lane c ci))
    (hW : ∀ (t : Fin 25) (ci : Fin 32) (co : Fin 64), W t (ix3 (0 : Fin 1) ci co) = w2 t ci co)
    (o3 : Fin 3 → Nat) (hs3 : S28x28x32.Slices o3 S28x24x32) (o2 : Fin 2 → Nat) (hs2 : S672x32.Slices o2 S576x32) (kh kw : Fin 5)
    (h30 : o3 0 = 0) (h31 : o3 1 = kw.val) (h32 : o3 2 = 0) (h20 : o2 0 = kh.val * 24) (h21 : o2 1 = 0)
    (t : Fin 25) (ht : t = tap kh kw) (h w : Fin 24) (co : Fin 64) :
    tapProd V (W t) o3 hs3 o2 hs2 (ix2 (pos h w) co)
      = ∑ ci : Fin 32, y1 (row28 h kh) (lane (row28 w kw) ci) * w2 (tap kh kw) ci co := by
  subst ht
  rw [tapProd_apply V _ o3 hs3 o2 hs2 kh kw h30 h31 h32 h20 h21]
  exact Finset.sum_congr rfl fun ci _ => by rw [hV, hW]

/-! ## The accumulator -/

/-- Twenty-five terms added up from zero with the column tap outermost are the double sum over the taps. -/
theorem regroup {M : Type*} [AddCommMonoid M] (S : Fin 5 → Fin 5 → M) :
    0 + S 0 0 + S 1 0 + S 2 0 + S 3 0 + S 4 0 + S 0 1 + S 1 1 + S 2 1 + S 3 1 + S 4 1 + S 0 2 + S 1 2 + S 2 2 + S 3 2 + S 4 2 + S 0 3 + S 1 3 + S 2 3 + S 3 3 + S 4 3 + S 0 4 + S 1 4 + S 2 4 + S 3 4 + S 4 4 = ∑ kh : Fin 5, ∑ kw : Fin 5, S kh kw := by
  rw [Finset.sum_comm]
  simp only [Fin.sum_univ_five, zero_add, add_assoc]

/-- The 25 products added up from zero, column tap outermost, slab `kh·5 + kw` with patch `(kh, kw)`. -/
def acc (V : FVec Ideal S28x28x32 .f32) (W : Fin 25 → Vec Ideal S1x32x64 .f32) : FVec Ideal S576x64 .f32 :=
  addf (addf (addf (addf (addf (addf (addf (addf (addf (addf (addf (addf (addf (addf (addf (addf (addf (addf (addf (addf (addf (addf (addf (addf (addf (broadcast S576x64 (Scalar.ofBits .f32 0x00000000#32))
      (tapProd V (W 0) ![0, 0, 0] slices_S28x28x32_o0_0_0_S28x24x32 ![0, 0] slices_S672x32_o0_0_S576x32))
      (tapProd V (W 5) ![0, 0, 0] slices_S28x28x32_o0_0_0_S28x24x32 ![24, 0] slices_S672x32_o24_0_S576x32))
      (tapProd V (W 10) ![0, 0, 0] slices_S28x28x32_o0_0_0_S28x24x32 ![48, 0] slices_S672x32_o48_0_S576x32))
      (tapProd V (W 15) ![0, 0, 0] slices_S28x28x32_o0_0_0_S28x24x32 ![72, 0] slices_S672x32_o72_0_S576x32))
      (tapProd V (W 20) ![0, 0, 0] slices_S28x28x32_o0_0_0_S28x24x32 ![96, 0] slices_S672x32_o96_0_S576x32))
      (tapProd V (W 1) ![0, 1, 0] slices_S28x28x32_o0_1_0_S28x24x32 ![0, 0] slices_S672x32_o0_0_S576x32))
      (tapProd V (W 6) ![0, 1, 0] slices_S28x28x32_o0_1_0_S28x24x32 ![24, 0] slices_S672x32_o24_0_S576x32))
      (tapProd V (W 11) ![0, 1, 0] slices_S28x28x32_o0_1_0_S28x24x32 ![48, 0] slices_S672x32_o48_0_S576x32))
      (tapProd V (W 16) ![0, 1, 0] slices_S28x28x32_o0_1_0_S28x24x32 ![72, 0] slices_S672x32_o72_0_S576x32))
      (tapProd V (W 21) ![0, 1, 0] slices_S28x28x32_o0_1_0_S28x24x32 ![96, 0] slices_S672x32_o96_0_S576x32))
      (tapProd V (W 2) ![0, 2, 0] slices_S28x28x32_o0_2_0_S28x24x32 ![0, 0] slices_S672x32_o0_0_S576x32))
      (tapProd V (W 7) ![0, 2, 0] slices_S28x28x32_o0_2_0_S28x24x32 ![24, 0] slices_S672x32_o24_0_S576x32))
      (tapProd V (W 12) ![0, 2, 0] slices_S28x28x32_o0_2_0_S28x24x32 ![48, 0] slices_S672x32_o48_0_S576x32))
      (tapProd V (W 17) ![0, 2, 0] slices_S28x28x32_o0_2_0_S28x24x32 ![72, 0] slices_S672x32_o72_0_S576x32))
      (tapProd V (W 22) ![0, 2, 0] slices_S28x28x32_o0_2_0_S28x24x32 ![96, 0] slices_S672x32_o96_0_S576x32))
      (tapProd V (W 3) ![0, 3, 0] slices_S28x28x32_o0_3_0_S28x24x32 ![0, 0] slices_S672x32_o0_0_S576x32))
      (tapProd V (W 8) ![0, 3, 0] slices_S28x28x32_o0_3_0_S28x24x32 ![24, 0] slices_S672x32_o24_0_S576x32))
      (tapProd V (W 13) ![0, 3, 0] slices_S28x28x32_o0_3_0_S28x24x32 ![48, 0] slices_S672x32_o48_0_S576x32))
      (tapProd V (W 18) ![0, 3, 0] slices_S28x28x32_o0_3_0_S28x24x32 ![72, 0] slices_S672x32_o72_0_S576x32))
      (tapProd V (W 23) ![0, 3, 0] slices_S28x28x32_o0_3_0_S28x24x32 ![96, 0] slices_S672x32_o96_0_S576x32))
      (tapProd V (W 4) ![0, 4, 0] slices_S28x28x32_o0_4_0_S28x24x32 ![0, 0] slices_S672x32_o0_0_S576x32))
      (tapProd V (W 9) ![0, 4, 0] slices_S28x28x32_o0_4_0_S28x24x32 ![24, 0] slices_S672x32_o24_0_S576x32))
      (tapProd V (W 14) ![0, 4, 0] slices_S28x28x32_o0_4_0_S28x24x32 ![48, 0] slices_S672x32_o48_0_S576x32))
      (tapProd V (W 19) ![0, 4, 0] slices_S28x28x32_o0_4_0_S28x24x32 ![72, 0] slices_S672x32_o72_0_S576x32))
      (tapProd V (W 24) ![0, 4, 0] slices_S28x28x32_o0_4_0_S28x24x32 ![96, 0] slices_S672x32_o96_0_S576x32)

/-- The accumulator at row `h·24 + w`, column `co`: the triple sum of the second convolution. -/
theorem acc_apply (V : FVec Ideal S28x28x32 .f32) (W : Fin 25 → Vec Ideal S1x32x64 .f32)
    (y1 : Fin 28 → Fin 896 → EReal) (w2 : Fin 25 → Fin 32 → Fin 64 → EReal)
    (hV : ∀ (r c : Fin 28) (ci : Fin 32), V (ix3 r c ci) = y1 r (lane c ci))
    (hW : ∀ (t : Fin 25) (ci : Fin 32) (co : Fin 64), W t (ix3 (0 : Fin 1) ci co) = w2 t ci co)
    (h w : Fin 24) (co : Fin 64) :
    acc V W (ix2 (pos h w) co)
      = ∑ kh : Fin 5, ∑ kw : Fin 5, ∑ ci : Fin 32, y1 (row28 h kh) (lane (row28 w kw) ci) * w2 (tap kh kw) ci co := by
  refine Eq.trans ?_ (regroup fun kh kw => ∑ ci : Fin 32, y1 (row28 h kh) (lane (row28 w kw) ci) * w2 (tap kh kw) ci co)
  show Ideal.ofBits .f32 0x00000000#32
      + tapProd V (W 0) ![0, 0, 0] slices_S28x28x32_o0_0_0_S28x24x32 ![0, 0] slices_S672x32_o0_0_S576x32 (ix2 (pos h w) co)
      + tapProd V (W 5) ![0, 0, 0] slices_S28x28x32_o0_0_0_S28x24x32 ![24, 0] slices_S672x32_o24_0_S576x32 (ix2 (pos h w) co)
      + tapProd V (W 10) ![0, 0, 0] slices_S28x28x32_o0_0_0_S28x24x32 ![48, 0] slices_S672x32_o48_0_S576x32 (ix2 (pos h w) co)
      + tapProd V (W 15) ![0, 0, 0] slices_S28x28x32_o0_0_0_S28x24x32 ![72, 0] slices_S672x32_o72_0_S576x32 (ix2 (pos h w) co)
      + tapProd V (W 20) ![0, 0, 0] slices_S28x28x32_o0_0_0_S28x24x32 ![96, 0] slices_S672x32_o96_0_S576x32 (ix2 (pos h w) co)
      + tapProd V (W 1) ![0, 1, 0] slices_S28x28x32_o0_1_0_S28x24x32 ![0, 0] slices_S672x32_o0_0_S576x32 (ix2 (pos h w) co)
      + tapProd V (W 6) ![0, 1, 0] slices_S28x28x32_o0_1_0_S28x24x32 ![24, 0] slices_S672x32_o24_0_S576x32 (ix2 (pos h w) co)
      + tapProd V (W 11) ![0, 1, 0] slices_S28x28x32_o0_1_0_S28x24x32 ![48, 0] slices_S672x32_o48_0_S576x32 (ix2 (pos h w) co)
      + tapProd V (W 16) ![0, 1, 0] slices_S28x28x32_o0_1_0_S28x24x32 ![72, 0] slices_S672x32_o72_0_S576x32 (ix2 (pos h w) co)
      + tapProd V (W 21) ![0, 1, 0] slices_S28x28x32_o0_1_0_S28x24x32 ![96, 0] slices_S672x32_o96_0_S576x32 (ix2 (pos h w) co)
      + tapProd V (W 2) ![0, 2, 0] slices_S28x28x32_o0_2_0_S28x24x32 ![0, 0] slices_S672x32_o0_0_S576x32 (ix2 (pos h w) co)
      + tapProd V (W 7) ![0, 2, 0] slices_S28x28x32_o0_2_0_S28x24x32 ![24, 0] slices_S672x32_o24_0_S576x32 (ix2 (pos h w) co)
      + tapProd V (W 12) ![0, 2, 0] slices_S28x28x32_o0_2_0_S28x24x32 ![48, 0] slices_S672x32_o48_0_S576x32 (ix2 (pos h w) co)
      + tapProd V (W 17) ![0, 2, 0] slices_S28x28x32_o0_2_0_S28x24x32 ![72, 0] slices_S672x32_o72_0_S576x32 (ix2 (pos h w) co)
      + tapProd V (W 22) ![0, 2, 0] slices_S28x28x32_o0_2_0_S28x24x32 ![96, 0] slices_S672x32_o96_0_S576x32 (ix2 (pos h w) co)
      + tapProd V (W 3) ![0, 3, 0] slices_S28x28x32_o0_3_0_S28x24x32 ![0, 0] slices_S672x32_o0_0_S576x32 (ix2 (pos h w) co)
      + tapProd V (W 8) ![0, 3, 0] slices_S28x28x32_o0_3_0_S28x24x32 ![24, 0] slices_S672x32_o24_0_S576x32 (ix2 (pos h w) co)
      + tapProd V (W 13) ![0, 3, 0] slices_S28x28x32_o0_3_0_S28x24x32 ![48, 0] slices_S672x32_o48_0_S576x32 (ix2 (pos h w) co)
      + tapProd V (W 18) ![0, 3, 0] slices_S28x28x32_o0_3_0_S28x24x32 ![72, 0] slices_S672x32_o72_0_S576x32 (ix2 (pos h w) co)
      + tapProd V (W 23) ![0, 3, 0] slices_S28x28x32_o0_3_0_S28x24x32 ![96, 0] slices_S672x32_o96_0_S576x32 (ix2 (pos h w) co)
      + tapProd V (W 4) ![0, 4, 0] slices_S28x28x32_o0_4_0_S28x24x32 ![0, 0] slices_S672x32_o0_0_S576x32 (ix2 (pos h w) co)
      + tapProd V (W 9) ![0, 4, 0] slices_S28x28x32_o0_4_0_S28x24x32 ![24, 0] slices_S672x32_o24_0_S576x32 (ix2 (pos h w) co)
      + tapProd V (W 14) ![0, 4, 0] slices_S28x28x32_o0_4_0_S28x24x32 ![48, 0] slices_S672x32_o48_0_S576x32 (ix2 (pos h w) co)
      + tapProd V (W 19) ![0, 4, 0] slices_S28x28x32_o0_4_0_S28x24x32 ![72, 0] slices_S672x32_o72_0_S576x32 (ix2 (pos h w) co)
      + tapProd V (W 24) ![0, 4, 0] slices_S28x28x32_o0_4_0_S28x24x32 ![96, 0] slices_S672x32_o96_0_S576x32 (ix2 (pos h w) co) = _
  rw [Ideal.ofBits_zero_f32,
    term_apply V W y1 w2 hV hW _ _ _ _ (0 : Fin 5) (0 : Fin 5) rfl rfl rfl rfl rfl (0 : Fin 25) rfl h w co,
    term_apply V W y1 w2 hV hW _ _ _ _ (1 : Fin 5) (0 : Fin 5) rfl rfl rfl rfl rfl (5 : Fin 25) rfl h w co,
    term_apply V W y1 w2 hV hW _ _ _ _ (2 : Fin 5) (0 : Fin 5) rfl rfl rfl rfl rfl (10 : Fin 25) rfl h w co,
    term_apply V W y1 w2 hV hW _ _ _ _ (3 : Fin 5) (0 : Fin 5) rfl rfl rfl rfl rfl (15 : Fin 25) rfl h w co,
    term_apply V W y1 w2 hV hW _ _ _ _ (4 : Fin 5) (0 : Fin 5) rfl rfl rfl rfl rfl (20 : Fin 25) rfl h w co,
    term_apply V W y1 w2 hV hW _ _ _ _ (0 : Fin 5) (1 : Fin 5) rfl rfl rfl rfl rfl (1 : Fin 25) rfl h w co,
    term_apply V W y1 w2 hV hW _ _ _ _ (1 : Fin 5) (1 : Fin 5) rfl rfl rfl rfl rfl (6 : Fin 25) rfl h w co,
    term_apply V W y1 w2 hV hW _ _ _ _ (2 : Fin 5) (1 : Fin 5) rfl rfl rfl rfl rfl (11 : Fin 25) rfl h w co,
    term_apply V W y1 w2 hV hW _ _ _ _ (3 : Fin 5) (1 : Fin 5) rfl rfl rfl rfl rfl (16 : Fin 25) rfl h w co,
    term_apply V W y1 w2 hV hW _ _ _ _ (4 : Fin 5) (1 : Fin 5) rfl rfl rfl rfl rfl (21 : Fin 25) rfl h w co,
    term_apply V W y1 w2 hV hW _ _ _ _ (0 : Fin 5) (2 : Fin 5) rfl rfl rfl rfl rfl (2 : Fin 25) rfl h w co,
    term_apply V W y1 w2 hV hW _ _ _ _ (1 : Fin 5) (2 : Fin 5) rfl rfl rfl rfl rfl (7 : Fin 25) rfl h w co,
    term_apply V W y1 w2 hV hW _ _ _ _ (2 : Fin 5) (2 : Fin 5) rfl rfl rfl rfl rfl (12 : Fin 25) rfl h w co,
    term_apply V W y1 w2 hV hW _ _ _ _ (3 : Fin 5) (2 : Fin 5) rfl rfl rfl rfl rfl (17 : Fin 25) rfl h w co,
    term_apply V W y1 w2 hV hW _ _ _ _ (4 : Fin 5) (2 : Fin 5) rfl rfl rfl rfl rfl (22 : Fin 25) rfl h w co,
    term_apply V W y1 w2 hV hW _ _ _ _ (0 : Fin 5) (3 : Fin 5) rfl rfl rfl rfl rfl (3 : Fin 25) rfl h w co,
    term_apply V W y1 w2 hV hW _ _ _ _ (1 : Fin 5) (3 : Fin 5) rfl rfl rfl rfl rfl (8 : Fin 25) rfl h w co,
    term_apply V W y1 w2 hV hW _ _ _ _ (2 : Fin 5) (3 : Fin 5) rfl rfl rfl rfl rfl (13 : Fin 25) rfl h w co,
    term_apply V W y1 w2 hV hW _ _ _ _ (3 : Fin 5) (3 : Fin 5) rfl rfl rfl rfl rfl (18 : Fin 25) rfl h w co,
    term_apply V W y1 w2 hV hW _ _ _ _ (4 : Fin 5) (3 : Fin 5) rfl rfl rfl rfl rfl (23 : Fin 25) rfl h w co,
    term_apply V W y1 w2 hV hW _ _ _ _ (0 : Fin 5) (4 : Fin 5) rfl rfl rfl rfl rfl (4 : Fin 25) rfl h w co,
    term_apply V W y1 w2 hV hW _ _ _ _ (1 : Fin 5) (4 : Fin 5) rfl rfl rfl rfl rfl (9 : Fin 25) rfl h w co,
    term_apply V W y1 w2 hV hW _ _ _ _ (2 : Fin 5) (4 : Fin 5) rfl rfl rfl rfl rfl (14 : Fin 25) rfl h w co,
    term_apply V W y1 w2 hV hW _ _ _ _ (3 : Fin 5) (4 : Fin 5) rfl rfl rfl rfl rfl (19 : Fin 25) rfl h w co,
    term_apply V W y1 w2 hV hW _ _ _ _ (4 : Fin 5) (4 : Fin 5) rfl rfl rfl rfl rfl (24 : Fin 25) rfl h w co]

/-- The accumulator plus the bias row, rectified. -/
def rect (V : FVec Ideal S28x28x32 .f32) (W : Fin 25 → Vec Ideal S1x32x64 .f32) (vb : Vec Ideal S1x64 .f32) :
    FVec Ideal S576x64 .f32 :=
  maximumf (addf (acc V W) (broadcastTo S576x64 vb broadcasts_S1x64_S576x64))
    (broadcast S576x64 (Scalar.ofBits .f32 0x00000000#32))

/-- **The rectified accumulator at row `h·24 + w`, column `co`** is the second convolution at `(h, w, co)`. -/
theorem rect_apply (V : FVec Ideal S28x28x32 .f32) (W : Fin 25 → Vec Ideal S1x32x64 .f32) (vb : Vec Ideal S1x64 .f32)
    (y1 : Fin 28 → Fin 896 → EReal) (w2 : Fin 25 → Fin 32 → Fin 64 → EReal) (b2 : Fin 64 → EReal)
    (hV : ∀ (r c : Fin 28) (ci : Fin 32), V (ix3 r c ci) = y1 r (lane c ci))
    (hW : ∀ (t : Fin 25) (ci : Fin 32) (co : Fin 64), W t (ix3 (0 : Fin 1) ci co) = w2 t ci co)
    (hb : ∀ co, vb (ix2 (0 : Fin 1) co) = b2 co) (h w : Fin 24) (co : Fin 64) :
    rect V W vb (ix2 (pos h w) co) = conv2Of y1 w2 b2 h w co := by
  show max (acc V W (ix2 (pos h w) co) + broadcastTo S576x64 vb broadcasts_S1x64_S576x64 (ix2 (pos h w) co))
      (Ideal.ofBits .f32 0x00000000#32) = _
  rw [Ideal.ofBits_zero_f32, SpreadRead.rowDown_apply, hb, acc_apply V W y1 w2 hV hW]
  rfl

/-! ## The window maximum -/

/-- The maximum over five column-shifted slices. -/
def colMax (u : FVec Ideal S24x24x64 .f32) : FVec Ideal S24x20x64 .f32 :=
  maximumf (maximumf (maximumf (maximumf (extractStridedSlice S24x20x64 ![0, 0, 0] u slices_S24x24x64_o0_0_0_S24x20x64) (extractStridedSlice S24x20x64 ![0, 1, 0] u slices_S24x24x64_o0_1_0_S24x20x64)) (extractStridedSlice S24x20x64 ![0, 2, 0] u slices_S24x24x64_o0_2_0_S24x20x64)) (extractStridedSlice S24x20x64 ![0, 3, 0] u slices_S24x24x64_o0_3_0_S24x20x64)) (extractStridedSlice S24x20x64 ![0, 4, 0] u slices_S24x24x64_o0_4_0_S24x20x64)

/-- The maximum over five row-shifted slices. -/
def rowMax (u : FVec Ideal S24x20x64 .f32) : FVec Ideal S20x20x64 .f32 :=
  maximumf (maximumf (maximumf (maximumf (extractStridedSlice S20x20x64 ![0, 0, 0] u slices_S24x20x64_o0_0_0_S20x20x64) (extractStridedSlice S20x20x64 ![1, 0, 0] u slices_S24x20x64_o1_0_0_S20x20x64)) (extractStridedSlice S20x20x64 ![2, 0, 0] u slices_S24x20x64_o2_0_0_S20x20x64)) (extractStridedSlice S20x20x64 ![3, 0, 0] u slices_S24x20x64_o3_0_0_S20x20x64)) (extractStridedSlice S20x20x64 ![4, 0, 0] u slices_S24x20x64_o4_0_0_S20x20x64)

theorem colMax_apply (u : FVec Ideal S24x24x64 .f32) (r : Fin 24) (w : Fin 20) (co : Fin 64) :
    colMax u (ix3 r w co) = max (max (max (max (u (ix3 r (row24 w 0) co)) (u (ix3 r (row24 w 1) co))) (u (ix3 r (row24 w 2) co))) (u (ix3 r (row24 w 3) co))) (u (ix3 r (row24 w 4) co)) := by
  show max (max (max (max (extractStridedSlice S24x20x64 ![0, 0, 0] u slices_S24x24x64_o0_0_0_S24x20x64 (ix3 r w co)) (extractStridedSlice S24x20x64 ![0, 1, 0] u slices_S24x24x64_o0_1_0_S24x20x64 (ix3 r w co))) (extractStridedSlice S24x20x64 ![0, 2, 0] u slices_S24x24x64_o0_2_0_S24x20x64 (ix3 r w co))) (extractStridedSlice S24x20x64 ![0, 3, 0] u slices_S24x24x64_o0_3_0_S24x20x64 (ix3 r w co))) (extractStridedSlice S24x20x64 ![0, 4, 0] u slices_S24x24x64_o0_4_0_S24x20x64 (ix3 r w co)) = _
  rw [wcols_apply u _ _ (0 : Fin 5) rfl rfl rfl, wcols_apply u _ _ (1 : Fin 5) rfl rfl rfl, wcols_apply u _ _ (2 : Fin 5) rfl rfl rfl,
    wcols_apply u _ _ (3 : Fin 5) rfl rfl rfl, wcols_apply u _ _ (4 : Fin 5) rfl rfl rfl]

theorem rowMax_apply (u : FVec Ideal S24x20x64 .f32) (h w : Fin 20) (co : Fin 64) :
    rowMax u (ix3 h w co) = max (max (max (max (u (ix3 (row24 h 0) w co)) (u (ix3 (row24 h 1) w co))) (u (ix3 (row24 h 2) w co))) (u (ix3 (row24 h 3) w co))) (u (ix3 (row24 h 4) w co)) := by
  show max (max (max (max (extractStridedSlice S20x20x64 ![0, 0, 0] u slices_S24x20x64_o0_0_0_S20x20x64 (ix3 h w co)) (extractStridedSlice S20x20x64 ![1, 0, 0] u slices_S24x20x64_o1_0_0_S20x20x64 (ix3 h w co))) (extractStridedSlice S20x20x64 ![2, 0, 0] u slices_S24x20x64_o2_0_0_S20x20x64 (ix3 h w co))) (extractStridedSlice S20x20x64 ![3, 0, 0] u slices_S24x20x64_o3_0_0_S20x20x64 (ix3 h w co))) (extractStridedSlice S20x20x64 ![4, 0, 0] u slices_S24x20x64_o4_0_0_S20x20x64 (ix3 h w co)) = _
  rw [wrows_apply u _ _ (0 : Fin 5) rfl rfl rfl, wrows_apply u _ _ (1 : Fin 5) rfl rfl rfl, wrows_apply u _ _ (2 : Fin 5) rfl rfl rfl,
    wrows_apply u _ _ (3 : Fin 5) rfl rfl rfl, wrows_apply u _ _ (4 : Fin 5) rfl rfl rfl]

/-- The supremum over five indices is the four-fold maximum. -/
theorem sup_five (f : Fin 5 → EReal) : Finset.univ.sup f = max (max (max (max (f 0) (f 1)) (f 2)) (f 3)) (f 4) := by
  refine le_antisymm (Finset.sup_le fun i _ => ?_) ?_
  · match i with
    | ⟨0, _⟩ => exact le_max_of_le_left (le_max_of_le_left (le_max_of_le_left (le_max_left _ _)))
    | ⟨1, _⟩ => exact le_max_of_le_left (le_max_of_le_left (le_max_of_le_left (le_max_right _ _)))
    | ⟨2, _⟩ => exact le_max_of_le_left (le_max_of_le_left (le_max_right _ _))
    | ⟨3, _⟩ => exact le_max_of_le_left (le_max_right _ _)
    | ⟨4, _⟩ => exact le_max_right _ _
  · exact max_le (max_le (max_le (max_le (Finset.le_sup (Finset.mem_univ _)) (Finset.le_sup (Finset.mem_univ _)))
      (Finset.le_sup (Finset.mem_univ _))) (Finset.le_sup (Finset.mem_univ _))) (Finset.le_sup (Finset.mem_univ _))

/-- The 5 × 5 window maximum of the rectified array, reshaped to 24 × 24 × 64: rows first inside, columns outside. -/
def pooled (m : FVec Ideal S576x64 .f32) : FVec Ideal S20x20x64 .f32 :=
  rowMax (colMax (shapeCast S24x24x64 m shapeCasts_S576x64_S24x24x64))

/-- **The window maximum at `(h, w, co)`** is the supremum over the 5 × 5 offsets of the array at row
    `(h + dh)·24 + (w + dw)`. -/
theorem pooled_apply (m : FVec Ideal S576x64 .f32) (h w : Fin 20) (co : Fin 64) :
    pooled m (ix3 h w co)
      = Finset.univ.sup fun d : Fin 5 × Fin 5 => m (ix2 (pos (row24 h d.1) (row24 w d.2)) co) := by
  unfold pooled
  rw [rowMax_apply]
  simp only [colMax_apply, unflat_apply]
  rw [← Finset.univ_product_univ, Finset.sup_product_left, sup_five]
  simp only [sup_five]

/-! ## The stored value -/

/-- The stored value as one composed term. -/
theorem pay_eq (v0 : Vec Ideal S1x28x28x32 .f32) (W : Fin 25 → Vec Ideal S1x32x64 .f32) (vb : Vec Ideal S1x64 .f32) :
    k1_pay1 (F := Ideal)
      (k1_pay14 (k1_pay2 v0) (k1_pay10 (k1_pay2 v0))
        (k1_pay11 (k1_pay2 v0) (k1_pay6 (k1_pay2 v0))
          (k1_pay7 (k1_pay2 v0) (k1_pay3 v0 (W 0) (W 5) (W 10) (W 15) (W 20)) (k1_pay4 v0) (k1_pay5 v0) (W 1) (W 6) (W 11) (W 16) (W 21) (W 2))
          (k1_pay8 (k1_pay2 v0)) (k1_pay9 (W 7)) (W 12) (W 17) (W 22) (W 3) (W 8) (W 13))
        (k1_pay12 (k1_pay2 v0)) (W 18) (W 23) (W 4) (W 9) (W 14) (W 19))
      (k1_pay15 (k1_pay2 v0)) (W 24) vb
      = shapeCast S1x20x20x64
          (pooled (rect (shapeCast S28x28x32 v0 shapeCasts_S1x28x28x32_S28x28x32) W vb))
          shapeCasts_S20x20x64_S1x20x20x64 := rfl

/-- **The second kernel's stored block at `(0, h, w, co)`** is the 5 × 5 window maximum of the second convolution of
    the loaded map with the loaded weight slabs (slab `t` is tap `t`) and bias row. -/
theorem out_apply (v0 : Vec Ideal S1x28x28x32 .f32) (W : Fin 25 → Vec Ideal S1x32x64 .f32) (vb : Vec Ideal S1x64 .f32)
    (y1 : Fin 28 → Fin 896 → EReal) (w2 : Fin 25 → Fin 32 → Fin 64 → EReal) (b2 : Fin 64 → EReal)
    (hy : ∀ (r c : Fin 28) (ci : Fin 32), v0 (ix4 (0 : Fin 1) r c ci) = y1 r (Cert.NetSpec.lane c ci))
    (hW : ∀ (t : Fin 25) (ci : Fin 32) (co : Fin 64), W t (ix3 (0 : Fin 1) ci co) = w2 t ci co)
    (hb : ∀ co, vb (ix2 (0 : Fin 1) co) = b2 co) (h w : Fin 20) (co : Fin 64) :
    k1_pay1 (F := Ideal)
      (k1_pay14 (k1_pay2 v0) (k1_pay10 (k1_pay2 v0))
        (k1_pay11 (k1_pay2 v0) (k1_pay6 (k1_pay2 v0))
          (k1_pay7 (k1_pay2 v0) (k1_pay3 v0 (W 0) (W 5) (W 10) (W 15) (W 20)) (k1_pay4 v0) (k1_pay5 v0) (W 1) (W 6) (W 11) (W 16) (W 21) (W 2))
          (k1_pay8 (k1_pay2 v0)) (k1_pay9 (W 7)) (W 12) (W 17) (W 22) (W 3) (W 8) (W 13))
        (k1_pay12 (k1_pay2 v0)) (W 18) (W 23) (W 4) (W 9) (W 14) (W 19))
      (k1_pay15 (k1_pay2 v0)) (W 24) vb (ix4 (0 : Fin 1) h w co)
      = Cert.NetSpec.poolOf (Cert.NetSpec.conv2Of y1 w2 b2) h w co := by
  rw [pay_eq, block_apply, pooled_apply]
  unfold poolOf
  refine Finset.sup_congr rfl fun d _ => ?_
  exact rect_apply _ W vb y1 w2 b2 (fun r c ci => (map_apply v0 r c ci).trans (hy r c ci)) hW hb _ _ co

end Cert.ReferenceIdeal.Conv2

end
-- ==== Proof.ReferenceVal2.lean ====
import proofs.«172427_g2000706451865267_pallasbulk_150_11_alg».proof.Proof.ReferenceVal1
import proofs.«172427_g2000706451865267_pallasbulk_150_11_alg».proof.Proof.RConv2

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # What region 1 leaves in its output array, entry by entry -/

theorem hz4 : (![0, 0, 0, 0] : Fin 4 → Nat) = fun _ => 0 := funext fun a => by fin_cases a <;> rfl

/-- Slab `t` of the 25 taps' weights, as the body loads it. -/
def slabs1 (X : S25x32x64.Idx → Elt F .f32) (t : Fin 25) : Vec F S1x32x64 .f32 :=
  View.ld (Val := Elt F) (e' := .f32) X (Rect.unit (s := S25x32x64) ![t.val, 0, 0] S1x32x64.size (fun a => by
    have := t.isLt
    match a with
    | ⟨0, _⟩ => show t.val + 1 ≤ 25; omega
    | ⟨1, _⟩ => show 0 + 32 ≤ 32; omega
    | ⟨2, _⟩ => show 0 + 64 ≤ 64; omega))

theorem slabs1_apply (X : S25x32x64.Idx → Elt F .f32) (t : Fin 25) (ci : Fin 32) (co : Fin 64) :
    slabs1 X t (ix3 (0 : Fin 1) ci co) = X (ix3 t ci co) := by
  show X _ = X _
  congr 1
  funext a
  apply Fin.ext
  match a with
  | ⟨0, _⟩ => show t.val + 1 * 0 = t.val; omega
  | ⟨1, _⟩ => show 0 + 1 * ci.val = ci.val; omega
  | ⟨2, _⟩ => show 0 + 1 * co.val = co.val; omega

set_option maxHeartbeats 1000000 in
/-- The one store of the body, over the loaded map, the 25 slabs and the bias row. -/
theorem out1_3_eq (c : Dev nD) (i : grid1.Coords) (arg1 : Memref sig .tc .vmem S1x28x28x32 .f32) (harg1 : arg1.IsWhole) (arg2 : Memref sig .tc .vmem S25x32x64 .f32) (harg2 : arg2.IsWhole) (arg3 : Memref sig .tc .vmem S1x64 .f32) (harg3 : arg3.IsWhole) (arg4 : Memref sig .tc .vmem S1x20x20x64 .f32) (harg4 : arg4.IsWhole)
    (x0 : Vec F S1x28x28x32 .f32) (x1 : Vec F S25x32x64 .f32) (x2 : Vec F S1x64 .f32) :
    out1_3 c i arg1 harg1 arg2 harg2 arg3 harg3 arg4 harg4 x0 x1 x2
      = k1_pay1
      (k1_pay14 (k1_pay2 x0) (k1_pay10 (k1_pay2 x0))
        (k1_pay11 (k1_pay2 x0) (k1_pay6 (k1_pay2 x0))
          (k1_pay7 (k1_pay2 x0) (k1_pay3 x0 (slabs1 x1 0) (slabs1 x1 5) (slabs1 x1 10) (slabs1 x1 15) (slabs1 x1 20)) (k1_pay4 x0) (k1_pay5 x0) (slabs1 x1 1) (slabs1 x1 6) (slabs1 x1 11) (slabs1 x1 16) (slabs1 x1 21) (slabs1 x1 2))
          (k1_pay8 (k1_pay2 x0)) (k1_pay9 (slabs1 x1 7)) (slabs1 x1 12) (slabs1 x1 17) (slabs1 x1 22) (slabs1 x1 3) (slabs1 x1 8) (slabs1 x1 13))
        (k1_pay12 (k1_pay2 x0)) (slabs1 x1 18) (slabs1 x1 23) (slabs1 x1 4) (slabs1 x1 9) (slabs1 x1 14) (slabs1 x1 19))
      (k1_pay15 (k1_pay2 x0)) (slabs1 x1 24) x2 := by
  unfold out1_3
  rw [View.read_writes_eq_canon _ _ _ (cover1_3 c i arg1 harg1 arg2 harg2 arg3 harg3 arg4 harg4 x0 x1 x2)]
  unfold kernelRun1
  dsimp only
  try sl_unfold_words
  rw [View.canon_unit_zero hz4]
  simp only [View.readAt_eq_ld, harg1.read_unread, harg2.read_unread, harg3.read_unread,
    View.ld_unit_zero (S := S1x28x28x32) hz4, View.ld_unit_zero (S := S1x64) hz2]
  rfl

/-- The printed index maps over the grid. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

section Blocks1

variable (V : (c : Dev nD) → (b : Ref sig .tc) → Buf (Elt F) ((c : Thread nD τ).loc b))

/-- The map block at point `t` is sample `t` of the map array. -/
theorem iblk1_0_apply (c : Dev nD) (t : Fin cfg1.N) (y : S1x28x28x32.Idx) (k : S1024x28x28x32.Idx)
    (hk0 : (k 0).val = t.val) (hk1 : (k 1).val = (y 1).val) (hk2 : (k 2).val = (y 2).val) (hk3 : (k 3).val = (y 3).val) :
    (iblk1 V c 0 t : Vec F S1x28x28x32 .f32) y = (V c main_v2 : S1024x28x28x32.Idx → Elt F .f32) k := by
  obtain ⟨e0, e1, e2, e3, -⟩ := idx_facts1 t
  unfold iblk1
  rw [View.read_apply]
  show V c main_v2 _ = V c main_v2 _
  congr 1
  funext a
  apply Fin.ext
  have hy0 : (y 0).val < 1 := (y 0).isLt
  match a with
  | ⟨0, _⟩ => show win1_0.index t 0 * 1 + 1 * (y 0).val = (k 0).val; rw [e0, hk0]; omega
  | ⟨1, _⟩ => show win1_0.index t 1 * 28 + 1 * (y 1).val = (k 1).val; rw [e1, hk1]; omega
  | ⟨2, _⟩ => show win1_0.index t 2 * 28 + 1 * (y 2).val = (k 2).val; rw [e2, hk2]; omega
  | ⟨3, _⟩ => show win1_0.index t 3 * 32 + 1 * (y 3).val = (k 3).val; rw [e3, hk3]; omega

theorem iblk1_1_eq (c : Dev nD) (t : Fin cfg1.N) :
    (iblk1 V c 1 t : Vec F S25x32x64 .f32) = (V c main_arg3 : S25x32x64.Idx → Elt F .f32) := by
  obtain ⟨-, -, -, -, e0, e1, e2, -⟩ := idx_facts1 t
  funext y
  unfold iblk1
  rw [View.read_apply]
  show V c main_arg3 _ = V c main_arg3 _
  congr 1
  funext a
  apply Fin.ext
  match a with
  | ⟨0, _⟩ => show win1_1.index t 0 * 25 + 1 * (y 0).val = (y 0).val; rw [e0]; omega
  | ⟨1, _⟩ => show win1_1.index t 1 * 32 + 1 * (y 1).val = (y 1).val; rw [e1]; omega
  | ⟨2, _⟩ => show win1_1.index t 2 * 64 + 1 * (y 2).val = (y 2).val; rw [e2]; omega

theorem iblk1_2_eq (c : Dev nD) (t : Fin cfg1.N) :
    (iblk1 V c 2 t : Vec F S1x64 .f32) = (V c main_arg4 : S1x64.Idx → Elt F .f32) := by
  obtain ⟨-, -, -, -, -, -, -, e0, e1, -⟩ := idx_facts1 t
  funext y
  unfold iblk1
  rw [View.read_apply]
  show V c main_arg4 _ = V c main_arg4 _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The grid point of sample `n`. -/
def pt1 (n : Fin 1024) : Fin cfg1.N := ⟨n.val, by have h : cfg1.N = 1024 := N_1; have := n.isLt; omega⟩

/-- The output array as one function: entry `(n, h, w, co)` is entry `(0, h, w, co)` of what the body stores at sample `n`'s point. -/
def G1 (c : Dev nD) : S1024x20x20x64.Idx → Elt F .f32 :=
  fun i => outsAt1 V c (pt1 (i 0)) (ix4 (0 : Fin 1) (i 1) (i 2) (i 3))

theorem blk1_read_of (O : Fin cfg1.N → Vec F S1x20x20x64 .f32) (t : Fin cfg1.N) :
    (cfg1.win 3).cut (grid1.coords t) (O t)
      = ((cfg1.win 3).blk t).view.read (Elt F) (fun i : S1024x20x20x64.Idx => O (pt1 (i 0)) (ix4 (0 : Fin 1) (i 1) (i 2) (i 3))) := by
  obtain ⟨-, -, -, -, -, -, -, -, -, e0, e1, e2, e3⟩ := idx_facts1 t
  funext j
  rw [View.read_apply]
  have hj0 : (j 0).val < 1 := (j 0).isLt
  have ht : pt1 ((((cfg1.win 3).blk t).view.emb j) 0) = t := Fin.ext (by
    show win1_3.index t 0 * 1 + 1 * (j 0).val = t.val
    rw [e0]; omega)
  have hj : ix4 (0 : Fin 1) ((((cfg1.win 3).blk t).view.emb j) 1) ((((cfg1.win 3).blk t).view.emb j) 2) ((((cfg1.win 3).blk t).view.emb j) 3) = j := by
    funext a
    apply Fin.ext
    match a with
    | ⟨0, _⟩ => show 0 = (j 0).val; omega
    | ⟨1, _⟩ => show win1_3.index t 1 * 20 + 1 * (j 1).val = (j 1).val; rw [e1]; omega
    | ⟨2, _⟩ => show win1_3.index t 2 * 20 + 1 * (j 2).val = (j 2).val; rw [e2]; omega
    | ⟨3, _⟩ => show win1_3.index t 3 * 64 + 1 * (j 3).val = (j 3).val; rw [e3]; omega
  show O t j = O (pt1 ((((cfg1.win 3).blk t).view.emb j) 0)) (ix4 (0 : Fin 1) ((((cfg1.win 3).blk t).view.emb j) 1) ((((cfg1.win 3).blk t).view.emb j) 2) ((((cfg1.win 3).blk t).view.emb j) 3))
  rw [ht]
  exact (congrArg (O t) hj).symm

theorem flushed1_eq (c : Dev nD) (t : Fin cfg1.N) :
    (dat1 V c).flushed 3 t = ((cfg1.win 3).blk t).view.read (Elt F) (G1 V c) := by
  show (cfg1.win 3).cut (grid1.coords t) ((dat1 V c).after 3 t) = _
  rw [after1_3]
  exact blk1_read_of (outsAt1 V c) t

theorem mem_blk1 (t : Fin cfg1.N) (i : S1024x20x20x64.Idx) :
    i ∈ ((cfg1.win 3).blk t).view.set ↔ ∀ a : Fin 4, win1_3.index t a * S1x20x20x64.size a ≤ (i a).val ∧ (i a).val < win1_3.index t a * S1x20x20x64.size a + S1x20x20x64.size a := by
  show i ∈ ((View.whole main_v3).slice (win1_3.rect t)).set ↔ _
  rw [View.set_slice_whole, Rect.mem_set_unit]
  exact Iff.rfl

theorem cover1 (i : S1024x20x20x64.Idx) : ∃ t : Fin cfg1.N, (cfg1.win 3).flush t = true ∧ i ∈ ((cfg1.win 3).blk t).view.set := by
  refine ⟨pt1 (i 0), flush1_3 _, ?_⟩
  rw [mem_blk1]
  obtain ⟨-, -, -, -, -, -, -, -, -, e0, e1, e2, e3⟩ := idx_facts1 (pt1 (i 0))
  have h1 : (i 1).val < 20 := (i 1).isLt
  have h2 : (i 2).val < 20 := (i 2).isLt
  have h3 : (i 3).val < 64 := (i 3).isLt
  intro a
  match a with
  | ⟨0, _⟩ => show win1_3.index (pt1 (i 0)) 0 * 1 ≤ (i 0).val ∧ (i 0).val < win1_3.index (pt1 (i 0)) 0 * 1 + 1; rw [e0]; show (i 0).val * 1 ≤ (i 0).val ∧ (i 0).val < (i 0).val * 1 + 1; omega
  | ⟨1, _⟩ => show win1_3.index (pt1 (i 0)) 1 * 20 ≤ (i 1).val ∧ (i 1).val < win1_3.index (pt1 (i 0)) 1 * 20 + 20; rw [e1]; omega
  | ⟨2, _⟩ => show win1_3.index (pt1 (i 0)) 2 * 20 ≤ (i 2).val ∧ (i 2).val < win1_3.index (pt1 (i 0)) 2 * 20 + 20; rw [e2]; omega
  | ⟨3, _⟩ => show win1_3.index (pt1 (i 0)) 3 * 64 ≤ (i 3).val ∧ (i 3).val < win1_3.index (pt1 (i 0)) 3 * 64 + 64; rw [e3]; omega

theorem arr1_eq (c : Dev nD) : (dat1 V c).arrAt 3 cfg1.N = G1 V c :=
  (dat1 V c).arrAt_eq_of_cover 3 (G1 V c) (fun t _ => flushed1_eq V c t) cover1

/-- Entry `(n, h, w, co)` of the output array after the region. -/
theorem arr1_apply (c : Dev nD) (n : Fin 1024) (h w : Fin 20) (co : Fin 64) :
    ((dat1 V c).arrAt 3 cfg1.N : S1024x20x20x64.Idx → Elt F .f32) (ix4 n h w co)
      = (k1_pay1
      (k1_pay14 (k1_pay2 (iblk1 V c 0 (pt1 n) : Vec F S1x28x28x32 .f32)) (k1_pay10 (k1_pay2 (iblk1 V c 0 (pt1 n) : Vec F S1x28x28x32 .f32)))
        (k1_pay11 (k1_pay2 (iblk1 V c 0 (pt1 n) : Vec F S1x28x28x32 .f32)) (k1_pay6 (k1_pay2 (iblk1 V c 0 (pt1 n) : Vec F S1x28x28x32 .f32)))
          (k1_pay7 (k1_pay2 (iblk1 V c 0 (pt1 n) : Vec F S1x28x28x32 .f32)) (k1_pay3 (iblk1 V c 0 (pt1 n) : Vec F S1x28x28x32 .f32) (slabs1 (V c main_arg3 : S25x32x64.Idx → Elt F .f32) 0) (slabs1 (V c main_arg3 : S25x32x64.Idx → Elt F .f32) 5) (slabs1 (V c main_arg3 : S25x32x64.Idx → Elt F .f32) 10) (slabs1 (V c main_arg3 : S25x32x64.Idx → Elt F .f32) 15) (slabs1 (V c main_arg3 : S25x32x64.Idx → Elt F .f32) 20)) (k1_pay4 (iblk1 V c 0 (pt1 n) : Vec F S1x28x28x32 .f32)) (k1_pay5 (iblk1 V c 0 (pt1 n) : Vec F S1x28x28x32 .f32)) (slabs1 (V c main_arg3 : S25x32x64.Idx → Elt F .f32) 1) (slabs1 (V c main_arg3 : S25x32x64.Idx → Elt F .f32) 6) (slabs1 (V c main_arg3 : S25x32x64.Idx → Elt F .f32) 11) (slabs1 (V c main_arg3 : S25x32x64.Idx → Elt F .f32) 16) (slabs1 (V c main_arg3 : S25x32x64.Idx → Elt F .f32) 21) (slabs1 (V c main_arg3 : S25x32x64.Idx → Elt F .f32) 2))
          (k1_pay8 (k1_pay2 (iblk1 V c 0 (pt1 n) : Vec F S1x28x28x32 .f32))) (k1_pay9 (slabs1 (V c main_arg3 : S25x32x64.Idx → Elt F .f32) 7)) (slabs1 (V c main_arg3 : S25x32x64.Idx → Elt F .f32) 12) (slabs1 (V c main_arg3 : S25x32x64.Idx → Elt F .f32) 17) (slabs1 (V c main_arg3 : S25x32x64.Idx → Elt F .f32) 22) (slabs1 (V c main_arg3 : S25x32x64.Idx → Elt F .f32) 3) (slabs1 (V c main_arg3 : S25x32x64.Idx → Elt F .f32) 8) (slabs1 (V c main_arg3 : S25x32x64.Idx → Elt F .f32) 13))
        (k1_pay12 (k1_pay2 (iblk1 V c 0 (pt1 n) : Vec F S1x28x28x32 .f32))) (slabs1 (V c main_arg3 : S25x32x64.Idx → Elt F .f32) 18) (slabs1 (V c main_arg3 : S25x32x64.Idx → Elt F .f32) 23) (slabs1 (V c main_arg3 : S25x32x64.Idx → Elt F .f32) 4) (slabs1 (V c main_arg3 : S25x32x64.Idx → Elt F .f32) 9) (slabs1 (V c main_arg3 : S25x32x64.Idx → Elt F .f32) 14) (slabs1 (V c main_arg3 : S25x32x64.Idx → Elt F .f32) 19))
      (k1_pay15 (k1_pay2 (iblk1 V c 0 (pt1 n) : Vec F S1x28x28x32 .f32))) (slabs1 (V c main_arg3 : S25x32x64.Idx → Elt F .f32) 24) (V c main_arg4 : S1x64.Idx → Elt F .f32)) (ix4 (0 : Fin 1) h w co) := by
  rw [arr1_eq]
  show outsAt1 V c (pt1 n) (ix4 (0 : Fin 1) h w co) = _
  unfold outsAt1
  rw [out1_3_eq, iblk1_1_eq, iblk1_2_eq]

end Blocks1

/-! ## At the ideal instance: the pooled map, entry by entry -/

section AtIdeal1

open Cert.NetSpec

variable (m : (ℓ : Loc nD τ sig) → Buf (Elt Ideal) ℓ)

/-- The map array region 1 is entered with is region 0's output with its lanes split into column and channel. -/
theorem E3_v2 (c : Dev nD) :
    (E3 m c main_v2 : S1024x28x28x32.Idx → EReal)
      = shapeCast S1024x28x28x32 (U2 m c main_v1 : S1024x28x896.Idx → EReal) shapeCasts_S1024x28x896_S1024x28x28x32 := by
  show StableHlo.after hostOps1 (U2 m c) (Proc.devRef .tc main_v2) = _
  after_results; rfl

theorem E3_v2_apply (c : Dev nD) (n : Fin 1024) (r cc : Fin 28) (ci : Fin 32) :
    (E3 m c main_v2 : S1024x28x28x32.Idx → EReal) (ix4 n r cc ci)
      = (U2 m c main_v1 : S1024x28x896.Idx → EReal) (ix3 n r (lane cc ci)) := by
  rw [E3_v2]
  exact shapeCast_apply _ _ _ (ix3 n r (lane cc ci)) (by
    rw [Shape.rowMajor_val_four, Shape.rowMajor_val_three]
    show (n.val * 28 + r.val) * 896 + (cc.val * 32 + ci.val) = ((n.val * 28 + r.val) * 28 + cc.val) * 32 + ci.val
    omega)

theorem E3_arg3 (c : Dev nD) : E3 m c main_arg3 = m ((c : Thread nD τ).loc main_arg3) :=
  (Gen.V3_of m (outs m) c main_arg3 (by decide)).trans ((Gen.V2_of m (outs m) c main_arg3 (by decide)).trans ((Gen.V1_of m c main_arg3 (by decide)).trans rfl))
theorem E3_arg4 (c : Dev nD) : E3 m c main_arg4 = m ((c : Thread nD τ).loc main_arg4) :=
  (Gen.V3_of m (outs m) c main_arg4 (by decide)).trans ((Gen.V2_of m (outs m) c main_arg4 (by decide)).trans ((Gen.V1_of m c main_arg4 (by decide)).trans rfl))

/-- **Region 1's output array is the pooled map**: entry `(n, h, w, co)` is the window maximum of the second convolution of
    sample `n`'s first map. -/
theorem pool_apply (c : Dev nD) (n : Fin 1024) (h w : Fin 20) (co : Fin 64) :
    (U4 m c main_v3 : S1024x20x20x64.Idx → EReal) (ix4 n h w co)
      = poolOf (conv2Of (conv1Of (argX (m ((c : Thread nD τ).loc main_arg0)) n) (argWb (m ((c : Thread nD τ).loc main_arg1))) (argB1 (m ((c : Thread nD τ).loc main_arg2))))
          (argW2 (m ((c : Thread nD τ).loc main_arg3))) (argB2 (m ((c : Thread nD τ).loc main_arg4)))) h w co := by
  refine (congrFun (hF1 m c 3).symm (ix4 n h w co)).trans ?_
  rw [arr1_apply]
  refine Cert.ReferenceIdeal.Conv2.out_apply _ (slabs1 (E3 m c main_arg3 : S25x32x64.Idx → EReal)) _ _ _ _ (fun r cc ci => ?_) (fun t ci co => ?_) (fun co => ?_) h w co
  · exact (iblk1_0_apply (E3 m) c (pt1 n) (ix4 (0 : Fin 1) r cc ci) (ix4 n r cc ci) rfl rfl rfl rfl).trans
      ((E3_v2_apply m c n r cc ci).trans (conv1_apply m c n r (lane cc ci)))
  · rw [slabs1_apply, E3_arg3]; rfl
  · rw [E3_arg4]; rfl

end AtIdeal1

end Cert.ReferenceIdeal.Hand

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.LibSoftmaxRow.lean ====
/-
  The rectified dense layer, the dense layer with a bias row, and the softmax of each row shifted by the row's
  maximum, read at one entry of a rank-2 vector on the extended reals.

  * A bias row added to every row and the result rectified holds at `(i, j)` the value `max (x[i,j] + b[j]) 0`.
  * A plain matrix product into the zero accumulator plus a bias row holds at `(i, j)` the value
    `∑ c, A[i,c] · B[c,j] + b[j]`.
  * The exponentials of a vector shifted by each row's maximum (the maximum taken along axis 1 from the word of
    `-∞`, kept as a column and spread across the columns) hold at `(i, k)` the value `exp (z[i,k] - sup_k' z[i,k'])`:
    a fold of `max` from the bottom element is the supremum.
  * A vector divided by its row sums (the sum along axis 1, kept as a column and spread across the columns) holds
    at `(i, k)` the quotient `e[i,k] / ∑ k', e[i,k']`.
  Together: the softmax of the rows of `relu (x + b₁) · W + b₂` at an entry.
-/
import Idealize.ShloMosaic.PureOps.Ideal.Laws
import Idealize.ShloMosaic.Lib.ValueIdx
import Idealize.ShloMosaic.Lib.Pipeline.Value
import proofs.«172427_g2000706451865267_pallasbulk_150_11_alg».proof.Proof.LibAxisReads
import proofs.«172427_g2000706451865267_pallasbulk_150_11_alg».proof.Proof.LibPlainMatmul
import proofs.«172427_g2000706451865267_pallasbulk_150_11_alg».proof.Proof.LibSpreadRead

noncomputable section

open scoped BigOperators

namespace Cert.SoftmaxRow

open Idealize.ShloMosaic Idealize.ShloMosaic.ValueIdx

/-- The word of `-∞` denotes the bottom element. -/
theorem negInf_f32 : Ideal.ofBits .f32 0xFF800000#32 = ⊥ := by simp [Ideal.ofBits, Ideal.ieee]

/-- A fold of `max` from the bottom element over a whole index type is the supremum. -/
theorem fold_max_bot {b : Nat} (g : Fin b → EReal) :
    (Finset.univ : Finset (Fin b)).fold max (⊥ : EReal) g = Finset.univ.sup g := rfl

variable {m h n : Nat}

/-- A bias row added to every row, rectified. -/
def rectBias (x : FVec Ideal ⟨2, ![m, h]⟩ .f32) (b₁ : FVec Ideal ⟨2, ![1, h]⟩ .f32)
    (hb₁ : (⟨2, ![1, h]⟩ : Shape).Broadcasts ⟨2, ![m, h]⟩) : FVec Ideal ⟨2, ![m, h]⟩ .f32 :=
  maximumf (addf x (broadcastTo ⟨2, ![m, h]⟩ b₁ hb₁)) (broadcast ⟨2, ![m, h]⟩ (Scalar.ofBits .f32 0x00000000#32))

/-- The rectified bias addition at `(i, j)`: `max (x[i,j] + b[j]) 0`. -/
theorem rectBias_apply (x : FVec Ideal ⟨2, ![m, h]⟩ .f32) (b₁ : FVec Ideal ⟨2, ![1, h]⟩ .f32)
    (hb₁ : (⟨2, ![1, h]⟩ : Shape).Broadcasts ⟨2, ![m, h]⟩) (i : Fin m) (j : Fin h) :
    rectBias x b₁ hb₁ (ix2 i j) = max (x (ix2 i j) + b₁ (ix2 (0 : Fin 1) j)) 0 := by
  show max (x (ix2 i j) + broadcastTo ⟨2, ![m, h]⟩ b₁ hb₁ (ix2 i j)) (Ideal.ofBits .f32 0x00000000#32) = _
  rw [Ideal.ofBits_zero_f32, SpreadRead.rowDown_apply]

/-- A plain product into the zero accumulator plus a bias row. -/
def denseBias {φ₁ φ₂ : FTy} (A : FVec Ideal ⟨2, ![m, h]⟩ φ₁) (W : FVec Ideal ⟨2, ![h, n]⟩ φ₂) (b₂ : FVec Ideal ⟨2, ![1, n]⟩ .f32)
    (hb₂ : (⟨2, ![1, n]⟩ : Shape).Broadcasts ⟨2, ![m, n]⟩) : FVec Ideal ⟨2, ![m, n]⟩ .f32 :=
  addf (matmul (DotDims.plain m h n) none A W (constant ⟨2, ![m, n]⟩ .f32 0x00000000#32)) (broadcastTo ⟨2, ![m, n]⟩ b₂ hb₂)

/-- The dense layer at `(i, j)`: `∑ c, A[i,c] · W[c,j] + b[j]`. -/
theorem denseBias_apply {φ₁ φ₂ : FTy} (A : FVec Ideal ⟨2, ![m, h]⟩ φ₁) (W : FVec Ideal ⟨2, ![h, n]⟩ φ₂) (b₂ : FVec Ideal ⟨2, ![1, n]⟩ .f32)
    (hb₂ : (⟨2, ![1, n]⟩ : Shape).Broadcasts ⟨2, ![m, n]⟩) (i : Fin m) (j : Fin n) :
    denseBias A W b₂ hb₂ (ix2 i j) = (∑ c : Fin h, A (ix2 i c) * W (ix2 c j)) + b₂ (ix2 (0 : Fin 1) j) := by
  show matmul (DotDims.plain m h n) none A W (constant ⟨2, ![m, n]⟩ .f32 0x00000000#32) (ix2 i j)
      + broadcastTo ⟨2, ![m, n]⟩ b₂ hb₂ (ix2 i j) = _
  rw [SpreadRead.rowDown_apply]
  exact congrArg (· + b₂ (ix2 (0 : Fin 1) j)) (PlainMatmul.matmul_zero_apply none A W i j)

/-- The exponentials of a vector shifted by each row's maximum. -/
def shiftExp (z : FVec Ideal ⟨2, ![m, n]⟩ .f32) (hr : (⟨2, ![m, n]⟩ : Shape).Reduces [1] (⟨1, ![m]⟩ : Shape))
    (hφ : FKind.Formats .f32) (hmax : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, n]⟩) :
    FVec Ideal ⟨2, ![m, n]⟩ .f32 :=
  exp (subf z (broadcastTo ⟨2, ![m, n]⟩
    (shapeCast ⟨2, ![m, 1]⟩ (multiReduction .maximumf [1] (⟨1, ![m]⟩ : Shape) z 0xFF800000#32 hr hφ hmax) hc) hb))

/-- The shifted exponentials at `(i, k)`: `exp (z[i,k] - sup_k' z[i,k'])`. -/
theorem shiftExp_apply (z : FVec Ideal ⟨2, ![m, n]⟩ .f32) (hr : (⟨2, ![m, n]⟩ : Shape).Reduces [1] (⟨1, ![m]⟩ : Shape))
    (hφ : FKind.Formats .f32) (hmax : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, n]⟩)
    (i : Fin m) (k : Fin n) :
    shiftExp z hr hφ hmax hc hb (ix2 i k) = Ideal.exp (z (ix2 i k) - Finset.univ.sup fun k' : Fin n => z (ix2 i k')) := by
  show Ideal.exp (z (ix2 i k) - broadcastTo ⟨2, ![m, n]⟩
    (shapeCast ⟨2, ![m, 1]⟩ (multiReduction .maximumf [1] (⟨1, ![m]⟩ : Shape) z 0xFF800000#32 hr hφ hmax) hc) hb (ix2 i k)) = _
  rw [Cert.AxisReads.column_spread_apply, Cert.AxisReads.rowMax_apply, negInf_f32, fold_max_bot]

/-- A vector divided by its row sums. -/
def normalise (e : FVec Ideal ⟨2, ![m, n]⟩ .f32) (hr : (⟨2, ![m, n]⟩ : Shape).Reduces [1] (⟨1, ![m]⟩ : Shape))
    (hφ : FKind.Formats .f32) (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩) :
    FVec Ideal ⟨2, ![m, n]⟩ .f32 :=
  divf e (broadcastTo ⟨2, ![m, n]⟩
    (shapeCast ⟨2, ![m, 1]⟩ (multiReduction .add [1] (⟨1, ![m]⟩ : Shape) e 0x00000000#32 hr hφ hadd) hc) hb)

/-- The normalised vector at `(i, k)`: `e[i,k] / ∑ k', e[i,k']`. -/
theorem normalise_apply (e : FVec Ideal ⟨2, ![m, n]⟩ .f32) (hr : (⟨2, ![m, n]⟩ : Shape).Reduces [1] (⟨1, ![m]⟩ : Shape))
    (hφ : FKind.Formats .f32) (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (i : Fin m) (k : Fin n) :
    normalise e hr hφ hadd hc hb (ix2 i k) = Ideal.div (e (ix2 i k)) (∑ k' : Fin n, e (ix2 i k')) := by
  show Ideal.div (e (ix2 i k)) (broadcastTo ⟨2, ![m, n]⟩
    (shapeCast ⟨2, ![m, 1]⟩ (multiReduction .add [1] (⟨1, ![m]⟩ : Shape) e 0x00000000#32 hr hφ hadd) hc) hb (ix2 i k)) = _
  rw [Cert.AxisReads.column_spread_apply, Cert.AxisReads.rowSum_apply]

/-- **The softmax of the rows of `relu (x + b₁) · W + b₂` at `(i, k)`**, with `z k' = ∑ f, max (x[i,f] + b₁[f]) 0 · W[f,k'] + b₂[k']`:
    `exp (z k - sup z) / ∑ k', exp (z k' - sup z)`. -/
theorem head_apply (x : FVec Ideal ⟨2, ![m, h]⟩ .f32) (b₁ : FVec Ideal ⟨2, ![1, h]⟩ .f32) (W : FVec Ideal ⟨2, ![h, n]⟩ .f32)
    (b₂ : FVec Ideal ⟨2, ![1, n]⟩ .f32) (hb₁ : (⟨2, ![1, h]⟩ : Shape).Broadcasts ⟨2, ![m, h]⟩)
    (hb₂ : (⟨2, ![1, n]⟩ : Shape).Broadcasts ⟨2, ![m, n]⟩) (hr : (⟨2, ![m, n]⟩ : Shape).Reduces [1] (⟨1, ![m]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (i : Fin m) (k : Fin n) :
    normalise (shiftExp (denseBias (rectBias x b₁ hb₁) W b₂ hb₂) hr hφ hmax hc hb) hr hφ hadd hc hb (ix2 i k)
      = Ideal.div
          (Ideal.exp (((∑ f : Fin h, max (x (ix2 i f) + b₁ (ix2 (0 : Fin 1) f)) 0 * W (ix2 f k)) + b₂ (ix2 (0 : Fin 1) k))
            - Finset.univ.sup fun k' : Fin n =>
                (∑ f : Fin h, max (x (ix2 i f) + b₁ (ix2 (0 : Fin 1) f)) 0 * W (ix2 f k')) + b₂ (ix2 (0 : Fin 1) k')))
          (∑ k'' : Fin n,
            Ideal.exp (((∑ f : Fin h, max (x (ix2 i f) + b₁ (ix2 (0 : Fin 1) f)) 0 * W (ix2 f k'')) + b₂ (ix2 (0 : Fin 1) k''))
              - Finset.univ.sup fun k' : Fin n =>
                  (∑ f : Fin h, max (x (ix2 i f) + b₁ (ix2 (0 : Fin 1) f)) 0 * W (ix2 f k')) + b₂ (ix2 (0 : Fin 1) k'))) := by
  have hz : ∀ k' : Fin n, denseBias (rectBias x b₁ hb₁) W b₂ hb₂ (ix2 i k')
      = (∑ f : Fin h, max (x (ix2 i f) + b₁ (ix2 (0 : Fin 1) f)) 0 * W (ix2 f k')) + b₂ (ix2 (0 : Fin 1) k') := fun k' => by
    rw [denseBias_apply]
    exact congrArg (· + b₂ (ix2 (0 : Fin 1) k')) (Finset.sum_congr rfl fun f _ => congrArg (· * W (ix2 f k')) (rectBias_apply x b₁ hb₁ i f))
  rw [normalise_apply]
  simp only [shiftExp_apply, hz]

end Cert.SoftmaxRow

end
-- ==== Proof.RHead.lean ====
/-
  The head of the reference program — the first dense layer's accumulation over the feature blocks, and the tail
  stored at the last grid point — read at an entry.

  * The accumulator starts at zero.
  * One accumulation step adds to the accumulator the product of a block of 6400 pooled features with the matching
    6400 rows of the first dense layer's weights: at `(n, f)`, `acc[n,f] + ∑ j, p[n,j] · w[j,f]`.
  * The tail adds the first bias row, rectifies, multiplies by the second dense layer's weights, adds the second
    bias row, and takes the softmax of each row shifted by the row's maximum: at `(n, k)` it is the softmax, at `k`,
    of the logits of the rectified hidden row `f ↦ max (acc[n,f] + b₁[f]) 0`.
-/
import proofs.«172427_g2000706451865267_pallasbulk_150_11_alg».proof.Proof.Gen.ReferenceIdeal.Skeleton
import proofs.«172427_g2000706451865267_pallasbulk_150_11_alg».proof.Proof.NetSpec
import proofs.«172427_g2000706451865267_pallasbulk_150_11_alg».proof.Proof.LibPlainMatmul
import proofs.«172427_g2000706451865267_pallasbulk_150_11_alg».proof.Proof.LibSoftmaxRow
import Idealize.ShloMosaic.Lib.ValueIdx
import Idealize.ShloMosaic.Lib.Pipeline.Value
import Idealize.ShloMosaic.PureOps.Ideal.Laws

noncomputable section

open scoped BigOperators

namespace Cert.ReferenceIdeal.Head

open Idealize.ShloMosaic Idealize.ShloMosaic.ValueIdx Cert.ReferenceIdeal Cert.ReferenceIdeal.Gen

/-- The accumulator's first value: zero everywhere. -/
theorem pay1_apply (n : Fin 1024) (f : Fin 128) : Gen.k2_pay1 (F := Ideal) (ix2 n f) = 0 := by
  show Ideal.ofBits .f32 0x00000000#32 = 0
  exact Ideal.ofBits_zero_f32

/-- The accumulation step is the accumulator plus a plain product into the zero accumulator (the casts to the same
    shapes kept as written). -/
theorem pay2_eq (v3 : Vec Ideal S1024x128 .f32) (v4 : Vec Ideal S1024x6400 .f32) (v6 : Vec Ideal S6400x128 .f32) :
    Gen.k2_pay2 (F := Ideal) v3 v4 v6
      = shapeCast S1024x128
          (addf (v3 : FVec Ideal S1024x128 .f32)
            (matmul (φ₁ := .f32) (φ₂ := .f32) dot_S1024x6400_S6400x128_S1024x128_1_0_0_1_n_n none
              (shapeCast S1024x6400 v4 shapeCasts_S1024x6400_S1024x6400) v6 (constant S1024x128 .f32 0x00000000#32)))
          shapeCasts_S1024x128_S1024x128 := rfl

/-- One accumulation step at `(n, f)`: the accumulator plus the block's product. -/
theorem pay2_apply (v3 : Vec Ideal S1024x128 .f32) (v4 : Vec Ideal S1024x6400 .f32) (v6 : Vec Ideal S6400x128 .f32)
    (n : Fin 1024) (f : Fin 128) :
    Gen.k2_pay2 (F := Ideal) v3 v4 v6 (ix2 n f) = v3 (ix2 n f) + ∑ j : Fin 6400, v4 (ix2 n j) * v6 (ix2 j f) := by
  rw [pay2_eq, shapeCast_self, shapeCast_self]
  show v3 (ix2 n f) + matmul (F := Ideal) (φ₁ := .f32) (φ₂ := .f32) dot_S1024x6400_S6400x128_S1024x128_1_0_0_1_n_n none
      v4 v6 (constant S1024x128 .f32 0x00000000#32) (ix2 n f) = _
  exact congrArg (v3 (ix2 n f) + ·)
    (PlainMatmul.matmul_zero_apply (m := 1024) (k := 6400) (n := 128) (φ₁ := .f32) (φ₂ := .f32) none v4 v6 n f)

/-- The tail is the row softmax of the dense layer over the rectified, biased accumulator. -/
theorem pay3_eq (v15 : Vec Ideal S1024x128 .f32) (v16 : Vec Ideal S1x128 .f32) (v21 : Vec Ideal S128x10 .f32)
    (v23 : Vec Ideal S1x10 .f32) :
    Gen.k2_pay3 (F := Ideal) v15 v16 v21 v23
      = Cert.SoftmaxRow.normalise
          (Cert.SoftmaxRow.shiftExp
            (Cert.SoftmaxRow.denseBias (φ₁ := .f32) (φ₂ := .f32)
              (Cert.SoftmaxRow.rectBias (v15 : FVec Ideal S1024x128 .f32) (v16 : FVec Ideal S1x128 .f32) broadcasts_S1x128_S1024x128)
              (v21 : FVec Ideal S128x10 .f32) (v23 : FVec Ideal S1x10 .f32) broadcasts_S1x10_S1024x10)
            reduces_S1024x10_S1024 (.inl rfl) rfl shapeCasts_S1024_S1024x1 broadcasts_S1024x1_S1024x10)
          reduces_S1024x10_S1024 (.inl rfl) rfl shapeCasts_S1024_S1024x1 broadcasts_S1024x1_S1024x10 := rfl

/-- The tail at `(n, k)`: the softmax of sample `n`'s logits at class `k`. -/
theorem pay3_apply (v15 : Vec Ideal S1024x128 .f32) (v16 : Vec Ideal S1x128 .f32) (v21 : Vec Ideal S128x10 .f32)
    (v23 : Vec Ideal S1x10 .f32) (n : Fin 1024) (k : Fin 10) :
    Gen.k2_pay3 (F := Ideal) v15 v16 v21 v23 (ix2 n k)
      = Cert.NetSpec.softmaxRow
          (Cert.NetSpec.logitsOf (fun f => max (v15 (ix2 n f) + v16 (ix2 (0 : Fin 1) f)) 0) (fun f k' => v21 (ix2 f k'))
            (fun k' => v23 (ix2 (0 : Fin 1) k'))) k := by
  rw [pay3_eq]
  exact Cert.SoftmaxRow.head_apply (m := 1024) (h := 128) (n := 10) (v15 : FVec Ideal S1024x128 .f32) (v16 : FVec Ideal S1x128 .f32)
    (v21 : FVec Ideal S128x10 .f32) (v23 : FVec Ideal S1x10 .f32) broadcasts_S1x128_S1024x128 broadcasts_S1x10_S1024x10
    reduces_S1024x10_S1024 (.inl rfl) rfl rfl shapeCasts_S1024_S1024x1 broadcasts_S1024x1_S1024x10 n k

end Cert.ReferenceIdeal.Head

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.ReferenceVal3.lean ====
import proofs.«172427_g2000706451865267_pallasbulk_150_11_alg».proof.Proof.ReferenceVal2
import proofs.«172427_g2000706451865267_pallasbulk_150_11_alg».proof.Proof.RHead
import proofs.«172427_g2000706451865267_pallasbulk_150_11_alg».proof.Proof.LibBlockSum

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! # What region 2 leaves in its output array

The scratch after the four points is the four block products added onto zero in the grid's order; the output, stored at
the last point, is the tail of that sum. -/

/-! ## The pieces the runs found, as the body's payloads -/

set_option maxHeartbeats 1000000 in
/-- At the first point the scratch ends at the first block product added onto the cleared scratch. -/
theorem sout2_A_0_eq (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : cond2_0 i) (hc1 : ¬cond2_1 i) (x0 : Vec F S1024x6400 .f32) (x1 : Vec F S6400x128 .f32) (x2 : Vec F S1x128 .f32) (x3 : Vec F S128x10 .f32) (x4 : Vec F S1x10 .f32) :
    sout2_A_0 c i arg1 harg1 arg2 harg2 arg3 harg3 arg4 harg4 arg5 harg5 arg6 harg6 arg7 harg7 hc0 hc1 x0 x1 x2 x3 x4 = k2_pay2 (k2_pay1 (F := F)) x0 x1 := by
  unfold sout2_A_0
  rw [View.read_writes_eq_canon _ _ _ (scover2_A_0 c i arg1 harg1 arg2 harg2 arg3 harg3 arg4 harg4 arg5 harg5 arg6 harg6 arg7 harg7 hc0 hc1 x0 x1 x2 x3 x4)]
  unfold kernelRun2_A
  dsimp only
  try sl_unfold_words
  rw [View.canon_cons_unit_zero hz2]
  simp only [View.readAt_eq_ld, harg1.read_unread, harg2.read_unread, harg3.read_unread, harg4.read_unread, harg5.read_unread, harg6.read_unread, harg7.read_unread, View.ld_unit_zero (S := S1024x6400) hz2, View.ld_unit_zero (S := S6400x128) hz2, View.ld_unit_zero (S := S1x128) hz2, View.ld_unit_zero (S := S128x10) hz2, View.ld_unit_zero (S := S1x10) hz2, View.ld_unit_zero (S := S1024x128) hz2, View.ld_unit_zero (S := S1024x10) hz2, View.readCov_unit_zero (S := S1024x128) _ hz2]

set_option maxHeartbeats 1000000 in
/-- At a middle point the scratch ends at the point's block product added onto what it held. -/
theorem sout2_B_0_eq (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : ¬cond2_1 i) (x0 : Vec F S1024x6400 .f32) (x1 : Vec F S6400x128 .f32) (x2 : Vec F S1x128 .f32) (x3 : Vec F S128x10 .f32) (x4 : Vec F S1x10 .f32) (xs0 : Vec F S1024x128 .f32) :
    sout2_B_0 c i arg1 harg1 arg2 harg2 arg3 harg3 arg4 harg4 arg5 harg5 arg6 harg6 arg7 harg7 hc0 hc1 x0 x1 x2 x3 x4 xs0 = k2_pay2 xs0 x0 x1 := by
  unfold sout2_B_0
  rw [View.read_writes_eq_canon _ _ _ (scover2_B_0 c i arg1 harg1 arg2 harg2 arg3 harg3 arg4 harg4 arg5 harg5 arg6 harg6 arg7 harg7 hc0 hc1 x0 x1 x2 x3 x4 xs0)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x6400) hz2, View.ld_unit_zero (S := S6400x128) hz2, View.ld_unit_zero (S := S1x128) hz2, View.ld_unit_zero (S := S128x10) hz2, View.ld_unit_zero (S := S1x10) hz2, View.ld_unit_zero (S := S1024x128) hz2, View.ld_unit_zero (S := S1024x10) hz2]

set_option maxHeartbeats 1000000 in
/-- At the last point the scratch ends likewise, -/
theorem sout2_C_0_eq (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i) (x0 : Vec F S1024x6400 .f32) (x1 : Vec F S6400x128 .f32) (x2 : Vec F S1x128 .f32) (x3 : Vec F S128x10 .f32) (x4 : Vec F S1x10 .f32) (xs0 : Vec F S1024x128 .f32) :
    sout2_C_0 c i arg1 harg1 arg2 harg2 arg3 harg3 arg4 harg4 arg5 harg5 arg6 harg6 arg7 harg7 hc0 hc1 x0 x1 x2 x3 x4 xs0 = k2_pay2 xs0 x0 x1 := by
  unfold sout2_C_0
  rw [View.read_writes_eq_canon _ _ _ (scover2_C_0 c i arg1 harg1 arg2 harg2 arg3 harg3 arg4 harg4 arg5 harg5 arg6 harg6 arg7 harg7 hc0 hc1 x0 x1 x2 x3 x4 xs0)]
  unfold kernelRun2_C
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x6400) hz2, View.ld_unit_zero (S := S6400x128) hz2, View.ld_unit_zero (S := S1x128) hz2, View.ld_unit_zero (S := S128x10) hz2, View.ld_unit_zero (S := S1x10) hz2, View.ld_unit_zero (S := S1024x128) hz2, View.ld_unit_zero (S := S1024x10) hz2]

set_option maxHeartbeats 1000000 in
/-- and the output is the tail of that sum. -/
theorem out2_C_5_eq (c : Dev nD) (i : grid2.Coords) (arg1 : Memref sig .tc .vmem S1024x6400 .f32) (harg1 : arg1.IsWhole) (arg2 : Memref sig .tc .vmem S6400x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1024x10 .f32) (harg6 : arg6.IsWhole) (arg7 : Memref sig .tc .vmem S1024x128 .f32) (harg7 : arg7.IsWhole) (hc0 : ¬cond2_0 i) (hc1 : cond2_1 i) (x0 : Vec F S1024x6400 .f32) (x1 : Vec F S6400x128 .f32) (x2 : Vec F S1x128 .f32) (x3 : Vec F S128x10 .f32) (x4 : Vec F S1x10 .f32) (xs0 : Vec F S1024x128 .f32) :
    out2_C_5 c i arg1 harg1 arg2 harg2 arg3 harg3 arg4 harg4 arg5 harg5 arg6 harg6 arg7 harg7 hc0 hc1 x0 x1 x2 x3 x4 xs0 = k2_pay3 (k2_pay2 xs0 x0 x1) x2 x3 x4 := by
  unfold out2_C_5
  rw [View.read_writes_eq_canon _ _ _ (cover2_C_5 c i arg1 harg1 arg2 harg2 arg3 harg3 arg4 harg4 arg5 harg5 arg6 harg6 arg7 harg7 hc0 hc1 x0 x1 x2 x3 x4 xs0)]
  unfold kernelRun2_C
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x6400) hz2, View.ld_unit_zero (S := S6400x128) hz2, View.ld_unit_zero (S := S1x128) hz2, View.ld_unit_zero (S := S128x10) hz2, View.ld_unit_zero (S := S1x10) hz2, View.ld_unit_zero (S := S1024x128) hz2, View.ld_unit_zero (S := S1024x10) hz2, View.readCov_unit_zero (S := S1024x128) _ hz2]

/-! ## The index maps and the blocks -/

/-- The printed index maps over the grid, by name. -/
structure IdxFacts2 (t : Fin cfg2.N) : Prop where
  w0_0 : win2_0.index t (0 : Fin 2) = 0
  w0_1 : win2_0.index t (1 : Fin 2) = t.val
  w1_0 : win2_1.index t (0 : Fin 2) = t.val
  w1_1 : win2_1.index t (1 : Fin 2) = 0
  w2_0 : win2_2.index t (0 : Fin 2) = 0
  w2_1 : win2_2.index t (1 : Fin 2) = 0
  w3_0 : win2_3.index t (0 : Fin 2) = 0
  w3_1 : win2_3.index t (1 : Fin 2) = 0
  w4_0 : win2_4.index t (0 : Fin 2) = 0
  w4_1 : win2_4.index t (1 : Fin 2) = 0
  w5_0 : win2_5.index t (0 : Fin 2) = 0
  w5_1 : win2_5.index t (1 : Fin 2) = 0

theorem idx_facts2 (t : Fin cfg2.N) : IdxFacts2 t := by
  rcases fin_N2 t with rfl | rfl | rfl | rfl <;> exact ⟨by decide, by decide, by decide, by decide, by decide, by decide, by decide, by decide, by decide, by decide, by decide, by decide⟩

section Blocks2

variable (V : (c : Dev nD) → (b : Ref sig .tc) → Buf (Elt F) ((c : Thread nD τ).loc b))

/-- The feature block at point `t` is columns `6400·t …` of the feature array. -/
theorem iblk2_0_apply (c : Dev nD) (t : Fin cfg2.N) (y : S1024x6400.Idx) (k : S1024x25600.Idx)
    (hk0 : (k 0).val = (y 0).val) (hk1 : (k 1).val = 6400 * t.val + (y 1).val) :
    (iblk2 V c 0 t : Vec F S1024x6400 .f32) y = (V c main_v4 : S1024x25600.Idx → Elt F .f32) k := by
  have e := idx_facts2 t
  unfold iblk2
  rw [View.read_apply]
  show V c main_v4 _ = V c main_v4 _
  congr 1
  funext a
  apply Fin.ext
  match a with
  | ⟨0, _⟩ => show win2_0.index t 0 * 1024 + 1 * (y 0).val = (k 0).val; rw [e.w0_0, hk0]; omega
  | ⟨1, _⟩ => show win2_0.index t 1 * 6400 + 1 * (y 1).val = (k 1).val; rw [e.w0_1, hk1]; omega

/-- The weight block at point `t` is rows `6400·t …` of the first dense layer's weights. -/
theorem iblk2_1_apply (c : Dev nD) (t : Fin cfg2.N) (y : S6400x128.Idx) (k : S25600x128.Idx)
    (hk0 : (k 0).val = 6400 * t.val + (y 0).val) (hk1 : (k 1).val = (y 1).val) :
    (iblk2 V c 1 t : Vec F S6400x128 .f32) y = (V c main_arg5 : S25600x128.Idx → Elt F .f32) k := by
  have e := idx_facts2 t
  unfold iblk2
  rw [View.read_apply]
  show V c main_arg5 _ = V c main_arg5 _
  congr 1
  funext a
  apply Fin.ext
  match a with
  | ⟨0, _⟩ => show win2_1.index t 0 * 6400 + 1 * (y 0).val = (k 0).val; rw [e.w1_0, hk0]; omega
  | ⟨1, _⟩ => show win2_1.index t 1 * 128 + 1 * (y 1).val = (k 1).val; rw [e.w1_1, hk1]; omega

theorem iblk2_2_eq (c : Dev nD) (t : Fin cfg2.N) :
    (iblk2 V c 2 t : Vec F S1x128 .f32) = (V c main_arg6 : S1x128.Idx → Elt F .f32) := by
  have e := idx_facts2 t
  funext y
  unfold iblk2
  rw [View.read_apply]
  show V c main_arg6 _ = V c main_arg6 _
  congr 1
  funext a
  apply Fin.ext
  match a with
  | ⟨0, _⟩ => show win2_2.index t 0 * 1 + 1 * (y 0).val = (y 0).val; rw [e.w2_0]; omega
  | ⟨1, _⟩ => show win2_2.index t 1 * 128 + 1 * (y 1).val = (y 1).val; rw [e.w2_1]; omega

theorem iblk2_3_eq (c : Dev nD) (t : Fin cfg2.N) :
    (iblk2 V c 3 t : Vec F S128x10 .f32) = (V c main_arg7 : S128x10.Idx → Elt F .f32) := by
  have e := idx_facts2 t
  funext y
  unfold iblk2
  rw [View.read_apply]
  show V c main_arg7 _ = V c main_arg7 _
  congr 1
  funext a
  apply Fin.ext
  match a with
  | ⟨0, _⟩ => show win2_3.index t 0 * 128 + 1 * (y 0).val = (y 0).val; rw [e.w3_0]; omega
  | ⟨1, _⟩ => show win2_3.index t 1 * 10 + 1 * (y 1).val = (y 1).val; rw [e.w3_1]; omega

theorem iblk2_4_eq (c : Dev nD) (t : Fin cfg2.N) :
    (iblk2 V c 4 t : Vec F S1x10 .f32) = (V c main_arg8 : S1x10.Idx → Elt F .f32) := by
  have e := idx_facts2 t
  funext y
  unfold iblk2
  rw [View.read_apply]
  show V c main_arg8 _ = V c main_arg8 _
  congr 1
  funext a
  apply Fin.ext
  match a with
  | ⟨0, _⟩ => show win2_4.index t 0 * 1 + 1 * (y 0).val = (y 0).val; rw [e.w4_0]; omega
  | ⟨1, _⟩ => show win2_4.index t 1 * 10 + 1 * (y 1).val = (y 1).val; rw [e.w4_1]; omega

/-! ## The scratch point by point, and the output at the last point -/

/-- After the first point. -/
theorem scratch_first (c : Dev nD) (t : Fin cfg2.N) (h0 : t.val % 4 = 0) :
    (outsAt2 V c t.val t.isLt).2 = k2_pay2 (k2_pay1 (F := F)) (iblk2 V c 0 t) (iblk2 V c 1 t) := by
  have h1 : ¬t.val % 4 = 3 := by omega
  rw [outsAt2_A V c t h0 h1]
  dsimp only
  exact sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)

/-- After a later point: the point's block product added onto what the point before left. -/
theorem scratch_next (c : Dev nD) (t : Fin cfg2.N) (h0 : ¬t.val % 4 = 0) :
    (outsAt2 V c t.val t.isLt).2
      = k2_pay2 (outsAt2 V c (t.val - 1) (Nat.lt_of_le_of_lt (Nat.sub_le _ _) t.isLt)).2 (iblk2 V c 0 t) (iblk2 V c 1 t) := by
  by_cases h1 : t.val % 4 = 3
  · rw [outsAt2_C V c t h0 h1]
    dsimp only
    exact sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2
  · rw [outsAt2_B V c t h0 h1]
    dsimp only
    exact sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2

/-- The output at the last point: the tail of the scratch after that point. -/
theorem out_last (c : Dev nD) (t : Fin cfg2.N) (h1 : t.val % 4 = 3) :
    (outsAt2 V c t.val t.isLt).1
      = k2_pay3 (k2_pay2 (outsAt2 V c (t.val - 1) (Nat.lt_of_le_of_lt (Nat.sub_le _ _) t.isLt)).2 (iblk2 V c 0 t) (iblk2 V c 1 t)) (V c main_arg6 : S1x128.Idx → Elt F .f32) (V c main_arg7 : S128x10.Idx → Elt F .f32) (V c main_arg8 : S1x10.Idx → Elt F .f32) := by
  have h0 : ¬t.val % 4 = 0 := by omega
  rw [outsAt2_C V c t h0 h1]
  dsimp only
  refine (out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2).trans ?_
  rw [iblk2_2_eq, iblk2_3_eq, iblk2_4_eq]

/-! ## The output array -/

/-- The last point. -/
def tLast : Fin cfg2.N := ⟨3, by have h : cfg2.N = 4 := N_2; omega⟩

theorem blk2_read_of (O : Vec F S1024x10 .f32) (t : Fin cfg2.N) :
    (cfg2.win 5).cut (grid2.coords t) O = ((cfg2.win 5).blk t).view.read (Elt F) (O : S1024x10.Idx → Elt F .f32) := by
  have e := idx_facts2 t
  funext j
  rw [View.read_apply]
  show O j = O (((cfg2.win 5).blk t).view.emb j)
  congr 1
  funext a
  apply Fin.ext
  match a with
  | ⟨0, _⟩ => show (j 0).val = win2_5.index t 0 * 1024 + 1 * (j 0).val; rw [e.w5_0]; omega
  | ⟨1, _⟩ => show (j 1).val = win2_5.index t 1 * 10 + 1 * (j 1).val; rw [e.w5_1]; omega

theorem flushed2_eq (c : Dev nD) (t : Fin cfg2.N) (hf : (cfg2.win 5).flush t = true) :
    (dat2 V c).flushed 5 t = ((cfg2.win 5).blk t).view.read (Elt F) ((outsAt2 V c tLast.val tLast.isLt).1 : S1024x10.Idx → Elt F .f32) := by
  have hN : cfg2.N = 4 := N_2
  have h3 : t.val = 3 := by have := (flush2_5 t).mp hf; have := t.isLt; omega
  obtain rfl : t = tLast := Fin.ext h3
  show (cfg2.win 5).cut (grid2.coords tLast) ((dat2 V c).after 5 tLast) = _
  rw [after2_5]
  exact blk2_read_of _ tLast

theorem mem_blk2 (t : Fin cfg2.N) (i : S1024x10.Idx) :
    i ∈ ((cfg2.win 5).blk t).view.set ↔ ∀ a : Fin 2, win2_5.index t a * S1024x10.size a ≤ (i a).val ∧ (i a).val < win2_5.index t a * S1024x10.size a + S1024x10.size a := by
  show i ∈ ((View.whole main_v5).slice (win2_5.rect t)).set ↔ _
  rw [View.set_slice_whole, Rect.mem_set_unit]
  exact Iff.rfl

theorem cover2 (i : S1024x10.Idx) : ∃ t : Fin cfg2.N, (cfg2.win 5).flush t = true ∧ i ∈ ((cfg2.win 5).blk t).view.set := by
  refine ⟨tLast, (flush2_5 tLast).mpr rfl, ?_⟩
  rw [mem_blk2]
  have e := idx_facts2 tLast
  have h0 : (i 0).val < 1024 := (i 0).isLt
  have h1 : (i 1).val < 10 := (i 1).isLt
  intro a
  match a with
  | ⟨0, _⟩ => show win2_5.index tLast 0 * 1024 ≤ (i 0).val ∧ (i 0).val < win2_5.index tLast 0 * 1024 + 1024; rw [e.w5_0]; omega
  | ⟨1, _⟩ => show win2_5.index tLast 1 * 10 ≤ (i 1).val ∧ (i 1).val < win2_5.index tLast 1 * 10 + 10; rw [e.w5_1]; omega

/-- The output array after the region is what the last point stores. -/
theorem arr2_eq (c : Dev nD) : (dat2 V c).arrAt 5 cfg2.N = ((outsAt2 V c tLast.val tLast.isLt).1 : S1024x10.Idx → Elt F .f32) :=
  (dat2 V c).arrAt_eq_of_cover 5 _ (flushed2_eq V c) cover2

end Blocks2

end Cert.ReferenceIdeal.Hand

end
-- ==== Proof.ReferenceResult.lean ====
import proofs.«172427_g2000706451865267_pallasbulk_150_11_alg».proof.Proof.ReferenceVal3

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.NetSpec

/-! # The result of the reference program as the network of its nine arguments -/

/-! ## Sums over the 25 600 features, by blocks -/

/-- A sum over `a·b = N` entries taken block by block. -/
theorem sum_by_blocks (a b N : ℕ) (hN : a * b = N) (g : Fin N → EReal) :
    ∑ i : Fin a, ∑ j : Fin b, g ⟨b * i.val + j.val, hN ▸ Cert.LibBlockSum.lt_blocks i.isLt j.isLt⟩ = ∑ r : Fin N, g r := by
  subst hN
  exact Cert.LibBlockSum.sum_blocks a b g

/-- The sum over the features, by the four grid blocks of 6400, is the sum over row, column and channel of the pooled map. -/
theorem sum_features (g : Fin 25600 → EReal) :
    ∑ t : Fin 4, ∑ j : Fin 6400, g ⟨6400 * t.val + j.val, by have := t.isLt; have := j.isLt; omega⟩
      = ∑ h : Fin 20, ∑ w : Fin 20, ∑ co : Fin 64, g (feat h w co) := by
  have h1 := sum_by_blocks 4 6400 25600 (by norm_num) g
  have h2 := sum_by_blocks 20 1280 25600 (by norm_num) g
  have h3 : ∀ h : Fin 20, ∑ w : Fin 20, ∑ co : Fin 64, g (feat h w co)
      = ∑ q : Fin 1280, g ⟨1280 * h.val + q.val, by have := h.isLt; have := q.isLt; omega⟩ := fun h => by
    have := sum_by_blocks 20 64 1280 (by norm_num) (fun q : Fin 1280 => g ⟨1280 * h.val + q.val, by have := h.isLt; have := q.isLt; omega⟩)
    rw [← this]
    refine Finset.sum_congr rfl fun w _ => Finset.sum_congr rfl fun co _ => congrArg g (Fin.ext ?_)
    show h.val * 1280 + w.val * 64 + co.val = 1280 * h.val + (64 * w.val + co.val)
    omega
  calc ∑ t : Fin 4, ∑ j : Fin 6400, g ⟨6400 * t.val + j.val, _⟩ = ∑ r : Fin 25600, g r := h1
    _ = ∑ h : Fin 20, ∑ q : Fin 1280, g ⟨1280 * h.val + q.val, _⟩ := h2.symm
    _ = ∑ h : Fin 20, ∑ w : Fin 20, ∑ co : Fin 64, g (feat h w co) := Finset.sum_congr rfl fun h _ => (h3 h).symm

section AtIdeal2

variable (m : (ℓ : Loc nD τ sig) → Buf (Elt Ideal) ℓ)

/-- The feature array region 2 is entered with is region 1's output with row, column and channel flattened. -/
theorem E5_v4 (c : Dev nD) :
    (E5 m c main_v4 : S1024x25600.Idx → EReal)
      = shapeCast S1024x25600 (U4 m c main_v3 : S1024x20x20x64.Idx → EReal) shapeCasts_S1024x20x20x64_S1024x25600 := by
  show StableHlo.after hostOps2 (U4 m c) (Proc.devRef .tc main_v4) = _
  after_results; rfl

theorem E5_v4_apply (c : Dev nD) (n : Fin 1024) (h w : Fin 20) (co : Fin 64) :
    (E5 m c main_v4 : S1024x25600.Idx → EReal) (ix2 n (feat h w co))
      = (U4 m c main_v3 : S1024x20x20x64.Idx → EReal) (ix4 n h w co) := by
  rw [E5_v4]
  exact shapeCast_apply _ _ _ (ix4 n h w co) (by
    rw [Shape.rowMajor_val_four, Shape.rowMajor_val_two]
    show ((n.val * 20 + h.val) * 20 + w.val) * 64 + co.val = n.val * 25600 + (h.val * 1280 + w.val * 64 + co.val)
    omega)

theorem E5_arg5 (c : Dev nD) : E5 m c main_arg5 = m ((c : Thread nD τ).loc main_arg5) :=
  (Gen.V5_of m (outs m) c main_arg5 (by decide)).trans ((Gen.V4_of m (outs m) c main_arg5 (by decide)).trans ((Gen.V3_of m (outs m) c main_arg5 (by decide)).trans ((Gen.V2_of m (outs m) c main_arg5 (by decide)).trans ((Gen.V1_of m c main_arg5 (by decide)).trans rfl))))
theorem E5_arg6 (c : Dev nD) : E5 m c main_arg6 = m ((c : Thread nD τ).loc main_arg6) :=
  (Gen.V5_of m (outs m) c main_arg6 (by decide)).trans ((Gen.V4_of m (outs m) c main_arg6 (by decide)).trans ((Gen.V3_of m (outs m) c main_arg6 (by decide)).trans ((Gen.V2_of m (outs m) c main_arg6 (by decide)).trans ((Gen.V1_of m c main_arg6 (by decide)).trans rfl))))
theorem E5_arg7 (c : Dev nD) : E5 m c main_arg7 = m ((c : Thread nD τ).loc main_arg7) :=
  (Gen.V5_of m (outs m) c main_arg7 (by decide)).trans ((Gen.V4_of m (outs m) c main_arg7 (by decide)).trans ((Gen.V3_of m (outs m) c main_arg7 (by decide)).trans ((Gen.V2_of m (outs m) c main_arg7 (by decide)).trans ((Gen.V1_of m c main_arg7 (by decide)).trans rfl))))
theorem E5_arg8 (c : Dev nD) : E5 m c main_arg8 = m ((c : Thread nD τ).loc main_arg8) :=
  (Gen.V5_of m (outs m) c main_arg8 (by decide)).trans ((Gen.V4_of m (outs m) c main_arg8 (by decide)).trans ((Gen.V3_of m (outs m) c main_arg8 (by decide)).trans ((Gen.V2_of m (outs m) c main_arg8 (by decide)).trans ((Gen.V1_of m c main_arg8 (by decide)).trans rfl))))

/-- The arrays region 2 reads, at their element type. -/
def featArr (c : Dev nD) : Vec Ideal S1024x25600 .f32 := E5 m c main_v4
def wl1Arr (c : Dev nD) : Vec Ideal S25600x128 .f32 := E5 m c main_arg5
def b1Arr (c : Dev nD) : Vec Ideal S1x128 .f32 := E5 m c main_arg6
def w2Arr (c : Dev nD) : Vec Ideal S128x10 .f32 := E5 m c main_arg7
def b2Arr (c : Dev nD) : Vec Ideal S1x10 .f32 := E5 m c main_arg8
def poolArr (c : Dev nD) : Vec Ideal S1024x20x20x64 .f32 := U4 m c main_v3
/-- Point `t`'s two blocks, and the scratch after position `n`. -/
def xBlk (c : Dev nD) (t : Fin cfg2.N) : Vec Ideal S1024x6400 .f32 := iblk2 (E5 m) c 0 t
def wBlk (c : Dev nD) (t : Fin cfg2.N) : Vec Ideal S6400x128 .f32 := iblk2 (E5 m) c 1 t
def accAt (c : Dev nD) (n : ℕ) (hn : n < cfg2.N) : Vec Ideal S1024x128 .f32 := (outsAt2 (E5 m) c n hn).2

theorem featArr_apply (c : Dev nD) (n : Fin 1024) (h w : Fin 20) (co : Fin 64) :
    featArr m c (ix2 n (feat h w co)) = poolArr m c (ix4 n h w co) := E5_v4_apply m c n h w co

/-- Point `t`'s block product at `(s, f)`, over the whole arrays. -/
def blkTerm (c : Dev nD) (s : Fin 1024) (f : Fin 128) (t : ℕ) : EReal :=
  if h : t < 4 then
    ∑ j : Fin 6400, featArr m c (ix2 s ⟨6400 * t + j.val, by have := j.isLt; omega⟩)
      * wl1Arr m c (ix2 ⟨6400 * t + j.val, by have := j.isLt; omega⟩ f)
  else 0

theorem step_term (c : Dev nD) (t : Fin cfg2.N) (s : Fin 1024) (f : Fin 128) :
    ∑ j : Fin 6400, xBlk m c t (ix2 s j) * wBlk m c t (ix2 j f) = blkTerm m c s f t.val := by
  have ht : t.val < 4 := lt_of_lt_of_eq t.isLt (show cfg2.N = 4 from N_2)
  unfold blkTerm
  rw [dif_pos ht]
  refine Finset.sum_congr rfl fun j _ => ?_
  exact congrArg₂ (· * ·)
    (iblk2_0_apply (E5 m) c t (ix2 s j) (ix2 s ⟨6400 * t.val + j.val, by have := j.isLt; omega⟩) rfl rfl)
    (iblk2_1_apply (E5 m) c t (ix2 j f) (ix2 ⟨6400 * t.val + j.val, by have := j.isLt; omega⟩ f) rfl rfl)

theorem accAt_zero (c : Dev nD) (hn : 0 < cfg2.N) : accAt m c 0 hn = k2_pay2 (k2_pay1 (F := Ideal)) (xBlk m c ⟨0, hn⟩) (wBlk m c ⟨0, hn⟩) :=
  scratch_first (E5 m) c ⟨0, hn⟩ (Nat.zero_mod 4)

theorem accAt_succ (c : Dev nD) (n : ℕ) (hn : n + 1 < cfg2.N) :
    accAt m c (n + 1) hn = k2_pay2 (accAt m c n (Nat.lt_of_succ_lt hn)) (xBlk m c ⟨n + 1, hn⟩) (wBlk m c ⟨n + 1, hn⟩) :=
  scratch_next (E5 m) c ⟨n + 1, hn⟩ (by have hN : cfg2.N = 4 := N_2; show ¬(n + 1) % 4 = 0; omega)

/-- The scratch after point `n` at `(s, f)`: the block products of the points up to `n`, added. -/
theorem acc_apply (c : Dev nD) (s : Fin 1024) (f : Fin 128) : ∀ (n : ℕ) (hn : n < cfg2.N),
    accAt m c n hn (ix2 s f) = ∑ t ∈ Finset.range (n + 1), blkTerm m c s f t
  | 0, hn => by
    rw [Finset.sum_range_one, accAt_zero m c hn]
    refine (Cert.ReferenceIdeal.Head.pay2_apply (k2_pay1 (F := Ideal)) (xBlk m c ⟨0, hn⟩) (wBlk m c ⟨0, hn⟩) s f).trans ?_
    rw [Cert.ReferenceIdeal.Head.pay1_apply, zero_add]
    exact step_term m c ⟨0, hn⟩ s f
  | n + 1, hn => by
    rw [Finset.sum_range_succ, ← acc_apply c s f n (Nat.lt_of_succ_lt hn), accAt_succ m c n hn]
    refine (Cert.ReferenceIdeal.Head.pay2_apply (accAt m c n (Nat.lt_of_succ_lt hn)) (xBlk m c ⟨n + 1, hn⟩) (wBlk m c ⟨n + 1, hn⟩) s f).trans ?_
    exact congrArg₂ (· + ·) rfl (step_term m c ⟨n + 1, hn⟩ s f)

/-- The scratch after the last point at `(s, f)` is the first dense layer's sum over the pooled map of sample `s`. -/
theorem acc_last (c : Dev nD) (s : Fin 1024) (f : Fin 128) :
    accAt m c tLast.val tLast.isLt (ix2 s f)
      = ∑ h : Fin 20, ∑ w : Fin 20, ∑ co : Fin 64, poolArr m c (ix4 s h w co) * wl1Arr m c (ix2 (feat h w co) f) := by
  rw [acc_apply m c s f tLast.val tLast.isLt]
  show ∑ t ∈ Finset.range 4, blkTerm m c s f t = _
  rw [Finset.sum_range]
  have hb : ∀ t : Fin 4, blkTerm m c s f t.val
      = ∑ j : Fin 6400, (fun r : Fin 25600 => featArr m c (ix2 s r) * wl1Arr m c (ix2 r f))
          ⟨6400 * t.val + j.val, by have := t.isLt; have := j.isLt; omega⟩ := fun t => by
    unfold blkTerm; rw [dif_pos t.isLt]
  rw [Finset.sum_congr rfl fun t _ => hb t]
  refine (sum_features (fun r : Fin 25600 => featArr m c (ix2 s r) * wl1Arr m c (ix2 r f))).trans ?_
  refine Finset.sum_congr rfl fun h _ => Finset.sum_congr rfl fun w _ => Finset.sum_congr rfl fun co _ => ?_
  show featArr m c (ix2 s (feat h w co)) * wl1Arr m c (ix2 (feat h w co) f) = _
  rw [featArr_apply]

/-- The result array is the tail of the scratch after the last point. -/
theorem res_tail (c : Dev nD) :
    (U6 m c main_v5 : S1024x10.Idx → EReal)
      = k2_pay3 (F := Ideal) (accAt m c tLast.val tLast.isLt) (b1Arr m c) (w2Arr m c) (b2Arr m c) := by
  have e1 : (U6 m c main_v5 : S1024x10.Idx → EReal) = (dat2 (E5 m) c).arrAt 5 cfg2.N := (hF2 m c 5).symm
  have e2 := arr2_eq (E5 m) c
  have e3 := out_last (E5 m) c tLast rfl
  have e4 := scratch_next (E5 m) c tLast (by decide)
  rw [← e4] at e3
  exact e1.trans (e2.trans e3)

/-- **The program's result is the network of its nine arguments.** -/
theorem result_eq (c : Dev nD) :
    (U6 m c main_v5 : S1024x10.Idx → EReal) = netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨n, k, rfl⟩ : ∃ (n : Fin 1024) (k : Fin 10), i = ix2 n k := ⟨i 0, i 1, eq_ix2 i⟩
  refine (congrFun (res_tail m c) (ix2 n k)).trans ?_
  refine (Cert.ReferenceIdeal.Head.pay3_apply (accAt m c tLast.val tLast.isLt) (b1Arr m c) (w2Arr m c) (b2Arr m c) n k).trans ?_
  show _ = net _ _ _ _ _ _ _ _ _ n k
  unfold Cert.NetSpec.net Cert.NetSpec.logits
  have hfc : (fun f : Fin 128 => max (accAt m c tLast.val tLast.isLt (ix2 n f) + b1Arr m c (ix2 (0 : Fin 1) f)) 0)
      = fc1 (argX (m ((c.tc : Thread nD τ).loc main_arg0))) (argWb (m ((c.tc : Thread nD τ).loc main_arg1))) (argB1 (m ((c.tc : Thread nD τ).loc main_arg2)))
          (argW2 (m ((c.tc : Thread nD τ).loc main_arg3))) (argB2 (m ((c.tc : Thread nD τ).loc main_arg4)))
          (argWl1 (m ((c.tc : Thread nD τ).loc main_arg5))) (argBl1 (m ((c.tc : Thread nD τ).loc main_arg6))) n := by
    funext f
    rw [acc_last m c n f]
    unfold Cert.NetSpec.fc1 Cert.NetSpec.fc1Of Cert.NetSpec.pool Cert.NetSpec.conv2 Cert.NetSpec.conv1
    have hs : ∀ (h w : Fin 20) (co : Fin 64), poolArr m c (ix4 n h w co) * wl1Arr m c (ix2 (feat h w co) f)
        = poolOf (conv2Of (conv1Of (argX (m ((c.tc : Thread nD τ).loc main_arg0)) n) (argWb (m ((c.tc : Thread nD τ).loc main_arg1))) (argB1 (m ((c.tc : Thread nD τ).loc main_arg2))))
            (argW2 (m ((c.tc : Thread nD τ).loc main_arg3))) (argB2 (m ((c.tc : Thread nD τ).loc main_arg4)))) h w co
          * argWl1 (m ((c.tc : Thread nD τ).loc main_arg5)) (feat h w co) f := fun h w co =>
      congrArg₂ (· * ·) (pool_apply m c n h w co) (congrFun (E5_arg5 m c) (ix2 (feat h w co) f))
    rw [Finset.sum_congr rfl fun h _ => Finset.sum_congr rfl fun w _ => Finset.sum_congr rfl fun co _ => hs h w co]
    exact congrArg (fun b => max (_ + b) 0) (congrFun (E5_arg6 m c) (ix2 (0 : Fin 1) f))
  have hw : (fun (f : Fin 128) (k' : Fin 10) => w2Arr m c (ix2 f k')) = argWl2 (m ((c.tc : Thread nD τ).loc main_arg7)) := by
    funext f k'; exact congrFun (E5_arg7 m c) (ix2 f k')
  have hb : (fun k' : Fin 10 => b2Arr m c (ix2 (0 : Fin 1) k')) = argBl2 (m ((c.tc : Thread nD τ).loc main_arg8)) := by
    funext k'; exact congrFun (E5_arg8 m c) (ix2 (0 : Fin 1) k')
  rw [hfc, hw, hb]

/-- The run of the reference program, its result named as the network of the arguments, the arguments kept. -/
theorem value_run' (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m c), (h c).2⟩) (value_run m ρ)

end AtIdeal2

end Cert.ReferenceIdeal.Hand

end
-- ==== Proof.KernelIdealValue.lean ====
/- From the output window's blocks to the result array, at the exact instance: the kernel's result array after
   the run as ONE function of what the region finds, index by index. Grid point `t` (of 8) writes back rows
   `128·t … 128·t + 127` of the 1024 × 10 result; row `n` is therefore written by point `n / 128`, as row
   `n % 128` of what the body leaves there. -/
import proofs.«172427_g2000706451865267_pallasbulk_150_11_alg».proof.Proof.KernelIdealFrame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The grid point that writes back row `n` of the result: `n / 128`. -/
def pt (n : Fin 1024) : Fin cfg0.N := ⟨n.val / 128, by rw [show cfg0.N = 8 from N_0]; omega⟩

/-- Row `n`'s place inside its point's block: `n % 128`. -/
def inBlk (n : Fin 1024) : Fin 128 := ⟨n.val % 128, Nat.mod_lt _ (by decide)⟩

/-- What the body leaves in the output window's buffer at point `t`: `out0_9` of the nine input blocks there. -/
def outAt (c : Dev nD) (t : Fin cfg0.N) : Vec Ideal S128x10 .f32 :=
  out0_9 (iblk m c 0 t) (iblk m c 1 t) (iblk m c 2 t) (iblk m c 3 t) (iblk m c 4 t) (iblk m c 5 t) (iblk m c 6 t) (iblk m c 7 t) (iblk m c 8 t)

/-- The row and the column of an index of the result array, as numbers below the literal extents. -/
def rowOf (i : S1024x10.Idx) : Fin 1024 := ⟨(i 0).val, idx2_lt0 i⟩
def colOf (i : S1024x10.Idx) : Fin 10 := ⟨(i 1).val, idx2_lt1 i⟩

/-- The result array as one function: entry `(n, k)` is entry `(n % 128, k)` of what the body leaves at point `n / 128`. -/
def G (c : Dev nD) : S1024x10.Idx → EReal := fun i =>
  outAt m c (pt (rowOf i)) (ix2 (inBlk (rowOf i)) (colOf i))

theorem G_apply (c : Dev nD) (n : Fin 1024) (k : Fin 10) :
    G m c (ix2 n k) = out0_9 (iblk m c 0 (pt n)) (iblk m c 1 (pt n)) (iblk m c 2 (pt n)) (iblk m c 3 (pt n)) (iblk m c 4 (pt n)) (iblk m c 5 (pt n)) (iblk m c 6 (pt n)) (iblk m c 7 (pt n)) (iblk m c 8 (pt n)) (ix2 (inBlk n) k) := rfl

/-- An entry of the result array lying in point `t`'s block at the block's index `j` is `outAt` at `t`, `j`. -/
theorem G_of_coords (c : Dev nD) (t : Fin cfg0.N) (j : S128x10.Idx) (i : S1024x10.Idx)
    (h0 : (i 0).val = t.val * 128 + (j 0).val) (h1 : (i 1).val = (j 1).val) : G m c i = outAt m c t j := by
  have hj : (j 0).val < 128 := (j 0).isLt
  have hp : pt (rowOf i) = t := Fin.ext (by show (i 0).val / 128 = t.val; omega)
  have hi : (ix2 (inBlk (rowOf i)) (colOf i) : S128x10.Idx) = j := by
    funext a
    match a with
    | ⟨0, _⟩ => exact Fin.ext (by show (i 0).val % 128 = (j 0).val; omega)
    | ⟨1, _⟩ => exact Fin.ext h1
  show outAt m c (pt (rowOf i)) (ix2 (inBlk (rowOf i)) (colOf i)) = outAt m c t j
  rw [hp, hi]

/-- The output window's block index at point `t`, decided over the grid: row block `t`, the one column block. -/
theorem out_index : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- What point `t` writes back is block `t` of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  obtain ⟨e0, e1⟩ := out_index t
  funext j
  show outAt m c t j = G m c (((cfg0.win 9).blk t).view.emb j)
  refine (G_of_coords m c t j _ ?_ ?_).symm
  · show win0_9.index t (0 : Fin 2) * 128 + 1 * (j 0).val = t.val * 128 + (j 0).val
    rw [e0]; omega
  · show win0_9.index t (1 : Fin 2) * 10 + 1 * (j 1).val = (j 1).val
    rw [e1]; omega

/-- An index of the result array is in point `t`'s block iff each coordinate is in the block's range on its axis. -/
theorem mem_blk (t : Fin cfg0.N) (i : S1024x10.Idx) :
    i ∈ ((cfg0.win 9).blk t).view.set ↔ ∀ a : Fin 2, win0_9.index t a * S128x10.size a ≤ (i a).val ∧ (i a).val < win0_9.index t a * S128x10.size a + S128x10.size a := by
  show i ∈ ((View.whole main_v21).slice (win0_9.rect t)).set ↔ _
  rw [View.set_slice_whole, Rect.mem_set_unit]
  exact Iff.rfl

/-- Every entry of the result array is in the block of the point `n / 128`, which writes back. -/
theorem cover (i : S1024x10.Idx) : ∃ t : Fin cfg0.N, (cfg0.win 9).flush t = true ∧ i ∈ ((cfg0.win 9).blk t).view.set := by
  refine ⟨pt (rowOf i), flush0_9 _, ?_⟩
  rw [mem_blk]
  obtain ⟨e0, e1⟩ := out_index (pt (rowOf i))
  have hp : (pt (rowOf i)).val = (i 0).val / 128 := rfl
  have h1 : (i 1).val < 10 := (i 1).isLt
  intro a
  match a with
  | ⟨0, _⟩ => show win0_9.index (pt (rowOf i)) (0 : Fin 2) * 128 ≤ (i 0).val ∧ (i 0).val < win0_9.index (pt (rowOf i)) (0 : Fin 2) * 128 + 128
              rw [e0, hp]; omega
  | ⟨1, _⟩ => show win0_9.index (pt (rowOf i)) (1 : Fin 2) * 10 ≤ (i 1).val ∧ (i 1).val < win0_9.index (pt (rowOf i)) (1 : Fin 2) * 10 + 10
              rw [e1]; omega

/-- The result array after the run is `G`: every point writes back its block of `G`, and the blocks cover the array. -/
theorem final (c : Dev nD) : (dats m 0 c).arrAt 9 cfg0.N = G m c :=
  (dats m 0 c).arrAt_eq_of_cover 9 (G m c) (fun t _ => flushed_eq m c t) (cover)

/-- The run, read: the result array at `G`, the nine arguments unchanged. -/
theorem value_run : θ_run (defs (F := Ideal)) (onTc (τ := τ) (main (F := Ideal))) ⟨m, fun _ => 0, ρ⟩ (fun r => ∀ c : Dev nD,
      r.2.mem ((c.tc : Thread nD τ).loc main_v21) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Hand

end
-- ==== Proof.KernelIdealBlocks.lean ====
/- Each input window's block at a grid point, read off the ARGUMENT arrays through the host operations that
   run before the region, at the exact instance. Window 0 stages the images transposed to (row, sample, column),
   128 samples per point; windows 1, 3, 4 and 5 stage re-laid weights and biases whole: the first convolution's
   banded weights flattened to 160 rows, the second convolution's weights spread into four column-shifted copies
   (copy `j` holds tap column `dw - j` at padded column `dw`, zero outside the five taps) side by side in 256
   lanes, its bias tiled four times, the dense layer's weights cut into 100 slabs of 256 rows; windows 2, 6, 7
   and 8 stage arguments as they are. -/
import proofs.«172427_g2000706451865267_pallasbulk_150_11_alg».proof.Proof.KernelIdealFrame
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ)

/-! ## The argument arrays -/

/-- Argument 0 as launched, as a function of its index. -/
abbrev A0 (c : Dev nD) : S1024x1x32x32.Idx → EReal := m ((c : Thread nD τ).loc main_arg0)
/-- Argument 1 as launched, as a function of its index. -/
abbrev A1 (c : Dev nD) : S5x32x896.Idx → EReal := m ((c : Thread nD τ).loc main_arg1)
/-- Argument 2 as launched, as a function of its index. -/
abbrev A2 (c : Dev nD) : S1x896.Idx → EReal := m ((c : Thread nD τ).loc main_arg2)
/-- Argument 3 as launched, as a function of its index. -/
abbrev A3 (c : Dev nD) : S25x32x64.Idx → EReal := m ((c : Thread nD τ).loc main_arg3)
/-- Argument 4 as launched, as a function of its index. -/
abbrev A4 (c : Dev nD) : S1x64.Idx → EReal := m ((c : Thread nD τ).loc main_arg4)
/-- Argument 5 as launched, as a function of its index. -/
abbrev A5 (c : Dev nD) : S25600x128.Idx → EReal := m ((c : Thread nD τ).loc main_arg5)
/-- Argument 6 as launched, as a function of its index. -/
abbrev A6 (c : Dev nD) : S1x128.Idx → EReal := m ((c : Thread nD τ).loc main_arg6)
/-- Argument 7 as launched, as a function of its index. -/
abbrev A7 (c : Dev nD) : S128x10.Idx → EReal := m ((c : Thread nD τ).loc main_arg7)
/-- Argument 8 as launched, as a function of its index. -/
abbrev A8 (c : Dev nD) : S1x10.Idx → EReal := m ((c : Thread nD τ).loc main_arg8)

/-! ## The staged arrays as the host operations' terms of the arguments -/

/-- The images, the unit channel axis dropped, transposed to (row, sample, column). -/
theorem V_v1 (c : Dev nD) : (V m c main_v1 : S32x1024x32.Idx → EReal)
    = transpose S32x1024x32 [1, 0, 2] (shapeCast S1024x32x32 (A0 m c) shapeCasts_S1024x1x32x32_S1024x32x32) transposes_S1024x32x32_S32x1024x32_1_0_2 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The banded weights flattened to 160 rows. -/
theorem V_v3 (c : Dev nD) : (V m c main_v3 : S160x896.Idx → EReal)
    = truncf (F := Ideal) .bf16 (shapeCast S160x896 (A1 m c) shapeCasts_S5x32x896_S160x896 : FVec Ideal S160x896 .f32) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second convolution's weights as five taps by five, padded along the tap-column axis from five to eight with
    `lo 1` zeros before and `hi 1` after, a unit axis added before the channels-out axis. -/
def padded (c : Dev nD) (lo hi : Fin 4 → Nat) (hp : S5x5x32x64.Pads lo hi ![0, 0, 0, 0] S5x8x32x64) : S5x8x32x1x64.Idx → EReal :=
  broadcastInDim S5x8x32x1x64 ![0, 1, 2, 4] bcast_S5x8x32x64_S5x8x32x1x64_0_1_2_4
    (pad S5x8x32x64 lo hi ![0, 0, 0, 0] (shapeCast S5x5x32x64 (A3 m c) shapeCasts_S25x32x64_S5x5x32x64)
      (sitofp (F := Ideal) .f32 (constantI S_ 32 0#32)) hp h_S_)

/-- The four shifted copies side by side along a new axis before the channels-out axis. -/
def spread (c : Dev nD) : S5x8x32x4x64.Idx → EReal :=
  concatenate S5x8x32x4x64 3
    [⟨S5x8x32x1x64, padded m c ![0, 0, 0, 0] ![0, 3, 0, 0] pads_S5x5x32x64_S5x8x32x64_000_030_000_000⟩,
     ⟨S5x8x32x1x64, padded m c ![0, 1, 0, 0] ![0, 2, 0, 0] pads_S5x5x32x64_S5x8x32x64_000_120_000_000⟩,
     ⟨S5x8x32x1x64, padded m c ![0, 2, 0, 0] ![0, 1, 0, 0] pads_S5x5x32x64_S5x8x32x64_000_210_000_000⟩,
     ⟨S5x8x32x1x64, padded m c ![0, 3, 0, 0] ![0, 0, 0, 0] pads_S5x5x32x64_S5x8x32x64_000_300_000_000⟩]
    concatenates_S5x8x32x1x64_S5x8x32x1x64_S5x8x32x1x64_S5x8x32x1x64_S5x8x32x4x64_d3

/-- The spread weights flattened to 1280 rows by 256 lanes. -/
theorem V_v15 (c : Dev nD) : (V m c main_v15 : S1280x256.Idx → EReal)
    = truncf (F := Ideal) .bf16 (shapeCast S1280x256 (spread m c) shapeCasts_S5x8x32x4x64_S1280x256 : FVec Ideal S1280x256 .f32) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second bias tiled four times along the lanes. -/
theorem V_v18 (c : Dev nD) : (V m c main_v18 : S1x256.Idx → EReal)
    = shapeCast S1x256 (broadcastInDim S1x1x4x64 ![0, 1, 2, 3] bcast_S1x1x1x64_S1x1x4x64_0_1_2_3
        (shapeCast S1x1x1x64 (A4 m c) shapeCasts_S1x64_S1x1x1x64)) shapeCasts_S1x1x4x64_S1x256 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The dense layer's weights cut into 100 slabs of 256 rows. -/
theorem V_v20 (c : Dev nD) : (V m c main_v20 : S100x256x128.Idx → EReal)
    = truncf (F := Ideal) .bf16 (shapeCast S100x256x128 (A5 m c) shapeCasts_S25600x128_S100x256x128 : FVec Ideal S100x256x128 .f32) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-! ## The staged arrays at an entry -/

/-- Entry (row `h`, sample `n`, column `w`) of the transposed images is the image entry `(n, 0, h, w)`. -/
theorem v1_apply (c : Dev nD) (h : Fin 32) (n : Fin 1024) (w : Fin 32) :
    (V m c main_v1 : S32x1024x32.Idx → EReal) (ix3 h n w) = A0 m c (ix4 n (0 : Fin 1) h w) := by
  rw [V_v1]
  refine (transpose_apply [1, 0, 2] _ transposes_S1024x32x32_S32x1024x32_1_0_2 (ix3 h n w) (ix3 n h w) fun b => ?_).trans ?_
  · match b with
    | ⟨0, _⟩ => rfl
    | ⟨1, _⟩ => rfl
    | ⟨2, _⟩ => rfl
  · refine shapeCast_apply (A0 m c) _ (ix3 n h w) (ix4 n (0 : Fin 1) h w) ?_
    rw [Shape.rowMajor_val_four, Shape.rowMajor_val_three]
    show ((n.val * 1 + 0) * 32 + h.val) * 32 + w.val = (n.val * 32 + h.val) * 32 + w.val
    omega

/-- Row `32·kh + w` of the flattened banded weights is row `w` of band `kh`. -/
theorem v3_apply (c : Dev nD) (kh : Fin 5) (w : Fin 32) (l : Fin 896) :
    (V m c main_v3 : S160x896.Idx → EReal) (ix2 (⟨32 * kh.val + w.val, by omega⟩ : Fin 160) l) = A1 m c (ix3 kh w l) := by
  rw [V_v3]
  show shapeCast S160x896 (A1 m c) shapeCasts_S5x32x896_S160x896 (ix2 (⟨32 * kh.val + w.val, by omega⟩ : Fin 160) l) = _
  refine shapeCast_apply (A1 m c) _ _ (ix3 kh w l) ?_
  rw [Shape.rowMajor_val_three, Shape.rowMajor_val_two]
  show (kh.val * 32 + w.val) * 896 + l.val = (32 * kh.val + w.val) * 896 + l.val
  omega

/-- The tap weights regrouped as five by five: tap `(kh, kw)` is tap number `kh·5 + kw`. -/
theorem taps_apply (c : Dev nD) (kh kw : Fin 5) (ci : Fin 32) (co : Fin 64) :
    shapeCast S5x5x32x64 (A3 m c) shapeCasts_S25x32x64_S5x5x32x64 (ix4 kh kw ci co)
      = A3 m c (ix3 (⟨kh.val * 5 + kw.val, by omega⟩ : Fin 25) ci co) := by
  refine shapeCast_apply (A3 m c) _ _ (ix3 (⟨kh.val * 5 + kw.val, by omega⟩ : Fin 25) ci co) ?_
  rw [Shape.rowMajor_val_three, Shape.rowMajor_val_four]
  show ((kh.val * 5 + kw.val) * 32 + ci.val) * 64 + co.val = (((kh.val * 5 + kw.val) * 32 + ci.val)) * 64 + co.val
  rfl

/-- The padding value is zero. -/
theorem padValue : (sitofp (F := Ideal) .f32 (constantI S_ 32 0#32) : S_.Idx → EReal) (Shape.Idx.first h_S_) = 0 := by
  show (((0#32 : BitVec 32).toInt : ℝ) : EReal) = 0
  simp

/-- A shifted copy at padded column `dw`: tap column `dw - s` when `s ≤ dw < s + 5`, zero otherwise. -/
theorem padded_apply (c : Dev nD) (lo hi : Fin 4 → Nat) (hp : S5x5x32x64.Pads lo hi ![0, 0, 0, 0] S5x8x32x64)
    (s : Nat) (hlo : lo = ![0, s, 0, 0]) (kh : Fin 5) (dw : Fin 8) (ci : Fin 32) (co : Fin 64) :
    padded m c lo hi hp (ix5 kh dw ci (0 : Fin 1) co)
      = if h : s ≤ dw.val ∧ dw.val < s + 5 then A3 m c (ix3 (⟨kh.val * 5 + (dw.val - s), by omega⟩ : Fin 25) ci co) else 0 := by
  subst hlo
  unfold padded
  refine (broadcastInDim_apply _ _ _ (ix5 kh dw ci (0 : Fin 1) co) (ix4 kh dw ci co) fun a => ?_).trans ?_
  · match a with
    | ⟨0, _⟩ => rfl
    | ⟨1, _⟩ => rfl
    | ⟨2, _⟩ => rfl
    | ⟨3, _⟩ => rfl
  by_cases hc : s ≤ dw.val ∧ dw.val < s + 5
  · rw [dif_pos hc]
    refine (pad_apply_of_inside _ _ _ _ _ hp h_S_ (ix4 kh dw ci co) (ix4 kh (⟨dw.val - s, by omega⟩ : Fin 5) ci co) fun a => ?_).trans ?_
    · match a with
      | ⟨0, _⟩ => show kh.val = 0 + kh.val * (0 + 1); omega
      | ⟨1, _⟩ => show dw.val = s + (dw.val - s) * (0 + 1); omega
      | ⟨2, _⟩ => show ci.val = 0 + ci.val * (0 + 1); omega
      | ⟨3, _⟩ => show co.val = 0 + co.val * (0 + 1); omega
    · exact taps_apply m c kh ⟨dw.val - s, by omega⟩ ci co
  · rw [dif_neg hc]
    refine (pad_apply_of_not_inside _ _ _ _ _ hp h_S_ (ix4 kh dw ci co) (1 : Fin 4) ?_).trans (padValue)
    show ¬(s ≤ dw.val ∧ (dw.val - s) % (0 + 1) = 0 ∧ (dw.val - s) / (0 + 1) < 5)
    omega

/-- The four copies as the list a concatenation takes. -/
abbrev four {α : Type} (x0 x1 x2 x3 : S5x8x32x1x64.Idx → α) : List ((s : Shape) × (s.Idx → α)) :=
  [⟨S5x8x32x1x64, x0⟩, ⟨S5x8x32x1x64, x1⟩, ⟨S5x8x32x1x64, x2⟩, ⟨S5x8x32x1x64, x3⟩]

/-- The copy of four that position `j` of the new axis falls in. -/
def pick4 {β : Type} (x0 x1 x2 x3 : β) (j : Fin 4) : β :=
  match j with
  | ⟨0, _⟩ => x0 | ⟨1, _⟩ => x1 | ⟨2, _⟩ => x2 | ⟨3, _⟩ => x3
  | ⟨k + 4, hk⟩ => absurd hk (by omega)

/-- Four unit-extent pieces side by side along axis 3, read at position `j` of that axis: piece `j` at position 0. -/
theorem four_apply {α : Type} (x0 x1 x2 x3 : S5x8x32x1x64.Idx → α)
    (hc : Shape.Concatenates ((four x0 x1 x2 x3).map (·.1)) S5x8x32x4x64 3)
    (kh : Fin 5) (dw : Fin 8) (ci : Fin 32) (j : Fin 4) (co : Fin 64) :
    concatenate S5x8x32x4x64 3 (four x0 x1 x2 x3) hc (ix5 kh dw ci j co) = pick4 x0 x1 x2 x3 j (ix5 kh dw ci (0 : Fin 1) co) := by
  have hi : ∀ (q : Fin 4) (b : Fin S5x8x32x1x64.rank), b.cast (rfl : S5x8x32x1x64.rank = S5x8x32x4x64.rank) ≠ (3 : Fin 5) →
      ((ix5 kh dw ci (0 : Fin 1) co : S5x8x32x1x64.Idx) b).val = ((ix5 kh dw ci q co : S5x8x32x4x64.Idx) (b.cast rfl)).val := fun q b hb => by
    match b with
    | ⟨0, _⟩ => rfl
    | ⟨1, _⟩ => rfl
    | ⟨2, _⟩ => rfl
    | ⟨3, _⟩ => exact absurd rfl hb
    | ⟨4, _⟩ => rfl
  match j with
  | ⟨0, _⟩ =>
    exact concatenate_apply_piece (t := S5x8x32x4x64) 3 (four x0 x1 x2 x3) hc _ 0 (show 0 < 4 by omega) S5x8x32x1x64 x0 rfl rfl 0 rfl
      (ix5 kh dw ci (0 : Fin 1) co) (hi _) (by show 0 + 0 = 0; omega)
  | ⟨1, _⟩ =>
    exact concatenate_apply_piece (t := S5x8x32x4x64) 3 (four x0 x1 x2 x3) hc _ 1 (show 1 < 4 by omega) S5x8x32x1x64 x1 rfl rfl 1 rfl
      (ix5 kh dw ci (0 : Fin 1) co) (hi _) (by show 1 + 0 = 1; omega)
  | ⟨2, _⟩ =>
    exact concatenate_apply_piece (t := S5x8x32x4x64) 3 (four x0 x1 x2 x3) hc _ 2 (show 2 < 4 by omega) S5x8x32x1x64 x2 rfl rfl 2 rfl
      (ix5 kh dw ci (0 : Fin 1) co) (hi _) (by show 2 + 0 = 2; omega)
  | ⟨3, _⟩ =>
    exact concatenate_apply_piece (t := S5x8x32x4x64) 3 (four x0 x1 x2 x3) hc _ 3 (show 3 < 4 by omega) S5x8x32x1x64 x3 rfl rfl 3 rfl
      (ix5 kh dw ci (0 : Fin 1) co) (hi _) (by show 3 + 0 = 3; omega)

/-- Row `kh·256 + dw·32 + ci`, lane `j·64 + co` of the spread weights: tap `(kh, dw - j)` at `(ci, co)` when
    `j ≤ dw < j + 5`, zero otherwise. -/
theorem v15_apply (c : Dev nD) (kh : Fin 5) (dw : Fin 8) (ci : Fin 32) (j : Fin 4) (co : Fin 64) :
    (V m c main_v15 : S1280x256.Idx → EReal)
        (ix2 (⟨kh.val * 256 + dw.val * 32 + ci.val, by omega⟩ : Fin 1280) (⟨j.val * 64 + co.val, by omega⟩ : Fin 256))
      = if h : j.val ≤ dw.val ∧ dw.val < j.val + 5 then A3 m c (ix3 (⟨kh.val * 5 + (dw.val - j.val), by omega⟩ : Fin 25) ci co) else 0 := by
  rw [V_v15]
  show shapeCast S1280x256 (spread m c) shapeCasts_S5x8x32x4x64_S1280x256
      (ix2 (⟨kh.val * 256 + dw.val * 32 + ci.val, by omega⟩ : Fin 1280) (⟨j.val * 64 + co.val, by omega⟩ : Fin 256)) = _
  refine (shapeCast_apply (spread m c) shapeCasts_S5x8x32x4x64_S1280x256 _ (ix5 kh dw ci j co) ?_).trans ?_
  · rw [Shape.rowMajor_val_five, Shape.rowMajor_val_two]
    show (((kh.val * 8 + dw.val) * 32 + ci.val) * 4 + j.val) * 64 + co.val
      = (kh.val * 256 + dw.val * 32 + ci.val) * 256 + (j.val * 64 + co.val)
    omega
  unfold spread
  refine (four_apply _ _ _ _ _ kh dw ci j co).trans ?_
  match j with
  | ⟨0, _⟩ => exact padded_apply m c _ _ _ 0 rfl kh dw ci co
  | ⟨1, _⟩ => exact padded_apply m c _ _ _ 1 rfl kh dw ci co
  | ⟨2, _⟩ => exact padded_apply m c _ _ _ 2 rfl kh dw ci co
  | ⟨3, _⟩ => exact padded_apply m c _ _ _ 3 rfl kh dw ci co

/-- Lane `j·64 + co` of the tiled bias is entry `co` of the bias. -/
theorem v18_apply (c : Dev nD) (j : Fin 4) (co : Fin 64) :
    (V m c main_v18 : S1x256.Idx → EReal) (ix2 (0 : Fin 1) (⟨j.val * 64 + co.val, by omega⟩ : Fin 256)) = A4 m c (ix2 (0 : Fin 1) co) := by
  rw [V_v18]
  refine (shapeCast_apply _ shapeCasts_S1x1x4x64_S1x256 _ (ix4 (0 : Fin 1) (0 : Fin 1) j co) ?_).trans ?_
  · rw [Shape.rowMajor_val_four, Shape.rowMajor_val_two]
    show (((0 : Fin 1).val * 1 + (0 : Fin 1).val) * 4 + j.val) * 64 + co.val = (0 : Fin 1).val * 256 + (j.val * 64 + co.val)
    simp only [Fin.val_zero]; omega
  refine (broadcastInDim_apply _ _ _ (ix4 (0 : Fin 1) (0 : Fin 1) j co) (ix4 (0 : Fin 1) (0 : Fin 1) (0 : Fin 1) co) fun a => ?_).trans ?_
  · match a with
    | ⟨0, _⟩ => rfl
    | ⟨1, _⟩ => rfl
    | ⟨2, _⟩ => rfl
    | ⟨3, _⟩ => rfl
  · refine shapeCast_apply (A4 m c) _ _ (ix2 (0 : Fin 1) co) ?_
    rw [Shape.rowMajor_val_two, Shape.rowMajor_val_four]
    show (0 : Fin 1).val * 64 + co.val = (((0 : Fin 1).val * 1 + (0 : Fin 1).val) * 1 + (0 : Fin 1).val) * 64 + co.val
    simp only [Fin.val_zero]

/-- Row `r` of slab `s` of the dense layer's weights is row `s·256 + r`. -/
theorem v20_apply (c : Dev nD) (s : Fin 100) (r : Fin 256) (f : Fin 128) :
    (V m c main_v20 : S100x256x128.Idx → EReal) (ix3 s r f) = A5 m c (ix2 (⟨s.val * 256 + r.val, by omega⟩ : Fin 25600) f) := by
  rw [V_v20]
  show shapeCast S100x256x128 (A5 m c) shapeCasts_S25600x128_S100x256x128 (ix3 s r f) = _
  refine shapeCast_apply (A5 m c) _ _ (ix2 (⟨s.val * 256 + r.val, by omega⟩ : Fin 25600) f) ?_
  rw [Shape.rowMajor_val_two, Shape.rowMajor_val_three]
  rfl

/-! ## The windows' block indices, decided over the grid -/

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem index5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)

/-! ## The blocks at an entry -/

/-- Window 0's block at point `t`: row `h`, sample `p` of the point, column `w` is image `128·t + p` at `(h, w)`. -/
theorem blk0_apply (c : Dev nD) (t : Fin cfg0.N) (h : Fin 32) (p : Fin 128) (w : Fin 32) :
    (iblk m c 0 t : Vec Ideal S32x128x32 .f32) (ix3 h p w)
      = A0 m c (ix4 (⟨128 * t.val + p.val, by have := t.isLt; have e : cfg0.N = 8 := N_0; omega⟩ : Fin 1024) (0 : Fin 1) h w) := by
  obtain ⟨e0, e1, e2⟩ := index0 t
  unfold iblk
  rw [View.read_apply]
  refine Eq.trans (congrArg (V m c main_v1 : S32x1024x32.Idx → EReal) (funext fun a => Fin.ext ?_)) (v1_apply m c h _ w)
  match a with
  | ⟨0, _⟩ => show win0_0.index t (0 : Fin 3) * 32 + 1 * h.val = h.val; rw [e0]; omega
  | ⟨1, _⟩ => show win0_0.index t (1 : Fin 3) * 128 + 1 * p.val = 128 * t.val + p.val; rw [e1]; omega
  | ⟨2, _⟩ => show win0_0.index t (2 : Fin 3) * 32 + 1 * w.val = w.val; rw [e2]; omega

/-- Window 1's block at any point: the flattened banded weights. -/
theorem blk1_apply (c : Dev nD) (t : Fin cfg0.N) (kh : Fin 5) (w : Fin 32) (l : Fin 896) :
    (iblk m c 1 t : Vec Ideal S160x896 .bf16) (ix2 (⟨32 * kh.val + w.val, by omega⟩ : Fin 160) l) = A1 m c (ix3 kh w l) := by
  obtain ⟨e0, e1⟩ := index1 t
  unfold iblk
  rw [View.read_apply]
  refine Eq.trans (congrArg (V m c main_v3 : S160x896.Idx → EReal) (funext fun a => Fin.ext ?_)) (v3_apply m c kh w l)
  match a with
  | ⟨0, _⟩ => show win0_1.index t (0 : Fin 2) * 160 + 1 * (32 * kh.val + w.val) = 32 * kh.val + w.val; rw [e0]; omega
  | ⟨1, _⟩ => show win0_1.index t (1 : Fin 2) * 896 + 1 * l.val = l.val; rw [e1]; omega

/-- Window 2's block at any point: the first bias row. -/
theorem blk2_apply (c : Dev nD) (t : Fin cfg0.N) (l : Fin 896) :
    (iblk m c 2 t : Vec Ideal S1x896 .f32) (ix2 (0 : Fin 1) l) = A2 m c (ix2 (0 : Fin 1) l) := by
  obtain ⟨e0, e1⟩ := index2 t
  unfold iblk
  rw [View.read_apply]
  refine Eq.trans (congrArg (V m c main_arg2 : S1x896.Idx → EReal) (funext fun a => Fin.ext ?_)) (congrFun (V_main_arg2 m c) (ix2 (0 : Fin 1) l))
  match a with
  | ⟨0, _⟩ => show win0_2.index t (0 : Fin 2) * 1 + 1 * (0 : Fin 1).val = (0 : Fin 1).val; rw [e0]; rfl
  | ⟨1, _⟩ => show win0_2.index t (1 : Fin 2) * 896 + 1 * l.val = l.val; rw [e1]; omega

/-- Window 3's block at any point: the spread second-convolution weights. -/
theorem blk3_apply (c : Dev nD) (t : Fin cfg0.N) (kh : Fin 5) (dw : Fin 8) (ci : Fin 32) (j : Fin 4) (co : Fin 64) :
    (iblk m c 3 t : Vec Ideal S1280x256 .bf16)
        (ix2 (⟨kh.val * 256 + dw.val * 32 + ci.val, by omega⟩ : Fin 1280) (⟨j.val * 64 + co.val, by omega⟩ : Fin 256))
      = if h : j.val ≤ dw.val ∧ dw.val < j.val + 5 then A3 m c (ix3 (⟨kh.val * 5 + (dw.val - j.val), by omega⟩ : Fin 25) ci co) else 0 := by
  obtain ⟨e0, e1⟩ := index3 t
  unfold iblk
  rw [View.read_apply]
  refine Eq.trans (congrArg (V m c main_v15 : S1280x256.Idx → EReal) (funext fun a => Fin.ext ?_)) (v15_apply m c kh dw ci j co)
  match a with
  | ⟨0, _⟩ => show win0_3.index t (0 : Fin 2) * 1280 + 1 * (kh.val * 256 + dw.val * 32 + ci.val) = kh.val * 256 + dw.val * 32 + ci.val; rw [e0]; omega
  | ⟨1, _⟩ => show win0_3.index t (1 : Fin 2) * 256 + 1 * (j.val * 64 + co.val) = j.val * 64 + co.val; rw [e1]; omega

/-- Window 4's block at any point: the tiled second bias. -/
theorem blk4_apply (c : Dev nD) (t : Fin cfg0.N) (j : Fin 4) (co : Fin 64) :
    (iblk m c 4 t : Vec Ideal S1x256 .f32) (ix2 (0 : Fin 1) (⟨j.val * 64 + co.val, by omega⟩ : Fin 256)) = A4 m c (ix2 (0 : Fin 1) co) := by
  obtain ⟨e0, e1⟩ := index4 t
  unfold iblk
  rw [View.read_apply]
  refine Eq.trans (congrArg (V m c main_v18 : S1x256.Idx → EReal) (funext fun a => Fin.ext ?_)) (v18_apply m c j co)
  match a with
  | ⟨0, _⟩ => show win0_4.index t (0 : Fin 2) * 1 + 1 * (0 : Fin 1).val = (0 : Fin 1).val; rw [e0]; rfl
  | ⟨1, _⟩ => show win0_4.index t (1 : Fin 2) * 256 + 1 * (j.val * 64 + co.val) = j.val * 64 + co.val; rw [e1]; omega

/-- Window 5's block at any point: the dense layer's weights in slabs. -/
theorem blk5_apply (c : Dev nD) (t : Fin cfg0.N) (s : Fin 100) (r : Fin 256) (f : Fin 128) :
    (iblk m c 5 t : Vec Ideal S100x256x128 .bf16) (ix3 s r f) = A5 m c (ix2 (⟨s.val * 256 + r.val, by omega⟩ : Fin 25600) f) := by
  obtain ⟨e0, e1, e2⟩ := index5 t
  unfold iblk
  rw [View.read_apply]
  refine Eq.trans (congrArg (V m c main_v20 : S100x256x128.Idx → EReal) (funext fun a => Fin.ext ?_)) (v20_apply m c s r f)
  match a with
  | ⟨0, _⟩ => show win0_5.index t (0 : Fin 3) * 100 + 1 * s.val = s.val; rw [e0]; omega
  | ⟨1, _⟩ => show win0_5.index t (1 : Fin 3) * 256 + 1 * r.val = r.val; rw [e1]; omega
  | ⟨2, _⟩ => show win0_5.index t (2 : Fin 3) * 128 + 1 * f.val = f.val; rw [e2]; omega

/-- Window 6's block at any point: the dense layer's bias row. -/
theorem blk6_apply (c : Dev nD) (t : Fin cfg0.N) (f : Fin 128) :
    (iblk m c 6 t : Vec Ideal S1x128 .f32) (ix2 (0 : Fin 1) f) = A6 m c (ix2 (0 : Fin 1) f) := by
  obtain ⟨e0, e1⟩ := index6 t
  unfold iblk
  rw [View.read_apply]
  refine Eq.trans (congrArg (V m c main_arg6 : S1x128.Idx → EReal) (funext fun a => Fin.ext ?_)) (congrFun (V_main_arg6 m c) (ix2 (0 : Fin 1) f))
  match a with
  | ⟨0, _⟩ => show win0_6.index t (0 : Fin 2) * 1 + 1 * (0 : Fin 1).val = (0 : Fin 1).val; rw [e0]; rfl
  | ⟨1, _⟩ => show win0_6.index t (1 : Fin 2) * 128 + 1 * f.val = f.val; rw [e1]; omega

/-- Window 7's block at any point: the last layer's weights. -/
theorem blk7_apply (c : Dev nD) (t : Fin cfg0.N) (f : Fin 128) (k : Fin 10) :
    (iblk m c 7 t : Vec Ideal S128x10 .f32) (ix2 f k) = A7 m c (ix2 f k) := by
  obtain ⟨e0, e1⟩ := index7 t
  unfold iblk
  rw [View.read_apply]
  refine Eq.trans (congrArg (V m c main_arg7 : S128x10.Idx → EReal) (funext fun a => Fin.ext ?_)) (congrFun (V_main_arg7 m c) (ix2 f k))
  match a with
  | ⟨0, _⟩ => show win0_7.index t (0 : Fin 2) * 128 + 1 * f.val = f.val; rw [e0]; omega
  | ⟨1, _⟩ => show win0_7.index t (1 : Fin 2) * 10 + 1 * k.val = k.val; rw [e1]; omega

/-- Window 8's block at any point: the last layer's bias row. -/
theorem blk8_apply (c : Dev nD) (t : Fin cfg0.N) (k : Fin 10) :
    (iblk m c 8 t : Vec Ideal S1x10 .f32) (ix2 (0 : Fin 1) k) = A8 m c (ix2 (0 : Fin 1) k) := by
  obtain ⟨e0, e1⟩ := index8 t
  unfold iblk
  rw [View.read_apply]
  refine Eq.trans (congrArg (V m c main_arg8 : S1x10.Idx → EReal) (funext fun a => Fin.ext ?_)) (congrFun (V_main_arg8 m c) (ix2 (0 : Fin 1) k))
  match a with
  | ⟨0, _⟩ => show win0_8.index t (0 : Fin 2) * 1 + 1 * (0 : Fin 1).val = (0 : Fin 1).val; rw [e0]; rfl
  | ⟨1, _⟩ => show win0_8.index t (1 : Fin 2) * 10 + 1 * k.val = k.val; rw [e1]; omega

end Cert.KernelIdeal.Hand

end
-- ==== Proof.KConv1.lean ====
/-
  The first convolution inside the kernel body, read at an entry.

  The body takes the block `x[h, n, w]` (32 rows, 128 samples, 32 columns), lays the five row-shifted slabs
  `x[h + kh, n, ·]` side by side along the last axis (160 columns, column `32·kh + w`), flattens (row, sample) to
  3584 rows, multiplies by the banded weights (160 × 896), adds the bias row and rectifies. So entry
  `(h, n, l)` of the result is `max (∑ kh < 5, ∑ w < 32, x[h + kh, n, w] · W[32·kh + w, l] + b[l]) 0`:
  the product over the 160 columns taken as five blocks of 32.
-/
import proofs.«172427_g2000706451865267_pallasbulk_150_11_alg».proof.Proof.Gen.KernelIdeal.Skeleton
import proofs.«172427_g2000706451865267_pallasbulk_150_11_alg».proof.Proof.LibPlainMatmul
import proofs.«172427_g2000706451865267_pallasbulk_150_11_alg».proof.Proof.LibSpreadRead
import proofs.«172427_g2000706451865267_pallasbulk_150_11_alg».proof.Proof.LibBlockSum
import Idealize.ShloMosaic.Lib.ValueIdx
import Idealize.ShloMosaic.Lib.Pipeline.Value
import Idealize.ShloMosaic.PureOps.Ideal.Laws

noncomputable section

namespace Cert.KernelIdeal.Conv1

open Idealize.ShloMosaic Idealize.ShloMosaic.ValueIdx Cert.KernelIdeal Cert.KernelIdeal.Gen

/-- Row `h·128 + n` of the flattened (row, sample) axis. -/
def hn (h : Fin 28) (n : Fin 128) : Fin 3584 := ⟨h.val * 128 + n.val, by omega⟩
/-- Column `32·kh + w` of the five slabs laid side by side. -/
def col (kh : Fin 5) (w : Fin 32) : Fin 160 := ⟨32 * kh.val + w.val, by omega⟩
/-- Image row `h + kh`. -/
def row (h : Fin 28) (kh : Fin 5) : Fin 32 := ⟨h.val + kh.val, by omega⟩

/-- A row-shifted slab of the block at an entry. -/
theorem slab_apply (v : FVec Ideal S32x128x32 .bf16) (o : Fin 3 → Nat) (hs : S32x128x32.Slices o S28x128x32)
    (h : Fin 28) (n : Fin 128) (w : Fin 32) (kh : Fin 5) (h0 : o 0 = kh.val) (h1 : o 1 = 0) (h2 : o 2 = 0) :
    extractStridedSlice S28x128x32 o v hs (ix3 h n w) = v (ix3 (row h kh) n w) :=
  extractStridedSlice_apply o v hs (ix3 h n w) (ix3 (row h kh) n w) fun a => by
    match a with
    | ⟨0, _⟩ => show h.val + kh.val = o 0 + h.val; omega
    | ⟨1, _⟩ => show n.val = o 1 + n.val; omega
    | ⟨2, _⟩ => show w.val = o 2 + w.val; omega

/-- Five pieces of 32 lanes each, as the list a concatenation takes. -/
abbrev five {α : Type} (x0 x1 x2 x3 x4 : S28x128x32.Idx → α) : List ((s : Shape) × (s.Idx → α)) :=
  [⟨S28x128x32, x0⟩, ⟨S28x128x32, x1⟩, ⟨S28x128x32, x2⟩, ⟨S28x128x32, x3⟩, ⟨S28x128x32, x4⟩]

/-- The piece of five that column block `kh` falls in. -/
def pick {β : Type} (x0 x1 x2 x3 x4 : β) (kh : Fin 5) : β :=
  match kh with
  | ⟨0, _⟩ => x0 | ⟨1, _⟩ => x1 | ⟨2, _⟩ => x2 | ⟨3, _⟩ => x3 | ⟨4, _⟩ => x4
  | ⟨k + 5, hk⟩ => absurd hk (by omega)

/-- Five pieces of 32 lanes side by side along the last axis, read at column `32·kh + w`: piece `kh` at column `w`. -/
theorem five_apply {α : Type} (x0 x1 x2 x3 x4 : S28x128x32.Idx → α)
    (hc : Shape.Concatenates ((five x0 x1 x2 x3 x4).map (·.1)) S28x128x160 2)
    (h : Fin 28) (n : Fin 128) (kh : Fin 5) (w : Fin 32) :
    concatenate S28x128x160 2 (five x0 x1 x2 x3 x4) hc (ix3 h n (col kh w)) = pick x0 x1 x2 x3 x4 kh (ix3 h n w) := by
  have hi : ∀ (c : Fin 160) (b : Fin S28x128x32.rank), b.cast (rfl : S28x128x32.rank = S28x128x160.rank) ≠ (2 : Fin 3) →
      ((ix3 h n w : S28x128x32.Idx) b).val = ((ix3 h n c : S28x128x160.Idx) (b.cast rfl)).val := fun c b hb => by
    match b with
    | ⟨0, _⟩ => rfl
    | ⟨1, _⟩ => rfl
    | ⟨2, _⟩ => exact absurd rfl hb
  match kh with
  | ⟨0, _⟩ =>
    exact concatenate_apply_piece (t := S28x128x160) 2 (five x0 x1 x2 x3 x4) hc _ 0 (show 0 < 5 by omega) S28x128x32 x0 rfl rfl 0 rfl
      (ix3 h n w) (hi _) (by show 0 + w.val = 32 * 0 + w.val; omega)
  | ⟨1, _⟩ =>
    exact concatenate_apply_piece (t := S28x128x160) 2 (five x0 x1 x2 x3 x4) hc _ 1 (show 1 < 5 by omega) S28x128x32 x1 rfl rfl 32 rfl
      (ix3 h n w) (hi _) (by show 32 + w.val = 32 * 1 + w.val; omega)
  | ⟨2, _⟩ =>
    exact concatenate_apply_piece (t := S28x128x160) 2 (five x0 x1 x2 x3 x4) hc _ 2 (show 2 < 5 by omega) S28x128x32 x2 rfl rfl 64 rfl
      (ix3 h n w) (hi _) (by show 64 + w.val = 32 * 2 + w.val; omega)
  | ⟨3, _⟩ =>
    exact concatenate_apply_piece (t := S28x128x160) 2 (five x0 x1 x2 x3 x4) hc _ 3 (show 3 < 5 by omega) S28x128x32 x3 rfl rfl 96 rfl
      (ix3 h n w) (hi _) (by show 96 + w.val = 32 * 3 + w.val; omega)
  | ⟨4, _⟩ =>
    exact concatenate_apply_piece (t := S28x128x160) 2 (five x0 x1 x2 x3 x4) hc _ 4 (show 4 < 5 by omega) S28x128x32 x4 rfl rfl 128 rfl
      (ix3 h n w) (hi _) (by show 128 + w.val = 32 * 4 + w.val; omega)

/-- The five row-shifted slabs side by side, read at row `h`, sample `n`, column `32·kh + w`: the block at `(h + kh, n, w)`. -/
theorem slabs_apply (v : FVec Ideal S32x128x32 .bf16) (h : Fin 28) (n : Fin 128) (kh : Fin 5) (w : Fin 32) :
    concatenate S28x128x160 2
      (five (extractStridedSlice S28x128x32 ![0, 0, 0] v slices_S32x128x32_o0_0_0_S28x128x32)
        (extractStridedSlice S28x128x32 ![1, 0, 0] v slices_S32x128x32_o1_0_0_S28x128x32)
        (extractStridedSlice S28x128x32 ![2, 0, 0] v slices_S32x128x32_o2_0_0_S28x128x32)
        (extractStridedSlice S28x128x32 ![3, 0, 0] v slices_S32x128x32_o3_0_0_S28x128x32)
        (extractStridedSlice S28x128x32 ![4, 0, 0] v slices_S32x128x32_o4_0_0_S28x128x32))
      concatenates_S28x128x32_S28x128x32_S28x128x32_S28x128x32_S28x128x32_S28x128x160_d2 (ix3 h n (col kh w))
      = v (ix3 (row h kh) n w) := by
  rw [five_apply]
  match kh with
  | ⟨0, _⟩ => exact slab_apply v ![0, 0, 0] slices_S32x128x32_o0_0_0_S28x128x32 h n w ⟨0, by omega⟩ rfl rfl rfl
  | ⟨1, _⟩ => exact slab_apply v ![1, 0, 0] slices_S32x128x32_o1_0_0_S28x128x32 h n w ⟨1, by omega⟩ rfl rfl rfl
  | ⟨2, _⟩ => exact slab_apply v ![2, 0, 0] slices_S32x128x32_o2_0_0_S28x128x32 h n w ⟨2, by omega⟩ rfl rfl rfl
  | ⟨3, _⟩ => exact slab_apply v ![3, 0, 0] slices_S32x128x32_o3_0_0_S28x128x32 h n w ⟨3, by omega⟩ rfl rfl rfl
  | ⟨4, _⟩ => exact slab_apply v ![4, 0, 0] slices_S32x128x32_o4_0_0_S28x128x32 h n w ⟨4, by omega⟩ rfl rfl rfl

/-- Flattening (row, sample): entry `(h·128 + n, c)` of the 3584 × 160 matrix is entry `(h, n, c)` of the slabs. -/
theorem flat160_apply {α : Type} (u : S28x128x160.Idx → α) (h : Fin 28) (n : Fin 128) (c : Fin 160) :
    shapeCast S3584x160 u shapeCasts_S28x128x160_S3584x160 (ix2 (hn h n) c) = u (ix3 h n c) :=
  shapeCast_apply u _ _ (ix3 h n c) (by rw [Shape.rowMajor_val_three, Shape.rowMajor_val_two]; rfl)

/-- Unflattening the result: entry `(h, n, l)` of the 28 × 128 × 896 array is entry `(h·128 + n, l)` of the product. -/
theorem unflat896_apply {α : Type} (u : S3584x896.Idx → α) (h : Fin 28) (n : Fin 128) (l : Fin 896) :
    shapeCast S28x128x896 u shapeCasts_S3584x896_S28x128x896 (ix3 h n l) = u (ix2 (hn h n) l) :=
  shapeCast_apply u _ _ (ix2 (hn h n) l) (by rw [Shape.rowMajor_val_three, Shape.rowMajor_val_two]; rfl)

/-- The block rounded to the matmul's input format and laid out as the 3584 × 160 matrix of row-shifted slabs. -/
def patches (v0 : Vec Ideal S32x128x32 .f32) : FVec Ideal S3584x160 .bf16 :=
  shapeCast S3584x160
    (concatenate S28x128x160 2
      (five (extractStridedSlice S28x128x32 ![0, 0, 0] (truncf .bf16 (shapeCast S32x128x32 v0 shapeCasts_S32x128x32_S32x128x32) bitsLt_bf16_f32) slices_S32x128x32_o0_0_0_S28x128x32)
        (extractStridedSlice S28x128x32 ![1, 0, 0] (truncf .bf16 (shapeCast S32x128x32 v0 shapeCasts_S32x128x32_S32x128x32) bitsLt_bf16_f32) slices_S32x128x32_o1_0_0_S28x128x32)
        (extractStridedSlice S28x128x32 ![2, 0, 0] (truncf .bf16 (shapeCast S32x128x32 v0 shapeCasts_S32x128x32_S32x128x32) bitsLt_bf16_f32) slices_S32x128x32_o2_0_0_S28x128x32)
        (extractStridedSlice S28x128x32 ![3, 0, 0] (truncf .bf16 (shapeCast S32x128x32 v0 shapeCasts_S32x128x32_S32x128x32) bitsLt_bf16_f32) slices_S32x128x32_o3_0_0_S28x128x32)
        (extractStridedSlice S28x128x32 ![4, 0, 0] (truncf .bf16 (shapeCast S32x128x32 v0 shapeCasts_S32x128x32_S32x128x32) bitsLt_bf16_f32) slices_S32x128x32_o4_0_0_S28x128x32))
      concatenates_S28x128x32_S28x128x32_S28x128x32_S28x128x32_S28x128x32_S28x128x160_d2)
    shapeCasts_S28x128x160_S3584x160

/-- Entry `(h·128 + n, 32·kh + w)` of the slab matrix is the block at `(h + kh, n, w)`. -/
theorem patches_apply (v0 : Vec Ideal S32x128x32 .f32) (h : Fin 28) (n : Fin 128) (kh : Fin 5) (w : Fin 32) :
    patches v0 (ix2 (hn h n) (col kh w)) = v0 (ix3 (row h kh) n w) := by
  unfold patches
  rw [flat160_apply, slabs_apply, shapeCast_self]
  rfl

/-- The first payload is the rectified product of the slab matrix with the banded weights plus the bias row. -/
theorem pay2_eq (v0 : Vec Ideal S32x128x32 .f32) (v10 : Vec Ideal S160x896 .bf16) (v13 : Vec Ideal S1x896 .f32) :
    k0_pay2 (F := Ideal) v0 v10 v13
      = shapeCast S28x128x896
          (truncf .bf16
            (maximumf
              (addf (matmul dot_S3584x160_S160x896_S3584x896_1_0_0_1_n_n none (patches v0)
                  (shapeCast S160x896 v10 shapeCasts_S160x896_S160x896 : FVec Ideal S160x896 .bf16) (constant S3584x896 .f32 0x00000000#32))
                (broadcastTo S3584x896 v13 broadcasts_S1x896_S3584x896))
              (broadcast S3584x896 (Scalar.ofBits .f32 0x00000000#32)))
            bitsLt_bf16_f32)
          shapeCasts_S3584x896_S28x128x896 := rfl

/-- The first convolution of the block, rectified, at row `h`, sample `n`, lane `l`. -/
theorem conv1_apply (v0 : Vec Ideal S32x128x32 .f32) (v10 : Vec Ideal S160x896 .bf16) (v13 : Vec Ideal S1x896 .f32)
    (h : Fin 28) (n : Fin 128) (l : Fin 896) :
    k0_pay2 (F := Ideal) v0 v10 v13 (ix3 h n l)
      = max ((∑ kh : Fin 5, ∑ w : Fin 32, v0 (ix3 (row h kh) n w) * v10 (ix2 (col kh w) l)) + v13 (ix2 (0 : Fin 1) l)) 0 := by
  rw [pay2_eq, unflat896_apply]
  show max (matmul (F := Ideal) dot_S3584x160_S160x896_S3584x896_1_0_0_1_n_n none (patches v0)
      (shapeCast S160x896 v10 shapeCasts_S160x896_S160x896 : FVec Ideal S160x896 .bf16) (constant S3584x896 .f32 0x00000000#32) (ix2 (hn h n) l)
      + broadcastTo S3584x896 v13 broadcasts_S1x896_S3584x896 (ix2 (hn h n) l)) (Ideal.ofBits .f32 0x00000000#32) = _
  rw [Ideal.ofBits_zero_f32, SpreadRead.rowDown_apply, shapeCast_self]
  refine congrArg (fun s => max (s + v13 (ix2 (0 : Fin 1) l)) 0) ?_
  refine (PlainMatmul.matmul_zero_apply (m := 3584) (k := 160) (n := 896) none (patches v0) v10 (hn h n) l).trans ?_
  rw [← Cert.LibBlockSum.sum_blocks 5 32]
  refine Finset.sum_congr rfl fun kh _ => Finset.sum_congr rfl fun w _ => ?_
  exact congrArg (· * _) (patches_apply v0 h n kh w)

end Cert.KernelIdeal.Conv1

end
-- ==== Proof.KConv2.lean ====
/-
  The second convolution and the two pooling passes inside the kernel body, read at an entry.

  For lane group `g` (output columns `4g … 4g+3`, lanes `64·j + co`), the body lays the five row-shifted windows
  `y1[h + kh, n, 128·g + d]` (`d < 256`: eight input columns of 32 channels) side by side (1280 columns, column
  `256·kh + d`), flattens (row, sample) to 3072 rows, multiplies by the packed weights (1280 × 256), adds the bias
  row and rectifies. The row pooling takes, at each row `h < 20`, the maximum over rows `h … h+4` by three passes
  (pairs, pairs of pairs two apart, then the fifth row); the lane pooling does the same over five consecutive
  64-lane groups of two adjacent lane groups laid side by side.
-/
import proofs.«172427_g2000706451865267_pallasbulk_150_11_alg».proof.Proof.KConv1

noncomputable section

namespace Cert.KernelIdeal.Conv2

open Idealize.ShloMosaic Idealize.ShloMosaic.ValueIdx Cert.KernelIdeal Cert.KernelIdeal.Gen Cert.KernelIdeal.Conv1

/-- A unit-stride slice of a rank-3 array at an entry: the array at the shifted coordinates. -/
theorem slice3_apply {α : Type} {A B C A' B' C' : Nat} (v : (⟨3, ![A, B, C]⟩ : Shape).Idx → α) (o : Fin 3 → Nat)
    (hs : (⟨3, ![A, B, C]⟩ : Shape).Slices o ⟨3, ![A', B', C']⟩) (a : Fin A') (b : Fin B') (c : Fin C')
    (a2 : Fin A) (b2 : Fin B) (c2 : Fin C) (h0 : a2.val = o 0 + a.val) (h1 : b2.val = o 1 + b.val) (h2 : c2.val = o 2 + c.val) :
    extractStridedSlice ⟨3, ![A', B', C']⟩ o v hs (ix3 a b c) = v (ix3 a2 b2 c2) :=
  extractStridedSlice_apply o v hs (ix3 a b c) (ix3 a2 b2 c2) fun d => by
    match d with
    | ⟨0, _⟩ => exact h0
    | ⟨1, _⟩ => exact h1
    | ⟨2, _⟩ => exact h2

/-- Row `h·128 + n` of the flattened (row, sample) axis of 24 rows. -/
def hn24 (h : Fin 24) (n : Fin 128) : Fin 3072 := ⟨h.val * 128 + n.val, by omega⟩
/-- Column `256·kh + d` of the five windows laid side by side. -/
def col2 (kh : Fin 5) (d : Fin 256) : Fin 1280 := ⟨256 * kh.val + d.val, by omega⟩

/-- Five pieces of 256 lanes each, as the list a concatenation takes. -/
abbrev five256 {α : Type} (x0 x1 x2 x3 x4 : S24x128x256.Idx → α) : List ((s : Shape) × (s.Idx → α)) :=
  [⟨S24x128x256, x0⟩, ⟨S24x128x256, x1⟩, ⟨S24x128x256, x2⟩, ⟨S24x128x256, x3⟩, ⟨S24x128x256, x4⟩]

/-- Five pieces of 256 lanes side by side along the last axis, read at column `256·kh + d`: piece `kh` at column `d`. -/
theorem five256_apply {α : Type} (x0 x1 x2 x3 x4 : S24x128x256.Idx → α)
    (hc : Shape.Concatenates ((five256 x0 x1 x2 x3 x4).map (·.1)) S24x128x1280 2)
    (h : Fin 24) (n : Fin 128) (kh : Fin 5) (d : Fin 256) :
    concatenate S24x128x1280 2 (five256 x0 x1 x2 x3 x4) hc (ix3 h n (col2 kh d)) = pick x0 x1 x2 x3 x4 kh (ix3 h n d) := by
  have hi : ∀ (c : Fin 1280) (b : Fin S24x128x256.rank), b.cast (rfl : S24x128x256.rank = S24x128x1280.rank) ≠ (2 : Fin 3) →
      ((ix3 h n d : S24x128x256.Idx) b).val = ((ix3 h n c : S24x128x1280.Idx) (b.cast rfl)).val := fun c b hb => by
    match b with
    | ⟨0, _⟩ => rfl
    | ⟨1, _⟩ => rfl
    | ⟨2, _⟩ => exact absurd rfl hb
  match kh with
  | ⟨0, _⟩ =>
    exact concatenate_apply_piece (t := S24x128x1280) 2 (five256 x0 x1 x2 x3 x4) hc _ 0 (show 0 < 5 by omega) S24x128x256 x0 rfl rfl 0 rfl
      (ix3 h n d) (hi _) (by show 0 + d.val = 256 * 0 + d.val; omega)
  | ⟨1, _⟩ =>
    exact concatenate_apply_piece (t := S24x128x1280) 2 (five256 x0 x1 x2 x3 x4) hc _ 1 (show 1 < 5 by omega) S24x128x256 x1 rfl rfl 256 rfl
      (ix3 h n d) (hi _) (by show 256 + d.val = 256 * 1 + d.val; omega)
  | ⟨2, _⟩ =>
    exact concatenate_apply_piece (t := S24x128x1280) 2 (five256 x0 x1 x2 x3 x4) hc _ 2 (show 2 < 5 by omega) S24x128x256 x2 rfl rfl 512 rfl
      (ix3 h n d) (hi _) (by show 512 + d.val = 256 * 2 + d.val; omega)
  | ⟨3, _⟩ =>
    exact concatenate_apply_piece (t := S24x128x1280) 2 (five256 x0 x1 x2 x3 x4) hc _ 3 (show 3 < 5 by omega) S24x128x256 x3 rfl rfl 768 rfl
      (ix3 h n d) (hi _) (by show 768 + d.val = 256 * 3 + d.val; omega)
  | ⟨4, _⟩ =>
    exact concatenate_apply_piece (t := S24x128x1280) 2 (five256 x0 x1 x2 x3 x4) hc _ 4 (show 4 < 5 by omega) S24x128x256 x4 rfl rfl 1024 rfl
      (ix3 h n d) (hi _) (by show 1024 + d.val = 256 * 4 + d.val; omega)

/-- The five windows side by side, flattened over (row, sample). -/
def patches2 (x0 x1 x2 x3 x4 : FVec Ideal S24x128x256 .bf16) : FVec Ideal S3072x1280 .bf16 :=
  shapeCast S3072x1280
    (concatenate S24x128x1280 2 (five256 x0 x1 x2 x3 x4)
      concatenates_S24x128x256_S24x128x256_S24x128x256_S24x128x256_S24x128x256_S24x128x1280_d2)
    shapeCasts_S24x128x1280_S3072x1280

/-- Entry `(h·128 + n, 256·kh + d)` of the window matrix is window `kh` at `(h, n, d)`. -/
theorem patches2_apply (x0 x1 x2 x3 x4 : FVec Ideal S24x128x256 .bf16) (h : Fin 24) (n : Fin 128) (kh : Fin 5) (d : Fin 256) :
    patches2 x0 x1 x2 x3 x4 (ix2 (hn24 h n) (col2 kh d)) = pick x0 x1 x2 x3 x4 kh (ix3 h n d) := by
  unfold patches2
  rw [shapeCast_apply _ _ _ (ix3 h n (col2 kh d)) (by rw [Shape.rowMajor_val_three, Shape.rowMajor_val_two]; rfl)]
  exact five256_apply x0 x1 x2 x3 x4 _ h n kh d

/-- The rectified product of a window matrix with the packed weights plus the bias row, as 24 × 128 × 256. -/
def convRows (P : FVec Ideal S3072x1280 .bf16) (w : Vec Ideal S1280x256 .bf16) (b : Vec Ideal S1x256 .f32) :
    FVec Ideal S24x128x256 .bf16 :=
  shapeCast S24x128x256
    (truncf .bf16
      (maximumf
        (addf (matmul dot_S3072x1280_S1280x256_S3072x256_1_0_0_1_n_n none P
            (shapeCast S1280x256 w shapeCasts_S1280x256_S1280x256 : FVec Ideal S1280x256 .bf16) (constant S3072x256 .f32 0x00000000#32))
          (broadcastTo S3072x256 b broadcasts_S1x256_S3072x256))
        (broadcast S3072x256 (Scalar.ofBits .f32 0x00000000#32)))
      bitsLt_bf16_f32)
    shapeCasts_S3072x256_S24x128x256

/-- The rectified product before it is reshaped: 3072 × 256. -/
def convFlat (P : FVec Ideal S3072x1280 .bf16) (w : Vec Ideal S1280x256 .bf16) (b : Vec Ideal S1x256 .f32) :
    FVec Ideal S3072x256 .bf16 :=
  truncf .bf16
    (maximumf
      (addf (matmul dot_S3072x1280_S1280x256_S3072x256_1_0_0_1_n_n none P
          (shapeCast S1280x256 w shapeCasts_S1280x256_S1280x256 : FVec Ideal S1280x256 .bf16) (constant S3072x256 .f32 0x00000000#32))
        (broadcastTo S3072x256 b broadcasts_S1x256_S3072x256))
      (broadcast S3072x256 (Scalar.ofBits .f32 0x00000000#32)))
    bitsLt_bf16_f32

theorem convRows_eq (P : FVec Ideal S3072x1280 .bf16) (w : Vec Ideal S1280x256 .bf16) (b : Vec Ideal S1x256 .f32) :
    convRows P w b = shapeCast S24x128x256 (convFlat P w b) shapeCasts_S3072x256_S24x128x256 := rfl

/-- The rectified product at row `r`, lane `e`. -/
theorem convFlat_apply (P : FVec Ideal S3072x1280 .bf16) (w : Vec Ideal S1280x256 .bf16) (b : Vec Ideal S1x256 .f32)
    (r : Fin 3072) (e : Fin 256) :
    convFlat P w b (ix2 r e) = max ((∑ c : Fin 1280, P (ix2 r c) * w (ix2 c e)) + b (ix2 (0 : Fin 1) e)) 0 := by
  unfold convFlat
  show max (matmul (F := Ideal) dot_S3072x1280_S1280x256_S3072x256_1_0_0_1_n_n none P
      (shapeCast S1280x256 w shapeCasts_S1280x256_S1280x256 : FVec Ideal S1280x256 .bf16) (constant S3072x256 .f32 0x00000000#32) (ix2 r e)
      + broadcastTo S3072x256 b broadcasts_S1x256_S3072x256 (ix2 r e)) (Ideal.ofBits .f32 0x00000000#32) = _
  rw [Ideal.ofBits_zero_f32, SpreadRead.rowDown_apply, shapeCast_self]
  exact congrArg (fun s => max (s + b (ix2 (0 : Fin 1) e)) 0)
    (PlainMatmul.matmul_zero_apply (m := 3072) (k := 1280) (n := 256) none P w r e)

/-- The rectified product at row `h`, sample `n`, lane `e`, over five blocks of 256 columns. -/
theorem convRows_apply (P : FVec Ideal S3072x1280 .bf16) (w : Vec Ideal S1280x256 .bf16) (b : Vec Ideal S1x256 .f32)
    (h : Fin 24) (n : Fin 128) (e : Fin 256) :
    convRows P w b (ix3 h n e)
      = max ((∑ kh : Fin 5, ∑ d : Fin 256, P (ix2 (hn24 h n) (col2 kh d)) * w (ix2 (col2 kh d) e)) + b (ix2 (0 : Fin 1) e)) 0 := by
  rw [convRows_eq, shapeCast_apply _ _ _ (ix2 (hn24 h n) e) (by rw [Shape.rowMajor_val_three, Shape.rowMajor_val_two]; rfl),
    convFlat_apply, ← Cert.LibBlockSum.sum_blocks 5 256]
  rfl

/-- Row `h + kh` of the 28-row map. -/
def row (h : Fin 24) (kh : Fin 5) : Fin 28 := ⟨h.val + kh.val, by omega⟩
/-- Lane `128·g + d` of the 896-lane map, for a lane group `g < 6`. -/
def glane (g : Fin 6) (d : Fin 256) : Fin 896 := ⟨128 * g.val + d.val, by omega⟩

/-- One lane group's rectified convolution at row `h`, sample `n`, lane `e`: the five windows are row-shifted
    slices of the first map starting at lane `128·g`. -/
theorem group_apply (y1 : FVec Ideal S28x128x896 .bf16) (g : Fin 6)
    (o0 o1 o2 o3 o4 : Fin 3 → Nat) (hs0 : S28x128x896.Slices o0 S24x128x256) (hs1 : S28x128x896.Slices o1 S24x128x256)
    (hs2 : S28x128x896.Slices o2 S24x128x256) (hs3 : S28x128x896.Slices o3 S24x128x256) (hs4 : S28x128x896.Slices o4 S24x128x256)
    (e0 : o0 = ![0, 0, 128 * g.val]) (e1 : o1 = ![1, 0, 128 * g.val]) (e2 : o2 = ![2, 0, 128 * g.val])
    (e3 : o3 = ![3, 0, 128 * g.val]) (e4 : o4 = ![4, 0, 128 * g.val])
    (w : Vec Ideal S1280x256 .bf16) (b : Vec Ideal S1x256 .f32) (h : Fin 24) (n : Fin 128) (e : Fin 256) :
    convRows (patches2 (extractStridedSlice S24x128x256 o0 y1 hs0) (extractStridedSlice S24x128x256 o1 y1 hs1)
        (extractStridedSlice S24x128x256 o2 y1 hs2) (extractStridedSlice S24x128x256 o3 y1 hs3)
        (extractStridedSlice S24x128x256 o4 y1 hs4)) w b (ix3 h n e)
      = max ((∑ kh : Fin 5, ∑ d : Fin 256, y1 (ix3 (row h kh) n (glane g d)) * w (ix2 (col2 kh d) e)) + b (ix2 (0 : Fin 1) e)) 0 := by
  rw [convRows_apply]
  refine congrArg (fun s => max (s + b (ix2 (0 : Fin 1) e)) 0)
    (Finset.sum_congr rfl fun kh _ => Finset.sum_congr rfl fun d _ => congrArg (· * w (ix2 (col2 kh d) e)) ?_)
  rw [patches2_apply]
  match kh with
  | ⟨0, _⟩ => exact slice3_apply y1 o0 hs0 h n d _ _ _ (by rw [e0]; show h.val + 0 = 0 + h.val; omega) (by rw [e0]; show n.val = 0 + n.val; omega) (by rw [e0]; rfl)
  | ⟨1, _⟩ => exact slice3_apply y1 o1 hs1 h n d _ _ _ (by rw [e1]; show h.val + 1 = 1 + h.val; omega) (by rw [e1]; show n.val = 0 + n.val; omega) (by rw [e1]; rfl)
  | ⟨2, _⟩ => exact slice3_apply y1 o2 hs2 h n d _ _ _ (by rw [e2]; show h.val + 2 = 2 + h.val; omega) (by rw [e2]; show n.val = 0 + n.val; omega) (by rw [e2]; rfl)
  | ⟨3, _⟩ => exact slice3_apply y1 o3 hs3 h n d _ _ _ (by rw [e3]; show h.val + 3 = 3 + h.val; omega) (by rw [e3]; show n.val = 0 + n.val; omega) (by rw [e3]; rfl)
  | ⟨4, _⟩ => exact slice3_apply y1 o4 hs4 h n d _ _ _ (by rw [e4]; show h.val + 4 = 4 + h.val; omega) (by rw [e4]; show n.val = 0 + n.val; omega) (by rw [e4]; rfl)

/-! ## The row pooling: the maximum over five consecutive rows, in three passes -/

/-- Pairs: rows `h, h+1`. -/
def hpA (c : FVec Ideal S24x128x256 .bf16) : FVec Ideal S23x128x256 .bf16 :=
  maximumf (extractStridedSlice S23x128x256 ![0, 0, 0] c slices_S24x128x256_o0_0_0_S23x128x256)
    (extractStridedSlice S23x128x256 ![1, 0, 0] c slices_S24x128x256_o1_0_0_S23x128x256)
/-- Pairs of pairs two apart: rows `h … h+3`. -/
def hpB (a : FVec Ideal S23x128x256 .bf16) : FVec Ideal S20x128x256 .bf16 :=
  extractStridedSlice S20x128x256 ![0, 0, 0]
    (maximumf (extractStridedSlice S21x128x256 ![0, 0, 0] a slices_S23x128x256_o0_0_0_S21x128x256)
      (extractStridedSlice S21x128x256 ![2, 0, 0] a slices_S23x128x256_o2_0_0_S21x128x256))
    slices_S21x128x256_o0_0_0_S20x128x256
/-- The fifth row joins. -/
def hpC (c : FVec Ideal S24x128x256 .bf16) (q : FVec Ideal S20x128x256 .bf16) : FVec Ideal S20x128x256 .bf16 :=
  maximumf q (extractStridedSlice S20x128x256 ![4, 0, 0] c slices_S24x128x256_o4_0_0_S20x128x256)
/-- The three passes. -/
def hpool (c : FVec Ideal S24x128x256 .bf16) : FVec Ideal S20x128x256 .bf16 := hpC c (hpB (hpA c))

/-- Row `h + k` of the 24-row map. -/
def prow (h : Fin 20) (k : Fin 5) : Fin 24 := ⟨h.val + k.val, by omega⟩

/-- The three passes at an entry: the tree of maxima over rows `h … h+4`. -/
theorem hpool_tree (c : FVec Ideal S24x128x256 .bf16) (h : Fin 20) (n : Fin 128) (e : Fin 256) :
    hpool c (ix3 h n e)
      = max (max (max (c (ix3 (prow h 0) n e)) (c (ix3 (prow h 1) n e))) (max (c (ix3 (prow h 2) n e)) (c (ix3 (prow h 3) n e))))
          (c (ix3 (prow h 4) n e)) := by
  unfold hpool hpC hpB hpA
  show max (extractStridedSlice S20x128x256 ![0, 0, 0] (_ : FVec Ideal S21x128x256 .bf16) slices_S21x128x256_o0_0_0_S20x128x256 (ix3 h n e))
      (extractStridedSlice S20x128x256 ![4, 0, 0] c slices_S24x128x256_o4_0_0_S20x128x256 (ix3 h n e)) = _
  rw [slice3_apply _ _ slices_S21x128x256_o0_0_0_S20x128x256 h n e ⟨h.val, by omega⟩ n e (by show h.val = 0 + h.val; omega) (by show n.val = 0 + n.val; omega) (by show e.val = 0 + e.val; omega),
    slice3_apply c _ slices_S24x128x256_o4_0_0_S20x128x256 h n e (prow h 4) n e (by show h.val + 4 = 4 + h.val; omega) (by show n.val = 0 + n.val; omega) (by show e.val = 0 + e.val; omega)]
  refine congrArg (fun s => max s (c (ix3 (prow h 4) n e))) ?_
  show max (extractStridedSlice S21x128x256 ![0, 0, 0] (_ : FVec Ideal S23x128x256 .bf16) slices_S23x128x256_o0_0_0_S21x128x256 (ix3 (⟨h.val, by omega⟩ : Fin 21) n e))
      (extractStridedSlice S21x128x256 ![2, 0, 0] (_ : FVec Ideal S23x128x256 .bf16) slices_S23x128x256_o2_0_0_S21x128x256 (ix3 (⟨h.val, by omega⟩ : Fin 21) n e)) = _
  rw [slice3_apply _ _ slices_S23x128x256_o0_0_0_S21x128x256 (⟨h.val, by omega⟩ : Fin 21) n e (⟨h.val, by omega⟩ : Fin 23) n e (by show h.val = 0 + h.val; omega) (by show n.val = 0 + n.val; omega) (by show e.val = 0 + e.val; omega),
    slice3_apply _ _ slices_S23x128x256_o2_0_0_S21x128x256 (⟨h.val, by omega⟩ : Fin 21) n e (⟨h.val + 2, by omega⟩ : Fin 23) n e (by show h.val + 2 = 2 + h.val; omega) (by show n.val = 0 + n.val; omega) (by show e.val = 0 + e.val; omega)]
  show max (max (extractStridedSlice S23x128x256 ![0, 0, 0] c slices_S24x128x256_o0_0_0_S23x128x256 (ix3 (⟨h.val, by omega⟩ : Fin 23) n e))
        (extractStridedSlice S23x128x256 ![1, 0, 0] c slices_S24x128x256_o1_0_0_S23x128x256 (ix3 (⟨h.val, by omega⟩ : Fin 23) n e)))
      (max (extractStridedSlice S23x128x256 ![0, 0, 0] c slices_S24x128x256_o0_0_0_S23x128x256 (ix3 (⟨h.val + 2, by omega⟩ : Fin 23) n e))
        (extractStridedSlice S23x128x256 ![1, 0, 0] c slices_S24x128x256_o1_0_0_S23x128x256 (ix3 (⟨h.val + 2, by omega⟩ : Fin 23) n e))) = _
  rw [slice3_apply c _ slices_S24x128x256_o0_0_0_S23x128x256 (⟨h.val, by omega⟩ : Fin 23) n e (prow h 0) n e (by show h.val + 0 = 0 + h.val; omega) (by show n.val = 0 + n.val; omega) (by show e.val = 0 + e.val; omega),
    slice3_apply c _ slices_S24x128x256_o1_0_0_S23x128x256 (⟨h.val, by omega⟩ : Fin 23) n e (prow h 1) n e (by show h.val + 1 = 1 + h.val; omega) (by show n.val = 0 + n.val; omega) (by show e.val = 0 + e.val; omega),
    slice3_apply c _ slices_S24x128x256_o0_0_0_S23x128x256 (⟨h.val + 2, by omega⟩ : Fin 23) n e (prow h 2) n e (by show h.val + 2 = 0 + (h.val + 2); omega) (by show n.val = 0 + n.val; omega) (by show e.val = 0 + e.val; omega),
    slice3_apply c _ slices_S24x128x256_o1_0_0_S23x128x256 (⟨h.val + 2, by omega⟩ : Fin 23) n e (prow h 3) n e (by show h.val + 3 = 1 + (h.val + 2); omega) (by show n.val = 0 + n.val; omega) (by show e.val = 0 + e.val; omega)]

end Cert.KernelIdeal.Conv2

end
-- ==== Proof.LibWindowMax.lean ====
/-
  Maxima over a window of five, in a linear order with a least element.

  A 5-wide sliding maximum is computed either as a running maximum `max (max (max (max a₀ a₁) a₂) a₃) a₄` or, with
  fewer passes, as a tree `max (max (max a₀ a₁) (max a₂ a₃)) a₄` (pairs, then pairs of pairs two apart, then the
  fifth). Both are the supremum over the five; and a 5 × 5 window's supremum is the supremum of the row suprema,
  in either order.
-/
import Mathlib.Order.Lattice
import Mathlib.Data.Finset.Lattice.Fold
import Mathlib.Data.Fintype.Basic
import Mathlib.Data.Fin.VecNotation
import Mathlib.Data.Fintype.Prod
import Mathlib.Data.Finset.Lattice.Prod
import Mathlib.Algebra.BigOperators.Fin

namespace Cert.LibWindowMax

variable {α : Type*} [LinearOrder α] [OrderBot α]

/-- The supremum over five is the running maximum. -/
theorem sup_fin5 (f : Fin 5 → α) :
    Finset.univ.sup f = max (max (max (max (f 0) (f 1)) (f 2)) (f 3)) (f 4) := by
  rw [show (Finset.univ : Finset (Fin 5)) = {0, 1, 2, 3, 4} from by decide]
  simp only [Finset.sup_insert, Finset.sup_singleton]
  simp only [max_assoc]

/-- The tree of maxima (pairs, pairs of pairs, the fifth) is the supremum over five. -/
theorem tree_eq_sup (f : Fin 5 → α) :
    max (max (max (f 0) (f 1)) (max (f 2) (f 3))) (f 4) = Finset.univ.sup f := by
  rw [sup_fin5]; simp only [max_assoc]

/-- The running maximum is the supremum over five. -/
theorem running_eq_sup (f : Fin 5 → α) :
    max (max (max (max (f 0) (f 1)) (f 2)) (f 3)) (f 4) = Finset.univ.sup f := (sup_fin5 f).symm

/-- A 5 × 5 window's supremum, rows outside. -/
theorem sup_window (g : Fin 5 → Fin 5 → α) :
    (Finset.univ.sup fun d : Fin 5 × Fin 5 => g d.1 d.2) = Finset.univ.sup fun a => Finset.univ.sup fun b => g a b := by
  rw [← Finset.univ_product_univ, Finset.sup_product_left]

/-- A 5 × 5 window's supremum, columns outside. -/
theorem sup_window' (g : Fin 5 → Fin 5 → α) :
    (Finset.univ.sup fun d : Fin 5 × Fin 5 => g d.1 d.2) = Finset.univ.sup fun b => Finset.univ.sup fun a => g a b := by
  rw [← Finset.univ_product_univ, Finset.sup_product_right]

end Cert.LibWindowMax
-- ==== Proof.KConv2Pay.lean ====
/-
  The kernel body's six lane groups of the second convolution, rectified and row-pooled, each read at an entry; and
  the lane pooling of two adjacent groups.
-/
import proofs.«172427_g2000706451865267_pallasbulk_150_11_alg».proof.Proof.KConv2
import proofs.«172427_g2000706451865267_pallasbulk_150_11_alg».proof.Proof.LibWindowMax

noncomputable section

namespace Cert.KernelIdeal.Conv2

open Idealize.ShloMosaic Idealize.ShloMosaic.ValueIdx Cert.KernelIdeal Cert.KernelIdeal.Gen Cert.KernelIdeal.Conv1

/-- Lane group `g`'s rectified convolution at row `r` of 24, sample `n`, lane `e`, from the first map. -/
def cgSpec (y1 : FVec Ideal S28x128x896 .bf16) (g : Fin 6) (w : Vec Ideal S1280x256 .bf16) (b : Vec Ideal S1x256 .f32)
    (r : Fin 24) (n : Fin 128) (e : Fin 256) : EReal :=
  max ((∑ kh : Fin 5, ∑ d : Fin 256, y1 (ix3 (row r kh) n (glane g d)) * w (ix2 (col2 kh d) e)) + b (ix2 (0 : Fin 1) e)) 0

/-- The same, pooled over rows `h … h+4`. -/
def tgSpec (y1 : FVec Ideal S28x128x896 .bf16) (g : Fin 6) (w : Vec Ideal S1280x256 .bf16) (b : Vec Ideal S1x256 .f32)
    (h : Fin 20) (n : Fin 128) (e : Fin 256) : EReal :=
  Finset.univ.sup fun dh : Fin 5 => cgSpec y1 g w b (prow h dh) n e

/-- One lane group, rectified and row-pooled, at an entry. -/
theorem tg_apply (y1 : FVec Ideal S28x128x896 .bf16) (g : Fin 6)
    (o0 o1 o2 o3 o4 : Fin 3 → Nat) (hs0 : S28x128x896.Slices o0 S24x128x256) (hs1 : S28x128x896.Slices o1 S24x128x256)
    (hs2 : S28x128x896.Slices o2 S24x128x256) (hs3 : S28x128x896.Slices o3 S24x128x256) (hs4 : S28x128x896.Slices o4 S24x128x256)
    (e0 : o0 = ![0, 0, 128 * g.val]) (e1 : o1 = ![1, 0, 128 * g.val]) (e2 : o2 = ![2, 0, 128 * g.val])
    (e3 : o3 = ![3, 0, 128 * g.val]) (e4 : o4 = ![4, 0, 128 * g.val])
    (w : Vec Ideal S1280x256 .bf16) (b : Vec Ideal S1x256 .f32) (h : Fin 20) (n : Fin 128) (e : Fin 256) :
    hpool (convRows (patches2 (extractStridedSlice S24x128x256 o0 y1 hs0) (extractStridedSlice S24x128x256 o1 y1 hs1)
        (extractStridedSlice S24x128x256 o2 y1 hs2) (extractStridedSlice S24x128x256 o3 y1 hs3)
        (extractStridedSlice S24x128x256 o4 y1 hs4)) w b) (ix3 h n e) = tgSpec y1 g w b h n e := by
  rw [hpool_tree]
  simp only [group_apply y1 g o0 o1 o2 o3 o4 hs0 hs1 hs2 hs3 hs4 e0 e1 e2 e3 e4 w b]
  exact Cert.LibWindowMax.tree_eq_sup fun dh : Fin 5 => cgSpec y1 g w b (prow h dh) n e

/-- Lane group 0, rectified and row-pooled, at an entry. -/
theorem tg0_apply (v0 : Vec Ideal S32x128x32 .f32) (v10 : Vec Ideal S160x896 .bf16) (v13 : Vec Ideal S1x896 .f32) (v27 : Vec Ideal S1280x256 .bf16) (v30 : Vec Ideal S1x256 .f32) (h : Fin 20) (n : Fin 128) (e : Fin 256) :
    k0_pay5 (F := Ideal) (k0_pay3 v0 v10 v13 v27 v30) (k0_pay4 v0 v10 v13 v27 v30) (ix3 h n e) = tgSpec (k0_pay2 (F := Ideal) v0 v10 v13) (0 : Fin 6) v27 v30 h n e := by
  have E : k0_pay5 (F := Ideal) (k0_pay3 v0 v10 v13 v27 v30) (k0_pay4 v0 v10 v13 v27 v30) = hpool (convRows (patches2 (extractStridedSlice S24x128x256 ![0, 0, 0] (k0_pay2 (F := Ideal) v0 v10 v13) slices_S28x128x896_o0_0_0_S24x128x256)
        (extractStridedSlice S24x128x256 ![1, 0, 0] (k0_pay2 (F := Ideal) v0 v10 v13) slices_S28x128x896_o1_0_0_S24x128x256)
        (extractStridedSlice S24x128x256 ![2, 0, 0] (k0_pay2 (F := Ideal) v0 v10 v13) slices_S28x128x896_o2_0_0_S24x128x256)
        (extractStridedSlice S24x128x256 ![3, 0, 0] (k0_pay2 (F := Ideal) v0 v10 v13) slices_S28x128x896_o3_0_0_S24x128x256)
        (extractStridedSlice S24x128x256 ![4, 0, 0] (k0_pay2 (F := Ideal) v0 v10 v13) slices_S28x128x896_o4_0_0_S24x128x256)) v27 v30) := rfl
  rw [E]
  exact tg_apply (k0_pay2 (F := Ideal) v0 v10 v13) (0 : Fin 6) _ _ _ _ _ _ _ _ _ _ rfl rfl rfl rfl rfl v27 v30 h n e

/-- Lane group 1, rectified and row-pooled, at an entry. -/
theorem tg1_apply (y1 : FVec Ideal S28x128x896 .bf16) (w : Vec Ideal S1280x256 .bf16) (b : Vec Ideal S1x256 .f32) (h : Fin 20) (n : Fin 128) (e : Fin 256) :
    k0_pay6 (F := Ideal) y1 w b (ix3 h n e) = tgSpec y1 (1 : Fin 6) w b h n e := by
  have E : k0_pay6 (F := Ideal) y1 w b = hpool (convRows (patches2 (extractStridedSlice S24x128x256 ![0, 0, 128] y1 slices_S28x128x896_o0_0_128_S24x128x256)
        (extractStridedSlice S24x128x256 ![1, 0, 128] y1 slices_S28x128x896_o1_0_128_S24x128x256)
        (extractStridedSlice S24x128x256 ![2, 0, 128] y1 slices_S28x128x896_o2_0_128_S24x128x256)
        (extractStridedSlice S24x128x256 ![3, 0, 128] y1 slices_S28x128x896_o3_0_128_S24x128x256)
        (extractStridedSlice S24x128x256 ![4, 0, 128] y1 slices_S28x128x896_o4_0_128_S24x128x256)) w b) := rfl
  rw [E]
  exact tg_apply y1 (1 : Fin 6) _ _ _ _ _ _ _ _ _ _ rfl rfl rfl rfl rfl w b h n e

/-- Lane group 2, rectified and row-pooled, at an entry. -/
theorem tg2_apply (y1 : FVec Ideal S28x128x896 .bf16) (w : Vec Ideal S1280x256 .bf16) (b : Vec Ideal S1x256 .f32) (h : Fin 20) (n : Fin 128) (e : Fin 256) :
    k0_pay9 (F := Ideal) (k0_pay7 y1 w b) (k0_pay8 y1 w b) (ix3 h n e) = tgSpec y1 (2 : Fin 6) w b h n e := by
  have E : k0_pay9 (F := Ideal) (k0_pay7 y1 w b) (k0_pay8 y1 w b) = hpool (convRows (patches2 (extractStridedSlice S24x128x256 ![0, 0, 256] y1 slices_S28x128x896_o0_0_256_S24x128x256)
        (extractStridedSlice S24x128x256 ![1, 0, 256] y1 slices_S28x128x896_o1_0_256_S24x128x256)
        (extractStridedSlice S24x128x256 ![2, 0, 256] y1 slices_S28x128x896_o2_0_256_S24x128x256)
        (extractStridedSlice S24x128x256 ![3, 0, 256] y1 slices_S28x128x896_o3_0_256_S24x128x256)
        (extractStridedSlice S24x128x256 ![4, 0, 256] y1 slices_S28x128x896_o4_0_256_S24x128x256)) w b) := rfl
  rw [E]
  exact tg_apply y1 (2 : Fin 6) _ _ _ _ _ _ _ _ _ _ rfl rfl rfl rfl rfl w b h n e

/-- Lane group 3, rectified and row-pooled, at an entry. -/
theorem tg3_apply (y1 : FVec Ideal S28x128x896 .bf16) (w : Vec Ideal S1280x256 .bf16) (b : Vec Ideal S1x256 .f32) (h : Fin 20) (n : Fin 128) (e : Fin 256) :
    k0_pay10 (F := Ideal) y1 w b (ix3 h n e) = tgSpec y1 (3 : Fin 6) w b h n e := by
  have E : k0_pay10 (F := Ideal) y1 w b = hpool (convRows (patches2 (extractStridedSlice S24x128x256 ![0, 0, 384] y1 slices_S28x128x896_o0_0_384_S24x128x256)
        (extractStridedSlice S24x128x256 ![1, 0, 384] y1 slices_S28x128x896_o1_0_384_S24x128x256)
        (extractStridedSlice S24x128x256 ![2, 0, 384] y1 slices_S28x128x896_o2_0_384_S24x128x256)
        (extractStridedSlice S24x128x256 ![3, 0, 384] y1 slices_S28x128x896_o3_0_384_S24x128x256)
        (extractStridedSlice S24x128x256 ![4, 0, 384] y1 slices_S28x128x896_o4_0_384_S24x128x256)) w b) := rfl
  rw [E]
  exact tg_apply y1 (3 : Fin 6) _ _ _ _ _ _ _ _ _ _ rfl rfl rfl rfl rfl w b h n e

/-- Lane group 4, rectified and row-pooled, at an entry. -/
theorem tg4_apply (y1 : FVec Ideal S28x128x896 .bf16) (w : Vec Ideal S1280x256 .bf16) (b : Vec Ideal S1x256 .f32) (h : Fin 20) (n : Fin 128) (e : Fin 256) :
    k0_pay12 (F := Ideal) (k0_pay11 y1 w b) (ix3 h n e) = tgSpec y1 (4 : Fin 6) w b h n e := by
  have E : k0_pay12 (F := Ideal) (k0_pay11 y1 w b) = hpool (convRows (patches2 (extractStridedSlice S24x128x256 ![0, 0, 512] y1 slices_S28x128x896_o0_0_512_S24x128x256)
        (extractStridedSlice S24x128x256 ![1, 0, 512] y1 slices_S28x128x896_o1_0_512_S24x128x256)
        (extractStridedSlice S24x128x256 ![2, 0, 512] y1 slices_S28x128x896_o2_0_512_S24x128x256)
        (extractStridedSlice S24x128x256 ![3, 0, 512] y1 slices_S28x128x896_o3_0_512_S24x128x256)
        (extractStridedSlice S24x128x256 ![4, 0, 512] y1 slices_S28x128x896_o4_0_512_S24x128x256)) w b) := rfl
  rw [E]
  exact tg_apply y1 (4 : Fin 6) _ _ _ _ _ _ _ _ _ _ rfl rfl rfl rfl rfl w b h n e

/-- Lane group 5, rectified and row-pooled, at an entry. -/
theorem tg5_apply (y1 : FVec Ideal S28x128x896 .bf16) (w : Vec Ideal S1280x256 .bf16) (b : Vec Ideal S1x256 .f32) (h : Fin 20) (n : Fin 128) (e : Fin 256) :
    k0_pay13 (F := Ideal) y1 w b (ix3 h n e) = tgSpec y1 (5 : Fin 6) w b h n e := by
  have E : k0_pay13 (F := Ideal) y1 w b = hpool (convRows (patches2 (extractStridedSlice S24x128x256 ![0, 0, 640] y1 slices_S28x128x896_o0_0_640_S24x128x256)
        (extractStridedSlice S24x128x256 ![1, 0, 640] y1 slices_S28x128x896_o1_0_640_S24x128x256)
        (extractStridedSlice S24x128x256 ![2, 0, 640] y1 slices_S28x128x896_o2_0_640_S24x128x256)
        (extractStridedSlice S24x128x256 ![3, 0, 640] y1 slices_S28x128x896_o3_0_640_S24x128x256)
        (extractStridedSlice S24x128x256 ![4, 0, 640] y1 slices_S28x128x896_o4_0_640_S24x128x256)) w b) := rfl
  rw [E]
  exact tg_apply y1 (5 : Fin 6) _ _ _ _ _ _ _ _ _ _ rfl rfl rfl rfl rfl w b h n e

end Cert.KernelIdeal.Conv2

end
-- ==== Proof.KPool.lean ====
/-
  The lane pooling inside the kernel body, read at an entry.

  Two adjacent lane groups (256 lanes each: four output columns of 64 channels) are laid side by side (512 lanes:
  eight columns), and each of the first four columns takes the maximum over itself and the next four, in three passes
  (neighbours 64 lanes apart, then pairs 128 lanes apart, then the column 256 lanes on).
-/
import proofs.«172427_g2000706451865267_pallasbulk_150_11_alg».proof.Proof.KConv2Pay

noncomputable section

namespace Cert.KernelIdeal.Conv2

open Idealize.ShloMosaic Idealize.ShloMosaic.ValueIdx Cert.KernelIdeal Cert.KernelIdeal.Gen Cert.KernelIdeal.Conv1

/-- Two lane groups side by side. -/
def side (t0 t1 : FVec Ideal S20x128x256 .bf16) : FVec Ideal S20x128x512 .bf16 :=
  concatenate S20x128x512 2 [⟨S20x128x256, t0⟩, ⟨S20x128x256, t1⟩] concatenates_S20x128x256_S20x128x256_S20x128x512_d2

/-- The three passes of the lane pooling. -/
def wpool (t0 t1 : FVec Ideal S20x128x256 .bf16) : FVec Ideal S20x128x256 .bf16 :=
  maximumf
    (extractStridedSlice S20x128x256 ![0, 0, 0]
      (maximumf
        (extractStridedSlice S20x128x320 ![0, 0, 0]
          (maximumf (extractStridedSlice S20x128x448 ![0, 0, 0] (side t0 t1) slices_S20x128x512_o0_0_0_S20x128x448)
            (extractStridedSlice S20x128x448 ![0, 0, 64] (side t0 t1) slices_S20x128x512_o0_0_64_S20x128x448))
          slices_S20x128x448_o0_0_0_S20x128x320)
        (extractStridedSlice S20x128x320 ![0, 0, 128]
          (maximumf (extractStridedSlice S20x128x448 ![0, 0, 0] (side t0 t1) slices_S20x128x512_o0_0_0_S20x128x448)
            (extractStridedSlice S20x128x448 ![0, 0, 64] (side t0 t1) slices_S20x128x512_o0_0_64_S20x128x448))
          slices_S20x128x448_o0_0_128_S20x128x320))
      slices_S20x128x320_o0_0_0_S20x128x256)
    (extractStridedSlice S20x128x256 ![0, 0, 256] (side t0 t1) slices_S20x128x512_o0_0_256_S20x128x256)

theorem pay15_eq (t0 t1 : FVec Ideal S20x128x256 .bf16) : k0_pay15 (F := Ideal) t0 t1 = wpool t0 t1 := rfl
theorem pay23_eq (t0 t1 : FVec Ideal S20x128x256 .bf16) : k0_pay23 (F := Ideal) t0 t1 = wpool t0 t1 := rfl
theorem pay31_eq (t0 t1 : FVec Ideal S20x128x256 .bf16) : k0_pay31 (F := Ideal) t0 t1 = wpool t0 t1 := rfl
theorem pay39_eq (t0 t1 : FVec Ideal S20x128x256 .bf16) : k0_pay39 (F := Ideal) t0 t1 = wpool t0 t1 := rfl
theorem pay47_eq (t0 t1 : FVec Ideal S20x128x256 .bf16) : k0_pay47 (F := Ideal) t0 t1 = wpool t0 t1 := rfl

/-- Lane `L` of the two groups side by side: the first group's lane `L`, or the second's lane `L − 256`. -/
def sideAt (t0 t1 : FVec Ideal S20x128x256 .bf16) (h : Fin 20) (n : Fin 128) (L : Fin 512) : EReal :=
  if hL : L.val < 256 then t0 (ix3 h n ⟨L.val, hL⟩) else t1 (ix3 h n ⟨L.val - 256, by omega⟩)

theorem side_apply (t0 t1 : FVec Ideal S20x128x256 .bf16) (h : Fin 20) (n : Fin 128) (L : Fin 512) :
    side t0 t1 (ix3 h n L) = sideAt t0 t1 h n L := by
  unfold side sideAt
  by_cases hL : L.val < 256
  · rw [dif_pos hL]
    exact concatenate_pair_apply_left (t := S20x128x512) 2 t0 t1 _ (ix3 h n L) rfl (ix3 h n ⟨L.val, hL⟩) fun b => by
      match b with
      | ⟨0, _⟩ => rfl
      | ⟨1, _⟩ => rfl
      | ⟨2, _⟩ => rfl
  · rw [dif_neg hL]
    exact concatenate_pair_apply_right (t := S20x128x512) 2 t0 t1 _ (ix3 h n L) rfl rfl (ix3 h n ⟨L.val - 256, by omega⟩)
      (fun b hb => by
        match b with
        | ⟨0, _⟩ => rfl
        | ⟨1, _⟩ => rfl
        | ⟨2, _⟩ => exact absurd rfl hb)
      (by show (L.val - 256) + 256 = L.val; omega)

/-- Lane `e + 64·k` of the 512, for a lane `e < 256` and an offset `k < 5` columns. -/
def wlane (e : Fin 256) (k : Fin 5) : Fin 512 := ⟨e.val + 64 * k.val, by omega⟩

/-- The three passes at an entry: the tree of maxima over columns `e, e+64, …, e+256` of the two groups side by side. -/
theorem wpool_tree (t0 t1 : FVec Ideal S20x128x256 .bf16) (h : Fin 20) (n : Fin 128) (e : Fin 256) :
    wpool t0 t1 (ix3 h n e)
      = max (max (max (sideAt t0 t1 h n (wlane e 0)) (sideAt t0 t1 h n (wlane e 1)))
              (max (sideAt t0 t1 h n (wlane e 2)) (sideAt t0 t1 h n (wlane e 3))))
          (sideAt t0 t1 h n (wlane e 4)) := by
  have z : ∀ k : Nat, k = 0 + k := fun k => (Nat.zero_add k).symm
  unfold wpool
  show max (extractStridedSlice S20x128x256 ![0, 0, 0] (_ : FVec Ideal S20x128x320 .bf16) slices_S20x128x320_o0_0_0_S20x128x256 (ix3 h n e))
      (extractStridedSlice S20x128x256 ![0, 0, 256] (side t0 t1) slices_S20x128x512_o0_0_256_S20x128x256 (ix3 h n e)) = _
  rw [slice3_apply _ _ slices_S20x128x320_o0_0_0_S20x128x256 h n e h n (⟨e.val, by omega⟩ : Fin 320) (z _) (z _) (z _),
    slice3_apply (side t0 t1) _ slices_S20x128x512_o0_0_256_S20x128x256 h n e h n (wlane e 4) (z _) (z _) (by show e.val + 64 * 4 = 256 + e.val; omega),
    side_apply]
  refine congrArg (fun s => max s (sideAt t0 t1 h n (wlane e 4))) ?_
  show max (extractStridedSlice S20x128x320 ![0, 0, 0] (_ : FVec Ideal S20x128x448 .bf16) slices_S20x128x448_o0_0_0_S20x128x320 (ix3 h n (⟨e.val, by omega⟩ : Fin 320)))
      (extractStridedSlice S20x128x320 ![0, 0, 128] (_ : FVec Ideal S20x128x448 .bf16) slices_S20x128x448_o0_0_128_S20x128x320 (ix3 h n (⟨e.val, by omega⟩ : Fin 320))) = _
  rw [slice3_apply _ _ slices_S20x128x448_o0_0_0_S20x128x320 h n (⟨e.val, by omega⟩ : Fin 320) h n (⟨e.val, by omega⟩ : Fin 448) (z _) (z _) (z _),
    slice3_apply _ _ slices_S20x128x448_o0_0_128_S20x128x320 h n (⟨e.val, by omega⟩ : Fin 320) h n (⟨e.val + 128, by omega⟩ : Fin 448) (z _) (z _) (by show e.val + 128 = 128 + e.val; omega)]
  show max (max (extractStridedSlice S20x128x448 ![0, 0, 0] (side t0 t1) slices_S20x128x512_o0_0_0_S20x128x448 (ix3 h n (⟨e.val, by omega⟩ : Fin 448)))
        (extractStridedSlice S20x128x448 ![0, 0, 64] (side t0 t1) slices_S20x128x512_o0_0_64_S20x128x448 (ix3 h n (⟨e.val, by omega⟩ : Fin 448))))
      (max (extractStridedSlice S20x128x448 ![0, 0, 0] (side t0 t1) slices_S20x128x512_o0_0_0_S20x128x448 (ix3 h n (⟨e.val + 128, by omega⟩ : Fin 448)))
        (extractStridedSlice S20x128x448 ![0, 0, 64] (side t0 t1) slices_S20x128x512_o0_0_64_S20x128x448 (ix3 h n (⟨e.val + 128, by omega⟩ : Fin 448)))) = _
  rw [slice3_apply (side t0 t1) _ slices_S20x128x512_o0_0_0_S20x128x448 h n (⟨e.val, by omega⟩ : Fin 448) h n (wlane e 0) (z _) (z _) (by show e.val + 64 * 0 = 0 + e.val; omega),
    slice3_apply (side t0 t1) _ slices_S20x128x512_o0_0_64_S20x128x448 h n (⟨e.val, by omega⟩ : Fin 448) h n (wlane e 1) (z _) (z _) (by show e.val + 64 * 1 = 64 + e.val; omega),
    slice3_apply (side t0 t1) _ slices_S20x128x512_o0_0_0_S20x128x448 h n (⟨e.val + 128, by omega⟩ : Fin 448) h n (wlane e 2) (z _) (z _) (by show e.val + 64 * 2 = 0 + (e.val + 128); omega),
    slice3_apply (side t0 t1) _ slices_S20x128x512_o0_0_64_S20x128x448 h n (⟨e.val + 128, by omega⟩ : Fin 448) h n (wlane e 3) (z _) (z _) (by show e.val + 64 * 3 = 64 + (e.val + 128); omega)]
  simp only [side_apply]

/-- The lane pooling at an entry: the supremum over the five columns. -/
theorem wpool_apply (t0 t1 : FVec Ideal S20x128x256 .bf16) (h : Fin 20) (n : Fin 128) (e : Fin 256) :
    wpool t0 t1 (ix3 h n e) = Finset.univ.sup fun k : Fin 5 => sideAt t0 t1 h n (wlane e k) := by
  rw [wpool_tree]
  exact Cert.LibWindowMax.tree_eq_sup fun k : Fin 5 => sideAt t0 t1 h n (wlane e k)

end Cert.KernelIdeal.Conv2

end
-- ==== Proof.LibWindowSum.lean ====
/-
  A finite sum whose terms vanish outside a window of consecutive indices is the sum over the window.

  This is the law behind weights padded with zeros: a product against taps placed at offsets `lo … lo+n−1` of a longer
  axis, zero elsewhere, is the product against the taps alone, the other factor read at the shifted index.
-/
import Mathlib.Algebra.BigOperators.Fin
import Mathlib.Algebra.BigOperators.Group.Finset.Basic

namespace Cert.LibWindowSum

open scoped BigOperators

/-- Index `lo + k` of the long axis. -/
def shift {N : ℕ} (lo n : ℕ) (hN : lo + n ≤ N) (k : Fin n) : Fin N := ⟨lo + k.val, by omega⟩

theorem shift_injective {N : ℕ} (lo n : ℕ) (hN : lo + n ≤ N) : Function.Injective (shift lo n hN) := fun a b h => by
  have := congrArg Fin.val h
  simp only [shift] at this
  exact Fin.ext (by omega)

/-- Terms that vanish outside the window `lo ≤ d < lo + n` sum to the sum over the window. -/
theorem sum_window {M : Type*} [AddCommMonoid M] {N : ℕ} (lo n : ℕ) (hN : lo + n ≤ N) (A : Fin N → M)
    (hz : ∀ d : Fin N, ¬(lo ≤ d.val ∧ d.val < lo + n) → A d = 0) :
    ∑ d : Fin N, A d = ∑ k : Fin n, A (shift lo n hN k) := by
  have e : ∑ d ∈ Finset.univ.map ⟨shift lo n hN, shift_injective lo n hN⟩, A d = ∑ d : Fin N, A d :=
    Finset.sum_subset (Finset.subset_univ _) fun d _ hd => hz d fun hw => hd (by
      rw [Finset.mem_map]
      exact ⟨⟨d.val - lo, by omega⟩, Finset.mem_univ _, Fin.ext (by simp only [Function.Embedding.coeFn_mk, shift]; omega)⟩)
  rw [← e, Finset.sum_map]
  rfl

/-- A product against zero-padded taps: `W d = T (d − lo)` inside the window and `0` outside (for any product that
    annihilates at zero: the extended reals have one, without being a semiring). -/
theorem sum_mul_padded {M : Type*} [AddCommMonoid M] [Mul M] (hmz : ∀ a : M, a * 0 = 0) {N : ℕ} (lo n : ℕ) (hN : lo + n ≤ N) (Y W : Fin N → M) (T : Fin n → M)
    (hin : ∀ k : Fin n, W (shift lo n hN k) = T k)
    (hout : ∀ d : Fin N, ¬(lo ≤ d.val ∧ d.val < lo + n) → W d = 0) :
    ∑ d : Fin N, Y d * W d = ∑ k : Fin n, Y (shift lo n hN k) * T k := by
  rw [sum_window lo n hN (fun d => Y d * W d) fun d hd => by rw [hout d hd, hmz]]
  exact Finset.sum_congr rfl fun k _ => by rw [hin k]

end Cert.LibWindowSum
-- ==== Proof.KMath.lean ====
/-
  From the kernel body's block-level readings to the network's stages, for ONE sample `p` of the block.

  Under hypotheses saying what the loaded blocks hold — the image rows of sample `p`, the banded weights with the
  five row slabs stacked (row `32·kh + w`), the packed second-layer weights (row `256·kh + 32·dw + ci`, lane
  `64·j + co`: tap `(kh, dw − j)` when `j ≤ dw < j + 5`, zero otherwise), the bias row repeated four times —
  the first payload is `conv1Of`; lane group `g`'s rectified product at lane `64·j + co` is `conv2Of` at column
  `4g + j` (the zero weights drop out, the five taps that remain are the window shifted by `j`); and the two pooling
  passes give `poolOf` at column `4·gp + e`.
-/
import proofs.«172427_g2000706451865267_pallasbulk_150_11_alg».proof.Proof.KPool
import proofs.«172427_g2000706451865267_pallasbulk_150_11_alg».proof.Proof.NetSpec
import proofs.«172427_g2000706451865267_pallasbulk_150_11_alg».proof.Proof.LibWindowSum
import proofs.«172427_g2000706451865267_pallasbulk_150_11_alg».proof.Proof.LibWindowMax

noncomputable section

namespace Cert.KernelIdeal.Math

open Idealize.ShloMosaic Idealize.ShloMosaic.ValueIdx Cert.KernelIdeal Cert.KernelIdeal.Gen
open Cert.KernelIdeal.Conv1 Cert.KernelIdeal.Conv2 Cert.NetSpec

/-- The first payload at sample `p` is the first convolution of that sample's image. -/
theorem conv1_eq (x0 : Vec Ideal S32x128x32 .f32) (x1 : Vec Ideal S160x896 .bf16) (x2 : Vec Ideal S1x896 .f32) (p : Fin 128)
    (X : Fin 32 → Fin 32 → EReal) (Wb : Fin 5 → Fin 32 → Fin 896 → EReal) (b1 : Fin 896 → EReal)
    (hx : ∀ h w, x0 (ix3 h p w) = X h w) (hWb : ∀ kh w l, x1 (ix2 (Conv1.col kh w) l) = Wb kh w l)
    (hb1 : ∀ l, x2 (ix2 (0 : Fin 1) l) = b1 l) (r : Fin 28) (l : Fin 896) :
    k0_pay2 (F := Ideal) x0 x1 x2 (ix3 r p l) = conv1Of X Wb b1 r l := by
  rw [conv1_apply]
  unfold conv1Of
  simp only [hx, hWb, hb1]
  rfl

/-- Output column `4g + j` of the 24-column map. -/
def ocol (g : Fin 6) (j : Fin 4) : Fin 24 := ⟨4 * g.val + j.val, by omega⟩
/-- Lane `64·j + co` of a lane group. -/
def olane (j : Fin 4) (co : Fin 64) : Fin 256 := ⟨64 * j.val + co.val, by omega⟩
/-- Column `32·dw + ci` of a 256-wide window: input column `dw < 8`, channel `ci`. -/
def wcol (dw : Fin 8) (ci : Fin 32) : Fin 256 := ⟨32 * dw.val + ci.val, by omega⟩

/-- Lane group `g`'s rectified product at lane `64·j + co` is the second convolution at column `4g + j`. -/
theorem cg_eq (y1 : FVec Ideal S28x128x896 .bf16) (x3 : Vec Ideal S1280x256 .bf16) (x4 : Vec Ideal S1x256 .f32) (p : Fin 128)
    (Y : Fin 28 → Fin 896 → EReal) (w2 : Fin 25 → Fin 32 → Fin 64 → EReal) (b2 : Fin 64 → EReal)
    (hy : ∀ r l, y1 (ix3 r p l) = Y r l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (g : Fin 6) (r : Fin 24) (j : Fin 4) (co : Fin 64) :
    cgSpec y1 g x3 x4 r p (olane j co) = conv2Of Y w2 b2 r (ocol g j) co := by
  unfold cgSpec conv2Of
  rw [hb2]
  refine congrArg (fun s => max (s + b2 co) 0) (Finset.sum_congr rfl fun kh _ => ?_)
  rw [← Cert.LibBlockSum.sum_blocks 8 32]
  rw [Cert.LibWindowSum.sum_window (N := 8) j.val 5 (by omega)
    (fun dw : Fin 8 => ∑ ci : Fin 32, y1 (ix3 (Conv2.row r kh) p (glane g ⟨32 * dw.val + ci.val, Cert.LibBlockSum.lt_blocks dw.isLt ci.isLt⟩))
      * x3 (ix2 (col2 kh ⟨32 * dw.val + ci.val, Cert.LibBlockSum.lt_blocks dw.isLt ci.isLt⟩) (olane j co)))
    (fun dw hdw => Finset.sum_eq_zero fun ci _ => by
      have := hW2 kh dw ci j co
      rw [dif_neg hdw] at this
      show _ * x3 (ix2 (col2 kh (wcol dw ci)) (olane j co)) = 0
      rw [this, mul_zero])]
  refine Finset.sum_congr rfl fun kw _ => Finset.sum_congr rfl fun ci _ => ?_
  have hin : j.val ≤ (Cert.LibWindowSum.shift (N := 8) j.val 5 (by omega) kw).val ∧ (Cert.LibWindowSum.shift (N := 8) j.val 5 (by omega) kw).val < j.val + 5 := by
    show j.val ≤ j.val + kw.val ∧ j.val + kw.val < j.val + 5
    omega
  have hw := hW2 kh (Cert.LibWindowSum.shift (N := 8) j.val 5 (by omega) kw) ci j co
  rw [dif_pos hin] at hw
  show y1 (ix3 (Conv2.row r kh) p _) * x3 (ix2 (col2 kh (wcol (Cert.LibWindowSum.shift (N := 8) j.val 5 (by omega) kw) ci)) (olane j co)) = _
  rw [hw, hy]
  refine congrArg₂ (· * ·) (congrArg₂ Y (Fin.ext rfl) (Fin.ext ?_)) (congrArg (fun t => w2 (tap kh t) ci co) (Fin.ext ?_))
  · show 128 * g.val + (32 * (j.val + kw.val) + ci.val) = (4 * g.val + j.val + kw.val) * 32 + ci.val
    omega
  · show j.val + kw.val - j.val = kw.val
    omega

/-- Lane group `g`, rectified and row-pooled, at lane `64·j + co`: the second map's column `4g + j` pooled over rows. -/
theorem tg_eq (y1 : FVec Ideal S28x128x896 .bf16) (x3 : Vec Ideal S1280x256 .bf16) (x4 : Vec Ideal S1x256 .f32) (p : Fin 128)
    (Y : Fin 28 → Fin 896 → EReal) (w2 : Fin 25 → Fin 32 → Fin 64 → EReal) (b2 : Fin 64 → EReal)
    (hy : ∀ r l, y1 (ix3 r p l) = Y r l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (g : Fin 6) (h : Fin 20) (j : Fin 4) (co : Fin 64) :
    tgSpec y1 g x3 x4 h p (olane j co) = Finset.univ.sup fun dh : Fin 5 => conv2Of Y w2 b2 (row24 h dh) (ocol g j) co := by
  unfold tgSpec
  simp only [cg_eq y1 x3 x4 p Y w2 b2 hy hW2 hb2]
  rfl

/-- Output column `4·gp + e` of the 20-column pooled map. -/
def pcol (gp : Fin 5) (e : Fin 4) : Fin 20 := ⟨4 * gp.val + e.val, by omega⟩

/-- The lane pooling of two adjacent row-pooled groups at lane `64·e + co`: the 5 × 5 window maximum at column `4·gp + e`. -/
theorem pool_eq (t0 t1 : FVec Ideal S20x128x256 .bf16) (p : Fin 128) (C : Fin 24 → Fin 24 → Fin 64 → EReal) (gp : Fin 5)
    (ht0 : ∀ (h' : Fin 20) (j : Fin 4) (co : Fin 64),
      t0 (ix3 h' p (olane j co)) = Finset.univ.sup fun dh : Fin 5 => C (row24 h' dh) ⟨4 * gp.val + j.val, by omega⟩ co)
    (ht1 : ∀ (h' : Fin 20) (j : Fin 4) (co : Fin 64),
      t1 (ix3 h' p (olane j co)) = Finset.univ.sup fun dh : Fin 5 => C (row24 h' dh) ⟨4 * (gp.val + 1) + j.val, by omega⟩ co)
    (h : Fin 20) (e : Fin 4) (co : Fin 64) :
    wpool t0 t1 (ix3 h p (olane e co)) = poolOf C h (pcol gp e) co := by
  rw [wpool_apply]
  unfold poolOf
  rw [Cert.LibWindowMax.sup_window' fun a b => C (row24 h a) (row24 (pcol gp e) b) co]
  refine congrArg (Finset.sup Finset.univ) (funext fun k => ?_)
  unfold sideAt
  by_cases hk : e.val + k.val < 4
  · have hL : (wlane (olane e co) k).val < 256 := by show 64 * e.val + co.val + 64 * k.val < 256; omega
    rw [dif_pos hL]
    have hi : (⟨(wlane (olane e co) k).val, hL⟩ : Fin 256) = olane ⟨e.val + k.val, hk⟩ co :=
      Fin.ext (by show 64 * e.val + co.val + 64 * k.val = 64 * (e.val + k.val) + co.val; omega)
    rw [hi, ht0]
    refine congrArg (Finset.sup Finset.univ) (funext fun a => congrArg (fun c => C (row24 h a) c co) (Fin.ext ?_))
    show 4 * gp.val + (e.val + k.val) = 4 * gp.val + e.val + k.val
    omega
  · have hL : ¬(wlane (olane e co) k).val < 256 := by show ¬(64 * e.val + co.val + 64 * k.val < 256); omega
    rw [dif_neg hL]
    have hk' : e.val + k.val - 4 < 4 := by omega
    have hi : (⟨(wlane (olane e co) k).val - 256, by omega⟩ : Fin 256) = olane ⟨e.val + k.val - 4, hk'⟩ co :=
      Fin.ext (by show 64 * e.val + co.val + 64 * k.val - 256 = 64 * (e.val + k.val - 4) + co.val; omega)
    rw [hi, ht1]
    refine congrArg (Finset.sup Finset.univ) (funext fun a => congrArg (fun c => C (row24 h a) c co) (Fin.ext ?_))
    show 4 * (gp.val + 1) + (e.val + k.val - 4) = 4 * gp.val + e.val + k.val
    omega

/-- Slab `5·h + gp` of the 100 weight slabs. -/
def slab (h : Fin 20) (gp : Fin 5) : Fin 100 := ⟨5 * h.val + gp.val, by omega⟩

/-- The first dense layer's sum regrouped: over rows, lane-group pairs and the 256 lanes of a pooled slab it is the
    sum over rows, columns and channels of the pooled map against the weights at `h·1280 + w·64 + co`. -/
theorem fc_sum_eq (P : Fin 5 → Fin 20 → Fin 256 → EReal) (Wt : Fin 100 → Fin 256 → EReal)
    (pool : Fin 20 → Fin 20 → Fin 64 → EReal) (wl1 : Fin 25600 → EReal)
    (hP : ∀ gp h e co, P gp h (olane e co) = pool h (pcol gp e) co)
    (hW : ∀ h gp e co, Wt (slab h gp) (olane e co) = wl1 (feat h (pcol gp e) co)) :
    ∑ h : Fin 20, ∑ gp : Fin 5, ∑ r : Fin 256, P gp h r * Wt (slab h gp) r
      = ∑ h : Fin 20, ∑ w : Fin 20, ∑ co : Fin 64, pool h w co * wl1 (feat h w co) := by
  refine Finset.sum_congr rfl fun h _ => ?_
  rw [← Cert.LibBlockSum.sum_blocks 5 4 fun w : Fin 20 => ∑ co : Fin 64, pool h w co * wl1 (feat h w co)]
  refine Finset.sum_congr rfl fun gp _ => ?_
  rw [← Cert.LibBlockSum.sum_blocks 4 64 fun r : Fin 256 => P gp h r * Wt (slab h gp) r]
  refine Finset.sum_congr rfl fun e _ => Finset.sum_congr rfl fun co _ => ?_
  exact congrArg₂ (· * ·) (hP gp h e co) (hW h gp e co)

end Cert.KernelIdeal.Math

end
-- ==== Proof.KStages.lean ====
/-
  The staged values of the kernel body for one sample `p` of the block, against the network's stages: the six
  row-pooled lane groups are the second map's columns `4g … 4g+3` pooled over rows, and the five lane-pooled pairs
  are the pooled map's columns `4·gp … 4·gp+3`.
-/
import proofs.«172427_g2000706451865267_pallasbulk_150_11_alg».proof.Proof.KMath

noncomputable section

namespace Cert.KernelIdeal.Stages

open Idealize.ShloMosaic Idealize.ShloMosaic.ValueIdx Cert.KernelIdeal Cert.KernelIdeal.Gen
open Cert.KernelIdeal.Conv1 Cert.KernelIdeal.Conv2 Cert.KernelIdeal.Math Cert.NetSpec

/-- Row-pooled lane group 0 as the body computes it. -/
def tg0 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay5 (F := Ideal) (k0_pay3 x0 x1 x2 x3 x4) (k0_pay4 x0 x1 x2 x3 x4)
/-- Row-pooled lane group 1 as the body computes it. -/
def tg1 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay6 (F := Ideal) (k0_pay2 x0 x1 x2) x3 x4
/-- Row-pooled lane group 2 as the body computes it. -/
def tg2 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay9 (F := Ideal) (k0_pay7 (k0_pay2 x0 x1 x2) x3 x4) (k0_pay8 (k0_pay2 x0 x1 x2) x3 x4)
/-- Row-pooled lane group 3 as the body computes it. -/
def tg3 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay10 (F := Ideal) (k0_pay2 x0 x1 x2) x3 x4
/-- Row-pooled lane group 4 as the body computes it. -/
def tg4 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay12 (F := Ideal) (k0_pay11 (k0_pay2 x0 x1 x2) x3 x4)
/-- Row-pooled lane group 5 as the body computes it. -/
def tg5 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay13 (F := Ideal) (k0_pay2 x0 x1 x2) x3 x4

/-- Row-pooled lane group 0 at lane `64·j + co`: the second map's column `0 + j` pooled over rows `h … h+4`. -/
theorem tg0_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg0 x0 x1 x2 x3 x4 (ix3 h p (olane j co))
      = Finset.univ.sup fun dh : Fin 5 => conv2Of (conv1Of X Wb b1) w2 b2 (row24 h dh) ⟨4 * 0 + j.val, by omega⟩ co := by
  unfold tg0
  rw [tg0_apply x0 x1 x2 x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (0 : Fin 6) h j co

/-- Row-pooled lane group 1 at lane `64·j + co`: the second map's column `4 + j` pooled over rows `h … h+4`. -/
theorem tg1_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg1 x0 x1 x2 x3 x4 (ix3 h p (olane j co))
      = Finset.univ.sup fun dh : Fin 5 => conv2Of (conv1Of X Wb b1) w2 b2 (row24 h dh) ⟨4 * 1 + j.val, by omega⟩ co := by
  unfold tg1
  rw [tg1_apply (k0_pay2 (F := Ideal) x0 x1 x2) x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (1 : Fin 6) h j co

/-- Row-pooled lane group 2 at lane `64·j + co`: the second map's column `8 + j` pooled over rows `h … h+4`. -/
theorem tg2_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg2 x0 x1 x2 x3 x4 (ix3 h p (olane j co))
      = Finset.univ.sup fun dh : Fin 5 => conv2Of (conv1Of X Wb b1) w2 b2 (row24 h dh) ⟨4 * 2 + j.val, by omega⟩ co := by
  unfold tg2
  rw [tg2_apply (k0_pay2 (F := Ideal) x0 x1 x2) x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (2 : Fin 6) h j co

/-- Row-pooled lane group 3 at lane `64·j + co`: the second map's column `12 + j` pooled over rows `h … h+4`. -/
theorem tg3_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg3 x0 x1 x2 x3 x4 (ix3 h p (olane j co))
      = Finset.univ.sup fun dh : Fin 5 => conv2Of (conv1Of X Wb b1) w2 b2 (row24 h dh) ⟨4 * 3 + j.val, by omega⟩ co := by
  unfold tg3
  rw [tg3_apply (k0_pay2 (F := Ideal) x0 x1 x2) x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (3 : Fin 6) h j co

/-- Row-pooled lane group 4 at lane `64·j + co`: the second map's column `16 + j` pooled over rows `h … h+4`. -/
theorem tg4_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg4 x0 x1 x2 x3 x4 (ix3 h p (olane j co))
      = Finset.univ.sup fun dh : Fin 5 => conv2Of (conv1Of X Wb b1) w2 b2 (row24 h dh) ⟨4 * 4 + j.val, by omega⟩ co := by
  unfold tg4
  rw [tg4_apply (k0_pay2 (F := Ideal) x0 x1 x2) x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (4 : Fin 6) h j co

/-- Row-pooled lane group 5 at lane `64·j + co`: the second map's column `20 + j` pooled over rows `h … h+4`. -/
theorem tg5_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (j : Fin 4) (co : Fin 64) :
    tg5 x0 x1 x2 x3 x4 (ix3 h p (olane j co))
      = Finset.univ.sup fun dh : Fin 5 => conv2Of (conv1Of X Wb b1) w2 b2 (row24 h dh) ⟨4 * 5 + j.val, by omega⟩ co := by
  unfold tg5
  rw [tg5_apply (k0_pay2 (F := Ideal) x0 x1 x2) x3 x4 h p (olane j co)]
  exact tg_eq (k0_pay2 (F := Ideal) x0 x1 x2) x3 x4 p (conv1Of X Wb b1) w2 b2
    (fun r l => conv1_eq x0 x1 x2 p X Wb b1 hx hWb hb1 r l) hW2 hb2 (5 : Fin 6) h j co

/-- Lane-pooled pair 0 as the body computes it, at lane `64·e + co`: the pooled map's column `0 + e`. -/
theorem pp0_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (e : Fin 4) (co : Fin 64) :
    wpool (tg0 x0 x1 x2 x3 x4) (tg1 x0 x1 x2 x3 x4) (ix3 h p (olane e co))
      = poolOf (conv2Of (conv1Of X Wb b1) w2 b2) h (pcol (0 : Fin 5) e) co :=
  pool_eq (tg0 x0 x1 x2 x3 x4) (tg1 x0 x1 x2 x3 x4) p (conv2Of (conv1Of X Wb b1) w2 b2) (0 : Fin 5)
    (fun h' j co' => tg0_eq x0 x1 x2 x3 x4 p X Wb b1 w2 b2 hx hWb hb1 hW2 hb2 h' j co')
    (fun h' j co' => tg1_eq x0 x1 x2 x3 x4 p X Wb b1 w2 b2 hx hWb hb1 hW2 hb2 h' j co') h e co

/-- Lane-pooled pair 1 as the body computes it, at lane `64·e + co`: the pooled map's column `4 + e`. -/
theorem pp1_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (e : Fin 4) (co : Fin 64) :
    wpool (tg1 x0 x1 x2 x3 x4) (tg2 x0 x1 x2 x3 x4) (ix3 h p (olane e co))
      = poolOf (conv2Of (conv1Of X Wb b1) w2 b2) h (pcol (1 : Fin 5) e) co :=
  pool_eq (tg1 x0 x1 x2 x3 x4) (tg2 x0 x1 x2 x3 x4) p (conv2Of (conv1Of X Wb b1) w2 b2) (1 : Fin 5)
    (fun h' j co' => tg1_eq x0 x1 x2 x3 x4 p X Wb b1 w2 b2 hx hWb hb1 hW2 hb2 h' j co')
    (fun h' j co' => tg2_eq x0 x1 x2 x3 x4 p X Wb b1 w2 b2 hx hWb hb1 hW2 hb2 h' j co') h e co

/-- Lane-pooled pair 2 as the body computes it, at lane `64·e + co`: the pooled map's column `8 + e`. -/
theorem pp2_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (e : Fin 4) (co : Fin 64) :
    wpool (tg2 x0 x1 x2 x3 x4) (tg3 x0 x1 x2 x3 x4) (ix3 h p (olane e co))
      = poolOf (conv2Of (conv1Of X Wb b1) w2 b2) h (pcol (2 : Fin 5) e) co :=
  pool_eq (tg2 x0 x1 x2 x3 x4) (tg3 x0 x1 x2 x3 x4) p (conv2Of (conv1Of X Wb b1) w2 b2) (2 : Fin 5)
    (fun h' j co' => tg2_eq x0 x1 x2 x3 x4 p X Wb b1 w2 b2 hx hWb hb1 hW2 hb2 h' j co')
    (fun h' j co' => tg3_eq x0 x1 x2 x3 x4 p X Wb b1 w2 b2 hx hWb hb1 hW2 hb2 h' j co') h e co

/-- Lane-pooled pair 3 as the body computes it, at lane `64·e + co`: the pooled map's column `12 + e`. -/
theorem pp3_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (e : Fin 4) (co : Fin 64) :
    wpool (tg3 x0 x1 x2 x3 x4) (tg4 x0 x1 x2 x3 x4) (ix3 h p (olane e co))
      = poolOf (conv2Of (conv1Of X Wb b1) w2 b2) h (pcol (3 : Fin 5) e) co :=
  pool_eq (tg3 x0 x1 x2 x3 x4) (tg4 x0 x1 x2 x3 x4) p (conv2Of (conv1Of X Wb b1) w2 b2) (3 : Fin 5)
    (fun h' j co' => tg3_eq x0 x1 x2 x3 x4 p X Wb b1 w2 b2 hx hWb hb1 hW2 hb2 h' j co')
    (fun h' j co' => tg4_eq x0 x1 x2 x3 x4 p X Wb b1 w2 b2 hx hWb hb1 hW2 hb2 h' j co') h e co

/-- Lane-pooled pair 4 as the body computes it, at lane `64·e + co`: the pooled map's column `16 + e`. -/
theorem pp4_eq (x0 : Vec Ideal S32x128x32 .f32) (x1 : Vec Ideal S160x896 .bf16) (x2 : Vec Ideal S1x896 .f32) (x3 : Vec Ideal S1280x256 .bf16) (x4 : Vec Ideal S1x256 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (h : Fin 20) (e : Fin 4) (co : Fin 64) :
    wpool (tg4 x0 x1 x2 x3 x4) (tg5 x0 x1 x2 x3 x4) (ix3 h p (olane e co))
      = poolOf (conv2Of (conv1Of X Wb b1) w2 b2) h (pcol (4 : Fin 5) e) co :=
  pool_eq (tg4 x0 x1 x2 x3 x4) (tg5 x0 x1 x2 x3 x4) p (conv2Of (conv1Of X Wb b1) w2 b2) (4 : Fin 5)
    (fun h' j co' => tg4_eq x0 x1 x2 x3 x4 p X Wb b1 w2 b2 hx hWb hb1 hW2 hb2 h' j co')
    (fun h' j co' => tg5_eq x0 x1 x2 x3 x4 p X Wb b1 w2 b2 hx hWb hb1 hW2 hb2 h' j co') h e co

end Cert.KernelIdeal.Stages

end
-- ==== Proof.KChain.lean ====
/-
  The kernel body's stored value restated over named stages: the five lane-pooled pairs and the accumulator of the
  first dense layer after each group of slab products, in the order the body adds them (lane-group pair by pair,
  row by row: slab `5·h + gp`).
-/
import proofs.«172427_g2000706451865267_pallasbulk_150_11_alg».proof.Proof.KStages
import proofs.«172427_g2000706451865267_pallasbulk_150_11_alg».proof.Proof.KernelIdealBody

noncomputable section

namespace Cert.KernelIdeal.Chain

open Idealize.ShloMosaic Idealize.ShloMosaic.ValueIdx Cert.KernelIdeal Cert.KernelIdeal.Gen
open Cert.KernelIdeal.Conv2 Cert.KernelIdeal.Stages

/-- Lane-pooled pair 0 as the body computes it. -/
def pp0 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay15 (F := Ideal) (tg0 x0 x1 x2 x3 x4) (tg1 x0 x1 x2 x3 x4)
theorem pp0_wpool (x0 : Vec Ideal S32x128x32 .f32) (x1 : Vec Ideal S160x896 .bf16) (x2 : Vec Ideal S1x896 .f32) (x3 : Vec Ideal S1280x256 .bf16) (x4 : Vec Ideal S1x256 .f32) : pp0 x0 x1 x2 x3 x4 = wpool (tg0 x0 x1 x2 x3 x4) (tg1 x0 x1 x2 x3 x4) := rfl
/-- Lane-pooled pair 1 as the body computes it. -/
def pp1 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay23 (F := Ideal) (tg1 x0 x1 x2 x3 x4) (tg2 x0 x1 x2 x3 x4)
theorem pp1_wpool (x0 : Vec Ideal S32x128x32 .f32) (x1 : Vec Ideal S160x896 .bf16) (x2 : Vec Ideal S1x896 .f32) (x3 : Vec Ideal S1280x256 .bf16) (x4 : Vec Ideal S1x256 .f32) : pp1 x0 x1 x2 x3 x4 = wpool (tg1 x0 x1 x2 x3 x4) (tg2 x0 x1 x2 x3 x4) := rfl
/-- Lane-pooled pair 2 as the body computes it. -/
def pp2 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay31 (F := Ideal) (tg2 x0 x1 x2 x3 x4) (tg3 x0 x1 x2 x3 x4)
theorem pp2_wpool (x0 : Vec Ideal S32x128x32 .f32) (x1 : Vec Ideal S160x896 .bf16) (x2 : Vec Ideal S1x896 .f32) (x3 : Vec Ideal S1280x256 .bf16) (x4 : Vec Ideal S1x256 .f32) : pp2 x0 x1 x2 x3 x4 = wpool (tg2 x0 x1 x2 x3 x4) (tg3 x0 x1 x2 x3 x4) := rfl
/-- Lane-pooled pair 3 as the body computes it. -/
def pp3 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay39 (F := Ideal) (tg3 x0 x1 x2 x3 x4) (tg4 x0 x1 x2 x3 x4)
theorem pp3_wpool (x0 : Vec Ideal S32x128x32 .f32) (x1 : Vec Ideal S160x896 .bf16) (x2 : Vec Ideal S1x896 .f32) (x3 : Vec Ideal S1280x256 .bf16) (x4 : Vec Ideal S1x256 .f32) : pp3 x0 x1 x2 x3 x4 = wpool (tg3 x0 x1 x2 x3 x4) (tg4 x0 x1 x2 x3 x4) := rfl
/-- Lane-pooled pair 4 as the body computes it. -/
def pp4 (x0 : Vec Ideal S32x128x32 .f32) (x1 : Vec Ideal S160x896 .bf16) (x2 : Vec Ideal S1x896 .f32) (x3 : Vec Ideal S1280x256 .bf16) (x4 : Vec Ideal S1x256 .f32) : FVec Ideal S20x128x256 .bf16 :=
  k0_pay47 (F := Ideal) (tg4 x0 x1 x2 x3 x4) (tg5 x0 x1 x2 x3 x4)
theorem pp4_wpool (x0 : Vec Ideal S32x128x32 .f32) (x1 : Vec Ideal S160x896 .bf16) (x2 : Vec Ideal S1x896 .f32) (x3 : Vec Ideal S1280x256 .bf16) (x4 : Vec Ideal S1x256 .f32) : pp4 x0 x1 x2 x3 x4 = wpool (tg4 x0 x1 x2 x3 x4) (tg5 x0 x1 x2 x3 x4) := rfl
/-- The accumulator after payload 17. -/
def a17 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay17 (F := Ideal) (k0_pay14 (F := Ideal)) (pp0 x0 x1 x2 x3 x4) (k0_pay16 (tg0 x0 x1 x2 x3 x4) (tg1 x0 x1 x2 x3 x4)) (View.ld x5 Cert.KernelIdeal.Hand.r0_5_0) (View.ld x5 Cert.KernelIdeal.Hand.r0_5_5) (View.ld x5 Cert.KernelIdeal.Hand.r0_5_10) (View.ld x5 Cert.KernelIdeal.Hand.r0_5_15) (View.ld x5 Cert.KernelIdeal.Hand.r0_5_20) (View.ld x5 Cert.KernelIdeal.Hand.r0_5_25)
/-- The accumulator after payload 19. -/
def a19 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay19 (F := Ideal) (pp0 x0 x1 x2 x3 x4) (a17 x0 x1 x2 x3 x4 x5) (k0_pay18 (pp0 x0 x1 x2 x3 x4)) (View.ld x5 Cert.KernelIdeal.Hand.r0_5_30) (View.ld x5 Cert.KernelIdeal.Hand.r0_5_35) (View.ld x5 Cert.KernelIdeal.Hand.r0_5_40) (View.ld x5 Cert.KernelIdeal.Hand.r0_5_45) (View.ld x5 Cert.KernelIdeal.Hand.r0_5_50) (View.ld x5 Cert.KernelIdeal.Hand.r0_5_55)
/-- The accumulator after payload 21. -/
def a21 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay21 (F := Ideal) (pp0 x0 x1 x2 x3 x4) (a19 x0 x1 x2 x3 x4 x5) (k0_pay20 (pp0 x0 x1 x2 x3 x4)) (View.ld x5 Cert.KernelIdeal.Hand.r0_5_60) (View.ld x5 Cert.KernelIdeal.Hand.r0_5_65) (View.ld x5 Cert.KernelIdeal.Hand.r0_5_70) (View.ld x5 Cert.KernelIdeal.Hand.r0_5_75) (View.ld x5 Cert.KernelIdeal.Hand.r0_5_80) (View.ld x5 Cert.KernelIdeal.Hand.r0_5_85)
/-- The accumulator after payload 24. -/
def a24 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay24 (F := Ideal) (tg1 x0 x1 x2 x3 x4) (tg2 x0 x1 x2 x3 x4) (pp0 x0 x1 x2 x3 x4) (a21 x0 x1 x2 x3 x4 x5) (k0_pay22 (pp0 x0 x1 x2 x3 x4)) (View.ld x5 Cert.KernelIdeal.Hand.r0_5_90) (View.ld x5 Cert.KernelIdeal.Hand.r0_5_95) (View.ld x5 Cert.KernelIdeal.Hand.r0_5_1) (View.ld x5 Cert.KernelIdeal.Hand.r0_5_6) (View.ld x5 Cert.KernelIdeal.Hand.r0_5_11)
/-- The accumulator after payload 26. -/
def a26 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay26 (F := Ideal) (pp1 x0 x1 x2 x3 x4) (a24 x0 x1 x2 x3 x4 x5) (k0_pay25 (tg1 x0 x1 x2 x3 x4) (tg2 x0 x1 x2 x3 x4)) (View.ld x5 Cert.KernelIdeal.Hand.r0_5_16) (View.ld x5 Cert.KernelIdeal.Hand.r0_5_21) (View.ld x5 Cert.KernelIdeal.Hand.r0_5_26) (View.ld x5 Cert.KernelIdeal.Hand.r0_5_31) (View.ld x5 Cert.KernelIdeal.Hand.r0_5_36) (View.ld x5 Cert.KernelIdeal.Hand.r0_5_41)
/-- The accumulator after payload 28. -/
def a28 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay28 (F := Ideal) (pp1 x0 x1 x2 x3 x4) (a26 x0 x1 x2 x3 x4 x5) (k0_pay27 (pp1 x0 x1 x2 x3 x4)) (View.ld x5 Cert.KernelIdeal.Hand.r0_5_46) (View.ld x5 Cert.KernelIdeal.Hand.r0_5_51) (View.ld x5 Cert.KernelIdeal.Hand.r0_5_56) (View.ld x5 Cert.KernelIdeal.Hand.r0_5_61) (View.ld x5 Cert.KernelIdeal.Hand.r0_5_66) (View.ld x5 Cert.KernelIdeal.Hand.r0_5_71)
/-- The accumulator after payload 30. -/
def a30 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay30 (F := Ideal) (pp1 x0 x1 x2 x3 x4) (a28 x0 x1 x2 x3 x4 x5) (k0_pay29 (pp1 x0 x1 x2 x3 x4)) (View.ld x5 Cert.KernelIdeal.Hand.r0_5_76) (View.ld x5 Cert.KernelIdeal.Hand.r0_5_81) (View.ld x5 Cert.KernelIdeal.Hand.r0_5_86) (View.ld x5 Cert.KernelIdeal.Hand.r0_5_91) (View.ld x5 Cert.KernelIdeal.Hand.r0_5_96)
/-- The accumulator after payload 33. -/
def a33 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay33 (F := Ideal) (a30 x0 x1 x2 x3 x4 x5) (pp2 x0 x1 x2 x3 x4) (k0_pay32 (tg2 x0 x1 x2 x3 x4) (tg3 x0 x1 x2 x3 x4)) (View.ld x5 Cert.KernelIdeal.Hand.r0_5_2) (View.ld x5 Cert.KernelIdeal.Hand.r0_5_7) (View.ld x5 Cert.KernelIdeal.Hand.r0_5_12) (View.ld x5 Cert.KernelIdeal.Hand.r0_5_17) (View.ld x5 Cert.KernelIdeal.Hand.r0_5_22) (View.ld x5 Cert.KernelIdeal.Hand.r0_5_27)
/-- The accumulator after payload 35. -/
def a35 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay35 (F := Ideal) (pp2 x0 x1 x2 x3 x4) (a33 x0 x1 x2 x3 x4 x5) (k0_pay34 (pp2 x0 x1 x2 x3 x4)) (View.ld x5 Cert.KernelIdeal.Hand.r0_5_32) (View.ld x5 Cert.KernelIdeal.Hand.r0_5_37) (View.ld x5 Cert.KernelIdeal.Hand.r0_5_42) (View.ld x5 Cert.KernelIdeal.Hand.r0_5_47) (View.ld x5 Cert.KernelIdeal.Hand.r0_5_52) (View.ld x5 Cert.KernelIdeal.Hand.r0_5_57)
/-- The accumulator after payload 37. -/
def a37 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay37 (F := Ideal) (pp2 x0 x1 x2 x3 x4) (a35 x0 x1 x2 x3 x4 x5) (k0_pay36 (pp2 x0 x1 x2 x3 x4)) (View.ld x5 Cert.KernelIdeal.Hand.r0_5_62) (View.ld x5 Cert.KernelIdeal.Hand.r0_5_67) (View.ld x5 Cert.KernelIdeal.Hand.r0_5_72) (View.ld x5 Cert.KernelIdeal.Hand.r0_5_77) (View.ld x5 Cert.KernelIdeal.Hand.r0_5_82) (View.ld x5 Cert.KernelIdeal.Hand.r0_5_87)
/-- The accumulator after payload 40. -/
def a40 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay40 (F := Ideal) (tg3 x0 x1 x2 x3 x4) (tg4 x0 x1 x2 x3 x4) (pp2 x0 x1 x2 x3 x4) (a37 x0 x1 x2 x3 x4 x5) (k0_pay38 (pp2 x0 x1 x2 x3 x4)) (View.ld x5 Cert.KernelIdeal.Hand.r0_5_92) (View.ld x5 Cert.KernelIdeal.Hand.r0_5_97) (View.ld x5 Cert.KernelIdeal.Hand.r0_5_3) (View.ld x5 Cert.KernelIdeal.Hand.r0_5_8) (View.ld x5 Cert.KernelIdeal.Hand.r0_5_13)
/-- The accumulator after payload 42. -/
def a42 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay42 (F := Ideal) (pp3 x0 x1 x2 x3 x4) (a40 x0 x1 x2 x3 x4 x5) (k0_pay41 (tg3 x0 x1 x2 x3 x4) (tg4 x0 x1 x2 x3 x4)) (View.ld x5 Cert.KernelIdeal.Hand.r0_5_18) (View.ld x5 Cert.KernelIdeal.Hand.r0_5_23) (View.ld x5 Cert.KernelIdeal.Hand.r0_5_28) (View.ld x5 Cert.KernelIdeal.Hand.r0_5_33) (View.ld x5 Cert.KernelIdeal.Hand.r0_5_38) (View.ld x5 Cert.KernelIdeal.Hand.r0_5_43)
/-- The accumulator after payload 44. -/
def a44 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay44 (F := Ideal) (pp3 x0 x1 x2 x3 x4) (a42 x0 x1 x2 x3 x4 x5) (k0_pay43 (pp3 x0 x1 x2 x3 x4)) (View.ld x5 Cert.KernelIdeal.Hand.r0_5_48) (View.ld x5 Cert.KernelIdeal.Hand.r0_5_53) (View.ld x5 Cert.KernelIdeal.Hand.r0_5_58) (View.ld x5 Cert.KernelIdeal.Hand.r0_5_63) (View.ld x5 Cert.KernelIdeal.Hand.r0_5_68) (View.ld x5 Cert.KernelIdeal.Hand.r0_5_73)
/-- The accumulator after payload 46. -/
def a46 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay46 (F := Ideal) (pp3 x0 x1 x2 x3 x4) (a44 x0 x1 x2 x3 x4 x5) (k0_pay45 (pp3 x0 x1 x2 x3 x4)) (View.ld x5 Cert.KernelIdeal.Hand.r0_5_78) (View.ld x5 Cert.KernelIdeal.Hand.r0_5_83) (View.ld x5 Cert.KernelIdeal.Hand.r0_5_88) (View.ld x5 Cert.KernelIdeal.Hand.r0_5_93) (View.ld x5 Cert.KernelIdeal.Hand.r0_5_98)
/-- The accumulator after payload 49. -/
def a49 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay49 (F := Ideal) (a46 x0 x1 x2 x3 x4 x5) (pp4 x0 x1 x2 x3 x4) (k0_pay48 (tg4 x0 x1 x2 x3 x4) (tg5 x0 x1 x2 x3 x4)) (View.ld x5 Cert.KernelIdeal.Hand.r0_5_4) (View.ld x5 Cert.KernelIdeal.Hand.r0_5_9) (View.ld x5 Cert.KernelIdeal.Hand.r0_5_14) (View.ld x5 Cert.KernelIdeal.Hand.r0_5_19) (View.ld x5 Cert.KernelIdeal.Hand.r0_5_24) (View.ld x5 Cert.KernelIdeal.Hand.r0_5_29)
/-- The accumulator after payload 51. -/
def a51 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay51 (F := Ideal) (pp4 x0 x1 x2 x3 x4) (a49 x0 x1 x2 x3 x4 x5) (k0_pay50 (pp4 x0 x1 x2 x3 x4)) (View.ld x5 Cert.KernelIdeal.Hand.r0_5_34) (View.ld x5 Cert.KernelIdeal.Hand.r0_5_39) (View.ld x5 Cert.KernelIdeal.Hand.r0_5_44) (View.ld x5 Cert.KernelIdeal.Hand.r0_5_49) (View.ld x5 Cert.KernelIdeal.Hand.r0_5_54) (View.ld x5 Cert.KernelIdeal.Hand.r0_5_59)
/-- The accumulator after payload 53. -/
def a53 (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) : FVec Ideal S128x128 .f32 :=
  k0_pay53 (F := Ideal) (pp4 x0 x1 x2 x3 x4) (a51 x0 x1 x2 x3 x4 x5) (k0_pay52 (pp4 x0 x1 x2 x3 x4)) (View.ld x5 Cert.KernelIdeal.Hand.r0_5_64) (View.ld x5 Cert.KernelIdeal.Hand.r0_5_69) (View.ld x5 Cert.KernelIdeal.Hand.r0_5_74) (View.ld x5 Cert.KernelIdeal.Hand.r0_5_79) (View.ld x5 Cert.KernelIdeal.Hand.r0_5_84) (View.ld x5 Cert.KernelIdeal.Hand.r0_5_89)

set_option maxRecDepth 65536 in
/-- The stored value over the named stages (each loaded block still under its whole-buffer load). -/
theorem out0_9_eq (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (x6 : Vec Ideal S1x128 .f32) (x7 : Vec Ideal S128x10 .f32) (x8 : Vec Ideal S1x10 .f32) :
    Cert.KernelIdeal.Hand.out0_9 (F := Ideal) x0 x1 x2 x3 x4 x5 x6 x7 x8
      = View.canon [⟨Cert.KernelIdeal.Hand.r0_9,
          k0_pay1 (F := Ideal) (k0_pay55 (pp4 (View.ld x0 Cert.KernelIdeal.Hand.r0_0) (View.ld x1 Cert.KernelIdeal.Hand.r0_1) (View.ld x2 Cert.KernelIdeal.Hand.r0_2) (View.ld x3 Cert.KernelIdeal.Hand.r0_3) (View.ld x4 Cert.KernelIdeal.Hand.r0_4)) (a53 (View.ld x0 Cert.KernelIdeal.Hand.r0_0) (View.ld x1 Cert.KernelIdeal.Hand.r0_1) (View.ld x2 Cert.KernelIdeal.Hand.r0_2) (View.ld x3 Cert.KernelIdeal.Hand.r0_3) (View.ld x4 Cert.KernelIdeal.Hand.r0_4) x5) (k0_pay54 (pp4 (View.ld x0 Cert.KernelIdeal.Hand.r0_0) (View.ld x1 Cert.KernelIdeal.Hand.r0_1) (View.ld x2 Cert.KernelIdeal.Hand.r0_2) (View.ld x3 Cert.KernelIdeal.Hand.r0_3) (View.ld x4 Cert.KernelIdeal.Hand.r0_4)))
            (View.ld x5 Cert.KernelIdeal.Hand.r0_5_94) (View.ld x5 Cert.KernelIdeal.Hand.r0_5_99) (View.ld x6 Cert.KernelIdeal.Hand.r0_6) (View.ld x7 Cert.KernelIdeal.Hand.r0_7) (View.ld x8 Cert.KernelIdeal.Hand.r0_8))⟩] := rfl

end Cert.KernelIdeal.Chain

end
-- ==== Proof.KHead.lean ====
/-
  The head of the idealized kernel on a block of 128 samples: one step of the first dense layer's accumulation, and
  the tail — the last two steps, the bias, the rectification, the second dense layer and the row softmax — read at an
  entry.

  The first dense layer runs over 100 slabs of 256 pooled features. A step takes row `h` of a pooled array
  `P[h, p, r]` (20 rows, 128 samples, 256 lanes) as the 128 × 256 matrix `(p, r) ↦ P[h, p, r]`, multiplies it by the
  slab's 256 × 128 weights `W[0, r, f]` and adds the product to the accumulator: at `(p, f)` the step holds
  `acc[p, f] + ∑ r, P[h, p, r] · W[0, r, f]`.
-/
import proofs.«172427_g2000706451865267_pallasbulk_150_11_alg».proof.Proof.Gen.KernelIdeal.Skeleton
import proofs.«172427_g2000706451865267_pallasbulk_150_11_alg».proof.Proof.NetSpec
import proofs.«172427_g2000706451865267_pallasbulk_150_11_alg».proof.Proof.LibPlainMatmul
import proofs.«172427_g2000706451865267_pallasbulk_150_11_alg».proof.Proof.LibSoftmaxRow
import Idealize.ShloMosaic.Lib.ValueIdx
import Idealize.ShloMosaic.Lib.Pipeline.Value
import Idealize.ShloMosaic.PureOps.Ideal.Laws

noncomputable section

open scoped BigOperators

namespace Cert.KernelIdeal.Head

open Idealize.ShloMosaic Idealize.ShloMosaic.ValueIdx Cert.KernelIdeal Cert.KernelIdeal.Gen

/-! ## One accumulation step -/

/-- Row `o 0` of a pooled array as a 128 × 256 matrix. -/
def slab (o : Fin 3 → Nat) (P : FVec Ideal S20x128x256 .bf16) (hs : S20x128x256.Slices o S1x128x256) : FVec Ideal S128x256 .bf16 :=
  shapeCast S128x256 (extractStridedSlice S1x128x256 o P hs) shapeCasts_S1x128x256_S128x256

/-- The slab of row `h` at `(p, r)`: the pooled array at `(h, p, r)`. -/
theorem slab_apply (o : Fin 3 → Nat) (P : FVec Ideal S20x128x256 .bf16) (hs : S20x128x256.Slices o S1x128x256)
    (h : Fin 20) (h0 : o 0 = h.val) (h1 : o 1 = 0) (h2 : o 2 = 0) (p : Fin 128) (r : Fin 256) :
    slab o P hs (ix2 p r) = P (ix3 h p r) := by
  unfold slab
  rw [shapeCast_apply _ shapeCasts_S1x128x256_S128x256 (ix2 p r) (ix3 (0 : Fin 1) p r)
    (by rw [Shape.rowMajor_val_three, Shape.rowMajor_val_two]; show (0 * 128 + p.val) * 256 + r.val = p.val * 256 + r.val; omega)]
  exact extractStridedSlice_apply o P hs (ix3 (0 : Fin 1) p r) (ix3 h p r) fun a => by
    match a with
    | ⟨0, _⟩ => show h.val = o 0 + 0; omega
    | ⟨1, _⟩ => show p.val = o 1 + p.val; omega
    | ⟨2, _⟩ => show r.val = o 2 + r.val; omega

/-- A weight slab `[1, 256, 128]` as the 256 × 128 matrix, at `(r, f)`: the slab at `(0, r, f)`. -/
theorem weights_apply (W : Vec Ideal S1x256x128 .bf16) (r : Fin 256) (f : Fin 128) :
    shapeCast S256x128 W shapeCasts_S1x256x128_S256x128 (ix2 r f) = W (ix3 (0 : Fin 1) r f) :=
  shapeCast_apply W shapeCasts_S1x256x128_S256x128 (ix2 r f) (ix3 (0 : Fin 1) r f)
    (by rw [Shape.rowMajor_val_three, Shape.rowMajor_val_two]; show (0 * 256 + r.val) * 128 + f.val = r.val * 128 + f.val; omega)

/-- One step on a slab already cut out: the accumulator plus the slab times the weights. -/
def stepCut (acc : FVec Ideal S128x128 .f32) (A : FVec Ideal S128x256 .bf16) (W : Vec Ideal S1x256x128 .bf16) : FVec Ideal S128x128 .f32 :=
  addf acc (matmul (φ₁ := .bf16) (φ₂ := .bf16) dot_S128x256_S256x128_S128x128_1_0_0_1_n_n none A
    (shapeCast S256x128 W shapeCasts_S1x256x128_S256x128) (constant S128x128 .f32 0x00000000#32))

/-- One step on a cut slab at `(p, f)`. -/
theorem stepCut_apply (acc : FVec Ideal S128x128 .f32) (A : FVec Ideal S128x256 .bf16) (W : Vec Ideal S1x256x128 .bf16)
    (p : Fin 128) (f : Fin 128) :
    stepCut acc A W (ix2 p f) = acc (ix2 p f) + ∑ r : Fin 256, A (ix2 p r) * W (ix3 (0 : Fin 1) r f) := by
  show acc (ix2 p f) + matmul (F := Ideal) (φ₁ := .bf16) (φ₂ := .bf16) dot_S128x256_S256x128_S128x128_1_0_0_1_n_n none A
      (shapeCast S256x128 W shapeCasts_S1x256x128_S256x128) (constant S128x128 .f32 0x00000000#32) (ix2 p f) = _
  refine congrArg (acc (ix2 p f) + ·) ?_
  refine (PlainMatmul.matmul_zero_apply (m := 128) (k := 256) (n := 128) (φ₁ := .bf16) (φ₂ := .bf16) none A
    (shapeCast S256x128 W shapeCasts_S1x256x128_S256x128) p f).trans ?_
  exact Finset.sum_congr rfl fun r _ => congrArg (A (ix2 p r) * ·) (weights_apply W r f)

/-- One step on row `o 0` of a pooled array. -/
def step (acc : FVec Ideal S128x128 .f32) (o : Fin 3 → Nat) (P : FVec Ideal S20x128x256 .bf16)
    (hs : S20x128x256.Slices o S1x128x256) (W : Vec Ideal S1x256x128 .bf16) : FVec Ideal S128x128 .f32 :=
  stepCut acc (slab o P hs) W

/-- **One accumulation step at `(p, f)`**: `acc[p, f] + ∑ r, P[h, p, r] · W[0, r, f]`. -/
theorem step_apply (acc : FVec Ideal S128x128 .f32) (o : Fin 3 → Nat) (P : FVec Ideal S20x128x256 .bf16)
    (hs : S20x128x256.Slices o S1x128x256) (W : Vec Ideal S1x256x128 .bf16)
    (h : Fin 20) (h0 : o 0 = h.val) (h1 : o 1 = 0) (h2 : o 2 = 0) (p : Fin 128) (f : Fin 128) :
    step acc o P hs W (ix2 p f) = acc (ix2 p f) + ∑ r : Fin 256, P (ix3 h p r) * W (ix3 (0 : Fin 1) r f) := by
  unfold step
  rw [stepCut_apply]
  exact congrArg (acc (ix2 p f) + ·)
    (Finset.sum_congr rfl fun r _ => congrArg (· * W (ix3 (0 : Fin 1) r f)) (slab_apply o P hs h h0 h1 h2 p r))

/-! ## The tail -/

/-- The last payload divides the shifted exponentials by their row sums. -/
theorem pay1_eq (e : FVec Ideal S128x10 .f32) :
    k0_pay1 (F := Ideal) e
      = Cert.SoftmaxRow.normalise e reduces_S128x10_S128 (.inl rfl) rfl shapeCasts_S128_S128x1 broadcasts_S128x1_S128x10 := rfl

/-- The payload before it: the last two accumulation steps, then the shifted exponentials of the dense layer over the
    rectified, biased accumulator. -/
theorem pay55_eq (v706 : FVec Ideal S20x128x256 .bf16) (v814 : FVec Ideal S128x128 .f32) (v816 : FVec Ideal S128x256 .bf16)
    (v817 v823 : Vec Ideal S1x256x128 .bf16) (v827 : Vec Ideal S1x128 .f32) (v832 : Vec Ideal S128x10 .f32) (v834 : Vec Ideal S1x10 .f32) :
    k0_pay55 (F := Ideal) v706 v814 v816 v817 v823 v827 v832 v834
      = Cert.SoftmaxRow.shiftExp
          (Cert.SoftmaxRow.denseBias (φ₁ := .f32) (φ₂ := .f32)
            (Cert.SoftmaxRow.rectBias
              (step (stepCut v814 v816 v817) ![19, 0, 0] v706 slices_S20x128x256_o19_0_0_S1x128x256 v823)
              (v827 : FVec Ideal S1x128 .f32) broadcasts_S1x128_S128x128)
            (v832 : FVec Ideal S128x10 .f32) (v834 : FVec Ideal S1x10 .f32) broadcasts_S1x10_S128x10)
          reduces_S128x10_S128 (.inl rfl) rfl shapeCasts_S128_S128x1 broadcasts_S128x1_S128x10 := rfl

/-- **The stored block at `(p, k)`**: the softmax, at class `k`, of the logits of the rectified hidden row of sample `p`,
    the hidden row being the accumulator plus the last two slab products plus the bias. -/
theorem out_apply (v706 : FVec Ideal S20x128x256 .bf16) (v814 : FVec Ideal S128x128 .f32) (v816 : FVec Ideal S128x256 .bf16)
    (v817 v823 : Vec Ideal S1x256x128 .bf16) (v827 : Vec Ideal S1x128 .f32) (v832 : Vec Ideal S128x10 .f32) (v834 : Vec Ideal S1x10 .f32)
    (p : Fin 128) (k : Fin 10) :
    k0_pay1 (F := Ideal) (k0_pay55 v706 v814 v816 v817 v823 v827 v832 v834) (ix2 p k)
      = Cert.NetSpec.softmaxRow
          (Cert.NetSpec.logitsOf
            (fun f => max ((v814 (ix2 p f) + ∑ r : Fin 256, v816 (ix2 p r) * v817 (ix3 (0 : Fin 1) r f)
                + ∑ r : Fin 256, v706 (ix3 (19 : Fin 20) p r) * v823 (ix3 (0 : Fin 1) r f)) + v827 (ix2 (0 : Fin 1) f)) 0)
            (fun f k' => v832 (ix2 f k')) (fun k' => v834 (ix2 (0 : Fin 1) k'))) k := by
  rw [pay1_eq, pay55_eq]
  refine (Cert.SoftmaxRow.head_apply (m := 128) (h := 128) (n := 10)
    (step (stepCut v814 v816 v817) ![19, 0, 0] v706 slices_S20x128x256_o19_0_0_S1x128x256 v823)
    (v827 : FVec Ideal S1x128 .f32) (v832 : FVec Ideal S128x10 .f32) (v834 : FVec Ideal S1x10 .f32)
    broadcasts_S1x128_S128x128 broadcasts_S1x10_S128x10 reduces_S128x10_S128 (.inl rfl) rfl rfl
    shapeCasts_S128_S128x1 broadcasts_S128x1_S128x10 p k).trans ?_
  have hx : ∀ f : Fin 128,
      step (stepCut v814 v816 v817) ![19, 0, 0] v706 slices_S20x128x256_o19_0_0_S1x128x256 v823 (ix2 p f)
        = v814 (ix2 p f) + ∑ r : Fin 256, v816 (ix2 p r) * v817 (ix3 (0 : Fin 1) r f)
          + ∑ r : Fin 256, v706 (ix3 (19 : Fin 20) p r) * v823 (ix3 (0 : Fin 1) r f) := fun f => by
    rw [step_apply _ _ _ _ _ (19 : Fin 20) rfl rfl rfl, stepCut_apply]
  simp only [hx]
  rfl

end Cert.KernelIdeal.Head

end
-- ==== Proof.KAccB.lean ====
/-
  The first dense layer's accumulation inside the kernel body, second half: the steps over the third, fourth and
  fifth lane-group pairs.

  The dense layer contracts the 25 600 pooled features in 100 slabs of 256: slab `5·h + g` is row `h` (of 20) of the
  pooled array of lane-group pair `g` (of 5), a 128 × 256 matrix (sample, lane), multiplied by a 256 × 128 weight slab
  and added to a running 128 × 128 accumulator. Each step therefore adds `∑ r < 256, P[h, p, r] · W[r, f]` to entry
  `(p, f)`. The payloads below hold five or six such steps each; the first step of each takes its row already cut out.
-/
import proofs.«172427_g2000706451865267_pallasbulk_150_11_alg».proof.Proof.Gen.KernelIdeal.Skeleton
import proofs.«172427_g2000706451865267_pallasbulk_150_11_alg».proof.Proof.KPool
import proofs.«172427_g2000706451865267_pallasbulk_150_11_alg».proof.Proof.KHead
import Idealize.ShloMosaic.Lib.ValueIdx
import Idealize.ShloMosaic.Lib.Pipeline.Value
import Idealize.ShloMosaic.PureOps.Ideal.Laws

noncomputable section

namespace Cert.KernelIdeal.AccB

open Idealize.ShloMosaic Idealize.ShloMosaic.ValueIdx Cert.KernelIdeal Cert.KernelIdeal.Gen

/-! ## One step, as the body spells it -/

/-- One accumulation step on row `h` of a pooled array, at `(p, f)`. -/
theorem step_apply (acc : FVec Ideal S128x128 .f32) (P : FVec Ideal S20x128x256 .bf16) (o : Fin 3 → Nat)
    (hs : S20x128x256.Slices o S1x128x256) (h : Fin 20) (ho : o = ![h.val, 0, 0]) (W : Vec Ideal S1x256x128 .bf16)
    (p : Fin 128) (f : Fin 128) :
    addf acc (matmul dot_S128x256_S256x128_S128x128_1_0_0_1_n_n none
        (shapeCast S128x256 (extractStridedSlice S1x128x256 o P hs) shapeCasts_S1x128x256_S128x256)
        (shapeCast S256x128 W shapeCasts_S1x256x128_S256x128 : FVec Ideal S256x128 .bf16)
        (constant S128x128 .f32 0x00000000#32)) (ix2 p f)
      = acc (ix2 p f) + ∑ r : Fin 256, P (ix3 h p r) * W (ix3 (0 : Fin 1) r f) := by
  subst ho
  exact Head.step_apply acc _ P hs W h rfl rfl rfl p f

/-- One accumulation step on a row already cut out, at `(p, f)`. -/
theorem step_slab_apply (acc : FVec Ideal S128x128 .f32) (S : FVec Ideal S128x256 .bf16) (W : Vec Ideal S1x256x128 .bf16)
    (p : Fin 128) (f : Fin 128) :
    addf acc (matmul dot_S128x256_S256x128_S128x128_1_0_0_1_n_n none S
        (shapeCast S256x128 W shapeCasts_S1x256x128_S256x128 : FVec Ideal S256x128 .bf16)
        (constant S128x128 .f32 0x00000000#32)) (ix2 p f)
      = acc (ix2 p f) + ∑ r : Fin 256, S (ix2 p r) * W (ix3 (0 : Fin 1) r f) :=
  Head.stepCut_apply acc S W p f

/-! ## The rows cut out ahead of their step -/

/-- The cut `k0_pay32` is row 0 of its pooled array as a 128 × 256 matrix. -/
theorem pay32_eq (v97 : FVec Ideal S20x128x256 .bf16) (v123 : FVec Ideal S20x128x256 .bf16) :
    k0_pay32 (F := Ideal) v97 v123 = Head.slab ![0, 0, 0] (Conv2.wpool v97 v123) slices_S20x128x256_o0_0_0_S1x128x256 := rfl

theorem pay32_apply (v97 : FVec Ideal S20x128x256 .bf16) (v123 : FVec Ideal S20x128x256 .bf16) (p : Fin 128) (r : Fin 256) :
    k0_pay32 (F := Ideal) v97 v123 (ix2 p r) = (Conv2.wpool v97 v123) (ix3 (0 : Fin 20) p r) :=
  Head.slab_apply ![0, 0, 0] (Conv2.wpool v97 v123) slices_S20x128x256_o0_0_0_S1x128x256 (0 : Fin 20) rfl rfl rfl p r

/-- The cut `k0_pay34` is row 6 of its pooled array as a 128 × 256 matrix. -/
theorem pay34_eq (v446 : FVec Ideal S20x128x256 .bf16) :
    k0_pay34 (F := Ideal) v446 = Head.slab ![6, 0, 0] v446 slices_S20x128x256_o6_0_0_S1x128x256 := rfl

theorem pay34_apply (v446 : FVec Ideal S20x128x256 .bf16) (p : Fin 128) (r : Fin 256) :
    k0_pay34 (F := Ideal) v446 (ix2 p r) = v446 (ix3 (6 : Fin 20) p r) :=
  Head.slab_apply ![6, 0, 0] v446 slices_S20x128x256_o6_0_0_S1x128x256 (6 : Fin 20) rfl rfl rfl p r

/-- The cut `k0_pay36` is row 12 of its pooled array as a 128 × 256 matrix. -/
theorem pay36_eq (v446 : FVec Ideal S20x128x256 .bf16) :
    k0_pay36 (F := Ideal) v446 = Head.slab ![12, 0, 0] v446 slices_S20x128x256_o12_0_0_S1x128x256 := rfl

theorem pay36_apply (v446 : FVec Ideal S20x128x256 .bf16) (p : Fin 128) (r : Fin 256) :
    k0_pay36 (F := Ideal) v446 (ix2 p r) = v446 (ix3 (12 : Fin 20) p r) :=
  Head.slab_apply ![12, 0, 0] v446 slices_S20x128x256_o12_0_0_S1x128x256 (12 : Fin 20) rfl rfl rfl p r

/-- The cut `k0_pay38` is row 18 of its pooled array as a 128 × 256 matrix. -/
theorem pay38_eq (v446 : FVec Ideal S20x128x256 .bf16) :
    k0_pay38 (F := Ideal) v446 = Head.slab ![18, 0, 0] v446 slices_S20x128x256_o18_0_0_S1x128x256 := rfl

theorem pay38_apply (v446 : FVec Ideal S20x128x256 .bf16) (p : Fin 128) (r : Fin 256) :
    k0_pay38 (F := Ideal) v446 (ix2 p r) = v446 (ix3 (18 : Fin 20) p r) :=
  Head.slab_apply ![18, 0, 0] v446 slices_S20x128x256_o18_0_0_S1x128x256 (18 : Fin 20) rfl rfl rfl p r

/-- The cut `k0_pay41` is row 3 of its pooled array as a 128 × 256 matrix. -/
theorem pay41_eq (v123 : FVec Ideal S20x128x256 .bf16) (v149 : FVec Ideal S20x128x256 .bf16) :
    k0_pay41 (F := Ideal) v123 v149 = Head.slab ![3, 0, 0] (Conv2.wpool v123 v149) slices_S20x128x256_o3_0_0_S1x128x256 := rfl

theorem pay41_apply (v123 : FVec Ideal S20x128x256 .bf16) (v149 : FVec Ideal S20x128x256 .bf16) (p : Fin 128) (r : Fin 256) :
    k0_pay41 (F := Ideal) v123 v149 (ix2 p r) = (Conv2.wpool v123 v149) (ix3 (3 : Fin 20) p r) :=
  Head.slab_apply ![3, 0, 0] (Conv2.wpool v123 v149) slices_S20x128x256_o3_0_0_S1x128x256 (3 : Fin 20) rfl rfl rfl p r

/-- The cut `k0_pay43` is row 9 of its pooled array as a 128 × 256 matrix. -/
theorem pay43_eq (v576 : FVec Ideal S20x128x256 .bf16) :
    k0_pay43 (F := Ideal) v576 = Head.slab ![9, 0, 0] v576 slices_S20x128x256_o9_0_0_S1x128x256 := rfl

theorem pay43_apply (v576 : FVec Ideal S20x128x256 .bf16) (p : Fin 128) (r : Fin 256) :
    k0_pay43 (F := Ideal) v576 (ix2 p r) = v576 (ix3 (9 : Fin 20) p r) :=
  Head.slab_apply ![9, 0, 0] v576 slices_S20x128x256_o9_0_0_S1x128x256 (9 : Fin 20) rfl rfl rfl p r

/-- The cut `k0_pay45` is row 15 of its pooled array as a 128 × 256 matrix. -/
theorem pay45_eq (v576 : FVec Ideal S20x128x256 .bf16) :
    k0_pay45 (F := Ideal) v576 = Head.slab ![15, 0, 0] v576 slices_S20x128x256_o15_0_0_S1x128x256 := rfl

theorem pay45_apply (v576 : FVec Ideal S20x128x256 .bf16) (p : Fin 128) (r : Fin 256) :
    k0_pay45 (F := Ideal) v576 (ix2 p r) = v576 (ix3 (15 : Fin 20) p r) :=
  Head.slab_apply ![15, 0, 0] v576 slices_S20x128x256_o15_0_0_S1x128x256 (15 : Fin 20) rfl rfl rfl p r

/-- The cut `k0_pay48` is row 0 of its pooled array as a 128 × 256 matrix. -/
theorem pay48_eq (v149 : FVec Ideal S20x128x256 .bf16) (v175 : FVec Ideal S20x128x256 .bf16) :
    k0_pay48 (F := Ideal) v149 v175 = Head.slab ![0, 0, 0] (Conv2.wpool v149 v175) slices_S20x128x256_o0_0_0_S1x128x256 := rfl

theorem pay48_apply (v149 : FVec Ideal S20x128x256 .bf16) (v175 : FVec Ideal S20x128x256 .bf16) (p : Fin 128) (r : Fin 256) :
    k0_pay48 (F := Ideal) v149 v175 (ix2 p r) = (Conv2.wpool v149 v175) (ix3 (0 : Fin 20) p r) :=
  Head.slab_apply ![0, 0, 0] (Conv2.wpool v149 v175) slices_S20x128x256_o0_0_0_S1x128x256 (0 : Fin 20) rfl rfl rfl p r

/-- The cut `k0_pay50` is row 6 of its pooled array as a 128 × 256 matrix. -/
theorem pay50_eq (v706 : FVec Ideal S20x128x256 .bf16) :
    k0_pay50 (F := Ideal) v706 = Head.slab ![6, 0, 0] v706 slices_S20x128x256_o6_0_0_S1x128x256 := rfl

theorem pay50_apply (v706 : FVec Ideal S20x128x256 .bf16) (p : Fin 128) (r : Fin 256) :
    k0_pay50 (F := Ideal) v706 (ix2 p r) = v706 (ix3 (6 : Fin 20) p r) :=
  Head.slab_apply ![6, 0, 0] v706 slices_S20x128x256_o6_0_0_S1x128x256 (6 : Fin 20) rfl rfl rfl p r

/-- The cut `k0_pay52` is row 12 of its pooled array as a 128 × 256 matrix. -/
theorem pay52_eq (v706 : FVec Ideal S20x128x256 .bf16) :
    k0_pay52 (F := Ideal) v706 = Head.slab ![12, 0, 0] v706 slices_S20x128x256_o12_0_0_S1x128x256 := rfl

theorem pay52_apply (v706 : FVec Ideal S20x128x256 .bf16) (p : Fin 128) (r : Fin 256) :
    k0_pay52 (F := Ideal) v706 (ix2 p r) = v706 (ix3 (12 : Fin 20) p r) :=
  Head.slab_apply ![12, 0, 0] v706 slices_S20x128x256_o12_0_0_S1x128x256 (12 : Fin 20) rfl rfl rfl p r

/-- The cut `k0_pay54` is row 18 of its pooled array as a 128 × 256 matrix. -/
theorem pay54_eq (v706 : FVec Ideal S20x128x256 .bf16) :
    k0_pay54 (F := Ideal) v706 = Head.slab ![18, 0, 0] v706 slices_S20x128x256_o18_0_0_S1x128x256 := rfl

theorem pay54_apply (v706 : FVec Ideal S20x128x256 .bf16) (p : Fin 128) (r : Fin 256) :
    k0_pay54 (F := Ideal) v706 (ix2 p r) = v706 (ix3 (18 : Fin 20) p r) :=
  Head.slab_apply ![18, 0, 0] v706 slices_S20x128x256_o18_0_0_S1x128x256 (18 : Fin 20) rfl rfl rfl p r

/-! ## The accumulation payloads -/

/-- The accumulation payload `k0_pay33` as its composed steps. -/
theorem pay33_eq (v436 : FVec Ideal S128x128 .f32) (v446 : FVec Ideal S20x128x256 .bf16) (v448 : FVec Ideal S128x256 .bf16) (v449 : Vec Ideal S1x256x128 .bf16) (v455 : Vec Ideal S1x256x128 .bf16) (v461 : Vec Ideal S1x256x128 .bf16) (v467 : Vec Ideal S1x256x128 .bf16) (v473 : Vec Ideal S1x256x128 .bf16) (v479 : Vec Ideal S1x256x128 .bf16) :
    k0_pay33 (F := Ideal) v436 v446 v448 v449 v455 v461 v467 v473 v479
      = Head.step (Head.step (Head.step (Head.step (Head.step (Head.stepCut v436 v448 v449)
      ![1, 0, 0] v446 slices_S20x128x256_o1_0_0_S1x128x256 v455)
      ![2, 0, 0] v446 slices_S20x128x256_o2_0_0_S1x128x256 v461)
      ![3, 0, 0] v446 slices_S20x128x256_o3_0_0_S1x128x256 v467)
      ![4, 0, 0] v446 slices_S20x128x256_o4_0_0_S1x128x256 v473)
      ![5, 0, 0] v446 slices_S20x128x256_o5_0_0_S1x128x256 v479 := rfl

/-- `k0_pay33` at `(p, f)`: the incoming accumulator plus one product per step, in order (the row already cut, row 1, row 2, row 3, row 4, row 5). -/
theorem pay33_apply (v436 : FVec Ideal S128x128 .f32) (v446 : FVec Ideal S20x128x256 .bf16) (v448 : FVec Ideal S128x256 .bf16) (v449 : Vec Ideal S1x256x128 .bf16) (v455 : Vec Ideal S1x256x128 .bf16) (v461 : Vec Ideal S1x256x128 .bf16) (v467 : Vec Ideal S1x256x128 .bf16) (v473 : Vec Ideal S1x256x128 .bf16) (v479 : Vec Ideal S1x256x128 .bf16) (p f : Fin 128) :
    k0_pay33 (F := Ideal) v436 v446 v448 v449 v455 v461 v467 v473 v479 (ix2 p f)
      = v436 (ix2 p f)
        + ∑ r : Fin 256, v448 (ix2 p r) * v449 (ix3 (0 : Fin 1) r f)
        + ∑ r : Fin 256, v446 (ix3 (1 : Fin 20) p r) * v455 (ix3 (0 : Fin 1) r f)
        + ∑ r : Fin 256, v446 (ix3 (2 : Fin 20) p r) * v461 (ix3 (0 : Fin 1) r f)
        + ∑ r : Fin 256, v446 (ix3 (3 : Fin 20) p r) * v467 (ix3 (0 : Fin 1) r f)
        + ∑ r : Fin 256, v446 (ix3 (4 : Fin 20) p r) * v473 (ix3 (0 : Fin 1) r f)
        + ∑ r : Fin 256, v446 (ix3 (5 : Fin 20) p r) * v479 (ix3 (0 : Fin 1) r f) := by
  rw [pay33_eq, Head.step_apply _ ![5, 0, 0] _ _ _ (5 : Fin 20) rfl rfl rfl,
    Head.step_apply _ ![4, 0, 0] _ _ _ (4 : Fin 20) rfl rfl rfl,
    Head.step_apply _ ![3, 0, 0] _ _ _ (3 : Fin 20) rfl rfl rfl,
    Head.step_apply _ ![2, 0, 0] _ _ _ (2 : Fin 20) rfl rfl rfl,
    Head.step_apply _ ![1, 0, 0] _ _ _ (1 : Fin 20) rfl rfl rfl,
    Head.stepCut_apply]

/-- The accumulation payload `k0_pay35` as its composed steps. -/
theorem pay35_eq (v446 : FVec Ideal S20x128x256 .bf16) (v482 : FVec Ideal S128x128 .f32) (v484 : FVec Ideal S128x256 .bf16) (v485 : Vec Ideal S1x256x128 .bf16) (v491 : Vec Ideal S1x256x128 .bf16) (v497 : Vec Ideal S1x256x128 .bf16) (v503 : Vec Ideal S1x256x128 .bf16) (v509 : Vec Ideal S1x256x128 .bf16) (v515 : Vec Ideal S1x256x128 .bf16) :
    k0_pay35 (F := Ideal) v446 v482 v484 v485 v491 v497 v503 v509 v515
      = Head.step (Head.step (Head.step (Head.step (Head.step (Head.stepCut v482 v484 v485)
      ![7, 0, 0] v446 slices_S20x128x256_o7_0_0_S1x128x256 v491)
      ![8, 0, 0] v446 slices_S20x128x256_o8_0_0_S1x128x256 v497)
      ![9, 0, 0] v446 slices_S20x128x256_o9_0_0_S1x128x256 v503)
      ![10, 0, 0] v446 slices_S20x128x256_o10_0_0_S1x128x256 v509)
      ![11, 0, 0] v446 slices_S20x128x256_o11_0_0_S1x128x256 v515 := rfl

/-- `k0_pay35` at `(p, f)`: the incoming accumulator plus one product per step, in order (the row already cut, row 7, row 8, row 9, row 10, row 11). -/
theorem pay35_apply (v446 : FVec Ideal S20x128x256 .bf16) (v482 : FVec Ideal S128x128 .f32) (v484 : FVec Ideal S128x256 .bf16) (v485 : Vec Ideal S1x256x128 .bf16) (v491 : Vec Ideal S1x256x128 .bf16) (v497 : Vec Ideal S1x256x128 .bf16) (v503 : Vec Ideal S1x256x128 .bf16) (v509 : Vec Ideal S1x256x128 .bf16) (v515 : Vec Ideal S1x256x128 .bf16) (p f : Fin 128) :
    k0_pay35 (F := Ideal) v446 v482 v484 v485 v491 v497 v503 v509 v515 (ix2 p f)
      = v482 (ix2 p f)
        + ∑ r : Fin 256, v484 (ix2 p r) * v485 (ix3 (0 : Fin 1) r f)
        + ∑ r : Fin 256, v446 (ix3 (7 : Fin 20) p r) * v491 (ix3 (0 : Fin 1) r f)
        + ∑ r : Fin 256, v446 (ix3 (8 : Fin 20) p r) * v497 (ix3 (0 : Fin 1) r f)
        + ∑ r : Fin 256, v446 (ix3 (9 : Fin 20) p r) * v503 (ix3 (0 : Fin 1) r f)
        + ∑ r : Fin 256, v446 (ix3 (10 : Fin 20) p r) * v509 (ix3 (0 : Fin 1) r f)
        + ∑ r : Fin 256, v446 (ix3 (11 : Fin 20) p r) * v515 (ix3 (0 : Fin 1) r f) := by
  rw [pay35_eq, Head.step_apply _ ![11, 0, 0] _ _ _ (11 : Fin 20) rfl rfl rfl,
    Head.step_apply _ ![10, 0, 0] _ _ _ (10 : Fin 20) rfl rfl rfl,
    Head.step_apply _ ![9, 0, 0] _ _ _ (9 : Fin 20) rfl rfl rfl,
    Head.step_apply _ ![8, 0, 0] _ _ _ (8 : Fin 20) rfl rfl rfl,
    Head.step_apply _ ![7, 0, 0] _ _ _ (7 : Fin 20) rfl rfl rfl,
    Head.stepCut_apply]

/-- The accumulation payload `k0_pay37` as its composed steps. -/
theorem pay37_eq (v446 : FVec Ideal S20x128x256 .bf16) (v518 : FVec Ideal S128x128 .f32) (v520 : FVec Ideal S128x256 .bf16) (v521 : Vec Ideal S1x256x128 .bf16) (v527 : Vec Ideal S1x256x128 .bf16) (v533 : Vec Ideal S1x256x128 .bf16) (v539 : Vec Ideal S1x256x128 .bf16) (v545 : Vec Ideal S1x256x128 .bf16) (v551 : Vec Ideal S1x256x128 .bf16) :
    k0_pay37 (F := Ideal) v446 v518 v520 v521 v527 v533 v539 v545 v551
      = Head.step (Head.step (Head.step (Head.step (Head.step (Head.stepCut v518 v520 v521)
      ![13, 0, 0] v446 slices_S20x128x256_o13_0_0_S1x128x256 v527)
      ![14, 0, 0] v446 slices_S20x128x256_o14_0_0_S1x128x256 v533)
      ![15, 0, 0] v446 slices_S20x128x256_o15_0_0_S1x128x256 v539)
      ![16, 0, 0] v446 slices_S20x128x256_o16_0_0_S1x128x256 v545)
      ![17, 0, 0] v446 slices_S20x128x256_o17_0_0_S1x128x256 v551 := rfl

/-- `k0_pay37` at `(p, f)`: the incoming accumulator plus one product per step, in order (the row already cut, row 13, row 14, row 15, row 16, row 17). -/
theorem pay37_apply (v446 : FVec Ideal S20x128x256 .bf16) (v518 : FVec Ideal S128x128 .f32) (v520 : FVec Ideal S128x256 .bf16) (v521 : Vec Ideal S1x256x128 .bf16) (v527 : Vec Ideal S1x256x128 .bf16) (v533 : Vec Ideal S1x256x128 .bf16) (v539 : Vec Ideal S1x256x128 .bf16) (v545 : Vec Ideal S1x256x128 .bf16) (v551 : Vec Ideal S1x256x128 .bf16) (p f : Fin 128) :
    k0_pay37 (F := Ideal) v446 v518 v520 v521 v527 v533 v539 v545 v551 (ix2 p f)
      = v518 (ix2 p f)
        + ∑ r : Fin 256, v520 (ix2 p r) * v521 (ix3 (0 : Fin 1) r f)
        + ∑ r : Fin 256, v446 (ix3 (13 : Fin 20) p r) * v527 (ix3 (0 : Fin 1) r f)
        + ∑ r : Fin 256, v446 (ix3 (14 : Fin 20) p r) * v533 (ix3 (0 : Fin 1) r f)
        + ∑ r : Fin 256, v446 (ix3 (15 : Fin 20) p r) * v539 (ix3 (0 : Fin 1) r f)
        + ∑ r : Fin 256, v446 (ix3 (16 : Fin 20) p r) * v545 (ix3 (0 : Fin 1) r f)
        + ∑ r : Fin 256, v446 (ix3 (17 : Fin 20) p r) * v551 (ix3 (0 : Fin 1) r f) := by
  rw [pay37_eq, Head.step_apply _ ![17, 0, 0] _ _ _ (17 : Fin 20) rfl rfl rfl,
    Head.step_apply _ ![16, 0, 0] _ _ _ (16 : Fin 20) rfl rfl rfl,
    Head.step_apply _ ![15, 0, 0] _ _ _ (15 : Fin 20) rfl rfl rfl,
    Head.step_apply _ ![14, 0, 0] _ _ _ (14 : Fin 20) rfl rfl rfl,
    Head.step_apply _ ![13, 0, 0] _ _ _ (13 : Fin 20) rfl rfl rfl,
    Head.stepCut_apply]

/-- The accumulation payload `k0_pay40` as its composed steps. -/
theorem pay40_eq (v123 : FVec Ideal S20x128x256 .bf16) (v149 : FVec Ideal S20x128x256 .bf16) (v446 : FVec Ideal S20x128x256 .bf16) (v554 : FVec Ideal S128x128 .f32) (v556 : FVec Ideal S128x256 .bf16) (v557 : Vec Ideal S1x256x128 .bf16) (v563 : Vec Ideal S1x256x128 .bf16) (v579 : Vec Ideal S1x256x128 .bf16) (v585 : Vec Ideal S1x256x128 .bf16) (v591 : Vec Ideal S1x256x128 .bf16) :
    k0_pay40 (F := Ideal) v123 v149 v446 v554 v556 v557 v563 v579 v585 v591
      = Head.step (Head.step (Head.step (Head.step (Head.stepCut v554 v556 v557)
      ![19, 0, 0] v446 slices_S20x128x256_o19_0_0_S1x128x256 v563)
      ![0, 0, 0] (Conv2.wpool v123 v149) slices_S20x128x256_o0_0_0_S1x128x256 v579)
      ![1, 0, 0] (Conv2.wpool v123 v149) slices_S20x128x256_o1_0_0_S1x128x256 v585)
      ![2, 0, 0] (Conv2.wpool v123 v149) slices_S20x128x256_o2_0_0_S1x128x256 v591 := rfl

/-- `k0_pay40` at `(p, f)`: the incoming accumulator plus one product per step, in order (the row already cut, row 19, row 0, row 1, row 2). -/
theorem pay40_apply (v123 : FVec Ideal S20x128x256 .bf16) (v149 : FVec Ideal S20x128x256 .bf16) (v446 : FVec Ideal S20x128x256 .bf16) (v554 : FVec Ideal S128x128 .f32) (v556 : FVec Ideal S128x256 .bf16) (v557 : Vec Ideal S1x256x128 .bf16) (v563 : Vec Ideal S1x256x128 .bf16) (v579 : Vec Ideal S1x256x128 .bf16) (v585 : Vec Ideal S1x256x128 .bf16) (v591 : Vec Ideal S1x256x128 .bf16) (p f : Fin 128) :
    k0_pay40 (F := Ideal) v123 v149 v446 v554 v556 v557 v563 v579 v585 v591 (ix2 p f)
      = v554 (ix2 p f)
        + ∑ r : Fin 256, v556 (ix2 p r) * v557 (ix3 (0 : Fin 1) r f)
        + ∑ r : Fin 256, v446 (ix3 (19 : Fin 20) p r) * v563 (ix3 (0 : Fin 1) r f)
        + ∑ r : Fin 256, (Conv2.wpool v123 v149) (ix3 (0 : Fin 20) p r) * v579 (ix3 (0 : Fin 1) r f)
        + ∑ r : Fin 256, (Conv2.wpool v123 v149) (ix3 (1 : Fin 20) p r) * v585 (ix3 (0 : Fin 1) r f)
        + ∑ r : Fin 256, (Conv2.wpool v123 v149) (ix3 (2 : Fin 20) p r) * v591 (ix3 (0 : Fin 1) r f) := by
  rw [pay40_eq, Head.step_apply _ ![2, 0, 0] _ _ _ (2 : Fin 20) rfl rfl rfl,
    Head.step_apply _ ![1, 0, 0] _ _ _ (1 : Fin 20) rfl rfl rfl,
    Head.step_apply _ ![0, 0, 0] _ _ _ (0 : Fin 20) rfl rfl rfl,
    Head.step_apply _ ![19, 0, 0] _ _ _ (19 : Fin 20) rfl rfl rfl,
    Head.stepCut_apply]

/-- The accumulation payload `k0_pay42` as its composed steps. -/
theorem pay42_eq (v576 : FVec Ideal S20x128x256 .bf16) (v594 : FVec Ideal S128x128 .f32) (v596 : FVec Ideal S128x256 .bf16) (v597 : Vec Ideal S1x256x128 .bf16) (v603 : Vec Ideal S1x256x128 .bf16) (v609 : Vec Ideal S1x256x128 .bf16) (v615 : Vec Ideal S1x256x128 .bf16) (v621 : Vec Ideal S1x256x128 .bf16) (v627 : Vec Ideal S1x256x128 .bf16) :
    k0_pay42 (F := Ideal) v576 v594 v596 v597 v603 v609 v615 v621 v627
      = Head.step (Head.step (Head.step (Head.step (Head.step (Head.stepCut v594 v596 v597)
      ![4, 0, 0] v576 slices_S20x128x256_o4_0_0_S1x128x256 v603)
      ![5, 0, 0] v576 slices_S20x128x256_o5_0_0_S1x128x256 v609)
      ![6, 0, 0] v576 slices_S20x128x256_o6_0_0_S1x128x256 v615)
      ![7, 0, 0] v576 slices_S20x128x256_o7_0_0_S1x128x256 v621)
      ![8, 0, 0] v576 slices_S20x128x256_o8_0_0_S1x128x256 v627 := rfl

/-- `k0_pay42` at `(p, f)`: the incoming accumulator plus one product per step, in order (the row already cut, row 4, row 5, row 6, row 7, row 8). -/
theorem pay42_apply (v576 : FVec Ideal S20x128x256 .bf16) (v594 : FVec Ideal S128x128 .f32) (v596 : FVec Ideal S128x256 .bf16) (v597 : Vec Ideal S1x256x128 .bf16) (v603 : Vec Ideal S1x256x128 .bf16) (v609 : Vec Ideal S1x256x128 .bf16) (v615 : Vec Ideal S1x256x128 .bf16) (v621 : Vec Ideal S1x256x128 .bf16) (v627 : Vec Ideal S1x256x128 .bf16) (p f : Fin 128) :
    k0_pay42 (F := Ideal) v576 v594 v596 v597 v603 v609 v615 v621 v627 (ix2 p f)
      = v594 (ix2 p f)
        + ∑ r : Fin 256, v596 (ix2 p r) * v597 (ix3 (0 : Fin 1) r f)
        + ∑ r : Fin 256, v576 (ix3 (4 : Fin 20) p r) * v603 (ix3 (0 : Fin 1) r f)
        + ∑ r : Fin 256, v576 (ix3 (5 : Fin 20) p r) * v609 (ix3 (0 : Fin 1) r f)
        + ∑ r : Fin 256, v576 (ix3 (6 : Fin 20) p r) * v615 (ix3 (0 : Fin 1) r f)
        + ∑ r : Fin 256, v576 (ix3 (7 : Fin 20) p r) * v621 (ix3 (0 : Fin 1) r f)
        + ∑ r : Fin 256, v576 (ix3 (8 : Fin 20) p r) * v627 (ix3 (0 : Fin 1) r f) := by
  rw [pay42_eq, Head.step_apply _ ![8, 0, 0] _ _ _ (8 : Fin 20) rfl rfl rfl,
    Head.step_apply _ ![7, 0, 0] _ _ _ (7 : Fin 20) rfl rfl rfl,
    Head.step_apply _ ![6, 0, 0] _ _ _ (6 : Fin 20) rfl rfl rfl,
    Head.step_apply _ ![5, 0, 0] _ _ _ (5 : Fin 20) rfl rfl rfl,
    Head.step_apply _ ![4, 0, 0] _ _ _ (4 : Fin 20) rfl rfl rfl,
    Head.stepCut_apply]

/-- The accumulation payload `k0_pay44` as its composed steps. -/
theorem pay44_eq (v576 : FVec Ideal S20x128x256 .bf16) (v630 : FVec Ideal S128x128 .f32) (v632 : FVec Ideal S128x256 .bf16) (v633 : Vec Ideal S1x256x128 .bf16) (v639 : Vec Ideal S1x256x128 .bf16) (v645 : Vec Ideal S1x256x128 .bf16) (v651 : Vec Ideal S1x256x128 .bf16) (v657 : Vec Ideal S1x256x128 .bf16) (v663 : Vec Ideal S1x256x128 .bf16) :
    k0_pay44 (F := Ideal) v576 v630 v632 v633 v639 v645 v651 v657 v663
      = Head.step (Head.step (Head.step (Head.step (Head.step (Head.stepCut v630 v632 v633)
      ![10, 0, 0] v576 slices_S20x128x256_o10_0_0_S1x128x256 v639)
      ![11, 0, 0] v576 slices_S20x128x256_o11_0_0_S1x128x256 v645)
      ![12, 0, 0] v576 slices_S20x128x256_o12_0_0_S1x128x256 v651)
      ![13, 0, 0] v576 slices_S20x128x256_o13_0_0_S1x128x256 v657)
      ![14, 0, 0] v576 slices_S20x128x256_o14_0_0_S1x128x256 v663 := rfl

/-- `k0_pay44` at `(p, f)`: the incoming accumulator plus one product per step, in order (the row already cut, row 10, row 11, row 12, row 13, row 14). -/
theorem pay44_apply (v576 : FVec Ideal S20x128x256 .bf16) (v630 : FVec Ideal S128x128 .f32) (v632 : FVec Ideal S128x256 .bf16) (v633 : Vec Ideal S1x256x128 .bf16) (v639 : Vec Ideal S1x256x128 .bf16) (v645 : Vec Ideal S1x256x128 .bf16) (v651 : Vec Ideal S1x256x128 .bf16) (v657 : Vec Ideal S1x256x128 .bf16) (v663 : Vec Ideal S1x256x128 .bf16) (p f : Fin 128) :
    k0_pay44 (F := Ideal) v576 v630 v632 v633 v639 v645 v651 v657 v663 (ix2 p f)
      = v630 (ix2 p f)
        + ∑ r : Fin 256, v632 (ix2 p r) * v633 (ix3 (0 : Fin 1) r f)
        + ∑ r : Fin 256, v576 (ix3 (10 : Fin 20) p r) * v639 (ix3 (0 : Fin 1) r f)
        + ∑ r : Fin 256, v576 (ix3 (11 : Fin 20) p r) * v645 (ix3 (0 : Fin 1) r f)
        + ∑ r : Fin 256, v576 (ix3 (12 : Fin 20) p r) * v651 (ix3 (0 : Fin 1) r f)
        + ∑ r : Fin 256, v576 (ix3 (13 : Fin 20) p r) * v657 (ix3 (0 : Fin 1) r f)
        + ∑ r : Fin 256, v576 (ix3 (14 : Fin 20) p r) * v663 (ix3 (0 : Fin 1) r f) := by
  rw [pay44_eq, Head.step_apply _ ![14, 0, 0] _ _ _ (14 : Fin 20) rfl rfl rfl,
    Head.step_apply _ ![13, 0, 0] _ _ _ (13 : Fin 20) rfl rfl rfl,
    Head.step_apply _ ![12, 0, 0] _ _ _ (12 : Fin 20) rfl rfl rfl,
    Head.step_apply _ ![11, 0, 0] _ _ _ (11 : Fin 20) rfl rfl rfl,
    Head.step_apply _ ![10, 0, 0] _ _ _ (10 : Fin 20) rfl rfl rfl,
    Head.stepCut_apply]

/-- The accumulation payload `k0_pay46` as its composed steps. -/
theorem pay46_eq (v576 : FVec Ideal S20x128x256 .bf16) (v666 : FVec Ideal S128x128 .f32) (v668 : FVec Ideal S128x256 .bf16) (v669 : Vec Ideal S1x256x128 .bf16) (v675 : Vec Ideal S1x256x128 .bf16) (v681 : Vec Ideal S1x256x128 .bf16) (v687 : Vec Ideal S1x256x128 .bf16) (v693 : Vec Ideal S1x256x128 .bf16) :
    k0_pay46 (F := Ideal) v576 v666 v668 v669 v675 v681 v687 v693
      = Head.step (Head.step (Head.step (Head.step (Head.stepCut v666 v668 v669)
      ![16, 0, 0] v576 slices_S20x128x256_o16_0_0_S1x128x256 v675)
      ![17, 0, 0] v576 slices_S20x128x256_o17_0_0_S1x128x256 v681)
      ![18, 0, 0] v576 slices_S20x128x256_o18_0_0_S1x128x256 v687)
      ![19, 0, 0] v576 slices_S20x128x256_o19_0_0_S1x128x256 v693 := rfl

/-- `k0_pay46` at `(p, f)`: the incoming accumulator plus one product per step, in order (the row already cut, row 16, row 17, row 18, row 19). -/
theorem pay46_apply (v576 : FVec Ideal S20x128x256 .bf16) (v666 : FVec Ideal S128x128 .f32) (v668 : FVec Ideal S128x256 .bf16) (v669 : Vec Ideal S1x256x128 .bf16) (v675 : Vec Ideal S1x256x128 .bf16) (v681 : Vec Ideal S1x256x128 .bf16) (v687 : Vec Ideal S1x256x128 .bf16) (v693 : Vec Ideal S1x256x128 .bf16) (p f : Fin 128) :
    k0_pay46 (F := Ideal) v576 v666 v668 v669 v675 v681 v687 v693 (ix2 p f)
      = v666 (ix2 p f)
        + ∑ r : Fin 256, v668 (ix2 p r) * v669 (ix3 (0 : Fin 1) r f)
        + ∑ r : Fin 256, v576 (ix3 (16 : Fin 20) p r) * v675 (ix3 (0 : Fin 1) r f)
        + ∑ r : Fin 256, v576 (ix3 (17 : Fin 20) p r) * v681 (ix3 (0 : Fin 1) r f)
        + ∑ r : Fin 256, v576 (ix3 (18 : Fin 20) p r) * v687 (ix3 (0 : Fin 1) r f)
        + ∑ r : Fin 256, v576 (ix3 (19 : Fin 20) p r) * v693 (ix3 (0 : Fin 1) r f) := by
  rw [pay46_eq, Head.step_apply _ ![19, 0, 0] _ _ _ (19 : Fin 20) rfl rfl rfl,
    Head.step_apply _ ![18, 0, 0] _ _ _ (18 : Fin 20) rfl rfl rfl,
    Head.step_apply _ ![17, 0, 0] _ _ _ (17 : Fin 20) rfl rfl rfl,
    Head.step_apply _ ![16, 0, 0] _ _ _ (16 : Fin 20) rfl rfl rfl,
    Head.stepCut_apply]

/-- The accumulation payload `k0_pay49` as its composed steps. -/
theorem pay49_eq (v696 : FVec Ideal S128x128 .f32) (v706 : FVec Ideal S20x128x256 .bf16) (v708 : FVec Ideal S128x256 .bf16) (v709 : Vec Ideal S1x256x128 .bf16) (v715 : Vec Ideal S1x256x128 .bf16) (v721 : Vec Ideal S1x256x128 .bf16) (v727 : Vec Ideal S1x256x128 .bf16) (v733 : Vec Ideal S1x256x128 .bf16) (v739 : Vec Ideal S1x256x128 .bf16) :
    k0_pay49 (F := Ideal) v696 v706 v708 v709 v715 v721 v727 v733 v739
      = Head.step (Head.step (Head.step (Head.step (Head.step (Head.stepCut v696 v708 v709)
      ![1, 0, 0] v706 slices_S20x128x256_o1_0_0_S1x128x256 v715)
      ![2, 0, 0] v706 slices_S20x128x256_o2_0_0_S1x128x256 v721)
      ![3, 0, 0] v706 slices_S20x128x256_o3_0_0_S1x128x256 v727)
      ![4, 0, 0] v706 slices_S20x128x256_o4_0_0_S1x128x256 v733)
      ![5, 0, 0] v706 slices_S20x128x256_o5_0_0_S1x128x256 v739 := rfl

/-- `k0_pay49` at `(p, f)`: the incoming accumulator plus one product per step, in order (the row already cut, row 1, row 2, row 3, row 4, row 5). -/
theorem pay49_apply (v696 : FVec Ideal S128x128 .f32) (v706 : FVec Ideal S20x128x256 .bf16) (v708 : FVec Ideal S128x256 .bf16) (v709 : Vec Ideal S1x256x128 .bf16) (v715 : Vec Ideal S1x256x128 .bf16) (v721 : Vec Ideal S1x256x128 .bf16) (v727 : Vec Ideal S1x256x128 .bf16) (v733 : Vec Ideal S1x256x128 .bf16) (v739 : Vec Ideal S1x256x128 .bf16) (p f : Fin 128) :
    k0_pay49 (F := Ideal) v696 v706 v708 v709 v715 v721 v727 v733 v739 (ix2 p f)
      = v696 (ix2 p f)
        + ∑ r : Fin 256, v708 (ix2 p r) * v709 (ix3 (0 : Fin 1) r f)
        + ∑ r : Fin 256, v706 (ix3 (1 : Fin 20) p r) * v715 (ix3 (0 : Fin 1) r f)
        + ∑ r : Fin 256, v706 (ix3 (2 : Fin 20) p r) * v721 (ix3 (0 : Fin 1) r f)
        + ∑ r : Fin 256, v706 (ix3 (3 : Fin 20) p r) * v727 (ix3 (0 : Fin 1) r f)
        + ∑ r : Fin 256, v706 (ix3 (4 : Fin 20) p r) * v733 (ix3 (0 : Fin 1) r f)
        + ∑ r : Fin 256, v706 (ix3 (5 : Fin 20) p r) * v739 (ix3 (0 : Fin 1) r f) := by
  rw [pay49_eq, Head.step_apply _ ![5, 0, 0] _ _ _ (5 : Fin 20) rfl rfl rfl,
    Head.step_apply _ ![4, 0, 0] _ _ _ (4 : Fin 20) rfl rfl rfl,
    Head.step_apply _ ![3, 0, 0] _ _ _ (3 : Fin 20) rfl rfl rfl,
    Head.step_apply _ ![2, 0, 0] _ _ _ (2 : Fin 20) rfl rfl rfl,
    Head.step_apply _ ![1, 0, 0] _ _ _ (1 : Fin 20) rfl rfl rfl,
    Head.stepCut_apply]

/-- The accumulation payload `k0_pay51` as its composed steps. -/
theorem pay51_eq (v706 : FVec Ideal S20x128x256 .bf16) (v742 : FVec Ideal S128x128 .f32) (v744 : FVec Ideal S128x256 .bf16) (v745 : Vec Ideal S1x256x128 .bf16) (v751 : Vec Ideal S1x256x128 .bf16) (v757 : Vec Ideal S1x256x128 .bf16) (v763 : Vec Ideal S1x256x128 .bf16) (v769 : Vec Ideal S1x256x128 .bf16) (v775 : Vec Ideal S1x256x128 .bf16) :
    k0_pay51 (F := Ideal) v706 v742 v744 v745 v751 v757 v763 v769 v775
      = Head.step (Head.step (Head.step (Head.step (Head.step (Head.stepCut v742 v744 v745)
      ![7, 0, 0] v706 slices_S20x128x256_o7_0_0_S1x128x256 v751)
      ![8, 0, 0] v706 slices_S20x128x256_o8_0_0_S1x128x256 v757)
      ![9, 0, 0] v706 slices_S20x128x256_o9_0_0_S1x128x256 v763)
      ![10, 0, 0] v706 slices_S20x128x256_o10_0_0_S1x128x256 v769)
      ![11, 0, 0] v706 slices_S20x128x256_o11_0_0_S1x128x256 v775 := rfl

/-- `k0_pay51` at `(p, f)`: the incoming accumulator plus one product per step, in order (the row already cut, row 7, row 8, row 9, row 10, row 11). -/
theorem pay51_apply (v706 : FVec Ideal S20x128x256 .bf16) (v742 : FVec Ideal S128x128 .f32) (v744 : FVec Ideal S128x256 .bf16) (v745 : Vec Ideal S1x256x128 .bf16) (v751 : Vec Ideal S1x256x128 .bf16) (v757 : Vec Ideal S1x256x128 .bf16) (v763 : Vec Ideal S1x256x128 .bf16) (v769 : Vec Ideal S1x256x128 .bf16) (v775 : Vec Ideal S1x256x128 .bf16) (p f : Fin 128) :
    k0_pay51 (F := Ideal) v706 v742 v744 v745 v751 v757 v763 v769 v775 (ix2 p f)
      = v742 (ix2 p f)
        + ∑ r : Fin 256, v744 (ix2 p r) * v745 (ix3 (0 : Fin 1) r f)
        + ∑ r : Fin 256, v706 (ix3 (7 : Fin 20) p r) * v751 (ix3 (0 : Fin 1) r f)
        + ∑ r : Fin 256, v706 (ix3 (8 : Fin 20) p r) * v757 (ix3 (0 : Fin 1) r f)
        + ∑ r : Fin 256, v706 (ix3 (9 : Fin 20) p r) * v763 (ix3 (0 : Fin 1) r f)
        + ∑ r : Fin 256, v706 (ix3 (10 : Fin 20) p r) * v769 (ix3 (0 : Fin 1) r f)
        + ∑ r : Fin 256, v706 (ix3 (11 : Fin 20) p r) * v775 (ix3 (0 : Fin 1) r f) := by
  rw [pay51_eq, Head.step_apply _ ![11, 0, 0] _ _ _ (11 : Fin 20) rfl rfl rfl,
    Head.step_apply _ ![10, 0, 0] _ _ _ (10 : Fin 20) rfl rfl rfl,
    Head.step_apply _ ![9, 0, 0] _ _ _ (9 : Fin 20) rfl rfl rfl,
    Head.step_apply _ ![8, 0, 0] _ _ _ (8 : Fin 20) rfl rfl rfl,
    Head.step_apply _ ![7, 0, 0] _ _ _ (7 : Fin 20) rfl rfl rfl,
    Head.stepCut_apply]

/-- The accumulation payload `k0_pay53` as its composed steps. -/
theorem pay53_eq (v706 : FVec Ideal S20x128x256 .bf16) (v778 : FVec Ideal S128x128 .f32) (v780 : FVec Ideal S128x256 .bf16) (v781 : Vec Ideal S1x256x128 .bf16) (v787 : Vec Ideal S1x256x128 .bf16) (v793 : Vec Ideal S1x256x128 .bf16) (v799 : Vec Ideal S1x256x128 .bf16) (v805 : Vec Ideal S1x256x128 .bf16) (v811 : Vec Ideal S1x256x128 .bf16) :
    k0_pay53 (F := Ideal) v706 v778 v780 v781 v787 v793 v799 v805 v811
      = Head.step (Head.step (Head.step (Head.step (Head.step (Head.stepCut v778 v780 v781)
      ![13, 0, 0] v706 slices_S20x128x256_o13_0_0_S1x128x256 v787)
      ![14, 0, 0] v706 slices_S20x128x256_o14_0_0_S1x128x256 v793)
      ![15, 0, 0] v706 slices_S20x128x256_o15_0_0_S1x128x256 v799)
      ![16, 0, 0] v706 slices_S20x128x256_o16_0_0_S1x128x256 v805)
      ![17, 0, 0] v706 slices_S20x128x256_o17_0_0_S1x128x256 v811 := rfl

/-- `k0_pay53` at `(p, f)`: the incoming accumulator plus one product per step, in order (the row already cut, row 13, row 14, row 15, row 16, row 17). -/
theorem pay53_apply (v706 : FVec Ideal S20x128x256 .bf16) (v778 : FVec Ideal S128x128 .f32) (v780 : FVec Ideal S128x256 .bf16) (v781 : Vec Ideal S1x256x128 .bf16) (v787 : Vec Ideal S1x256x128 .bf16) (v793 : Vec Ideal S1x256x128 .bf16) (v799 : Vec Ideal S1x256x128 .bf16) (v805 : Vec Ideal S1x256x128 .bf16) (v811 : Vec Ideal S1x256x128 .bf16) (p f : Fin 128) :
    k0_pay53 (F := Ideal) v706 v778 v780 v781 v787 v793 v799 v805 v811 (ix2 p f)
      = v778 (ix2 p f)
        + ∑ r : Fin 256, v780 (ix2 p r) * v781 (ix3 (0 : Fin 1) r f)
        + ∑ r : Fin 256, v706 (ix3 (13 : Fin 20) p r) * v787 (ix3 (0 : Fin 1) r f)
        + ∑ r : Fin 256, v706 (ix3 (14 : Fin 20) p r) * v793 (ix3 (0 : Fin 1) r f)
        + ∑ r : Fin 256, v706 (ix3 (15 : Fin 20) p r) * v799 (ix3 (0 : Fin 1) r f)
        + ∑ r : Fin 256, v706 (ix3 (16 : Fin 20) p r) * v805 (ix3 (0 : Fin 1) r f)
        + ∑ r : Fin 256, v706 (ix3 (17 : Fin 20) p r) * v811 (ix3 (0 : Fin 1) r f) := by
  rw [pay53_eq, Head.step_apply _ ![17, 0, 0] _ _ _ (17 : Fin 20) rfl rfl rfl,
    Head.step_apply _ ![16, 0, 0] _ _ _ (16 : Fin 20) rfl rfl rfl,
    Head.step_apply _ ![15, 0, 0] _ _ _ (15 : Fin 20) rfl rfl rfl,
    Head.step_apply _ ![14, 0, 0] _ _ _ (14 : Fin 20) rfl rfl rfl,
    Head.step_apply _ ![13, 0, 0] _ _ _ (13 : Fin 20) rfl rfl rfl,
    Head.stepCut_apply]

end Cert.KernelIdeal.AccB

end
-- ==== Proof.KAcc2.lean ====
/-
  The first dense layer's accumulator inside the kernel body, second half: after each payload it is the accumulator
  before it plus that payload's rows' products, `∑ r < 256, P[h, p, r] · W_s[r, f]` with `P` the lane-pooled pair and
  `W_s` the weight slab `s = 5·h + gp`.
-/
import proofs.«172427_g2000706451865267_pallasbulk_150_11_alg».proof.Proof.KChain
import proofs.«172427_g2000706451865267_pallasbulk_150_11_alg».proof.Proof.KAccB

noncomputable section

namespace Cert.KernelIdeal.Chain

open Idealize.ShloMosaic Idealize.ShloMosaic.ValueIdx Cert.KernelIdeal Cert.KernelIdeal.Gen
open Cert.KernelIdeal.Conv2 Cert.KernelIdeal.Stages

/-- One row's product: the pooled pair's row `h` of sample `p` against a weight slab's column `f`. -/
def term (P : FVec Ideal S20x128x256 .bf16) (W : Vec Ideal S1x256x128 .bf16) (p f : Fin 128) (h : Fin 20) : EReal :=
  ∑ r : Fin 256, P (ix3 h p r) * W (ix3 (0 : Fin 1) r f)

/-- The accumulator after payload 33: 6 more rows' products. -/
theorem a33_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a33 x0 x1 x2 x3 x4 x5 (ix2 p f)
      = a30 x0 x1 x2 x3 x4 x5 (ix2 p f)
        + term (pp2 x0 x1 x2 x3 x4) (View.ld x5 Cert.KernelIdeal.Hand.r0_5_2) p f 0
        + term (pp2 x0 x1 x2 x3 x4) (View.ld x5 Cert.KernelIdeal.Hand.r0_5_7) p f 1
        + term (pp2 x0 x1 x2 x3 x4) (View.ld x5 Cert.KernelIdeal.Hand.r0_5_12) p f 2
        + term (pp2 x0 x1 x2 x3 x4) (View.ld x5 Cert.KernelIdeal.Hand.r0_5_17) p f 3
        + term (pp2 x0 x1 x2 x3 x4) (View.ld x5 Cert.KernelIdeal.Hand.r0_5_22) p f 4
        + term (pp2 x0 x1 x2 x3 x4) (View.ld x5 Cert.KernelIdeal.Hand.r0_5_27) p f 5 := by
  unfold a33 term
  rw [Cert.KernelIdeal.AccB.pay33_apply]
  simp only [Cert.KernelIdeal.AccB.pay32_apply]
  rfl

/-- The accumulator after payload 35: 6 more rows' products. -/
theorem a35_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a35 x0 x1 x2 x3 x4 x5 (ix2 p f)
      = a33 x0 x1 x2 x3 x4 x5 (ix2 p f)
        + term (pp2 x0 x1 x2 x3 x4) (View.ld x5 Cert.KernelIdeal.Hand.r0_5_32) p f 6
        + term (pp2 x0 x1 x2 x3 x4) (View.ld x5 Cert.KernelIdeal.Hand.r0_5_37) p f 7
        + term (pp2 x0 x1 x2 x3 x4) (View.ld x5 Cert.KernelIdeal.Hand.r0_5_42) p f 8
        + term (pp2 x0 x1 x2 x3 x4) (View.ld x5 Cert.KernelIdeal.Hand.r0_5_47) p f 9
        + term (pp2 x0 x1 x2 x3 x4) (View.ld x5 Cert.KernelIdeal.Hand.r0_5_52) p f 10
        + term (pp2 x0 x1 x2 x3 x4) (View.ld x5 Cert.KernelIdeal.Hand.r0_5_57) p f 11 := by
  unfold a35 term
  rw [Cert.KernelIdeal.AccB.pay35_apply]
  simp only [Cert.KernelIdeal.AccB.pay34_apply]

/-- The accumulator after payload 37: 6 more rows' products. -/
theorem a37_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a37 x0 x1 x2 x3 x4 x5 (ix2 p f)
      = a35 x0 x1 x2 x3 x4 x5 (ix2 p f)
        + term (pp2 x0 x1 x2 x3 x4) (View.ld x5 Cert.KernelIdeal.Hand.r0_5_62) p f 12
        + term (pp2 x0 x1 x2 x3 x4) (View.ld x5 Cert.KernelIdeal.Hand.r0_5_67) p f 13
        + term (pp2 x0 x1 x2 x3 x4) (View.ld x5 Cert.KernelIdeal.Hand.r0_5_72) p f 14
        + term (pp2 x0 x1 x2 x3 x4) (View.ld x5 Cert.KernelIdeal.Hand.r0_5_77) p f 15
        + term (pp2 x0 x1 x2 x3 x4) (View.ld x5 Cert.KernelIdeal.Hand.r0_5_82) p f 16
        + term (pp2 x0 x1 x2 x3 x4) (View.ld x5 Cert.KernelIdeal.Hand.r0_5_87) p f 17 := by
  unfold a37 term
  rw [Cert.KernelIdeal.AccB.pay37_apply]
  simp only [Cert.KernelIdeal.AccB.pay36_apply]

/-- The accumulator after payload 40: 5 more rows' products. -/
theorem a40_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a40 x0 x1 x2 x3 x4 x5 (ix2 p f)
      = a37 x0 x1 x2 x3 x4 x5 (ix2 p f)
        + term (pp2 x0 x1 x2 x3 x4) (View.ld x5 Cert.KernelIdeal.Hand.r0_5_92) p f 18
        + term (pp2 x0 x1 x2 x3 x4) (View.ld x5 Cert.KernelIdeal.Hand.r0_5_97) p f 19
        + term (pp3 x0 x1 x2 x3 x4) (View.ld x5 Cert.KernelIdeal.Hand.r0_5_3) p f 0
        + term (pp3 x0 x1 x2 x3 x4) (View.ld x5 Cert.KernelIdeal.Hand.r0_5_8) p f 1
        + term (pp3 x0 x1 x2 x3 x4) (View.ld x5 Cert.KernelIdeal.Hand.r0_5_13) p f 2 := by
  unfold a40 term
  rw [Cert.KernelIdeal.AccB.pay40_apply]
  simp only [Cert.KernelIdeal.AccB.pay38_apply]
  rfl

/-- The accumulator after payload 42: 6 more rows' products. -/
theorem a42_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a42 x0 x1 x2 x3 x4 x5 (ix2 p f)
      = a40 x0 x1 x2 x3 x4 x5 (ix2 p f)
        + term (pp3 x0 x1 x2 x3 x4) (View.ld x5 Cert.KernelIdeal.Hand.r0_5_18) p f 3
        + term (pp3 x0 x1 x2 x3 x4) (View.ld x5 Cert.KernelIdeal.Hand.r0_5_23) p f 4
        + term (pp3 x0 x1 x2 x3 x4) (View.ld x5 Cert.KernelIdeal.Hand.r0_5_28) p f 5
        + term (pp3 x0 x1 x2 x3 x4) (View.ld x5 Cert.KernelIdeal.Hand.r0_5_33) p f 6
        + term (pp3 x0 x1 x2 x3 x4) (View.ld x5 Cert.KernelIdeal.Hand.r0_5_38) p f 7
        + term (pp3 x0 x1 x2 x3 x4) (View.ld x5 Cert.KernelIdeal.Hand.r0_5_43) p f 8 := by
  unfold a42 term
  rw [Cert.KernelIdeal.AccB.pay42_apply]
  simp only [Cert.KernelIdeal.AccB.pay41_apply]
  rfl

/-- The accumulator after payload 44: 6 more rows' products. -/
theorem a44_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a44 x0 x1 x2 x3 x4 x5 (ix2 p f)
      = a42 x0 x1 x2 x3 x4 x5 (ix2 p f)
        + term (pp3 x0 x1 x2 x3 x4) (View.ld x5 Cert.KernelIdeal.Hand.r0_5_48) p f 9
        + term (pp3 x0 x1 x2 x3 x4) (View.ld x5 Cert.KernelIdeal.Hand.r0_5_53) p f 10
        + term (pp3 x0 x1 x2 x3 x4) (View.ld x5 Cert.KernelIdeal.Hand.r0_5_58) p f 11
        + term (pp3 x0 x1 x2 x3 x4) (View.ld x5 Cert.KernelIdeal.Hand.r0_5_63) p f 12
        + term (pp3 x0 x1 x2 x3 x4) (View.ld x5 Cert.KernelIdeal.Hand.r0_5_68) p f 13
        + term (pp3 x0 x1 x2 x3 x4) (View.ld x5 Cert.KernelIdeal.Hand.r0_5_73) p f 14 := by
  unfold a44 term
  rw [Cert.KernelIdeal.AccB.pay44_apply]
  simp only [Cert.KernelIdeal.AccB.pay43_apply]

/-- The accumulator after payload 46: 5 more rows' products. -/
theorem a46_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a46 x0 x1 x2 x3 x4 x5 (ix2 p f)
      = a44 x0 x1 x2 x3 x4 x5 (ix2 p f)
        + term (pp3 x0 x1 x2 x3 x4) (View.ld x5 Cert.KernelIdeal.Hand.r0_5_78) p f 15
        + term (pp3 x0 x1 x2 x3 x4) (View.ld x5 Cert.KernelIdeal.Hand.r0_5_83) p f 16
        + term (pp3 x0 x1 x2 x3 x4) (View.ld x5 Cert.KernelIdeal.Hand.r0_5_88) p f 17
        + term (pp3 x0 x1 x2 x3 x4) (View.ld x5 Cert.KernelIdeal.Hand.r0_5_93) p f 18
        + term (pp3 x0 x1 x2 x3 x4) (View.ld x5 Cert.KernelIdeal.Hand.r0_5_98) p f 19 := by
  unfold a46 term
  rw [Cert.KernelIdeal.AccB.pay46_apply]
  simp only [Cert.KernelIdeal.AccB.pay45_apply]

/-- The accumulator after payload 49: 6 more rows' products. -/
theorem a49_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a49 x0 x1 x2 x3 x4 x5 (ix2 p f)
      = a46 x0 x1 x2 x3 x4 x5 (ix2 p f)
        + term (pp4 x0 x1 x2 x3 x4) (View.ld x5 Cert.KernelIdeal.Hand.r0_5_4) p f 0
        + term (pp4 x0 x1 x2 x3 x4) (View.ld x5 Cert.KernelIdeal.Hand.r0_5_9) p f 1
        + term (pp4 x0 x1 x2 x3 x4) (View.ld x5 Cert.KernelIdeal.Hand.r0_5_14) p f 2
        + term (pp4 x0 x1 x2 x3 x4) (View.ld x5 Cert.KernelIdeal.Hand.r0_5_19) p f 3
        + term (pp4 x0 x1 x2 x3 x4) (View.ld x5 Cert.KernelIdeal.Hand.r0_5_24) p f 4
        + term (pp4 x0 x1 x2 x3 x4) (View.ld x5 Cert.KernelIdeal.Hand.r0_5_29) p f 5 := by
  unfold a49 term
  rw [Cert.KernelIdeal.AccB.pay49_apply]
  simp only [Cert.KernelIdeal.AccB.pay48_apply]
  rfl

/-- The accumulator after payload 51: 6 more rows' products. -/
theorem a51_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a51 x0 x1 x2 x3 x4 x5 (ix2 p f)
      = a49 x0 x1 x2 x3 x4 x5 (ix2 p f)
        + term (pp4 x0 x1 x2 x3 x4) (View.ld x5 Cert.KernelIdeal.Hand.r0_5_34) p f 6
        + term (pp4 x0 x1 x2 x3 x4) (View.ld x5 Cert.KernelIdeal.Hand.r0_5_39) p f 7
        + term (pp4 x0 x1 x2 x3 x4) (View.ld x5 Cert.KernelIdeal.Hand.r0_5_44) p f 8
        + term (pp4 x0 x1 x2 x3 x4) (View.ld x5 Cert.KernelIdeal.Hand.r0_5_49) p f 9
        + term (pp4 x0 x1 x2 x3 x4) (View.ld x5 Cert.KernelIdeal.Hand.r0_5_54) p f 10
        + term (pp4 x0 x1 x2 x3 x4) (View.ld x5 Cert.KernelIdeal.Hand.r0_5_59) p f 11 := by
  unfold a51 term
  rw [Cert.KernelIdeal.AccB.pay51_apply]
  simp only [Cert.KernelIdeal.AccB.pay50_apply]

/-- The accumulator after payload 53: 6 more rows' products. -/
theorem a53_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a53 x0 x1 x2 x3 x4 x5 (ix2 p f)
      = a51 x0 x1 x2 x3 x4 x5 (ix2 p f)
        + term (pp4 x0 x1 x2 x3 x4) (View.ld x5 Cert.KernelIdeal.Hand.r0_5_64) p f 12
        + term (pp4 x0 x1 x2 x3 x4) (View.ld x5 Cert.KernelIdeal.Hand.r0_5_69) p f 13
        + term (pp4 x0 x1 x2 x3 x4) (View.ld x5 Cert.KernelIdeal.Hand.r0_5_74) p f 14
        + term (pp4 x0 x1 x2 x3 x4) (View.ld x5 Cert.KernelIdeal.Hand.r0_5_79) p f 15
        + term (pp4 x0 x1 x2 x3 x4) (View.ld x5 Cert.KernelIdeal.Hand.r0_5_84) p f 16
        + term (pp4 x0 x1 x2 x3 x4) (View.ld x5 Cert.KernelIdeal.Hand.r0_5_89) p f 17 := by
  unfold a53 term
  rw [Cert.KernelIdeal.AccB.pay53_apply]
  simp only [Cert.KernelIdeal.AccB.pay52_apply]

end Cert.KernelIdeal.Chain

end
-- ==== Proof.KAccA.lean ====
/-
  The first half of the first dense layer's accumulation inside the idealized kernel, read at an entry.

  The layer runs over 100 slabs of 256 pooled features, slab `h·5 + g` being row `h` (of 20) of lane group `g` (of 5).
  The accumulator starts at zero and takes the slabs group by group, row by row: each payload below adds five or six
  consecutive rows' products, `∑ r, P[h, p, r] · W[0, r, f]`, to the accumulator it is given. The first row of a
  payload arrives already cut out of the pooled array as a 128 × 256 matrix; the cuts are read here too. This file
  covers all twenty rows of group 0 and of group 1; the payload that finishes group 0 (rows 18 and 19) goes on with
  rows 0 to 2 of group 1, whose pooled array it forms itself from the two row-pooled groups.
-/
import proofs.«172427_g2000706451865267_pallasbulk_150_11_alg».proof.Proof.Gen.KernelIdeal.Skeleton
import proofs.«172427_g2000706451865267_pallasbulk_150_11_alg».proof.Proof.KHead
import proofs.«172427_g2000706451865267_pallasbulk_150_11_alg».proof.Proof.KPool
import Idealize.ShloMosaic.Lib.ValueIdx
import Idealize.ShloMosaic.PureOps.Ideal.Laws

noncomputable section

open scoped BigOperators

namespace Cert.KernelIdeal.AccA

open Idealize.ShloMosaic Idealize.ShloMosaic.ValueIdx Cert.KernelIdeal Cert.KernelIdeal.Gen Cert.KernelIdeal.Head

/-! ## The start and the cuts -/

/-- The accumulator's first value: zero everywhere. -/
theorem pay14_apply (p : Fin 128) (f : Fin 128) : k0_pay14 (F := Ideal) (ix2 p f) = 0 := by
  show Ideal.ofBits .f32 0x00000000#32 = 0
  exact Ideal.ofBits_zero_f32

/-- Row 0 of group 0, cut out of the pooled array the two row-pooled groups form. -/
theorem pay16_eq (v45 v71 : FVec Ideal S20x128x256 .bf16) :
    k0_pay16 (F := Ideal) v45 v71 = slab ![0, 0, 0] (Conv2.wpool v45 v71) slices_S20x128x256_o0_0_0_S1x128x256 := by
  have e : k0_pay16 (F := Ideal) v45 v71 = slab ![0, 0, 0] (k0_pay15 v45 v71) slices_S20x128x256_o0_0_0_S1x128x256 := rfl
  rw [e, Conv2.pay15_eq]

theorem pay16_apply (v45 v71 : FVec Ideal S20x128x256 .bf16) (p : Fin 128) (r : Fin 256) :
    k0_pay16 (F := Ideal) v45 v71 (ix2 p r) = Conv2.wpool v45 v71 (ix3 (0 : Fin 20) p r) := by
  rw [pay16_eq]; exact slab_apply _ _ _ (0 : Fin 20) rfl rfl rfl p r

/-- Row 6 of group 0. -/
theorem pay18_eq (v186 : FVec Ideal S20x128x256 .bf16) : k0_pay18 (F := Ideal) v186 = slab ![6, 0, 0] v186 slices_S20x128x256_o6_0_0_S1x128x256 := rfl

theorem pay18_apply (v186 : FVec Ideal S20x128x256 .bf16) (p : Fin 128) (r : Fin 256) :
    k0_pay18 (F := Ideal) v186 (ix2 p r) = v186 (ix3 (6 : Fin 20) p r) := by
  rw [pay18_eq]; exact slab_apply _ _ _ (6 : Fin 20) rfl rfl rfl p r

/-- Row 12 of group 0. -/
theorem pay20_eq (v186 : FVec Ideal S20x128x256 .bf16) : k0_pay20 (F := Ideal) v186 = slab ![12, 0, 0] v186 slices_S20x128x256_o12_0_0_S1x128x256 := rfl

theorem pay20_apply (v186 : FVec Ideal S20x128x256 .bf16) (p : Fin 128) (r : Fin 256) :
    k0_pay20 (F := Ideal) v186 (ix2 p r) = v186 (ix3 (12 : Fin 20) p r) := by
  rw [pay20_eq]; exact slab_apply _ _ _ (12 : Fin 20) rfl rfl rfl p r

/-- Row 18 of group 0. -/
theorem pay22_eq (v186 : FVec Ideal S20x128x256 .bf16) : k0_pay22 (F := Ideal) v186 = slab ![18, 0, 0] v186 slices_S20x128x256_o18_0_0_S1x128x256 := rfl

theorem pay22_apply (v186 : FVec Ideal S20x128x256 .bf16) (p : Fin 128) (r : Fin 256) :
    k0_pay22 (F := Ideal) v186 (ix2 p r) = v186 (ix3 (18 : Fin 20) p r) := by
  rw [pay22_eq]; exact slab_apply _ _ _ (18 : Fin 20) rfl rfl rfl p r

/-- Row 3 of group 1, cut out of the pooled array the two row-pooled groups form. -/
theorem pay25_eq (v71 v97 : FVec Ideal S20x128x256 .bf16) :
    k0_pay25 (F := Ideal) v71 v97 = slab ![3, 0, 0] (Conv2.wpool v71 v97) slices_S20x128x256_o3_0_0_S1x128x256 := by
  have e : k0_pay25 (F := Ideal) v71 v97 = slab ![3, 0, 0] (k0_pay23 v71 v97) slices_S20x128x256_o3_0_0_S1x128x256 := rfl
  rw [e, Conv2.pay23_eq]

theorem pay25_apply (v71 v97 : FVec Ideal S20x128x256 .bf16) (p : Fin 128) (r : Fin 256) :
    k0_pay25 (F := Ideal) v71 v97 (ix2 p r) = Conv2.wpool v71 v97 (ix3 (3 : Fin 20) p r) := by
  rw [pay25_eq]; exact slab_apply _ _ _ (3 : Fin 20) rfl rfl rfl p r

/-- Row 9 of group 1. -/
theorem pay27_eq (v316 : FVec Ideal S20x128x256 .bf16) : k0_pay27 (F := Ideal) v316 = slab ![9, 0, 0] v316 slices_S20x128x256_o9_0_0_S1x128x256 := rfl

theorem pay27_apply (v316 : FVec Ideal S20x128x256 .bf16) (p : Fin 128) (r : Fin 256) :
    k0_pay27 (F := Ideal) v316 (ix2 p r) = v316 (ix3 (9 : Fin 20) p r) := by
  rw [pay27_eq]; exact slab_apply _ _ _ (9 : Fin 20) rfl rfl rfl p r

/-- Row 15 of group 1. -/
theorem pay29_eq (v316 : FVec Ideal S20x128x256 .bf16) : k0_pay29 (F := Ideal) v316 = slab ![15, 0, 0] v316 slices_S20x128x256_o15_0_0_S1x128x256 := rfl

theorem pay29_apply (v316 : FVec Ideal S20x128x256 .bf16) (p : Fin 128) (r : Fin 256) :
    k0_pay29 (F := Ideal) v316 (ix2 p r) = v316 (ix3 (15 : Fin 20) p r) := by
  rw [pay29_eq]; exact slab_apply _ _ _ (15 : Fin 20) rfl rfl rfl p r

/-! ## Group 0 -/

/-- Rows 0 to 5 of group 0 (row 0 given cut). -/
theorem pay17_eq (v176 : FVec Ideal S128x128 .f32) (v186 : FVec Ideal S20x128x256 .bf16) (v188 : FVec Ideal S128x256 .bf16)
    (v189 v195 v201 v207 v213 v219 : Vec Ideal S1x256x128 .bf16) :
    k0_pay17 (F := Ideal) v176 v186 v188 v189 v195 v201 v207 v213 v219
      = step (step (step (step (step (stepCut v176 v188 v189)
          ![1, 0, 0] v186 slices_S20x128x256_o1_0_0_S1x128x256 v195)
          ![2, 0, 0] v186 slices_S20x128x256_o2_0_0_S1x128x256 v201)
          ![3, 0, 0] v186 slices_S20x128x256_o3_0_0_S1x128x256 v207)
          ![4, 0, 0] v186 slices_S20x128x256_o4_0_0_S1x128x256 v213)
          ![5, 0, 0] v186 slices_S20x128x256_o5_0_0_S1x128x256 v219 := rfl

theorem pay17_apply (v176 : FVec Ideal S128x128 .f32) (v186 : FVec Ideal S20x128x256 .bf16) (v188 : FVec Ideal S128x256 .bf16)
    (v189 v195 v201 v207 v213 v219 : Vec Ideal S1x256x128 .bf16) (p : Fin 128) (f : Fin 128) :
    k0_pay17 (F := Ideal) v176 v186 v188 v189 v195 v201 v207 v213 v219 (ix2 p f)
      = v176 (ix2 p f) + ∑ r : Fin 256, v188 (ix2 p r) * v189 (ix3 (0 : Fin 1) r f)
        + ∑ r : Fin 256, v186 (ix3 (1 : Fin 20) p r) * v195 (ix3 (0 : Fin 1) r f)
        + ∑ r : Fin 256, v186 (ix3 (2 : Fin 20) p r) * v201 (ix3 (0 : Fin 1) r f)
        + ∑ r : Fin 256, v186 (ix3 (3 : Fin 20) p r) * v207 (ix3 (0 : Fin 1) r f)
        + ∑ r : Fin 256, v186 (ix3 (4 : Fin 20) p r) * v213 (ix3 (0 : Fin 1) r f)
        + ∑ r : Fin 256, v186 (ix3 (5 : Fin 20) p r) * v219 (ix3 (0 : Fin 1) r f) := by
  rw [pay17_eq, step_apply _ _ _ _ _ (5 : Fin 20) rfl rfl rfl, step_apply _ _ _ _ _ (4 : Fin 20) rfl rfl rfl,
    step_apply _ _ _ _ _ (3 : Fin 20) rfl rfl rfl, step_apply _ _ _ _ _ (2 : Fin 20) rfl rfl rfl,
    step_apply _ _ _ _ _ (1 : Fin 20) rfl rfl rfl, stepCut_apply]

/-- Rows 6 to 11 of group 0 (row 6 given cut). -/
theorem pay19_eq (v186 : FVec Ideal S20x128x256 .bf16) (v222 : FVec Ideal S128x128 .f32) (v224 : FVec Ideal S128x256 .bf16)
    (v225 v231 v237 v243 v249 v255 : Vec Ideal S1x256x128 .bf16) :
    k0_pay19 (F := Ideal) v186 v222 v224 v225 v231 v237 v243 v249 v255
      = step (step (step (step (step (stepCut v222 v224 v225)
          ![7, 0, 0] v186 slices_S20x128x256_o7_0_0_S1x128x256 v231)
          ![8, 0, 0] v186 slices_S20x128x256_o8_0_0_S1x128x256 v237)
          ![9, 0, 0] v186 slices_S20x128x256_o9_0_0_S1x128x256 v243)
          ![10, 0, 0] v186 slices_S20x128x256_o10_0_0_S1x128x256 v249)
          ![11, 0, 0] v186 slices_S20x128x256_o11_0_0_S1x128x256 v255 := rfl

theorem pay19_apply (v186 : FVec Ideal S20x128x256 .bf16) (v222 : FVec Ideal S128x128 .f32) (v224 : FVec Ideal S128x256 .bf16)
    (v225 v231 v237 v243 v249 v255 : Vec Ideal S1x256x128 .bf16) (p : Fin 128) (f : Fin 128) :
    k0_pay19 (F := Ideal) v186 v222 v224 v225 v231 v237 v243 v249 v255 (ix2 p f)
      = v222 (ix2 p f) + ∑ r : Fin 256, v224 (ix2 p r) * v225 (ix3 (0 : Fin 1) r f)
        + ∑ r : Fin 256, v186 (ix3 (7 : Fin 20) p r) * v231 (ix3 (0 : Fin 1) r f)
        + ∑ r : Fin 256, v186 (ix3 (8 : Fin 20) p r) * v237 (ix3 (0 : Fin 1) r f)
        + ∑ r : Fin 256, v186 (ix3 (9 : Fin 20) p r) * v243 (ix3 (0 : Fin 1) r f)
        + ∑ r : Fin 256, v186 (ix3 (10 : Fin 20) p r) * v249 (ix3 (0 : Fin 1) r f)
        + ∑ r : Fin 256, v186 (ix3 (11 : Fin 20) p r) * v255 (ix3 (0 : Fin 1) r f) := by
  rw [pay19_eq, step_apply _ _ _ _ _ (11 : Fin 20) rfl rfl rfl, step_apply _ _ _ _ _ (10 : Fin 20) rfl rfl rfl,
    step_apply _ _ _ _ _ (9 : Fin 20) rfl rfl rfl, step_apply _ _ _ _ _ (8 : Fin 20) rfl rfl rfl,
    step_apply _ _ _ _ _ (7 : Fin 20) rfl rfl rfl, stepCut_apply]

/-- Rows 12 to 17 of group 0 (row 12 given cut). -/
theorem pay21_eq (v186 : FVec Ideal S20x128x256 .bf16) (v258 : FVec Ideal S128x128 .f32) (v260 : FVec Ideal S128x256 .bf16)
    (v261 v267 v273 v279 v285 v291 : Vec Ideal S1x256x128 .bf16) :
    k0_pay21 (F := Ideal) v186 v258 v260 v261 v267 v273 v279 v285 v291
      = step (step (step (step (step (stepCut v258 v260 v261)
          ![13, 0, 0] v186 slices_S20x128x256_o13_0_0_S1x128x256 v267)
          ![14, 0, 0] v186 slices_S20x128x256_o14_0_0_S1x128x256 v273)
          ![15, 0, 0] v186 slices_S20x128x256_o15_0_0_S1x128x256 v279)
          ![16, 0, 0] v186 slices_S20x128x256_o16_0_0_S1x128x256 v285)
          ![17, 0, 0] v186 slices_S20x128x256_o17_0_0_S1x128x256 v291 := rfl

theorem pay21_apply (v186 : FVec Ideal S20x128x256 .bf16) (v258 : FVec Ideal S128x128 .f32) (v260 : FVec Ideal S128x256 .bf16)
    (v261 v267 v273 v279 v285 v291 : Vec Ideal S1x256x128 .bf16) (p : Fin 128) (f : Fin 128) :
    k0_pay21 (F := Ideal) v186 v258 v260 v261 v267 v273 v279 v285 v291 (ix2 p f)
      = v258 (ix2 p f) + ∑ r : Fin 256, v260 (ix2 p r) * v261 (ix3 (0 : Fin 1) r f)
        + ∑ r : Fin 256, v186 (ix3 (13 : Fin 20) p r) * v267 (ix3 (0 : Fin 1) r f)
        + ∑ r : Fin 256, v186 (ix3 (14 : Fin 20) p r) * v273 (ix3 (0 : Fin 1) r f)
        + ∑ r : Fin 256, v186 (ix3 (15 : Fin 20) p r) * v279 (ix3 (0 : Fin 1) r f)
        + ∑ r : Fin 256, v186 (ix3 (16 : Fin 20) p r) * v285 (ix3 (0 : Fin 1) r f)
        + ∑ r : Fin 256, v186 (ix3 (17 : Fin 20) p r) * v291 (ix3 (0 : Fin 1) r f) := by
  rw [pay21_eq, step_apply _ _ _ _ _ (17 : Fin 20) rfl rfl rfl, step_apply _ _ _ _ _ (16 : Fin 20) rfl rfl rfl,
    step_apply _ _ _ _ _ (15 : Fin 20) rfl rfl rfl, step_apply _ _ _ _ _ (14 : Fin 20) rfl rfl rfl,
    step_apply _ _ _ _ _ (13 : Fin 20) rfl rfl rfl, stepCut_apply]

/-! ## The end of group 0 and the start of group 1 -/

/-- Rows 18 (given cut) and 19 of group 0, then rows 0 to 2 of group 1, whose pooled array is formed from the two
    row-pooled groups. -/
theorem pay24_eq (v71 v97 v186 : FVec Ideal S20x128x256 .bf16) (v294 : FVec Ideal S128x128 .f32) (v296 : FVec Ideal S128x256 .bf16)
    (v297 v303 v319 v325 v331 : Vec Ideal S1x256x128 .bf16) :
    k0_pay24 (F := Ideal) v71 v97 v186 v294 v296 v297 v303 v319 v325 v331
      = step (step (step (step (stepCut v294 v296 v297)
          ![19, 0, 0] v186 slices_S20x128x256_o19_0_0_S1x128x256 v303)
          ![0, 0, 0] (Conv2.wpool v71 v97) slices_S20x128x256_o0_0_0_S1x128x256 v319)
          ![1, 0, 0] (Conv2.wpool v71 v97) slices_S20x128x256_o1_0_0_S1x128x256 v325)
          ![2, 0, 0] (Conv2.wpool v71 v97) slices_S20x128x256_o2_0_0_S1x128x256 v331 := by
  have e : k0_pay24 (F := Ideal) v71 v97 v186 v294 v296 v297 v303 v319 v325 v331
      = step (step (step (step (stepCut v294 v296 v297)
          ![19, 0, 0] v186 slices_S20x128x256_o19_0_0_S1x128x256 v303)
          ![0, 0, 0] (k0_pay23 v71 v97) slices_S20x128x256_o0_0_0_S1x128x256 v319)
          ![1, 0, 0] (k0_pay23 v71 v97) slices_S20x128x256_o1_0_0_S1x128x256 v325)
          ![2, 0, 0] (k0_pay23 v71 v97) slices_S20x128x256_o2_0_0_S1x128x256 v331 := rfl
  rw [e, Conv2.pay23_eq]

theorem pay24_apply (v71 v97 v186 : FVec Ideal S20x128x256 .bf16) (v294 : FVec Ideal S128x128 .f32) (v296 : FVec Ideal S128x256 .bf16)
    (v297 v303 v319 v325 v331 : Vec Ideal S1x256x128 .bf16) (p : Fin 128) (f : Fin 128) :
    k0_pay24 (F := Ideal) v71 v97 v186 v294 v296 v297 v303 v319 v325 v331 (ix2 p f)
      = v294 (ix2 p f) + ∑ r : Fin 256, v296 (ix2 p r) * v297 (ix3 (0 : Fin 1) r f)
        + ∑ r : Fin 256, v186 (ix3 (19 : Fin 20) p r) * v303 (ix3 (0 : Fin 1) r f)
        + ∑ r : Fin 256, Conv2.wpool v71 v97 (ix3 (0 : Fin 20) p r) * v319 (ix3 (0 : Fin 1) r f)
        + ∑ r : Fin 256, Conv2.wpool v71 v97 (ix3 (1 : Fin 20) p r) * v325 (ix3 (0 : Fin 1) r f)
        + ∑ r : Fin 256, Conv2.wpool v71 v97 (ix3 (2 : Fin 20) p r) * v331 (ix3 (0 : Fin 1) r f) := by
  rw [pay24_eq, step_apply _ _ _ _ _ (2 : Fin 20) rfl rfl rfl, step_apply _ _ _ _ _ (1 : Fin 20) rfl rfl rfl,
    step_apply _ _ _ _ _ (0 : Fin 20) rfl rfl rfl, step_apply _ _ _ _ _ (19 : Fin 20) rfl rfl rfl, stepCut_apply]

/-! ## Group 1 -/

/-- Rows 3 to 8 of group 1 (row 3 given cut). -/
theorem pay26_eq (v316 : FVec Ideal S20x128x256 .bf16) (v334 : FVec Ideal S128x128 .f32) (v336 : FVec Ideal S128x256 .bf16)
    (v337 v343 v349 v355 v361 v367 : Vec Ideal S1x256x128 .bf16) :
    k0_pay26 (F := Ideal) v316 v334 v336 v337 v343 v349 v355 v361 v367
      = step (step (step (step (step (stepCut v334 v336 v337)
          ![4, 0, 0] v316 slices_S20x128x256_o4_0_0_S1x128x256 v343)
          ![5, 0, 0] v316 slices_S20x128x256_o5_0_0_S1x128x256 v349)
          ![6, 0, 0] v316 slices_S20x128x256_o6_0_0_S1x128x256 v355)
          ![7, 0, 0] v316 slices_S20x128x256_o7_0_0_S1x128x256 v361)
          ![8, 0, 0] v316 slices_S20x128x256_o8_0_0_S1x128x256 v367 := rfl

theorem pay26_apply (v316 : FVec Ideal S20x128x256 .bf16) (v334 : FVec Ideal S128x128 .f32) (v336 : FVec Ideal S128x256 .bf16)
    (v337 v343 v349 v355 v361 v367 : Vec Ideal S1x256x128 .bf16) (p : Fin 128) (f : Fin 128) :
    k0_pay26 (F := Ideal) v316 v334 v336 v337 v343 v349 v355 v361 v367 (ix2 p f)
      = v334 (ix2 p f) + ∑ r : Fin 256, v336 (ix2 p r) * v337 (ix3 (0 : Fin 1) r f)
        + ∑ r : Fin 256, v316 (ix3 (4 : Fin 20) p r) * v343 (ix3 (0 : Fin 1) r f)
        + ∑ r : Fin 256, v316 (ix3 (5 : Fin 20) p r) * v349 (ix3 (0 : Fin 1) r f)
        + ∑ r : Fin 256, v316 (ix3 (6 : Fin 20) p r) * v355 (ix3 (0 : Fin 1) r f)
        + ∑ r : Fin 256, v316 (ix3 (7 : Fin 20) p r) * v361 (ix3 (0 : Fin 1) r f)
        + ∑ r : Fin 256, v316 (ix3 (8 : Fin 20) p r) * v367 (ix3 (0 : Fin 1) r f) := by
  rw [pay26_eq, step_apply _ _ _ _ _ (8 : Fin 20) rfl rfl rfl, step_apply _ _ _ _ _ (7 : Fin 20) rfl rfl rfl,
    step_apply _ _ _ _ _ (6 : Fin 20) rfl rfl rfl, step_apply _ _ _ _ _ (5 : Fin 20) rfl rfl rfl,
    step_apply _ _ _ _ _ (4 : Fin 20) rfl rfl rfl, stepCut_apply]

/-- Rows 9 to 14 of group 1 (row 9 given cut). -/
theorem pay28_eq (v316 : FVec Ideal S20x128x256 .bf16) (v370 : FVec Ideal S128x128 .f32) (v372 : FVec Ideal S128x256 .bf16)
    (v373 v379 v385 v391 v397 v403 : Vec Ideal S1x256x128 .bf16) :
    k0_pay28 (F := Ideal) v316 v370 v372 v373 v379 v385 v391 v397 v403
      = step (step (step (step (step (stepCut v370 v372 v373)
          ![10, 0, 0] v316 slices_S20x128x256_o10_0_0_S1x128x256 v379)
          ![11, 0, 0] v316 slices_S20x128x256_o11_0_0_S1x128x256 v385)
          ![12, 0, 0] v316 slices_S20x128x256_o12_0_0_S1x128x256 v391)
          ![13, 0, 0] v316 slices_S20x128x256_o13_0_0_S1x128x256 v397)
          ![14, 0, 0] v316 slices_S20x128x256_o14_0_0_S1x128x256 v403 := rfl

theorem pay28_apply (v316 : FVec Ideal S20x128x256 .bf16) (v370 : FVec Ideal S128x128 .f32) (v372 : FVec Ideal S128x256 .bf16)
    (v373 v379 v385 v391 v397 v403 : Vec Ideal S1x256x128 .bf16) (p : Fin 128) (f : Fin 128) :
    k0_pay28 (F := Ideal) v316 v370 v372 v373 v379 v385 v391 v397 v403 (ix2 p f)
      = v370 (ix2 p f) + ∑ r : Fin 256, v372 (ix2 p r) * v373 (ix3 (0 : Fin 1) r f)
        + ∑ r : Fin 256, v316 (ix3 (10 : Fin 20) p r) * v379 (ix3 (0 : Fin 1) r f)
        + ∑ r : Fin 256, v316 (ix3 (11 : Fin 20) p r) * v385 (ix3 (0 : Fin 1) r f)
        + ∑ r : Fin 256, v316 (ix3 (12 : Fin 20) p r) * v391 (ix3 (0 : Fin 1) r f)
        + ∑ r : Fin 256, v316 (ix3 (13 : Fin 20) p r) * v397 (ix3 (0 : Fin 1) r f)
        + ∑ r : Fin 256, v316 (ix3 (14 : Fin 20) p r) * v403 (ix3 (0 : Fin 1) r f) := by
  rw [pay28_eq, step_apply _ _ _ _ _ (14 : Fin 20) rfl rfl rfl, step_apply _ _ _ _ _ (13 : Fin 20) rfl rfl rfl,
    step_apply _ _ _ _ _ (12 : Fin 20) rfl rfl rfl, step_apply _ _ _ _ _ (11 : Fin 20) rfl rfl rfl,
    step_apply _ _ _ _ _ (10 : Fin 20) rfl rfl rfl, stepCut_apply]

/-- Rows 15 to 19 of group 1 (row 15 given cut). -/
theorem pay30_eq (v316 : FVec Ideal S20x128x256 .bf16) (v406 : FVec Ideal S128x128 .f32) (v408 : FVec Ideal S128x256 .bf16)
    (v409 v415 v421 v427 v433 : Vec Ideal S1x256x128 .bf16) :
    k0_pay30 (F := Ideal) v316 v406 v408 v409 v415 v421 v427 v433
      = step (step (step (step (stepCut v406 v408 v409)
          ![16, 0, 0] v316 slices_S20x128x256_o16_0_0_S1x128x256 v415)
          ![17, 0, 0] v316 slices_S20x128x256_o17_0_0_S1x128x256 v421)
          ![18, 0, 0] v316 slices_S20x128x256_o18_0_0_S1x128x256 v427)
          ![19, 0, 0] v316 slices_S20x128x256_o19_0_0_S1x128x256 v433 := rfl

theorem pay30_apply (v316 : FVec Ideal S20x128x256 .bf16) (v406 : FVec Ideal S128x128 .f32) (v408 : FVec Ideal S128x256 .bf16)
    (v409 v415 v421 v427 v433 : Vec Ideal S1x256x128 .bf16) (p : Fin 128) (f : Fin 128) :
    k0_pay30 (F := Ideal) v316 v406 v408 v409 v415 v421 v427 v433 (ix2 p f)
      = v406 (ix2 p f) + ∑ r : Fin 256, v408 (ix2 p r) * v409 (ix3 (0 : Fin 1) r f)
        + ∑ r : Fin 256, v316 (ix3 (16 : Fin 20) p r) * v415 (ix3 (0 : Fin 1) r f)
        + ∑ r : Fin 256, v316 (ix3 (17 : Fin 20) p r) * v421 (ix3 (0 : Fin 1) r f)
        + ∑ r : Fin 256, v316 (ix3 (18 : Fin 20) p r) * v427 (ix3 (0 : Fin 1) r f)
        + ∑ r : Fin 256, v316 (ix3 (19 : Fin 20) p r) * v433 (ix3 (0 : Fin 1) r f) := by
  rw [pay30_eq, step_apply _ _ _ _ _ (19 : Fin 20) rfl rfl rfl, step_apply _ _ _ _ _ (18 : Fin 20) rfl rfl rfl,
    step_apply _ _ _ _ _ (17 : Fin 20) rfl rfl rfl, step_apply _ _ _ _ _ (16 : Fin 20) rfl rfl rfl, stepCut_apply]

end Cert.KernelIdeal.AccA

end
-- ==== Proof.KAcc1.lean ====
/-
  The first dense layer's accumulator inside the kernel body, first half (from the zero splat through lane-group
  pairs 0 and 1).
-/
import proofs.«172427_g2000706451865267_pallasbulk_150_11_alg».proof.Proof.KAcc2
import proofs.«172427_g2000706451865267_pallasbulk_150_11_alg».proof.Proof.KAccA

noncomputable section

namespace Cert.KernelIdeal.Chain

open Idealize.ShloMosaic Idealize.ShloMosaic.ValueIdx Cert.KernelIdeal Cert.KernelIdeal.Gen
open Cert.KernelIdeal.Conv2 Cert.KernelIdeal.Stages

/-- The accumulator after payload 17: 6 more rows' products. -/
theorem a17_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a17 x0 x1 x2 x3 x4 x5 (ix2 p f)
      = 0
        + term (pp0 x0 x1 x2 x3 x4) (View.ld x5 Cert.KernelIdeal.Hand.r0_5_0) p f 0
        + term (pp0 x0 x1 x2 x3 x4) (View.ld x5 Cert.KernelIdeal.Hand.r0_5_5) p f 1
        + term (pp0 x0 x1 x2 x3 x4) (View.ld x5 Cert.KernelIdeal.Hand.r0_5_10) p f 2
        + term (pp0 x0 x1 x2 x3 x4) (View.ld x5 Cert.KernelIdeal.Hand.r0_5_15) p f 3
        + term (pp0 x0 x1 x2 x3 x4) (View.ld x5 Cert.KernelIdeal.Hand.r0_5_20) p f 4
        + term (pp0 x0 x1 x2 x3 x4) (View.ld x5 Cert.KernelIdeal.Hand.r0_5_25) p f 5 := by
  unfold a17 term
  rw [Cert.KernelIdeal.AccA.pay17_apply, Cert.KernelIdeal.AccA.pay14_apply]
  simp only [Cert.KernelIdeal.AccA.pay16_apply]
  rfl

/-- The accumulator after payload 19: 6 more rows' products. -/
theorem a19_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a19 x0 x1 x2 x3 x4 x5 (ix2 p f)
      = a17 x0 x1 x2 x3 x4 x5 (ix2 p f)
        + term (pp0 x0 x1 x2 x3 x4) (View.ld x5 Cert.KernelIdeal.Hand.r0_5_30) p f 6
        + term (pp0 x0 x1 x2 x3 x4) (View.ld x5 Cert.KernelIdeal.Hand.r0_5_35) p f 7
        + term (pp0 x0 x1 x2 x3 x4) (View.ld x5 Cert.KernelIdeal.Hand.r0_5_40) p f 8
        + term (pp0 x0 x1 x2 x3 x4) (View.ld x5 Cert.KernelIdeal.Hand.r0_5_45) p f 9
        + term (pp0 x0 x1 x2 x3 x4) (View.ld x5 Cert.KernelIdeal.Hand.r0_5_50) p f 10
        + term (pp0 x0 x1 x2 x3 x4) (View.ld x5 Cert.KernelIdeal.Hand.r0_5_55) p f 11 := by
  unfold a19 term
  rw [Cert.KernelIdeal.AccA.pay19_apply]
  simp only [Cert.KernelIdeal.AccA.pay18_apply]

/-- The accumulator after payload 21: 6 more rows' products. -/
theorem a21_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a21 x0 x1 x2 x3 x4 x5 (ix2 p f)
      = a19 x0 x1 x2 x3 x4 x5 (ix2 p f)
        + term (pp0 x0 x1 x2 x3 x4) (View.ld x5 Cert.KernelIdeal.Hand.r0_5_60) p f 12
        + term (pp0 x0 x1 x2 x3 x4) (View.ld x5 Cert.KernelIdeal.Hand.r0_5_65) p f 13
        + term (pp0 x0 x1 x2 x3 x4) (View.ld x5 Cert.KernelIdeal.Hand.r0_5_70) p f 14
        + term (pp0 x0 x1 x2 x3 x4) (View.ld x5 Cert.KernelIdeal.Hand.r0_5_75) p f 15
        + term (pp0 x0 x1 x2 x3 x4) (View.ld x5 Cert.KernelIdeal.Hand.r0_5_80) p f 16
        + term (pp0 x0 x1 x2 x3 x4) (View.ld x5 Cert.KernelIdeal.Hand.r0_5_85) p f 17 := by
  unfold a21 term
  rw [Cert.KernelIdeal.AccA.pay21_apply]
  simp only [Cert.KernelIdeal.AccA.pay20_apply]

/-- The accumulator after payload 24: 5 more rows' products. -/
theorem a24_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a24 x0 x1 x2 x3 x4 x5 (ix2 p f)
      = a21 x0 x1 x2 x3 x4 x5 (ix2 p f)
        + term (pp0 x0 x1 x2 x3 x4) (View.ld x5 Cert.KernelIdeal.Hand.r0_5_90) p f 18
        + term (pp0 x0 x1 x2 x3 x4) (View.ld x5 Cert.KernelIdeal.Hand.r0_5_95) p f 19
        + term (pp1 x0 x1 x2 x3 x4) (View.ld x5 Cert.KernelIdeal.Hand.r0_5_1) p f 0
        + term (pp1 x0 x1 x2 x3 x4) (View.ld x5 Cert.KernelIdeal.Hand.r0_5_6) p f 1
        + term (pp1 x0 x1 x2 x3 x4) (View.ld x5 Cert.KernelIdeal.Hand.r0_5_11) p f 2 := by
  unfold a24 term
  rw [Cert.KernelIdeal.AccA.pay24_apply]
  simp only [Cert.KernelIdeal.AccA.pay22_apply]
  rfl

/-- The accumulator after payload 26: 6 more rows' products. -/
theorem a26_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a26 x0 x1 x2 x3 x4 x5 (ix2 p f)
      = a24 x0 x1 x2 x3 x4 x5 (ix2 p f)
        + term (pp1 x0 x1 x2 x3 x4) (View.ld x5 Cert.KernelIdeal.Hand.r0_5_16) p f 3
        + term (pp1 x0 x1 x2 x3 x4) (View.ld x5 Cert.KernelIdeal.Hand.r0_5_21) p f 4
        + term (pp1 x0 x1 x2 x3 x4) (View.ld x5 Cert.KernelIdeal.Hand.r0_5_26) p f 5
        + term (pp1 x0 x1 x2 x3 x4) (View.ld x5 Cert.KernelIdeal.Hand.r0_5_31) p f 6
        + term (pp1 x0 x1 x2 x3 x4) (View.ld x5 Cert.KernelIdeal.Hand.r0_5_36) p f 7
        + term (pp1 x0 x1 x2 x3 x4) (View.ld x5 Cert.KernelIdeal.Hand.r0_5_41) p f 8 := by
  unfold a26 term
  rw [Cert.KernelIdeal.AccA.pay26_apply]
  simp only [Cert.KernelIdeal.AccA.pay25_apply]
  rfl

/-- The accumulator after payload 28: 6 more rows' products. -/
theorem a28_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a28 x0 x1 x2 x3 x4 x5 (ix2 p f)
      = a26 x0 x1 x2 x3 x4 x5 (ix2 p f)
        + term (pp1 x0 x1 x2 x3 x4) (View.ld x5 Cert.KernelIdeal.Hand.r0_5_46) p f 9
        + term (pp1 x0 x1 x2 x3 x4) (View.ld x5 Cert.KernelIdeal.Hand.r0_5_51) p f 10
        + term (pp1 x0 x1 x2 x3 x4) (View.ld x5 Cert.KernelIdeal.Hand.r0_5_56) p f 11
        + term (pp1 x0 x1 x2 x3 x4) (View.ld x5 Cert.KernelIdeal.Hand.r0_5_61) p f 12
        + term (pp1 x0 x1 x2 x3 x4) (View.ld x5 Cert.KernelIdeal.Hand.r0_5_66) p f 13
        + term (pp1 x0 x1 x2 x3 x4) (View.ld x5 Cert.KernelIdeal.Hand.r0_5_71) p f 14 := by
  unfold a28 term
  rw [Cert.KernelIdeal.AccA.pay28_apply]
  simp only [Cert.KernelIdeal.AccA.pay27_apply]

/-- The accumulator after payload 30: 5 more rows' products. -/
theorem a30_apply (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a30 x0 x1 x2 x3 x4 x5 (ix2 p f)
      = a28 x0 x1 x2 x3 x4 x5 (ix2 p f)
        + term (pp1 x0 x1 x2 x3 x4) (View.ld x5 Cert.KernelIdeal.Hand.r0_5_76) p f 15
        + term (pp1 x0 x1 x2 x3 x4) (View.ld x5 Cert.KernelIdeal.Hand.r0_5_81) p f 16
        + term (pp1 x0 x1 x2 x3 x4) (View.ld x5 Cert.KernelIdeal.Hand.r0_5_86) p f 17
        + term (pp1 x0 x1 x2 x3 x4) (View.ld x5 Cert.KernelIdeal.Hand.r0_5_91) p f 18
        + term (pp1 x0 x1 x2 x3 x4) (View.ld x5 Cert.KernelIdeal.Hand.r0_5_96) p f 19 := by
  unfold a30 term
  rw [Cert.KernelIdeal.AccA.pay30_apply]
  simp only [Cert.KernelIdeal.AccA.pay29_apply]

end Cert.KernelIdeal.Chain

end
-- ==== Proof.LibFinSums.lean ====
/-
  A sum over twenty indices written out, in the order a program that adds the terms one at a time produces.
-/
import Mathlib.Algebra.BigOperators.Fin

namespace Cert.LibFinSums

open scoped BigOperators

/-- `∑ i : Fin 20, f i` is `f 0 + f 1 + … + f 19`, associated to the left. -/
theorem sum_univ_twenty {M : Type*} [AddCommMonoid M] (f : Fin 20 → M) :
    ∑ i : Fin 20, f i = f 0 + f 1 + f 2 + f 3 + f 4 + f 5 + f 6 + f 7 + f 8 + f 9 + f 10 + f 11 + f 12 + f 13 + f 14
      + f 15 + f 16 + f 17 + f 18 + f 19 := by
  simp only [Fin.sum_univ_castSucc, Fin.sum_univ_zero, zero_add]
  rfl

/-- `∑ i : Fin 5, f i` associated to the left. -/
theorem sum_univ_five' {M : Type*} [AddCommMonoid M] (f : Fin 5 → M) :
    ∑ i : Fin 5, f i = f 0 + f 1 + f 2 + f 3 + f 4 := Fin.sum_univ_five f

/-- A hundred terms added one at a time from zero, five runs of twenty, are the double sum (in either order). -/
theorem sum_five_twenty {M : Type*} [AddCommMonoid M] (t : Fin 5 → Fin 20 → M) :
    0 + t 0 0 + t 0 1 + t 0 2 + t 0 3 + t 0 4 + t 0 5 + t 0 6 + t 0 7 + t 0 8 + t 0 9 + t 0 10 + t 0 11 + t 0 12 + t 0 13 + t 0 14 + t 0 15 + t 0 16 + t 0 17 + t 0 18 + t 0 19 + t 1 0 + t 1 1 + t 1 2 + t 1 3 + t 1 4 + t 1 5 + t 1 6 + t 1 7 + t 1 8 + t 1 9 + t 1 10 + t 1 11 + t 1 12 + t 1 13 + t 1 14 + t 1 15 + t 1 16 + t 1 17 + t 1 18 + t 1 19 + t 2 0 + t 2 1 + t 2 2 + t 2 3 + t 2 4 + t 2 5 + t 2 6 + t 2 7 + t 2 8 + t 2 9 + t 2 10 + t 2 11 + t 2 12 + t 2 13 + t 2 14 + t 2 15 + t 2 16 + t 2 17 + t 2 18 + t 2 19 + t 3 0 + t 3 1 + t 3 2 + t 3 3 + t 3 4 + t 3 5 + t 3 6 + t 3 7 + t 3 8 + t 3 9 + t 3 10 + t 3 11 + t 3 12 + t 3 13 + t 3 14 + t 3 15 + t 3 16 + t 3 17 + t 3 18 + t 3 19 + t 4 0 + t 4 1 + t 4 2 + t 4 3 + t 4 4 + t 4 5 + t 4 6 + t 4 7 + t 4 8 + t 4 9 + t 4 10 + t 4 11 + t 4 12 + t 4 13 + t 4 14 + t 4 15 + t 4 16 + t 4 17 + t 4 18 + t 4 19
      = ∑ h : Fin 20, ∑ gp : Fin 5, t gp h := by
  rw [Finset.sum_comm]
  simp only [Fin.sum_univ_five, sum_univ_twenty]
  simp only [zero_add, add_assoc]

end Cert.LibFinSums
-- ==== Proof.KFinal.lean ====
/-
  The kernel body's stored value for one sample `p` of the block is the network of that sample.

  The hundred slab products the body adds one at a time are the double sum over rows and lane-group pairs; with
  each pooled pair read as the pooled map's four columns and each weight slab as the rows `256·s … 256·s + 255` of
  the dense layer's weights, that is the dense layer over the features `h·1280 + w·64 + co`. The tail — bias,
  rectification, the last dense layer and the shifted softmax — is the specification's own.
-/
import proofs.«172427_g2000706451865267_pallasbulk_150_11_alg».proof.Proof.KAcc1
import proofs.«172427_g2000706451865267_pallasbulk_150_11_alg».proof.Proof.LibFinSums

noncomputable section

namespace Cert.KernelIdeal.Final

open Idealize.ShloMosaic Idealize.ShloMosaic.ValueIdx Cert.KernelIdeal Cert.KernelIdeal.Gen
open Cert.KernelIdeal.Conv1 Cert.KernelIdeal.Conv2 Cert.KernelIdeal.Math Cert.KernelIdeal.Stages Cert.KernelIdeal.Chain Cert.NetSpec

/-- Row `256·s + r` of the first dense layer's weights: slab `s`, row `r` of the slab. -/
def wrow (s : Fin 100) (r : Fin 256) : Fin 25600 := ⟨256 * s.val + r.val, by omega⟩

theorem triple_zero : (![0, 0, 0] : Fin 3 → Nat) = fun _ => 0 := funext fun a => by
  match a with
  | ⟨0, _⟩ => rfl
  | ⟨1, _⟩ => rfl
  | ⟨2, _⟩ => rfl

/-- Slab `s` lies inside the weight buffer. -/
theorem slab_inb (s : Fin 100) : ∀ a, (![s.val, 0, 0] : Fin 3 → Nat) a + S1x256x128.size a ≤ S100x256x128.size a := fun a => by
  match a with
  | ⟨0, _⟩ => show s.val + 1 ≤ 100; omega
  | ⟨1, _⟩ => show 0 + 256 ≤ 256; omega
  | ⟨2, _⟩ => show 0 + 128 ≤ 128; omega

/-- Weight slab `s` as the body loads it. -/
def LL (x5 : Vec Ideal S100x256x128 .bf16) (s : Fin 100) : Vec Ideal S1x256x128 .bf16 :=
  View.ld x5 (Rect.unit (s := S100x256x128) ![s.val, 0, 0] S1x256x128.size (slab_inb s))

/-- The loaded slab at row `r`, column `f` is the buffer at `(s, r, f)`. -/
theorem LL_apply (x5 : Vec Ideal S100x256x128 .bf16) (s : Fin 100) (r : Fin 256) (f : Fin 128) :
    LL x5 s (ix3 (0 : Fin 1) r f) = x5 (ix3 s r f) := by
  unfold LL
  show x5 _ = x5 _
  refine congrArg x5 (funext fun a => Fin.ext ?_)
  match a with
  | ⟨0, _⟩ => show s.val + 1 * 0 = s.val; omega
  | ⟨1, _⟩ => show 0 + 1 * r.val = r.val; omega
  | ⟨2, _⟩ => show 0 + 1 * f.val = f.val; omega

/-- The accumulator after all hundred slab products, as the double sum over rows and lane-group pairs. -/
theorem acc_total (x0 : Vec Ideal S32x128x32 .f32) (x1 : Vec Ideal S160x896 .bf16) (x2 : Vec Ideal S1x896 .f32) (x3 : Vec Ideal S1280x256 .bf16) (x4 : Vec Ideal S1x256 .f32) (x5 : Vec Ideal S100x256x128 .bf16) (p f : Fin 128) :
    a53 x0 x1 x2 x3 x4 x5 (ix2 p f) + term (pp4 x0 x1 x2 x3 x4) (View.ld x5 Cert.KernelIdeal.Hand.r0_5_94) p f 18 + term (pp4 x0 x1 x2 x3 x4) (View.ld x5 Cert.KernelIdeal.Hand.r0_5_99) p f 19
      = ∑ h : Fin 20, ∑ gp : Fin 5, term (pick (pp0 x0 x1 x2 x3 x4) (pp1 x0 x1 x2 x3 x4) (pp2 x0 x1 x2 x3 x4) (pp3 x0 x1 x2 x3 x4) (pp4 x0 x1 x2 x3 x4) gp) (LL x5 (slab h gp)) p f h := by
  rw [a53_apply, a51_apply, a49_apply, a46_apply, a44_apply, a42_apply, a40_apply, a37_apply, a35_apply, a33_apply, a30_apply, a28_apply, a26_apply, a24_apply, a21_apply, a19_apply, a17_apply]
  exact Cert.LibFinSums.sum_five_twenty fun gp h => term (pick (pp0 x0 x1 x2 x3 x4) (pp1 x0 x1 x2 x3 x4) (pp2 x0 x1 x2 x3 x4) (pp3 x0 x1 x2 x3 x4) (pp4 x0 x1 x2 x3 x4) gp) (LL x5 (slab h gp)) p f h

/-- What the body leaves in the output block at sample `p`, class `k`, given what the nine loaded blocks hold. -/
theorem body_eq (x0 : Vec Ideal S32x128x32 .f32) (x1 : Vec Ideal S160x896 .bf16) (x2 : Vec Ideal S1x896 .f32)
    (x3 : Vec Ideal S1280x256 .bf16) (x4 : Vec Ideal S1x256 .f32) (x5 : Vec Ideal S100x256x128 .bf16)
    (x6 : Vec Ideal S1x128 .f32) (x7 : Vec Ideal S128x10 .f32) (x8 : Vec Ideal S1x10 .f32)
    (p : Fin 128) (X : Fin 32 → Fin 32 → EReal) (Wb : Fin 5 → Fin 32 → Fin 896 → EReal) (b1 : Fin 896 → EReal)
    (w2 : Fin 25 → Fin 32 → Fin 64 → EReal) (b2 : Fin 64 → EReal)
    (wl1 : Fin 25600 → Fin 128 → EReal) (bl1 : Fin 128 → EReal) (wl2 : Fin 128 → Fin 10 → EReal) (bl2 : Fin 10 → EReal)
    (hx : ∀ h w, x0 (ix3 h p w) = X h w) (hWb : ∀ kh w l, x1 (ix2 (Conv1.col kh w) l) = Wb kh w l)
    (hb1 : ∀ l, x2 (ix2 (0 : Fin 1) l) = b1 l)
    (hW2 : ∀ (kh : Fin 5) (dw : Fin 8) (ci : Fin 32) (j : Fin 4) (co : Fin 64),
      x3 (ix2 (col2 kh (wcol dw ci)) (olane j co))
        = if h : j.val ≤ dw.val ∧ dw.val < j.val + 5 then w2 (tap kh ⟨dw.val - j.val, by omega⟩) ci co else 0)
    (hb2 : ∀ (j : Fin 4) (co : Fin 64), x4 (ix2 (0 : Fin 1) (olane j co)) = b2 co)
    (hW1 : ∀ (s : Fin 100) (r : Fin 256) (f : Fin 128), x5 (ix3 s r f) = wl1 (wrow s r) f)
    (hbl1 : ∀ f, x6 (ix2 (0 : Fin 1) f) = bl1 f) (hwl2 : ∀ f k, x7 (ix2 f k) = wl2 f k)
    (hbl2 : ∀ k, x8 (ix2 (0 : Fin 1) k) = bl2 k) (k : Fin 10) :
    Cert.KernelIdeal.Hand.out0_9 (F := Ideal) x0 x1 x2 x3 x4 x5 x6 x7 x8 (ix2 p k)
      = softmaxRow (logitsOf (fc1Of (poolOf (conv2Of (conv1Of X Wb b1) w2 b2)) wl1 bl1) wl2 bl2) k := by
  rw [Chain.out0_9_eq, View.canon_unit_zero SpreadRead.pair_zero, Cert.KernelIdeal.Head.out_apply,
    View.ld_unit_zero triple_zero _ x0, View.ld_unit_zero SpreadRead.pair_zero _ x1, View.ld_unit_zero SpreadRead.pair_zero _ x2,
    View.ld_unit_zero SpreadRead.pair_zero _ x3, View.ld_unit_zero SpreadRead.pair_zero _ x4, View.ld_unit_zero SpreadRead.pair_zero _ x6,
    View.ld_unit_zero SpreadRead.pair_zero _ x7, View.ld_unit_zero SpreadRead.pair_zero _ x8]
  refine congrArg (fun z => softmaxRow z k)
    (congr (congr (congrArg logitsOf (funext fun f => ?_)) (funext fun f => funext fun k' => hwl2 f k')) (funext hbl2))
  unfold fc1Of
  rw [hbl1 f]
  refine congrArg (fun s => max (s + bl1 f) 0) ?_
  simp only [Cert.KernelIdeal.AccB.pay54_apply]
  refine (acc_total x0 x1 x2 x3 x4 x5 p f).trans ?_
  unfold term
  simp only [LL_apply]
  exact fc_sum_eq (fun gp h r => pick (pp0 x0 x1 x2 x3 x4) (pp1 x0 x1 x2 x3 x4) (pp2 x0 x1 x2 x3 x4) (pp3 x0 x1 x2 x3 x4) (pp4 x0 x1 x2 x3 x4) gp (ix3 h p r)) (fun s r => x5 (ix3 s r f))
    (poolOf (conv2Of (conv1Of X Wb b1) w2 b2)) (fun j => wl1 j f)
    (fun gp h e co => by
      match gp with
      | ⟨0, _⟩ => exact pp0_eq x0 x1 x2 x3 x4 p X Wb b1 w2 b2 hx hWb hb1 hW2 hb2 h e co
      | ⟨1, _⟩ => exact pp1_eq x0 x1 x2 x3 x4 p X Wb b1 w2 b2 hx hWb hb1 hW2 hb2 h e co
      | ⟨2, _⟩ => exact pp2_eq x0 x1 x2 x3 x4 p X Wb b1 w2 b2 hx hWb hb1 hW2 hb2 h e co
      | ⟨3, _⟩ => exact pp3_eq x0 x1 x2 x3 x4 p X Wb b1 w2 b2 hx hWb hb1 hW2 hb2 h e co
      | ⟨4, _⟩ => exact pp4_eq x0 x1 x2 x3 x4 p X Wb b1 w2 b2 hx hWb hb1 hW2 hb2 h e co)
    (fun h gp e co => (hW1 (slab h gp) (olane e co) f).trans (congrArg (fun j => wl1 j f) (Fin.ext (by
      show 256 * (5 * h.val + gp.val) + (64 * e.val + co.val) = h.val * 1280 + (4 * gp.val + e.val) * 64 + co.val
      omega))))

end Cert.KernelIdeal.Final

end
-- ==== Proof.KernelIdealNet.lean ====
/- The kernel's result array is the network of the nine argument arrays: entry `(n, k)` of what the run leaves is
   what the body stores for sample `n % 128` of grid point `n / 128`, the body's stored value for a sample is the
   network of that sample's image given what the nine blocks hold, and the blocks hold the arguments re-laid. -/
import proofs.«172427_g2000706451865267_pallasbulk_150_11_alg».proof.Proof.KernelIdealValue
import proofs.«172427_g2000706451865267_pallasbulk_150_11_alg».proof.Proof.KernelIdealBlocks
import proofs.«172427_g2000706451865267_pallasbulk_150_11_alg».proof.Proof.KFinal
import proofs.«172427_g2000706451865267_pallasbulk_150_11_alg».proof.Proof.NetArgs

noncomputable section

namespace Cert.KernelIdeal.Hand

open Cert.KernelIdeal Cert.KernelIdeal.Gen Idealize.ShloMosaic Idealize.ShloMosaic.TcCoe Idealize.SL.Sem
open Idealize.ShloMosaic.ValueIdx
open Cert.NetSpec

variable (m : (ℓ : Loc nD τ sig) → Buf (Elt Ideal) ℓ) (ρ : Dev nD → PrngReg)

/-- Sample `n` is sample `n % 128` of point `n / 128`. -/
theorem sample_eq (n : Fin 1024) (hb : 128 * (pt n).val + (inBlk n).val < 1024) :
    (⟨128 * (pt n).val + (inBlk n).val, hb⟩ : Fin 1024) = n :=
  Fin.ext (by show 128 * (n.val / 128) + n.val % 128 = n.val; omega)

/-- The result array as the region's run leaves it is the network of the argument arrays. -/
theorem G_eq (c : Dev nD) :
    G m c = netOf (A0 m c) (A1 m c) (A2 m c) (A3 m c) (A4 m c) (A5 m c) (A6 m c) (A7 m c) (A8 m c) := by
  funext i
  obtain ⟨n, k, rfl⟩ : ∃ (n : Fin 1024) (k : Fin 10), i = ix2 n k := ⟨i 0, i 1, eq_ix2 i⟩
  rw [G_apply]
  refine (Cert.KernelIdeal.Final.body_eq
    (iblk m c 0 (pt n)) (iblk m c 1 (pt n)) (iblk m c 2 (pt n)) (iblk m c 3 (pt n)) (iblk m c 4 (pt n))
    (iblk m c 5 (pt n)) (iblk m c 6 (pt n)) (iblk m c 7 (pt n)) (iblk m c 8 (pt n)) (inBlk n)
    (argX (A0 m c) n) (argWb (A1 m c)) (argB1 (A2 m c)) (argW2 (A3 m c)) (argB2 (A4 m c))
    (argWl1 (A5 m c)) (argBl1 (A6 m c)) (argWl2 (A7 m c)) (argBl2 (A8 m c))
    ?hx ?hWb ?hb1 ?hW2 ?hb2 ?hW1 ?hbl1 ?hwl2 ?hbl2 k).trans ?_
  case hx =>
    intro h w
    refine (blk0_apply m c (pt n) h (inBlk n) w).trans ?_
    show A0 m c (ix4 _ (0 : Fin 1) h w) = A0 m c (ix4 n (0 : Fin 1) h w)
    rw [sample_eq]
  case hWb =>
    intro kh w l
    exact blk1_apply m c (pt n) kh w l
  case hb1 =>
    intro l
    exact blk2_apply m c (pt n) l
  case hW2 =>
    intro kh dw ci j co
    have e1 : Cert.KernelIdeal.Conv2.col2 kh (Cert.KernelIdeal.Math.wcol dw ci)
        = (⟨kh.val * 256 + dw.val * 32 + ci.val, by omega⟩ : Fin 1280) :=
      Fin.ext (by show 256 * kh.val + (32 * dw.val + ci.val) = kh.val * 256 + dw.val * 32 + ci.val; omega)
    have e2 : Cert.KernelIdeal.Math.olane j co = (⟨j.val * 64 + co.val, by omega⟩ : Fin 256) :=
      Fin.ext (by show 64 * j.val + co.val = j.val * 64 + co.val; omega)
    rw [e1, e2]
    exact blk3_apply m c (pt n) kh dw ci j co
  case hb2 =>
    intro j co
    have e2 : Cert.KernelIdeal.Math.olane j co = (⟨j.val * 64 + co.val, by omega⟩ : Fin 256) :=
      Fin.ext (by show 64 * j.val + co.val = j.val * 64 + co.val; omega)
    rw [e2]
    exact blk4_apply m c (pt n) j co
  case hW1 =>
    intro s r f
    refine (blk5_apply m c (pt n) s r f).trans ?_
    show A5 m c (ix2 _ f) = A5 m c (ix2 (Cert.KernelIdeal.Final.wrow s r) f)
    exact congrArg (fun q => A5 m c (ix2 q f)) (Fin.ext (by show s.val * 256 + r.val = 256 * s.val + r.val; omega))
  case hbl1 =>
    intro f
    exact blk6_apply m c (pt n) f
  case hwl2 =>
    intro f k'
    exact blk7_apply m c (pt n) f k'
  case hbl2 =>
    intro k'
    exact blk8_apply m c (pt n) k'
  rfl

/-- The run, read: the result array at the network of the arguments, the nine arguments unchanged. -/
theorem value_run' : θ_run (defs (F := Ideal)) (onTc (τ := τ) (main (F := Ideal))) ⟨m, fun _ => 0, ρ⟩ (fun r => ∀ c : Dev nD,
      r.2.mem ((c.tc : Thread nD τ).loc main_v21)
        = netOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1).trans (G_eq m c), (h c).2⟩) (value_run m ρ)

end Cert.KernelIdeal.Hand

end
-- ==== Proof.Algebraic.lean ====
/- The two programs read over the extended reals, run from memories that agree on the nine arguments, end with
   one and the same result array: the network of the arguments. The kernel's side is its run read at the result
   array; the reference's side is its run read likewise; the agreement of the launch memories carries one to the
   other. -/
import proofs.«172427_g2000706451865267_pallasbulk_150_11_alg».proof.Defs
import proofs.«172427_g2000706451865267_pallasbulk_150_11_alg».proof.Proof.KernelIdealNet

noncomputable section

namespace Cert.Proof

open Idealize.ShloMosaic Idealize.ShloMosaic.TcCoe Idealize.SL.Sem

/-- The last conjunct, from the reference's run read at its result as the network of ITS arguments: both runs end
    at the network of the kernel's arguments, the reference's after its arguments are rewritten by the agreement. -/
theorem algebraic_of [Cert.KernelIdeal.Facts] [Cert.ReferenceIdeal.Facts] [Cert.Pre_finite_inputs.Facts]
    (href : ∀ (m' : (ℓ : Loc Cert.ReferenceIdeal.nD Cert.ReferenceIdeal.τ Cert.ReferenceIdeal.sig) → Buf (Elt Ideal) ℓ) (g' : Dev Cert.ReferenceIdeal.nD → PrngReg),
      θ_run (Cert.ReferenceIdeal.defs (F := Ideal)) (onTc (τ := Cert.ReferenceIdeal.τ) (Cert.ReferenceIdeal.main (F := Ideal))) ⟨m', fun _ => 0, g'⟩
        (fun r => ∀ c : Dev Cert.ReferenceIdeal.nD,
          r.2.mem ((c.tc : Thread Cert.ReferenceIdeal.nD Cert.ReferenceIdeal.τ).loc Cert.ReferenceIdeal.main_v5) = Cert.NetSpec.netOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))) :
    Cert.algebraic_KernelIdeal_ReferenceIdeal := by
  intro m g m' g' _ hagree
  refine ⟨fun c => Cert.NetSpec.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.value_run' m g, ?_⟩
  refine (θ_run Cert.ReferenceIdeal.defs _ _).mono (fun _ h c => ⟨(h c).1.trans ?_, (h c).2⟩) (href m' g')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.Proof

end
-- ==== Proof.lean ====
/-
  The certificate of one LeNet-style network computed two ways.

  The kernel program runs the whole network in ONE region over blocks of 128 samples: the first convolution as a
  banded product over the five row-shifted slabs laid side by side; the second convolution per group of four output
  columns packed in the lanes, with all 25 taps concatenated along the contraction and the weights padded with
  zeros where a tap does not reach; a 5 × 5 window maximum by shifted-maximum trees, rows then lanes; the first dense
  layer accumulated over the 100 pooled slabs; the last dense layer and a softmax shifted by the row maximum.
  The reference runs three regions: the first convolution per sample as five accumulated products, the second
  convolution as 25 accumulated products followed by running maxima, and the dense head with its first layer
  accumulated over four blocks of 6400 features in a scratch buffer carried across grid points.

  The three frames are read off each program's run (every body runs to its end on whole staging buffers and stores
  through rectangles that cover its output blocks; no host operation or region writes an argument). Over the
  extended reals both results are the function `Cert.NetSpec.netOf` of the nine argument arrays: sums regroup
  freely, a zero weight contributes nothing, and the shifted-maximum trees are suprema over the same 25 cells.
-/
import proofs.«172427_g2000706451865267_pallasbulk_150_11_alg».proof.Defs
import proofs.«172427_g2000706451865267_pallasbulk_150_11_alg».proof.Proof.Gen.Kernel
import proofs.«172427_g2000706451865267_pallasbulk_150_11_alg».proof.Proof.Gen.KernelIdeal
import proofs.«172427_g2000706451865267_pallasbulk_150_11_alg».proof.Proof.Gen.ReferenceIdeal
import proofs.«172427_g2000706451865267_pallasbulk_150_11_alg».proof.Proof.Gen.Pre_finite_inputs
import proofs.«172427_g2000706451865267_pallasbulk_150_11_alg».proof.Proof.KernelFrame
import proofs.«172427_g2000706451865267_pallasbulk_150_11_alg».proof.Proof.KernelIdealFrame
import proofs.«172427_g2000706451865267_pallasbulk_150_11_alg».proof.Proof.ReferenceFrame
import proofs.«172427_g2000706451865267_pallasbulk_150_11_alg».proof.Proof.ReferenceResult
import proofs.«172427_g2000706451865267_pallasbulk_150_11_alg».proof.Proof.Algebraic
import Idealize.ShloMosaic.Adequacy
import Idealize.ShloMosaic.Init

noncomputable section

namespace Cert.Proof

open Idealize.ShloMosaic Idealize.SL.Sem

/-- The word-level kernel runs to its end and leaves its nine arguments as launched. -/
theorem frame_kernel [Cert.Kernel.Facts] [Cert.Pre_finite_inputs.Facts] : Cert.frame_Kernel :=
  fun m ρ _ => Cert.Kernel.Hand.frame (F := Bits) m ρ

/-- So does the kernel read over the extended reals. -/
theorem frame_kernelIdeal [Cert.KernelIdeal.Facts] [Cert.Pre_finite_inputs.Facts] : Cert.frame_KernelIdeal :=
  fun m ρ _ => Cert.KernelIdeal.Hand.frame (F := Ideal) m ρ

/-- So does the reference, through its three regions. -/
theorem frame_referenceIdeal [Cert.ReferenceIdeal.Facts] [Cert.Pre_finite_inputs.Facts] : Cert.frame_ReferenceIdeal :=
  fun m ρ _ => Cert.ReferenceIdeal.Hand.frame m ρ

/-- Read over the extended reals, from memories agreeing on the nine arguments, both programs end at the network of the
    arguments: the kernel's run read at its result array, the reference's read at its own. -/
theorem algebraic [Cert.KernelIdeal.Facts] [Cert.ReferenceIdeal.Facts] [Cert.Pre_finite_inputs.Facts] :
    Cert.algebraic_KernelIdeal_ReferenceIdeal :=
  Cert.Proof.algebraic_of fun m' g' => Cert.ReferenceIdeal.Hand.value_run' m' g'

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
